-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S_ : Shape := ⟨0, ![]⟩
abbrev S4x8192 : Shape := ⟨2, ![4, 8192]⟩
abbrev S4x512x3 : Shape := ⟨3, ![4, 512, 3]⟩
abbrev S4x512 : Shape := ⟨2, ![4, 512]⟩
abbrev S1x512x3 : Shape := ⟨3, ![1, 512, 3]⟩
abbrev S512x3 : Shape := ⟨2, ![512, 3]⟩
abbrev S512x1 : Shape := ⟨2, ![512, 1]⟩
abbrev S512 : Shape := ⟨1, ![512]⟩
abbrev S128x3 : Shape := ⟨2, ![128, 3]⟩
abbrev S128x1 : Shape := ⟨2, ![128, 1]⟩
abbrev S128 : Shape := ⟨1, ![128]⟩
abbrev S1x512 : Shape := ⟨2, ![1, 512]⟩
abbrev S128x512 : Shape := ⟨2, ![128, 512]⟩
abbrev S4 : Shape := ⟨1, ![4]⟩
abbrev S1 : Shape := ⟨1, ![1]⟩

abbrev nBuf : Space → Nat
  | .hbm => 26
  | .vmem => 14
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192x3, .f32⟩
  | .hbm, ⟨7, _⟩ => ⟨S4x8192x3, .f32⟩
  | .hbm, ⟨8, _⟩ => ⟨S4x8192, .f32⟩
  | .hbm, ⟨9, _⟩ => ⟨S4x8192, .f32⟩
  | .hbm, ⟨10, _⟩ => ⟨S_, .f32⟩
  | .hbm, ⟨11, _⟩ => ⟨S4, .f32⟩
  | .hbm, ⟨12, _⟩ => ⟨S_, .f32⟩
  | .hbm, ⟨13, _⟩ => ⟨S4, .f32⟩
  | .hbm, ⟨14, _⟩ => ⟨S4, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S4, .f32⟩
  | .hbm, ⟨19, _⟩ => ⟨S4, .f32⟩
  | .hbm, ⟨20, _⟩ => ⟨S4, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S1, .f32⟩
  | .local _ .vmem, ⟨0, _⟩ => ⟨S4x512x3, .f32⟩
  | .local _ .vmem, ⟨1, _⟩ => ⟨S4x512x3, .f32⟩
  | .local _ .vmem, ⟨2, _⟩ => ⟨S4x512x3, .f32⟩
  | .local _ .vmem, ⟨3, _⟩ => ⟨S4x512x3, .f32⟩
  | .local _ .vmem, ⟨4, _⟩ => ⟨S4x512, .f32⟩
  | .local _ .vmem, ⟨5, _⟩ => ⟨S4x512, .f32⟩
  | .local _ .vmem, ⟨6, _⟩ => ⟨S4x512, .f32⟩
  | .local _ .vmem, ⟨7, _⟩ => ⟨S4x512x3, .f32⟩
  | .local _ .vmem, ⟨8, _⟩ => ⟨S4x512x3, .f32⟩
  | .local _ .vmem, ⟨9, _⟩ => ⟨S4x512x3, .f32⟩
  | .local _ .vmem, ⟨10, _⟩ => ⟨S4x512x3, .f32⟩
  | .local _ .vmem, ⟨11, _⟩ => ⟨S4x512, .f32⟩
  | .local _ .vmem, ⟨12, _⟩ => ⟨S4x512, .f32⟩
  | .local _ .vmem, ⟨13, _⟩ => ⟨S4x512, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_cst_4 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![16, 16], ![false, false]⟩

@[reducible] def k0_t1_loop : Scf.Loop 32 :=
  let c0_i32_5 : BitVec 32 := 0#32
  let c4_i32 : BitVec 32 := 4#32
  let v16 : BitVec 32 := Scalar.addi c0_i32_5 c4_i32
  let c1_i32 : BitVec 32 := 1#32
  ⟨c0_i32_5, v16, c1_i32⟩
def k0_mult1 (k0_t1 : Fin k0_t1_loop.trips) : BitVec 32 :=
  let c0_i32_5 : BitVec 32 := 0#32
  let c1_i32 : BitVec 32 := 1#32
  let arg6 : BitVec 32 := Scf.iv c0_i32_5 c1_i32 k0_t1
  let c128_i32 : BitVec 32 := 128#32
  let v62 : BitVec 32 := Scalar.muli arg6 c128_i32
  v62
def k0_off1 (k0_t1 : Fin k0_t1_loop.trips) : Fin 2 → Nat :=
  let c0_i32_5 : BitVec 32 := 0#32
  let c1_i32 : BitVec 32 := 1#32
  let arg6 : BitVec 32 := Scf.iv c0_i32_5 c1_i32 k0_t1
  let c128_i32 : BitVec 32 := 128#32
  let v62 : BitVec 32 := Scalar.muli arg6 c128_i32
  let v63 : BitVec 32 := v62
  let v66 : Index := Scalar.indexCast v63
  let c0_32 : Index := 0#32
  ![v66.toNat, 0]
def k0_off2 (k0_t1 : Fin k0_t1_loop.trips) : Fin 1 → Nat :=
  let c0_i32_5 : BitVec 32 := 0#32
  let c1_i32 : BitVec 32 := 1#32
  let arg6 : BitVec 32 := Scf.iv c0_i32_5 c1_i32 k0_t1
  let c128_i32 : BitVec 32 := 128#32
  let v62 : BitVec 32 := Scalar.muli arg6 c128_i32
  let v63 : BitVec 32 := v62
  let v110 : Index := Scalar.indexCast v63
  ![v110.toNat]
@[reducible] def k0_t2_loop : Scf.Loop 32 :=
  let c0_i32_11 : BitVec 32 := 0#32
  let c4_i32_12 : BitVec 32 := 4#32
  let v30 : BitVec 32 := Scalar.addi c0_i32_11 c4_i32_12
  let c1_i32_13 : BitVec 32 := 1#32
  ⟨c0_i32_11, v30, c1_i32_13⟩
def k0_mult2 (k0_t2 : Fin k0_t2_loop.trips) : BitVec 32 :=
  let c0_i32_11 : BitVec 32 := 0#32
  let c1_i32_13 : BitVec 32 := 1#32
  let arg6 : BitVec 32 := Scf.iv c0_i32_11 c1_i32_13 k0_t2
  let c128_i32 : BitVec 32 := 128#32
  let v62 : BitVec 32 := Scalar.muli arg6 c128_i32
  v62
def k0_off3 (k0_t2 : Fin k0_t2_loop.trips) : Fin 2 → Nat :=
  let c0_i32_11 : BitVec 32 := 0#32
  let c1_i32_13 : BitVec 32 := 1#32
  let arg6 : BitVec 32 := Scf.iv c0_i32_11 c1_i32_13 k0_t2
  let c128_i32 : BitVec 32 := 128#32
  let v62 : BitVec 32 := Scalar.muli arg6 c128_i32
  let v63 : BitVec 32 := v62
  let v66 : Index := Scalar.indexCast v63
  let c0_32 : Index := 0#32
  ![v66.toNat, 0]
def k0_off4 (k0_t2 : Fin k0_t2_loop.trips) : Fin 1 → Nat :=
  let c0_i32_11 : BitVec 32 := 0#32
  let c1_i32_13 : BitVec 32 := 1#32
  let arg6 : BitVec 32 := Scf.iv c0_i32_11 c1_i32_13 k0_t2
  let c128_i32 : BitVec 32 := 128#32
  let v62 : BitVec 32 := Scalar.muli arg6 c128_i32
  let v63 : BitVec 32 := v62
  let v110 : Index := Scalar.indexCast v63
  ![v110.toNat]
@[reducible] def k0_t3_loop : Scf.Loop 32 :=
  let c0_i32_18 : BitVec 32 := 0#32
  let c4_i32_19 : BitVec 32 := 4#32
  let v44 : BitVec 32 := Scalar.addi c0_i32_18 c4_i32_19
  let c1_i32_20 : BitVec 32 := 1#32
  ⟨c0_i32_18, v44, c1_i32_20⟩
def k0_mult3 (k0_t3 : Fin k0_t3_loop.trips) : BitVec 32 :=
  let c0_i32_18 : BitVec 32 := 0#32
  let c1_i32_20 : BitVec 32 := 1#32
  let arg6 : BitVec 32 := Scf.iv c0_i32_18 c1_i32_20 k0_t3
  let c128_i32 : BitVec 32 := 128#32
  let v62 : BitVec 32 := Scalar.muli arg6 c128_i32
  v62
def k0_off5 (k0_t3 : Fin k0_t3_loop.trips) : Fin 2 → Nat :=
  let c0_i32_18 : BitVec 32 := 0#32
  let c1_i32_20 : BitVec 32 := 1#32
  let arg6 : BitVec 32 := Scf.iv c0_i32_18 c1_i32_20 k0_t3
  let c128_i32 : BitVec 32 := 128#32
  let v62 : BitVec 32 := Scalar.muli arg6 c128_i32
  let v63 : BitVec 32 := v62
  let v66 : Index := Scalar.indexCast v63
  let c0_32 : Index := 0#32
  ![v66.toNat, 0]
def k0_off6 (k0_t3 : Fin k0_t3_loop.trips) : Fin 1 → Nat :=
  let c0_i32_18 : BitVec 32 := 0#32
  let c1_i32_20 : BitVec 32 := 1#32
  let arg6 : BitVec 32 := Scf.iv c0_i32_18 c1_i32_20 k0_t3
  let c128_i32 : BitVec 32 := 128#32
  let v62 : BitVec 32 := Scalar.muli arg6 c128_i32
  let v63 : BitVec 32 := v62
  let v110 : Index := Scalar.indexCast v63
  ![v110.toNat]
@[reducible] def k0_t4_loop : Scf.Loop 32 :=
  let c0_i32_25 : BitVec 32 := 0#32
  let c4_i32_26 : BitVec 32 := 4#32
  let v58 : BitVec 32 := Scalar.addi c0_i32_25 c4_i32_26
  let c1_i32_27 : BitVec 32 := 1#32
  ⟨c0_i32_25, v58, c1_i32_27⟩
def k0_mult4 (k0_t4 : Fin k0_t4_loop.trips) : BitVec 32 :=
  let c0_i32_25 : BitVec 32 := 0#32
  let c1_i32_27 : BitVec 32 := 1#32
  let arg6 : BitVec 32 := Scf.iv c0_i32_25 c1_i32_27 k0_t4
  let c128_i32 : BitVec 32 := 128#32
  let v62 : BitVec 32 := Scalar.muli arg6 c128_i32
  v62
def k0_off7 (k0_t4 : Fin k0_t4_loop.trips) : Fin 2 → Nat :=
  let c0_i32_25 : BitVec 32 := 0#32
  let c1_i32_27 : BitVec 32 := 1#32
  let arg6 : BitVec 32 := Scf.iv c0_i32_25 c1_i32_27 k0_t4
  let c128_i32 : BitVec 32 := 128#32
  let v62 : BitVec 32 := Scalar.muli arg6 c128_i32
  let v63 : BitVec 32 := v62
  let v66 : Index := Scalar.indexCast v63
  let c0_32 : Index := 0#32
  ![v66.toNat, 0]
def k0_off8 (k0_t4 : Fin k0_t4_loop.trips) : Fin 1 → Nat :=
  let c0_i32_25 : BitVec 32 := 0#32
  let c1_i32_27 : BitVec 32 := 1#32
  let arg6 : BitVec 32 := Scf.iv c0_i32_25 c1_i32_27 k0_t4
  let c128_i32 : BitVec 32 := 128#32
  let v62 : BitVec 32 := Scalar.muli arg6 c128_i32
  let v63 : BitVec 32 := v62
  let v110 : Index := Scalar.indexCast v63
  ![v110.toNat]
def k0_cond2 (i : grid0.Coords) : BitVec 1 :=
  let arg1 : BitVec 32 := BitVec.ofNat 32 (i 1).val
  let c15_i32 : BitVec 32 := 15#32
  let v59 : BitVec 1 := Scalar.cmpi .eq arg1 c15_i32
  let v60 : BitVec 32 := Scalar.extui v59
  let c0_i32_29 : BitVec 32 := 0#32
  let v61 : BitVec 1 := Scalar.cmpi .ne v60 c0_i32_29
  v61

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x512x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![16, 16], ![false, false]⟩

@[reducible] def k1_t1_loop : Scf.Loop 32 :=
  let c0_i32_5 : BitVec 32 := 0#32
  let c4_i32 : BitVec 32 := 4#32
  let v16 : BitVec 32 := Scalar.addi c0_i32_5 c4_i32
  let c1_i32 : BitVec 32 := 1#32
  ⟨c0_i32_5, v16, c1_i32⟩
def k1_mult1 (k1_t1 : Fin k1_t1_loop.trips) : BitVec 32 :=
  let c0_i32_5 : BitVec 32 := 0#32
  let c1_i32 : BitVec 32 := 1#32
  let arg6 : BitVec 32 := Scf.iv c0_i32_5 c1_i32 k1_t1
  let c128_i32 : BitVec 32 := 128#32
  let v62 : BitVec 32 := Scalar.muli arg6 c128_i32
  v62
def k1_off1 (k1_t1 : Fin k1_t1_loop.trips) : Fin 2 → Nat :=
  let c0_i32_5 : BitVec 32 := 0#32
  let c1_i32 : BitVec 32 := 1#32
  let arg6 : BitVec 32 := Scf.iv c0_i32_5 c1_i32 k1_t1
  let c128_i32 : BitVec 32 := 128#32
  let v62 : BitVec 32 := Scalar.muli arg6 c128_i32
  let v63 : BitVec 32 := v62
  let v66 : Index := Scalar.indexCast v63
  let c0_32 : Index := 0#32
  ![v66.toNat, 0]
def k1_off2 (k1_t1 : Fin k1_t1_loop.trips) : Fin 1 → Nat :=
  let c0_i32_5 : BitVec 32 := 0#32
  let c1_i32 : BitVec 32 := 1#32
  let arg6 : BitVec 32 := Scf.iv c0_i32_5 c1_i32 k1_t1
  let c128_i32 : BitVec 32 := 128#32
  let v62 : BitVec 32 := Scalar.muli arg6 c128_i32
  let v63 : BitVec 32 := v62
  let v110 : Index := Scalar.indexCast v63
  ![v110.toNat]
@[reducible] def k1_t2_loop : Scf.Loop 32 :=
  let c0_i32_11 : BitVec 32 := 0#32
  let c4_i32_12 : BitVec 32 := 4#32
  let v30 : BitVec 32 := Scalar.addi c0_i32_11 c4_i32_12
  let c1_i32_13 : BitVec 32 := 1#32
  ⟨c0_i32_11, v30, c1_i32_13⟩
def k1_mult2 (k1_t2 : Fin k1_t2_loop.trips) : BitVec 32 :=
  let c0_i32_11 : BitVec 32 := 0#32
  let c1_i32_13 : BitVec 32 := 1#32
  let arg6 : BitVec 32 := Scf.iv c0_i32_11 c1_i32_13 k1_t2
  let c128_i32 : BitVec 32 := 128#32
  let v62 : BitVec 32 := Scalar.muli arg6 c128_i32
  v62
def k1_off3 (k1_t2 : Fin k1_t2_loop.trips) : Fin 2 → Nat :=
  let c0_i32_11 : BitVec 32 := 0#32
  let c1_i32_13 : BitVec 32 := 1#32
  let arg6 : BitVec 32 := Scf.iv c0_i32_11 c1_i32_13 k1_t2
  let c128_i32 : BitVec 32 := 128#32
  let v62 : BitVec 32 := Scalar.muli arg6 c128_i32
  let v63 : BitVec 32 := v62
  let v66 : Index := Scalar.indexCast v63
  let c0_32 : Index := 0#32
  ![v66.toNat, 0]
def k1_off4 (k1_t2 : Fin k1_t2_loop.trips) : Fin 1 → Nat :=
  let c0_i32_11 : BitVec 32 := 0#32
  let c1_i32_13 : BitVec 32 := 1#32
  let arg6 : BitVec 32 := Scf.iv c0_i32_11 c1_i32_13 k1_t2
  let c128_i32 : BitVec 32 := 128#32
  let v62 : BitVec 32 := Scalar.muli arg6 c128_i32
  let v63 : BitVec 32 := v62
  let v110 : Index := Scalar.indexCast v63
  ![v110.toNat]
@[reducible] def k1_t3_loop : Scf.Loop 32 :=
  let c0_i32_18 : BitVec 32 := 0#32
  let c4_i32_19 : BitVec 32 := 4#32
  let v44 : BitVec 32 := Scalar.addi c0_i32_18 c4_i32_19
  let c1_i32_20 : BitVec 32 := 1#32
  ⟨c0_i32_18, v44, c1_i32_20⟩
def k1_mult3 (k1_t3 : Fin k1_t3_loop.trips) : BitVec 32 :=
  let c0_i32_18 : BitVec 32 := 0#32
  let c1_i32_20 : BitVec 32 := 1#32
  let arg6 : BitVec 32 := Scf.iv c0_i32_18 c1_i32_20 k1_t3
  let c128_i32 : BitVec 32 := 128#32
  let v62 : BitVec 32 := Scalar.muli arg6 c128_i32
  v62
def k1_off5 (k1_t3 : Fin k1_t3_loop.trips) : Fin 2 → Nat :=
  let c0_i32_18 : BitVec 32 := 0#32
  let c1_i32_20 : BitVec 32 := 1#32
  let arg6 : BitVec 32 := Scf.iv c0_i32_18 c1_i32_20 k1_t3
  let c128_i32 : BitVec 32 := 128#32
  let v62 : BitVec 32 := Scalar.muli arg6 c128_i32
  let v63 : BitVec 32 := v62
  let v66 : Index := Scalar.indexCast v63
  let c0_32 : Index := 0#32
  ![v66.toNat, 0]
def k1_off6 (k1_t3 : Fin k1_t3_loop.trips) : Fin 1 → Nat :=
  let c0_i32_18 : BitVec 32 := 0#32
  let c1_i32_20 : BitVec 32 := 1#32
  let arg6 : BitVec 32 := Scf.iv c0_i32_18 c1_i32_20 k1_t3
  let c128_i32 : BitVec 32 := 128#32
  let v62 : BitVec 32 := Scalar.muli arg6 c128_i32
  let v63 : BitVec 32 := v62
  let v110 : Index := Scalar.indexCast v63
  ![v110.toNat]
@[reducible] def k1_t4_loop : Scf.Loop 32 :=
  let c0_i32_25 : BitVec 32 := 0#32
  let c4_i32_26 : BitVec 32 := 4#32
  let v58 : BitVec 32 := Scalar.addi c0_i32_25 c4_i32_26
  let c1_i32_27 : BitVec 32 := 1#32
  ⟨c0_i32_25, v58, c1_i32_27⟩
def k1_mult4 (k1_t4 : Fin k1_t4_loop.trips) : BitVec 32 :=
  let c0_i32_25 : BitVec 32 := 0#32
  let c1_i32_27 : BitVec 32 := 1#32
  let arg6 : BitVec 32 := Scf.iv c0_i32_25 c1_i32_27 k1_t4
  let c128_i32 : BitVec 32 := 128#32
  let v62 : BitVec 32 := Scalar.muli arg6 c128_i32
  v62
def k1_off7 (k1_t4 : Fin k1_t4_loop.trips) : Fin 2 → Nat :=
  let c0_i32_25 : BitVec 32 := 0#32
  let c1_i32_27 : BitVec 32 := 1#32
  let arg6 : BitVec 32 := Scf.iv c0_i32_25 c1_i32_27 k1_t4
  let c128_i32 : BitVec 32 := 128#32
  let v62 : BitVec 32 := Scalar.muli arg6 c128_i32
  let v63 : BitVec 32 := v62
  let v66 : Index := Scalar.indexCast v63
  let c0_32 : Index := 0#32
  ![v66.toNat, 0]
def k1_off8 (k1_t4 : Fin k1_t4_loop.trips) : Fin 1 → Nat :=
  let c0_i32_25 : BitVec 32 := 0#32
  let c1_i32_27 : BitVec 32 := 1#32
  let arg6 : BitVec 32 := Scf.iv c0_i32_25 c1_i32_27 k1_t4
  let c128_i32 : BitVec 32 := 128#32
  let v62 : BitVec 32 := Scalar.muli arg6 c128_i32
  let v63 : BitVec 32 := v62
  let v110 : Index := Scalar.indexCast v63
  ![v110.toNat]
def k1_cond2 (i : grid1.Coords) : BitVec 1 :=
  let arg1 : BitVec 32 := BitVec.ofNat 32 (i 1).val
  let c15_i32 : BitVec 32 := 15#32
  let v59 : BitVec 1 := Scalar.cmpi .eq arg1 c15_i32
  let v60 : BitVec 32 := Scalar.extui v59
  let c0_i32_29 : BitVec 32 := 0#32
  let v61 : BitVec 1 := Scalar.cmpi .ne v60 c0_i32_29
  v61

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S4x512x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4x512x3 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

class Facts₀ : Prop where
  bcast_S_S4x8192x3 : S_.BroadcastsInDim S4x8192x3 (![] : Fin 0 → Fin S4x8192x3.rank)
  inb_S4x512_S4x512_0_0 : ∀ a, (![0, 0] : Fin 2 → Nat) a + S4x512.size a ≤ S4x512.size a
  h_S4x512 : 0 < S4x512.numel
  shapeCasts_S4x512_S4x512 : S4x512.ShapeCasts S4x512
  inb_S4x512x3_S1x512x3_0_0_0 : ∀ a, (![0, 0, 0] : Fin 3 → Nat) a + S1x512x3.size a ≤ S4x512x3.size a
  h_S1x512x3 : 0 < S1x512x3.numel
  shapeCasts_S1x512x3_S512x3 : S1x512x3.ShapeCasts S512x3
  slices_S512x3_o0_0_S512x1 : S512x3.Slices ![0, 0] S512x1
  shapeCasts_S512x1_S512 : S512x1.ShapeCasts S512
  slices_S512x3_o0_1_S512x1 : S512x3.Slices ![0, 1] S512x1
  slices_S512x3_o0_2_S512x1 : S512x3.Slices ![0, 2] S512x1
  squeezes_S1x512x3_S512x3 : S1x512x3.Squeezes S512x3
  h_S128x3 : 0 < S128x3.numel
  shapeCasts_S128x3_S128x3 : S128x3.ShapeCasts S128x3
  slices_S128x3_o0_0_S128x1 : S128x3.Slices ![0, 0] S128x1
  shapeCasts_S128x1_S128 : S128x1.ShapeCasts S128
  slices_S128x3_o0_1_S128x1 : S128x3.Slices ![0, 1] S128x1
  slices_S128x3_o0_2_S128x1 : S128x3.Slices ![0, 2] S128x1
  shapeCasts_S128_S128x1 : S128.ShapeCasts S128x1
  shapeCasts_S512_S1x512 : S512.ShapeCasts S1x512
  broadcasts_S128x1_S128x512 : S128x1.Broadcasts S128x512
  broadcasts_S1x512_S128x512 : S1x512.Broadcasts S128x512
  reduces_S128x512_S128 : S128x512.Reduces [1] S128
  inb_S4x512_S1x512_0_0 : ∀ a, (![0, 0] : Fin 2 → Nat) a + S1x512.size a ≤ S4x512.size a
  squeezes_S1x512_S512 : S1x512.Squeezes S512
  h_S128 : 0 < S128.numel
  shapeCasts_S128_S128 : S128.ShapeCasts S128
  inb_S4x512x3_S1x512x3_1_0_0 : ∀ a, (![1, 0, 0] : Fin 3 → Nat) a + S1x512x3.size a ≤ S4x512x3.size a
  inb_S4x512_S1x512_1_0 : ∀ a, (![1, 0] : Fin 2 → Nat) a + S1x512.size a ≤ S4x512.size a
  inb_S4x512x3_S1x512x3_2_0_0 : ∀ a, (![2, 0, 0] : Fin 3 → Nat) a + S1x512x3.size a ≤ S4x512x3.size a
  inb_S4x512_S1x512_2_0 : ∀ a, (![2, 0] : Fin 2 → Nat) a + S1x512.size a ≤ S4x512.size a
  inb_S4x512x3_S1x512x3_3_0_0 : ∀ a, (![3, 0, 0] : Fin 3 → Nat) a + S1x512x3.size a ≤ S4x512x3.size a
  inb_S4x512_S1x512_3_0 : ∀ a, (![3, 0] : Fin 2 → Nat) a + S1x512.size a ≤ S4x512.size a
  reducesTo_S4x8192_S4_d1 : S4x8192.ReducesTo [1] S4
  h_S_ : 0 < S_.numel
  bcast_S_S4 : S_.BroadcastsInDim S4 (![] : Fin 0 → Fin S4.rank)
  reducesTo_S4_S_d0 : S4.ReducesTo [0] S_
  shapeCasts_S_S1 : S_.ShapeCasts S1
  hrank0 : 0 < grid0.rank
  k0_t1_ok : k0_t1_loop.OK
  k0_mult1_dvd : ∀ k0_t1 : Fin k0_t1_loop.trips, 128 ∣ (k0_mult1 k0_t1).toNat
  k0_off1_inb : ∀ k0_t1 : Fin k0_t1_loop.trips, ∀ a, (k0_off1 k0_t1) a + S128x3.size a ≤ S512x3.size a
  k0_off2_inb : ∀ k0_t1 : Fin k0_t1_loop.trips, ∀ a, (k0_off2 k0_t1) a + S128.size a ≤ S512.size a
  k0_t2_ok : k0_t2_loop.OK
  k0_mult2_dvd : ∀ k0_t2 : Fin k0_t2_loop.trips, 128 ∣ (k0_mult2 k0_t2).toNat
  k0_off3_inb : ∀ k0_t2 : Fin k0_t2_loop.trips, ∀ a, (k0_off3 k0_t2) a + S128x3.size a ≤ S512x3.size a
  k0_off4_inb : ∀ k0_t2 : Fin k0_t2_loop.trips, ∀ a, (k0_off4 k0_t2) a + S128.size a ≤ S512.size a
  k0_t3_ok : k0_t3_loop.OK
  k0_mult3_dvd : ∀ k0_t3 : Fin k0_t3_loop.trips, 128 ∣ (k0_mult3 k0_t3).toNat
  k0_off5_inb : ∀ k0_t3 : Fin k0_t3_loop.trips, ∀ a, (k0_off5 k0_t3) a + S128x3.size a ≤ S512x3.size a
  k0_off6_inb : ∀ k0_t3 : Fin k0_t3_loop.trips, ∀ a, (k0_off6 k0_t3) a + S128.size a ≤ S512.size a
  k0_t4_ok : k0_t4_loop.OK
  k0_mult4_dvd : ∀ k0_t4 : Fin k0_t4_loop.trips, 128 ∣ (k0_mult4 k0_t4).toNat
  k0_off7_inb : ∀ k0_t4 : Fin k0_t4_loop.trips, ∀ a, (k0_off7 k0_t4) a + S128x3.size a ≤ S512x3.size a
  k0_off8_inb : ∀ k0_t4 : Fin k0_t4_loop.trips, ∀ a, (k0_off8 k0_t4) a + S128.size a ≤ S512.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x3.size a ≤ S4x8192x3.size a
  hwx0_0 : ∀ i : grid0.Coords, EltTy.bits .f32 = 32 ∨ (Rect.block (s := S4x8192x3) S4x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x512x3.size a ≤ S4x8192x3.size a
  hwx0_1 : ∀ i : grid0.Coords, EltTy.bits .f32 = 32 ∨ (Rect.block (s := S4x8192x3) S4x512x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x512.size a ≤ S4x8192.size a
  hwx0_2 : ∀ i : grid0.Coords, EltTy.bits .f32 = 32 ∨ (Rect.block (s := S4x8192) S4x512.size (cc0_transform_2 i) (hinb0_2 i)).WholeWords (EltTy.packing .f32)
  hrank1 : 0 < grid1.rank
  k1_t1_ok : k1_t1_loop.OK
  k1_mult1_dvd : ∀ k1_t1 : Fin k1_t1_loop.trips, 128 ∣ (k1_mult1 k1_t1).toNat
  k1_off1_inb : ∀ k1_t1 : Fin k1_t1_loop.trips, ∀ a, (k1_off1 k1_t1) a + S128x3.size a ≤ S512x3.size a
  k1_off2_inb : ∀ k1_t1 : Fin k1_t1_loop.trips, ∀ a, (k1_off2 k1_t1) a + S128.size a ≤ S512.size a
  k1_t2_ok : k1_t2_loop.OK
  k1_mult2_dvd : ∀ k1_t2 : Fin k1_t2_loop.trips, 128 ∣ (k1_mult2 k1_t2).toNat
  k1_off3_inb : ∀ k1_t2 : Fin k1_t2_loop.trips, ∀ a, (k1_off3 k1_t2) a + S128x3.size a ≤ S512x3.size a
  k1_off4_inb : ∀ k1_t2 : Fin k1_t2_loop.trips, ∀ a, (k1_off4 k1_t2) a + S128.size a ≤ S512.size a
  k1_t3_ok : k1_t3_loop.OK
  k1_mult3_dvd : ∀ k1_t3 : Fin k1_t3_loop.trips, 128 ∣ (k1_mult3 k1_t3).toNat
  k1_off5_inb : ∀ k1_t3 : Fin k1_t3_loop.trips, ∀ a, (k1_off5 k1_t3) a + S128x3.size a ≤ S512x3.size a
  k1_off6_inb : ∀ k1_t3 : Fin k1_t3_loop.trips, ∀ a, (k1_off6 k1_t3) a + S128.size a ≤ S512.size a
  k1_t4_ok : k1_t4_loop.OK
  k1_mult4_dvd : ∀ k1_t4 : Fin k1_t4_loop.trips, 128 ∣ (k1_mult4 k1_t4).toNat
  k1_off7_inb : ∀ k1_t4 : Fin k1_t4_loop.trips, ∀ a, (k1_off7 k1_t4) a + S128x3.size a ≤ S512x3.size a
  k1_off8_inb : ∀ k1_t4 : Fin k1_t4_loop.trips, ∀ a, (k1_off8 k1_t4) a + S128.size a ≤ S512.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x512x3.size a ≤ S4x8192x3.size a
  hwx1_0 : ∀ i : grid1.Coords, EltTy.bits .f32 = 32 ∨ (Rect.block (s := S4x8192x3) S4x512x3.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x512x3.size a ≤ S4x8192x3.size a
  hwx1_1 : ∀ i : grid1.Coords, EltTy.bits .f32 = 32 ∨ (Rect.block (s := S4x8192x3) S4x512x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x512.size a ≤ S4x8192.size a
  hwx1_2 : ∀ i : grid1.Coords, EltTy.bits .f32 = 32 ∨ (Rect.block (s := S4x8192) S4x512.size (cc1_transform_2 i) (hinb1_2 i)).WholeWords (EltTy.packing .f32)

variable [Facts₀]

abbrev win0_0 : Pipeline.Window sig grid0 :=
  Pipeline.Window.ofSpec (Memref.whole main_v1) S4x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S4x512x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S4x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v3) S4x512x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S4x512x3.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v5) S4x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun _ => false | 2 => fun i => !(k1_cond2 i == 1#1) | ⟨_ + 3, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩
abbrev S1 : Shape := ⟨1, ![1]⟩

abbrev nBuf : Space → Nat
  | .hbm => 47
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S_, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192x3, .f32⟩
  | .hbm, ⟨7, _⟩ => ⟨S4x8192x3, .f32⟩
  | .hbm, ⟨8, _⟩ => ⟨S4x8192x3, .f32⟩
  | .hbm, ⟨9, _⟩ => ⟨S_, .f32⟩
  | .hbm, ⟨10, _⟩ => ⟨S4x8192, .f32⟩
  | .hbm, ⟨11, _⟩ => ⟨S4x8192x3, .f32⟩
  | .hbm, ⟨12, _⟩ => ⟨S_, .f32⟩
  | .hbm, ⟨13, _⟩ => ⟨S4x8192, .f32⟩
  | .hbm, ⟨14, _⟩ => ⟨S4x8192x8192, .f32⟩
  | .hbm, ⟨15, _⟩ => ⟨S4x8192x1, .f32⟩
  | .hbm, ⟨16, _⟩ => ⟨S4x1x8192, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192x8192, .f32⟩
  | .hbm, ⟨26, _⟩ => ⟨S4x8192x8192, .f32⟩
  | .hbm, ⟨27, _⟩ => ⟨S_, .f32⟩
  | .hbm, ⟨28, _⟩ => ⟨S4x8192, .f32⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S_, .f32⟩
  | .hbm, ⟨37, _⟩ => ⟨S4, .f32⟩
  | .hbm, ⟨38, _⟩ => ⟨S_, .f32⟩
  | .hbm, ⟨39, _⟩ => ⟨S4, .f32⟩
  | .hbm, ⟨40, _⟩ => ⟨S4, .f32⟩
  | .hbm, ⟨41, _⟩ => ⟨S4, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S1, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_v23 : Ref sig .tc := ⟨.hbm, 35, rfl⟩
abbrev main_cst_9 : Ref sig .tc := ⟨.hbm, 36, rfl⟩
abbrev main_v24 : Ref sig .tc := ⟨.hbm, 37, rfl⟩
abbrev main_cst_10 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_11 : Ref sig .tc := ⟨.hbm, 42, rfl⟩
abbrev main_v28 : Ref sig .tc := ⟨.hbm, 43, rfl⟩
abbrev main_cst_12 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]

class Facts₀ : Prop where
  bcast_S_S4x8192x3 : S_.BroadcastsInDim S4x8192x3 (![] : Fin 0 → Fin S4x8192x3.rank)
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S4_d1 : S4x8192.ReducesTo [1] S4
  bcast_S_S4 : S_.BroadcastsInDim S4 (![] : Fin 0 → Fin S4.rank)
  reducesTo_S4_S_d0 : S4.ReducesTo [0] S_
  shapeCasts_S_S1 : S_.ShapeCasts S1
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.LibWritesOutside.lean ====
import Idealize.ShloMosaic.Lib.Writes

namespace Cert.Lib

open Idealize.ShloMosaic

/-- A run of unmasked writes through a view leaves every element of the buffer outside the view's own
    element set as it was: each write goes through a slice of the view, and a slice's elements are the view's. -/
theorem writes_outside {sig : RefSig} {κ : Kind} {sp : Space} {s : Shape} {e : EltTy} {Val : EltTy → Type}
    (v : View sig κ sp s e) (f : v.ty.Contents Val) (L : List (View.Piece Val s e)) {i : v.ty.Idx} (h : i ∉ v.set) :
    v.writes Val f L i = f i := by
  induction L with
  | nil => rfl
  | cons p L ih =>
    rw [View.writes_cons, View.write_of_not_mem _ _ _ (by rw [View.setOn_univ]; exact fun hm => h (v.set_slice_subset p.1 hm)), ih]

end Cert.Lib
-- ==== Proof.Kernel.LoopK0T1.lean ====
import proofs.«160032_j64836826300486_2_alg».proof.Proof.Gen.Kernel.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 1 of kernel 0: batch 0, scratch row 0 -/

/-- Row 0 of the scratch as a memref of its own: what the trips of this batch load and store through. -/
abbrev k0_row0 (arg5 : Memref sig .tc .vmem S4x512 .f32) : Memref sig .tc .vmem S512 .f32 :=
  (arg5.slice (Rect.unit (s := S4x512) ![0, 0] S1x512.size inb_S4x512_S1x512_0_0) (fun _ => rfl)).squeeze S512 squeezes_S1x512_S512

theorem k0_row0_sub (arg5 : Memref sig .tc .vmem S4x512 .f32) : (k0_row0 arg5).view.set ⊆ arg5.view.set :=
  View.set_slice_subset _ _

/-- The scratch held whole is its row 0 beside the rest of it, at the same contents. -/
theorem k0_row0_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k0_row0 arg5).view.loc (c : Thread nD τ) ↦[(k0_row0 arg5).view.set]{fullShare} f)
        ∗ (arg5.view.loc (c : Thread nD τ) ↦[arg5.view.set \ (k0_row0 arg5).view.set]{fullShare} f)) :=
  (pointsTo_split_subset (k0_row0_sub arg5)).1

/-- The row written and the rest of the scratch untouched make the scratch written through the row. -/
theorem k0_row0_rejoin (c : Dev nD) (arg5 : Memref sig .tc .vmem S4x512 .f32) (f : BufTy.Contents (Elt F) arg5.view.ty) (L : List (View.Piece (Elt F) S512 .f32)) :
    iprop(((k0_row0 arg5).view.loc (c : Thread nD τ) ↦[(k0_row0 arg5).view.set]{fullShare} ((k0_row0 arg5).view.writes (Elt F) f L))
        ∗ (arg5.view.loc (c : Thread nD τ) ↦[arg5.view.set \ (k0_row0 arg5).view.set]{fullShare} f))
      ⊢ (arg5.view.loc (c : Thread nD τ) ↦[arg5.view.set]{fullShare} ((k0_row0 arg5).view.writes (Elt F) f L) : sProp 𝕄G) := by
  have e : (arg5.view.loc (c : Thread nD τ) ↦[arg5.view.set \ (k0_row0 arg5).view.set]{fullShare} f : sProp 𝕄G)
      = (arg5.view.loc (c : Thread nD τ) ↦[arg5.view.set \ (k0_row0 arg5).view.set]{fullShare} ((k0_row0 arg5).view.writes (Elt F) f L)) :=
    pointsTo_congr (fun i hi => (writes_outside (k0_row0 arg5).view f L (Finset.mem_sdiff.mp hi).2).symm)
  rw [e]
  exact (pointsTo_split_subset (k0_row0_sub arg5)).2

/-- One trip's resources: the query block read at its contents, the scratch row at any. -/
abbrev Trip_k0_t1 (c : Dev nD) (arg2 : Memref sig .tc .vmem S4x512x3 .f32) (arg5 : Memref sig .tc .vmem S4x512 .f32) (X_arg2 : BufTy.Contents (Elt F) arg2.view.ty) (f_row : BufTy.Contents (Elt F) (k0_row0 arg5).view.ty) : sProp 𝕄G :=
  iprop((arg2.view.loc (c : Thread nD τ) ↦[arg2.view.set]{fullShare} X_arg2) ∗ ((k0_row0 arg5).view.loc (c : Thread nD τ) ↦[(k0_row0 arg5).view.set]{fullShare} f_row))

/-- One trip at a symbolic trip number: it loads a chunk of 128 queries and the same chunk of the scratch row and stores
    the chunk back; the piece it writes is what the run finds, as a function of the contents the trip meets. -/
@[irreducible] def trip_k0_t1 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k0_t1_loop.trips) :
    { L_row : (BufTy.Contents (Elt F) (k0_row0 arg5).view.ty → List (View.Piece (Elt F) S512 .f32)) // ∀ (E : Set ℕ) (f_row : BufTy.Contents (Elt F) (k0_row0 arg5).view.ty),
      Trip_k0_t1 (F := F) c arg2 arg5 X_arg2 f_row
      ⊢ wp frame (wpE (defs₀ (F := F)) 𝒱 (c : Thread nD τ) bd) E (k0_t1_body (F := F) i arg2 harg2 arg3 harg3 arg4 harg4 arg5 harg5 v3 k PUnit.unit)
          (fun _ => Trip_k0_t1 (F := F) c arg2 arg5 X_arg2 ((k0_row0 arg5).view.writes (Elt F) f_row (L_row f_row))) } := by
  have hk : k.val < 4 := Nat.lt_of_lt_of_le k.isLt k0_t1_abs.2.1
  refine ⟨?_, fun E f_row => ?run⟩
  case run =>
    unfold k0_t1_body
    iintro ⟨HR_arg2, HW_row⟩
    sl_exec
    sl_step
    sl_close

abbrev tripL_k0_t1 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k0_t1_loop.trips) (f_row : BufTy.Contents (Elt F) (k0_row0 arg5).view.ty) : List (View.Piece (Elt F) S512 .f32) :=
  (trip_k0_t1 (F := F) 𝒱 c bd i arg2 harg2 arg3 harg3 arg4 harg4 arg5 harg5 v3 X_arg2 k).1 f_row

@[irreducible] def pb_k0_t1Step (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k0_row0 arg5).view.ty) (k : ℕ) (prev : List (View.Piece (Elt F) S512 .f32)) : List (View.Piece (Elt F) S512 .f32) :=
  if h : k < k0_t1_loop.trips then
    (tripL_k0_t1 (F := F) 𝒱 c bd i arg2 harg2 arg3 harg3 arg4 harg4 arg5 harg5 v3 X_arg2 ⟨k, h⟩ ((k0_row0 arg5).view.writes (Elt F) G_arg5 prev)) ++ prev
  else prev

/-- The pieces of the trips before `k` (last first), each taken at the contents the earlier trips left. -/
def pb_k0_t1 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k0_row0 arg5).view.ty) : ℕ → List (View.Piece (Elt F) S512 .f32)
  | 0 => []
  | k + 1 => pb_k0_t1Step 𝒱 c bd i arg2 harg2 arg3 harg3 arg4 harg4 arg5 harg5 v3 X_arg2 G_arg5 k (pb_k0_t1 𝒱 c bd i arg2 harg2 arg3 harg3 arg4 harg4 arg5 harg5 v3 X_arg2 G_arg5 k)

theorem pb_k0_t1_succ (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k0_row0 arg5).view.ty) (k : Fin k0_t1_loop.trips) :
    pb_k0_t1 (F := F) 𝒱 c bd i arg2 harg2 arg3 harg3 arg4 harg4 arg5 harg5 v3 X_arg2 G_arg5 (k.val + 1)
      = (tripL_k0_t1 (F := F) 𝒱 c bd i arg2 harg2 arg3 harg3 arg4 harg4 arg5 harg5 v3 X_arg2 k ((k0_row0 arg5).view.writes (Elt F) G_arg5 (pb_k0_t1 (F := F) 𝒱 c bd i arg2 harg2 arg3 harg3 arg4 harg4 arg5 harg5 v3 X_arg2 G_arg5 k.val))) ++ (pb_k0_t1 (F := F) 𝒱 c bd i arg2 harg2 arg3 harg3 arg4 harg4 arg5 harg5 v3 X_arg2 G_arg5 k.val) := by
  rw [pb_k0_t1.eq_2]; unfold pb_k0_t1Step; exact dif_pos k.isLt

/-- The invariant before trip `k`: the query block at its contents; the whole scratch holding the pieces of the trips
    before `k` written through row 0 over the contents at loop entry. -/
abbrev inv_k0_t1 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k0_row0 arg5).view.writes (Elt F) G_arg5 (pb_k0_t1 (F := F) 𝒱 c bd i arg2 harg2 arg3 harg3 arg4 harg4 arg5 harg5 v3 X_arg2 G_arg5 k)⌝))

set_option warn.classDefReducibility false in
/-- The loop by its invariant: a trip splits row 0 off the scratch, runs on it, and puts it back. -/
@[sl_loop] def loopInv_k0_t1 (𝒱 : Variants) (c : Dev nD) (bd : Option 𝒱.V) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) arg5.view.ty) :
    LoopInvTy_k0_t1 (F := F) Unit ℕ (UR sig nD τ) ℕ 𝒱 c bd E i arg2 harg2 arg3 harg3 arg4 harg4 arg5 harg5 v3 where
  inv := inv_k0_t1 (F := F) 𝒱 c bd i arg2 harg2 arg3 harg3 arg4 harg4 arg5 harg5 v3 X_arg2 G_arg5
  step k acc := by
    iintro ⟨HR_arg2, ⟨%f_arg5, HW_arg5, %h_arg5⟩⟩
    ihave Hs := (k0_row0_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k0_t1 (F := F) 𝒱 c bd i arg2 harg2 arg3 harg3 arg4 harg4 arg5 harg5 v3 X_arg2 k).2 E f_arg5)
      isplitl [HR_arg2]; · iexact HR_arg2
      iexact HW_row
    · iintro %_ ⟨HR_arg2, HW_row⟩
      isplitl [HR_arg2]; · iexact HR_arg2
      rw [pb_k0_t1_succ]
      iexists _; isplitl [HW_row HW_rest]
      · iapply (k0_row0_rejoin (F := F) c arg5 f_arg5 _)
        isplitl [HW_row]; · iexact HW_row
        iexact HW_rest
      ipureintro; rw [h_arg5, ← View.writes_append]

end Cert.Kernel.Hand

end
-- ==== Proof.Kernel.LoopK0T2.lean ====
import proofs.«160032_j64836826300486_2_alg».proof.Proof.Gen.Kernel.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 2 of kernel 0: batch 1, scratch row 1 -/

/-- Row 1 of the scratch as a memref of its own: what the trips of this batch load and store through. -/
abbrev k0_row1 (arg5 : Memref sig .tc .vmem S4x512 .f32) : Memref sig .tc .vmem S512 .f32 :=
  (arg5.slice (Rect.unit (s := S4x512) ![1, 0] S1x512.size inb_S4x512_S1x512_1_0) (fun _ => rfl)).squeeze S512 squeezes_S1x512_S512

theorem k0_row1_sub (arg5 : Memref sig .tc .vmem S4x512 .f32) : (k0_row1 arg5).view.set ⊆ arg5.view.set :=
  View.set_slice_subset _ _

/-- The scratch held whole is its row 1 beside the rest of it, at the same contents. -/
theorem k0_row1_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k0_row1 arg5).view.loc (c : Thread nD τ) ↦[(k0_row1 arg5).view.set]{fullShare} f)
        ∗ (arg5.view.loc (c : Thread nD τ) ↦[arg5.view.set \ (k0_row1 arg5).view.set]{fullShare} f)) :=
  (pointsTo_split_subset (k0_row1_sub arg5)).1

/-- The row written and the rest of the scratch untouched make the scratch written through the row. -/
theorem k0_row1_rejoin (c : Dev nD) (arg5 : Memref sig .tc .vmem S4x512 .f32) (f : BufTy.Contents (Elt F) arg5.view.ty) (L : List (View.Piece (Elt F) S512 .f32)) :
    iprop(((k0_row1 arg5).view.loc (c : Thread nD τ) ↦[(k0_row1 arg5).view.set]{fullShare} ((k0_row1 arg5).view.writes (Elt F) f L))
        ∗ (arg5.view.loc (c : Thread nD τ) ↦[arg5.view.set \ (k0_row1 arg5).view.set]{fullShare} f))
      ⊢ (arg5.view.loc (c : Thread nD τ) ↦[arg5.view.set]{fullShare} ((k0_row1 arg5).view.writes (Elt F) f L) : sProp 𝕄G) := by
  have e : (arg5.view.loc (c : Thread nD τ) ↦[arg5.view.set \ (k0_row1 arg5).view.set]{fullShare} f : sProp 𝕄G)
      = (arg5.view.loc (c : Thread nD τ) ↦[arg5.view.set \ (k0_row1 arg5).view.set]{fullShare} ((k0_row1 arg5).view.writes (Elt F) f L)) :=
    pointsTo_congr (fun i hi => (writes_outside (k0_row1 arg5).view f L (Finset.mem_sdiff.mp hi).2).symm)
  rw [e]
  exact (pointsTo_split_subset (k0_row1_sub arg5)).2

/-- One trip's resources: the query block read at its contents, the scratch row at any. -/
abbrev Trip_k0_t2 (c : Dev nD) (arg2 : Memref sig .tc .vmem S4x512x3 .f32) (arg5 : Memref sig .tc .vmem S4x512 .f32) (X_arg2 : BufTy.Contents (Elt F) arg2.view.ty) (f_row : BufTy.Contents (Elt F) (k0_row1 arg5).view.ty) : sProp 𝕄G :=
  iprop((arg2.view.loc (c : Thread nD τ) ↦[arg2.view.set]{fullShare} X_arg2) ∗ ((k0_row1 arg5).view.loc (c : Thread nD τ) ↦[(k0_row1 arg5).view.set]{fullShare} f_row))

/-- One trip at a symbolic trip number: it loads a chunk of 128 queries and the same chunk of the scratch row and stores
    the chunk back; the piece it writes is what the run finds, as a function of the contents the trip meets. -/
@[irreducible] def trip_k0_t2 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k0_t2_loop.trips) :
    { L_row : (BufTy.Contents (Elt F) (k0_row1 arg5).view.ty → List (View.Piece (Elt F) S512 .f32)) // ∀ (E : Set ℕ) (f_row : BufTy.Contents (Elt F) (k0_row1 arg5).view.ty),
      Trip_k0_t2 (F := F) c arg2 arg5 X_arg2 f_row
      ⊢ wp frame (wpE (defs₀ (F := F)) 𝒱 (c : Thread nD τ) bd) E (k0_t2_body (F := F) i arg2 harg2 arg3 harg3 arg4 harg4 arg5 harg5 v17 k PUnit.unit)
          (fun _ => Trip_k0_t2 (F := F) c arg2 arg5 X_arg2 ((k0_row1 arg5).view.writes (Elt F) f_row (L_row f_row))) } := by
  have hk : k.val < 4 := Nat.lt_of_lt_of_le k.isLt k0_t2_abs.2.1
  refine ⟨?_, fun E f_row => ?run⟩
  case run =>
    unfold k0_t2_body
    iintro ⟨HR_arg2, HW_row⟩
    sl_exec
    sl_step
    sl_close

abbrev tripL_k0_t2 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k0_t2_loop.trips) (f_row : BufTy.Contents (Elt F) (k0_row1 arg5).view.ty) : List (View.Piece (Elt F) S512 .f32) :=
  (trip_k0_t2 (F := F) 𝒱 c bd i arg2 harg2 arg3 harg3 arg4 harg4 arg5 harg5 v17 X_arg2 k).1 f_row

@[irreducible] def pb_k0_t2Step (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k0_row1 arg5).view.ty) (k : ℕ) (prev : List (View.Piece (Elt F) S512 .f32)) : List (View.Piece (Elt F) S512 .f32) :=
  if h : k < k0_t2_loop.trips then
    (tripL_k0_t2 (F := F) 𝒱 c bd i arg2 harg2 arg3 harg3 arg4 harg4 arg5 harg5 v17 X_arg2 ⟨k, h⟩ ((k0_row1 arg5).view.writes (Elt F) G_arg5 prev)) ++ prev
  else prev

/-- The pieces of the trips before `k` (last first), each taken at the contents the earlier trips left. -/
def pb_k0_t2 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k0_row1 arg5).view.ty) : ℕ → List (View.Piece (Elt F) S512 .f32)
  | 0 => []
  | k + 1 => pb_k0_t2Step 𝒱 c bd i arg2 harg2 arg3 harg3 arg4 harg4 arg5 harg5 v17 X_arg2 G_arg5 k (pb_k0_t2 𝒱 c bd i arg2 harg2 arg3 harg3 arg4 harg4 arg5 harg5 v17 X_arg2 G_arg5 k)

theorem pb_k0_t2_succ (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k0_row1 arg5).view.ty) (k : Fin k0_t2_loop.trips) :
    pb_k0_t2 (F := F) 𝒱 c bd i arg2 harg2 arg3 harg3 arg4 harg4 arg5 harg5 v17 X_arg2 G_arg5 (k.val + 1)
      = (tripL_k0_t2 (F := F) 𝒱 c bd i arg2 harg2 arg3 harg3 arg4 harg4 arg5 harg5 v17 X_arg2 k ((k0_row1 arg5).view.writes (Elt F) G_arg5 (pb_k0_t2 (F := F) 𝒱 c bd i arg2 harg2 arg3 harg3 arg4 harg4 arg5 harg5 v17 X_arg2 G_arg5 k.val))) ++ (pb_k0_t2 (F := F) 𝒱 c bd i arg2 harg2 arg3 harg3 arg4 harg4 arg5 harg5 v17 X_arg2 G_arg5 k.val) := by
  rw [pb_k0_t2.eq_2]; unfold pb_k0_t2Step; exact dif_pos k.isLt

/-- The invariant before trip `k`: the query block at its contents; the whole scratch holding the pieces of the trips
    before `k` written through row 1 over the contents at loop entry. -/
abbrev inv_k0_t2 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k0_row1 arg5).view.writes (Elt F) G_arg5 (pb_k0_t2 (F := F) 𝒱 c bd i arg2 harg2 arg3 harg3 arg4 harg4 arg5 harg5 v17 X_arg2 G_arg5 k)⌝))

set_option warn.classDefReducibility false in
/-- The loop by its invariant: a trip splits row 1 off the scratch, runs on it, and puts it back. -/
@[sl_loop] def loopInv_k0_t2 (𝒱 : Variants) (c : Dev nD) (bd : Option 𝒱.V) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) arg5.view.ty) :
    LoopInvTy_k0_t2 (F := F) Unit ℕ (UR sig nD τ) ℕ 𝒱 c bd E i arg2 harg2 arg3 harg3 arg4 harg4 arg5 harg5 v17 where
  inv := inv_k0_t2 (F := F) 𝒱 c bd i arg2 harg2 arg3 harg3 arg4 harg4 arg5 harg5 v17 X_arg2 G_arg5
  step k acc := by
    iintro ⟨HR_arg2, ⟨%f_arg5, HW_arg5, %h_arg5⟩⟩
    ihave Hs := (k0_row1_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k0_t2 (F := F) 𝒱 c bd i arg2 harg2 arg3 harg3 arg4 harg4 arg5 harg5 v17 X_arg2 k).2 E f_arg5)
      isplitl [HR_arg2]; · iexact HR_arg2
      iexact HW_row
    · iintro %_ ⟨HR_arg2, HW_row⟩
      isplitl [HR_arg2]; · iexact HR_arg2
      rw [pb_k0_t2_succ]
      iexists _; isplitl [HW_row HW_rest]
      · iapply (k0_row1_rejoin (F := F) c arg5 f_arg5 _)
        isplitl [HW_row]; · iexact HW_row
        iexact HW_rest
      ipureintro; rw [h_arg5, ← View.writes_append]

end Cert.Kernel.Hand

end
-- ==== Proof.Kernel.LoopK0T3.lean ====
import proofs.«160032_j64836826300486_2_alg».proof.Proof.Gen.Kernel.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 3 of kernel 0: batch 2, scratch row 2 -/

/-- Row 2 of the scratch as a memref of its own: what the trips of this batch load and store through. -/
abbrev k0_row2 (arg5 : Memref sig .tc .vmem S4x512 .f32) : Memref sig .tc .vmem S512 .f32 :=
  (arg5.slice (Rect.unit (s := S4x512) ![2, 0] S1x512.size inb_S4x512_S1x512_2_0) (fun _ => rfl)).squeeze S512 squeezes_S1x512_S512

theorem k0_row2_sub (arg5 : Memref sig .tc .vmem S4x512 .f32) : (k0_row2 arg5).view.set ⊆ arg5.view.set :=
  View.set_slice_subset _ _

/-- The scratch held whole is its row 2 beside the rest of it, at the same contents. -/
theorem k0_row2_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k0_row2 arg5).view.loc (c : Thread nD τ) ↦[(k0_row2 arg5).view.set]{fullShare} f)
        ∗ (arg5.view.loc (c : Thread nD τ) ↦[arg5.view.set \ (k0_row2 arg5).view.set]{fullShare} f)) :=
  (pointsTo_split_subset (k0_row2_sub arg5)).1

/-- The row written and the rest of the scratch untouched make the scratch written through the row. -/
theorem k0_row2_rejoin (c : Dev nD) (arg5 : Memref sig .tc .vmem S4x512 .f32) (f : BufTy.Contents (Elt F) arg5.view.ty) (L : List (View.Piece (Elt F) S512 .f32)) :
    iprop(((k0_row2 arg5).view.loc (c : Thread nD τ) ↦[(k0_row2 arg5).view.set]{fullShare} ((k0_row2 arg5).view.writes (Elt F) f L))
        ∗ (arg5.view.loc (c : Thread nD τ) ↦[arg5.view.set \ (k0_row2 arg5).view.set]{fullShare} f))
      ⊢ (arg5.view.loc (c : Thread nD τ) ↦[arg5.view.set]{fullShare} ((k0_row2 arg5).view.writes (Elt F) f L) : sProp 𝕄G) := by
  have e : (arg5.view.loc (c : Thread nD τ) ↦[arg5.view.set \ (k0_row2 arg5).view.set]{fullShare} f : sProp 𝕄G)
      = (arg5.view.loc (c : Thread nD τ) ↦[arg5.view.set \ (k0_row2 arg5).view.set]{fullShare} ((k0_row2 arg5).view.writes (Elt F) f L)) :=
    pointsTo_congr (fun i hi => (writes_outside (k0_row2 arg5).view f L (Finset.mem_sdiff.mp hi).2).symm)
  rw [e]
  exact (pointsTo_split_subset (k0_row2_sub arg5)).2

/-- One trip's resources: the query block read at its contents, the scratch row at any. -/
abbrev Trip_k0_t3 (c : Dev nD) (arg2 : Memref sig .tc .vmem S4x512x3 .f32) (arg5 : Memref sig .tc .vmem S4x512 .f32) (X_arg2 : BufTy.Contents (Elt F) arg2.view.ty) (f_row : BufTy.Contents (Elt F) (k0_row2 arg5).view.ty) : sProp 𝕄G :=
  iprop((arg2.view.loc (c : Thread nD τ) ↦[arg2.view.set]{fullShare} X_arg2) ∗ ((k0_row2 arg5).view.loc (c : Thread nD τ) ↦[(k0_row2 arg5).view.set]{fullShare} f_row))

/-- One trip at a symbolic trip number: it loads a chunk of 128 queries and the same chunk of the scratch row and stores
    the chunk back; the piece it writes is what the run finds, as a function of the contents the trip meets. -/
@[irreducible] def trip_k0_t3 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k0_t3_loop.trips) :
    { L_row : (BufTy.Contents (Elt F) (k0_row2 arg5).view.ty → List (View.Piece (Elt F) S512 .f32)) // ∀ (E : Set ℕ) (f_row : BufTy.Contents (Elt F) (k0_row2 arg5).view.ty),
      Trip_k0_t3 (F := F) c arg2 arg5 X_arg2 f_row
      ⊢ wp frame (wpE (defs₀ (F := F)) 𝒱 (c : Thread nD τ) bd) E (k0_t3_body (F := F) i arg2 harg2 arg3 harg3 arg4 harg4 arg5 harg5 v31 k PUnit.unit)
          (fun _ => Trip_k0_t3 (F := F) c arg2 arg5 X_arg2 ((k0_row2 arg5).view.writes (Elt F) f_row (L_row f_row))) } := by
  have hk : k.val < 4 := Nat.lt_of_lt_of_le k.isLt k0_t3_abs.2.1
  refine ⟨?_, fun E f_row => ?run⟩
  case run =>
    unfold k0_t3_body
    iintro ⟨HR_arg2, HW_row⟩
    sl_exec
    sl_step
    sl_close

abbrev tripL_k0_t3 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k0_t3_loop.trips) (f_row : BufTy.Contents (Elt F) (k0_row2 arg5).view.ty) : List (View.Piece (Elt F) S512 .f32) :=
  (trip_k0_t3 (F := F) 𝒱 c bd i arg2 harg2 arg3 harg3 arg4 harg4 arg5 harg5 v31 X_arg2 k).1 f_row

@[irreducible] def pb_k0_t3Step (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k0_row2 arg5).view.ty) (k : ℕ) (prev : List (View.Piece (Elt F) S512 .f32)) : List (View.Piece (Elt F) S512 .f32) :=
  if h : k < k0_t3_loop.trips then
    (tripL_k0_t3 (F := F) 𝒱 c bd i arg2 harg2 arg3 harg3 arg4 harg4 arg5 harg5 v31 X_arg2 ⟨k, h⟩ ((k0_row2 arg5).view.writes (Elt F) G_arg5 prev)) ++ prev
  else prev

/-- The pieces of the trips before `k` (last first), each taken at the contents the earlier trips left. -/
def pb_k0_t3 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k0_row2 arg5).view.ty) : ℕ → List (View.Piece (Elt F) S512 .f32)
  | 0 => []
  | k + 1 => pb_k0_t3Step 𝒱 c bd i arg2 harg2 arg3 harg3 arg4 harg4 arg5 harg5 v31 X_arg2 G_arg5 k (pb_k0_t3 𝒱 c bd i arg2 harg2 arg3 harg3 arg4 harg4 arg5 harg5 v31 X_arg2 G_arg5 k)

theorem pb_k0_t3_succ (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k0_row2 arg5).view.ty) (k : Fin k0_t3_loop.trips) :
    pb_k0_t3 (F := F) 𝒱 c bd i arg2 harg2 arg3 harg3 arg4 harg4 arg5 harg5 v31 X_arg2 G_arg5 (k.val + 1)
      = (tripL_k0_t3 (F := F) 𝒱 c bd i arg2 harg2 arg3 harg3 arg4 harg4 arg5 harg5 v31 X_arg2 k ((k0_row2 arg5).view.writes (Elt F) G_arg5 (pb_k0_t3 (F := F) 𝒱 c bd i arg2 harg2 arg3 harg3 arg4 harg4 arg5 harg5 v31 X_arg2 G_arg5 k.val))) ++ (pb_k0_t3 (F := F) 𝒱 c bd i arg2 harg2 arg3 harg3 arg4 harg4 arg5 harg5 v31 X_arg2 G_arg5 k.val) := by
  rw [pb_k0_t3.eq_2]; unfold pb_k0_t3Step; exact dif_pos k.isLt

/-- The invariant before trip `k`: the query block at its contents; the whole scratch holding the pieces of the trips
    before `k` written through row 2 over the contents at loop entry. -/
abbrev inv_k0_t3 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k0_row2 arg5).view.writes (Elt F) G_arg5 (pb_k0_t3 (F := F) 𝒱 c bd i arg2 harg2 arg3 harg3 arg4 harg4 arg5 harg5 v31 X_arg2 G_arg5 k)⌝))

set_option warn.classDefReducibility false in
/-- The loop by its invariant: a trip splits row 2 off the scratch, runs on it, and puts it back. -/
@[sl_loop] def loopInv_k0_t3 (𝒱 : Variants) (c : Dev nD) (bd : Option 𝒱.V) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) arg5.view.ty) :
    LoopInvTy_k0_t3 (F := F) Unit ℕ (UR sig nD τ) ℕ 𝒱 c bd E i arg2 harg2 arg3 harg3 arg4 harg4 arg5 harg5 v31 where
  inv := inv_k0_t3 (F := F) 𝒱 c bd i arg2 harg2 arg3 harg3 arg4 harg4 arg5 harg5 v31 X_arg2 G_arg5
  step k acc := by
    iintro ⟨HR_arg2, ⟨%f_arg5, HW_arg5, %h_arg5⟩⟩
    ihave Hs := (k0_row2_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k0_t3 (F := F) 𝒱 c bd i arg2 harg2 arg3 harg3 arg4 harg4 arg5 harg5 v31 X_arg2 k).2 E f_arg5)
      isplitl [HR_arg2]; · iexact HR_arg2
      iexact HW_row
    · iintro %_ ⟨HR_arg2, HW_row⟩
      isplitl [HR_arg2]; · iexact HR_arg2
      rw [pb_k0_t3_succ]
      iexists _; isplitl [HW_row HW_rest]
      · iapply (k0_row2_rejoin (F := F) c arg5 f_arg5 _)
        isplitl [HW_row]; · iexact HW_row
        iexact HW_rest
      ipureintro; rw [h_arg5, ← View.writes_append]

end Cert.Kernel.Hand

end
-- ==== Proof.Kernel.LoopK0T4.lean ====
import proofs.«160032_j64836826300486_2_alg».proof.Proof.Gen.Kernel.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 4 of kernel 0: batch 3, scratch row 3 -/

/-- Row 3 of the scratch as a memref of its own: what the trips of this batch load and store through. -/
abbrev k0_row3 (arg5 : Memref sig .tc .vmem S4x512 .f32) : Memref sig .tc .vmem S512 .f32 :=
  (arg5.slice (Rect.unit (s := S4x512) ![3, 0] S1x512.size inb_S4x512_S1x512_3_0) (fun _ => rfl)).squeeze S512 squeezes_S1x512_S512

theorem k0_row3_sub (arg5 : Memref sig .tc .vmem S4x512 .f32) : (k0_row3 arg5).view.set ⊆ arg5.view.set :=
  View.set_slice_subset _ _

/-- The scratch held whole is its row 3 beside the rest of it, at the same contents. -/
theorem k0_row3_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k0_row3 arg5).view.loc (c : Thread nD τ) ↦[(k0_row3 arg5).view.set]{fullShare} f)
        ∗ (arg5.view.loc (c : Thread nD τ) ↦[arg5.view.set \ (k0_row3 arg5).view.set]{fullShare} f)) :=
  (pointsTo_split_subset (k0_row3_sub arg5)).1

/-- The row written and the rest of the scratch untouched make the scratch written through the row. -/
theorem k0_row3_rejoin (c : Dev nD) (arg5 : Memref sig .tc .vmem S4x512 .f32) (f : BufTy.Contents (Elt F) arg5.view.ty) (L : List (View.Piece (Elt F) S512 .f32)) :
    iprop(((k0_row3 arg5).view.loc (c : Thread nD τ) ↦[(k0_row3 arg5).view.set]{fullShare} ((k0_row3 arg5).view.writes (Elt F) f L))
        ∗ (arg5.view.loc (c : Thread nD τ) ↦[arg5.view.set \ (k0_row3 arg5).view.set]{fullShare} f))
      ⊢ (arg5.view.loc (c : Thread nD τ) ↦[arg5.view.set]{fullShare} ((k0_row3 arg5).view.writes (Elt F) f L) : sProp 𝕄G) := by
  have e : (arg5.view.loc (c : Thread nD τ) ↦[arg5.view.set \ (k0_row3 arg5).view.set]{fullShare} f : sProp 𝕄G)
      = (arg5.view.loc (c : Thread nD τ) ↦[arg5.view.set \ (k0_row3 arg5).view.set]{fullShare} ((k0_row3 arg5).view.writes (Elt F) f L)) :=
    pointsTo_congr (fun i hi => (writes_outside (k0_row3 arg5).view f L (Finset.mem_sdiff.mp hi).2).symm)
  rw [e]
  exact (pointsTo_split_subset (k0_row3_sub arg5)).2

/-- One trip's resources: the query block read at its contents, the scratch row at any. -/
abbrev Trip_k0_t4 (c : Dev nD) (arg2 : Memref sig .tc .vmem S4x512x3 .f32) (arg5 : Memref sig .tc .vmem S4x512 .f32) (X_arg2 : BufTy.Contents (Elt F) arg2.view.ty) (f_row : BufTy.Contents (Elt F) (k0_row3 arg5).view.ty) : sProp 𝕄G :=
  iprop((arg2.view.loc (c : Thread nD τ) ↦[arg2.view.set]{fullShare} X_arg2) ∗ ((k0_row3 arg5).view.loc (c : Thread nD τ) ↦[(k0_row3 arg5).view.set]{fullShare} f_row))

/-- One trip at a symbolic trip number: it loads a chunk of 128 queries and the same chunk of the scratch row and stores
    the chunk back; the piece it writes is what the run finds, as a function of the contents the trip meets. -/
@[irreducible] def trip_k0_t4 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k0_t4_loop.trips) :
    { L_row : (BufTy.Contents (Elt F) (k0_row3 arg5).view.ty → List (View.Piece (Elt F) S512 .f32)) // ∀ (E : Set ℕ) (f_row : BufTy.Contents (Elt F) (k0_row3 arg5).view.ty),
      Trip_k0_t4 (F := F) c arg2 arg5 X_arg2 f_row
      ⊢ wp frame (wpE (defs₀ (F := F)) 𝒱 (c : Thread nD τ) bd) E (k0_t4_body (F := F) i arg2 harg2 arg3 harg3 arg4 harg4 arg5 harg5 v45 k PUnit.unit)
          (fun _ => Trip_k0_t4 (F := F) c arg2 arg5 X_arg2 ((k0_row3 arg5).view.writes (Elt F) f_row (L_row f_row))) } := by
  have hk : k.val < 4 := Nat.lt_of_lt_of_le k.isLt k0_t4_abs.2.1
  refine ⟨?_, fun E f_row => ?run⟩
  case run =>
    unfold k0_t4_body
    iintro ⟨HR_arg2, HW_row⟩
    sl_exec
    sl_step
    sl_close

abbrev tripL_k0_t4 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k0_t4_loop.trips) (f_row : BufTy.Contents (Elt F) (k0_row3 arg5).view.ty) : List (View.Piece (Elt F) S512 .f32) :=
  (trip_k0_t4 (F := F) 𝒱 c bd i arg2 harg2 arg3 harg3 arg4 harg4 arg5 harg5 v45 X_arg2 k).1 f_row

@[irreducible] def pb_k0_t4Step (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k0_row3 arg5).view.ty) (k : ℕ) (prev : List (View.Piece (Elt F) S512 .f32)) : List (View.Piece (Elt F) S512 .f32) :=
  if h : k < k0_t4_loop.trips then
    (tripL_k0_t4 (F := F) 𝒱 c bd i arg2 harg2 arg3 harg3 arg4 harg4 arg5 harg5 v45 X_arg2 ⟨k, h⟩ ((k0_row3 arg5).view.writes (Elt F) G_arg5 prev)) ++ prev
  else prev

/-- The pieces of the trips before `k` (last first), each taken at the contents the earlier trips left. -/
def pb_k0_t4 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k0_row3 arg5).view.ty) : ℕ → List (View.Piece (Elt F) S512 .f32)
  | 0 => []
  | k + 1 => pb_k0_t4Step 𝒱 c bd i arg2 harg2 arg3 harg3 arg4 harg4 arg5 harg5 v45 X_arg2 G_arg5 k (pb_k0_t4 𝒱 c bd i arg2 harg2 arg3 harg3 arg4 harg4 arg5 harg5 v45 X_arg2 G_arg5 k)

theorem pb_k0_t4_succ (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k0_row3 arg5).view.ty) (k : Fin k0_t4_loop.trips) :
    pb_k0_t4 (F := F) 𝒱 c bd i arg2 harg2 arg3 harg3 arg4 harg4 arg5 harg5 v45 X_arg2 G_arg5 (k.val + 1)
      = (tripL_k0_t4 (F := F) 𝒱 c bd i arg2 harg2 arg3 harg3 arg4 harg4 arg5 harg5 v45 X_arg2 k ((k0_row3 arg5).view.writes (Elt F) G_arg5 (pb_k0_t4 (F := F) 𝒱 c bd i arg2 harg2 arg3 harg3 arg4 harg4 arg5 harg5 v45 X_arg2 G_arg5 k.val))) ++ (pb_k0_t4 (F := F) 𝒱 c bd i arg2 harg2 arg3 harg3 arg4 harg4 arg5 harg5 v45 X_arg2 G_arg5 k.val) := by
  rw [pb_k0_t4.eq_2]; unfold pb_k0_t4Step; exact dif_pos k.isLt

/-- The invariant before trip `k`: the query block at its contents; the whole scratch holding the pieces of the trips
    before `k` written through row 3 over the contents at loop entry. -/
abbrev inv_k0_t4 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k0_row3 arg5).view.writes (Elt F) G_arg5 (pb_k0_t4 (F := F) 𝒱 c bd i arg2 harg2 arg3 harg3 arg4 harg4 arg5 harg5 v45 X_arg2 G_arg5 k)⌝))

set_option warn.classDefReducibility false in
/-- The loop by its invariant: a trip splits row 3 off the scratch, runs on it, and puts it back. -/
@[sl_loop] def loopInv_k0_t4 (𝒱 : Variants) (c : Dev nD) (bd : Option 𝒱.V) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) arg5.view.ty) :
    LoopInvTy_k0_t4 (F := F) Unit ℕ (UR sig nD τ) ℕ 𝒱 c bd E i arg2 harg2 arg3 harg3 arg4 harg4 arg5 harg5 v45 where
  inv := inv_k0_t4 (F := F) 𝒱 c bd i arg2 harg2 arg3 harg3 arg4 harg4 arg5 harg5 v45 X_arg2 G_arg5
  step k acc := by
    iintro ⟨HR_arg2, ⟨%f_arg5, HW_arg5, %h_arg5⟩⟩
    ihave Hs := (k0_row3_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k0_t4 (F := F) 𝒱 c bd i arg2 harg2 arg3 harg3 arg4 harg4 arg5 harg5 v45 X_arg2 k).2 E f_arg5)
      isplitl [HR_arg2]; · iexact HR_arg2
      iexact HW_row
    · iintro %_ ⟨HR_arg2, HW_row⟩
      isplitl [HR_arg2]; · iexact HR_arg2
      rw [pb_k0_t4_succ]
      iexists _; isplitl [HW_row HW_rest]
      · iapply (k0_row3_rejoin (F := F) c arg5 f_arg5 _)
        isplitl [HW_row]; · iexact HW_row
        iexact HW_rest
      ipureintro; rw [h_arg5, ← View.writes_append]

end Cert.Kernel.Hand

end
-- ==== Proof.Kernel.Scoped0.lean ====
import proofs.«160032_j64836826300486_2_alg».proof.Proof.Gen.Kernel.Launch
import Idealize.ShloMosaic.Lib.Pipeline.FrameBody
import Idealize.ShloMosaic.Lib.Tactic

/-! Kernel 0's scratch among the core's scoped buffers.

What the launch hands a region beside its windows is every scoped buffer that is no staging buffer of the region, each
whole at some contents, and the generator register. This kernel's scratch is one of them; the body needs it as a memref
it owns, the others ride along untouched. The two entailments below pull the scratch out and put it back. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Kernel 0's scratch, whole. -/
abbrev scM0 : Memref sig .tc .vmem S4x512 .f32 := Memref.whole cc0_scratch0
abbrev hscM0 : (scM0 : Memref sig .tc .vmem S4x512 .f32).IsWhole := Memref.isWhole_whole _

/-- The core's scoped buffers that are neither kernel 0's staging buffers nor its scratch, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands region 0: the scratch owned at some contents, the others, the generator register. -/
theorem PhiA0_out (c : Dev nD) :
    (Pipeline.ΦA spec0 c : sProp 𝕄) ⊢ iprop(iprop((∃ d, owns (c : Thread nD τ) scM0 fullShare d) ∗ others0 c) ∗ (∃ r, prngReg c r)) := by
  unfold Pipeline.ΦA; rw [scopedRest0_eq]; simp only [scM0, owns_whole]
  iintro ⟨⟨HS, H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- And back. -/
theorem PhiA0_in (c : Dev nD) :
    (iprop(iprop((∃ d, owns (c : Thread nD τ) scM0 fullShare d) ∗ others0 c) ∗ (∃ r, prngReg c r)) : sProp 𝕄) ⊢ Pipeline.ΦA spec0 c := by
  unfold Pipeline.ΦA; rw [scopedRest0_eq]; simp only [scM0, owns_whole]
  iintro ⟨⟨HS, H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

end Cert.Kernel.Hand

end
-- ==== Proof.Kernel.Body0.lean ====
import proofs.«160032_j64836826300486_2_alg».proof.Proof.Kernel.LoopK0T1
import proofs.«160032_j64836826300486_2_alg».proof.Proof.Kernel.LoopK0T2
import proofs.«160032_j64836826300486_2_alg».proof.Proof.Kernel.LoopK0T3
import proofs.«160032_j64836826300486_2_alg».proof.Proof.Kernel.LoopK0T4
import proofs.«160032_j64836826300486_2_alg».proof.Proof.Kernel.Scoped0
import proofs.«160032_j64836826300486_2_alg».proof.Proof.Gen.Kernel.Launch
import proofs.«160032_j64836826300486_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The body of nearest-neighbour kernel 0 at every grid point, and the region's proof data.

The grid is 16 rows of query tiles by 16 key tiles; point t = 16 i + j meets query tile i and key tile j. At j = 0 the body
resets the [4, 512] scratch of running minima to +inf; at every point it lowers each batch's row of the scratch by the
row minima of the clamped squared distances to the key tile (four counted loops, one per batch); at j = 15 it copies the
scratch into the output's staging buffer, which the pipeline writes back there and only there. So the body has three
cases by t mod 16, the scratch is carried from a point to the next, and what it holds after a point is defined by
recursion on the point from what each case's run leaves. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals -/

/-- The first conditional of the body: the grid's second coordinate is 0 (the running minimum is reset). -/
abbrev cond0_0 (i : grid0.Coords) : Prop := (Scalar.cmpi .ne (Scalar.extui (Scalar.cmpi .eq (BitVec.ofNat 32 (i 1).val) 0#32)) 0#32) = 1#1
/-- The second: the grid's second coordinate is 15 (the running minimum is copied out). -/
abbrev cond0_1 (i : grid0.Coords) : Prop := k0_cond2 i = 1#1

/-! ## The body in each of its three cases

The pieces each buffer ends with are what the run finds: they are assigned when the buffers are handed to the
continuation. The scratch's final contents is the entry contents written through its four rows by the four loops. -/

/-- Key tile 0 of a row of query tiles: the running minimum is reset to +inf, then lowered by this key tile; the output's
    staging buffer is not touched. -/
def kernelRun0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 x1 : Vec F S4x512x3 .f32) :
    { GS : BufTy.Contents (Elt F) arg5.view.ty //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (arg5.view.loc (c : Thread nD τ) ↦[arg5.view.set]{fullShare} GS)) -∗ K ⟨⟩))
          ⊢ wp frame (wpE (defs₀ (F := F)) Variants.none c none) E (cc0__nn_min_kernel i arg2 harg2 arg3 harg3 arg4 harg4 arg5 harg5) K } := by
  refine ⟨?_, fun xi E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

/-- A middle key tile: the running minimum, at `xs` before, is lowered by this key tile; the output's staging buffer is
    not touched. -/
def kernelRun0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 x1 : Vec F S4x512x3 .f32) (xs : Vec F S4x512 .f32) :
    { GS : BufTy.Contents (Elt F) arg5.view.ty //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (arg5.view.loc (c : Thread nD τ) ↦[arg5.view.set]{fullShare} GS)) -∗ K ⟨⟩))
          ⊢ wp frame (wpE (defs₀ (F := F)) Variants.none c none) E (cc0__nn_min_kernel i arg2 harg2 arg3 harg3 arg4 harg4 arg5 harg5) K } := by
  refine ⟨?_, fun xi E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

/-- The last key tile: the running minimum is lowered by this key tile and then copied whole into the output's staging
    buffer. -/
def kernelRun0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 x1 : Vec F S4x512x3 .f32) (xs : Vec F S4x512 .f32) :
    Σ' (LO : List (View.Piece (Elt F) S4x512 .f32)), { GS : BufTy.Contents (Elt F) arg5.view.ty //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (arg5.view.loc (c : Thread nD τ) ↦[arg5.view.set]{fullShare} GS)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact HS

variable (V : (c : Dev nD) → (b : Ref sig .tc) → Buf (Elt F) ((c : Thread nD τ).loc b))

/-! ## The body's conditions over the grid, and where the output window is idle -/

/-- The reset is taken at the points ≡ 0 (mod 16): the first key tile of each row of query tiles. -/
theorem hcond0_0 : ∀ t : Fin cfg0.N, cond0_0 (grid0.coords t) ↔ t.val % 16 = 0 :=
  (by decide +kernel : ∀ t : Fin grid0.N, cond0_0 (grid0.coords t) ↔ t.val % 16 = 0)
/-- The copy-out is taken at the points ≡ 15 (mod 16): the last key tile. -/
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last key tile the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point `t`, and the scratch. -/
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
/-- One staging buffer of the output window, through which its contents are stated. -/
abbrev VO0 : View sig .tc .vmem S4x512 .f32 := (Memref.whole cc0_stg2_0 : Memref sig .tc .vmem S4x512 .f32).view

/-! ## What each case leaves -/

def sout0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : cond0_0 i) (hc1 : ¬cond0_1 i) (x0 x1 : Vec F S4x512x3 .f32) : Vec F S4x512 .f32 :=
  scM0.view.read (Elt F) (kernelRun0_A c i arg2 harg2 arg3 harg3 arg4 harg4 scM0 hscM0 hc0 hc1 x0 x1).1
def sout0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : ¬cond0_1 i) (x0 x1 : Vec F S4x512x3 .f32) (xs : Vec F S4x512 .f32) : Vec F S4x512 .f32 :=
  scM0.view.read (Elt F) (kernelRun0_B c i arg2 harg2 arg3 harg3 arg4 harg4 scM0 hscM0 hc0 hc1 x0 x1 xs).1
def sout0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : cond0_1 i) (x0 x1 : Vec F S4x512x3 .f32) (xs : Vec F S4x512 .f32) : Vec F S4x512 .f32 :=
  scM0.view.read (Elt F) (kernelRun0_C c i arg2 harg2 arg3 harg3 arg4 harg4 scM0 hscM0 hc0 hc1 x0 x1 xs).2.1
/-- At the last key tile the output's staging buffer is stored whole: its pieces cover it. -/
theorem cover0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : cond0_1 i) (x0 x1 : Vec F S4x512x3 .f32) (xs : Vec F S4x512 .f32) (y : S4x512.Idx) :
    ∃ pc ∈ (kernelRun0_C c i arg2 harg2 arg3 harg3 arg4 harg4 scM0 hscM0 hc0 hc1 x0 x1 xs).1, y ∈ pc.1.set :=
  View.cover_of_tiledL (kernelRun0_C c i arg2 harg2 arg3 harg3 arg4 harg4 scM0 hscM0 hc0 hc1 x0 x1 xs).1 S4x512.size (by sl_kernel_rfl) y
def out0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : cond0_1 i) (x0 x1 : Vec F S4x512x3 .f32) (xs : Vec F S4x512 .f32) : Vec F S4x512 .f32 :=
  VO0.read (Elt F) (VO0.writes (Elt F) VO0.junk (kernelRun0_C c i arg2 harg2 arg3 harg3 arg4 harg4 scM0 hscM0 hc0 hc1 x0 x1 xs).1)
/-- Where the output window is idle nothing consults its contents: a placeholder. -/
def out0_idle : Vec F S4x512 .f32 := VO0.read (Elt F) VO0.junk

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output's staging buffer and the scratch hold after each point -/

/-- The accumulation: after the body at position `n`, the output's staging buffer and the scratch. The case is the
    position's remainder mod 16; the running minimum a later key tile lowers is the one the point before left. -/
def outsAt0 (c : Dev nD) : (n : ℕ) → n < cfg0.N → Vec F S4x512 .f32 × Vec F S4x512 .f32
  | 0, hn => (out0_idle, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_idle, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_idle, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_idle, sout0_A c (grid0.coords t) (ms0_0 t) (hs0_0 t) (ms0_1 t) (hs0_1 t) (ms0_2 t) (hs0_2 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_idle, sout0_B c (grid0.coords t) (ms0_0 t) (hs0_0 t) (ms0_1 t) (hs0_1 t) (ms0_2 t) (hs0_2 t) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    scratch at what the point before left in it, beside the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- Region 0's proof data on core `c`: the arrays as the region finds them; after the body each input's buffer at its
    block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- Before any point the invariant holds the scratch at some contents, beside the rest. -/
theorem PhiS0_any (c : Dev nD) (t : Fin cfg0.N) :
    (dat0 V c).Φ t.castSucc ⊢ (iprop(iprop((∃ d, owns (c : Thread nD τ) scM0 fullShare d) ∗ others0 c) ∗ (∃ r, prngReg c r)) : sProp 𝕄) := by
  rw [PhiS0_castSucc V c t]
  by_cases hz : t.val = 0
  · rw [PhiS0_zero V c _ _ hz]; exact PhiA0_out c
  · rw [PhiS0_pos V c _ _ hz]
    iintro ⟨⟨HS0, Hoth⟩, Hg⟩
    isplitr [Hg]
    · isplitl [HS0]; · iexists _; iexact HS0
      iexact Hoth
    iexact Hg

set_option maxHeartbeats 4800000 in
/-- The body at any point: the inputs' memrefs hold their blocks; the point's remainder mod 16 says which case it is
    in; the invariant hands the body the scratch (at what the point before left when the case reads it) and takes it back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    iintro ⟨HΦ, Ho, ⟨%d0, H0⟩, ⟨%d1, H1⟩, ⟨%d2, H2⟩⟩
    ihave HΦ' := (PhiS0_any V c t) $$ HΦ
    icases HΦ' with ⟨⟨HS0, Hoth⟩, Hg⟩
    iapply ((kernelRun0_A c (grid0.coords t) _ _ _ _ _ _ scM0 hscM0 ((hcond0_0 t).mpr h0) (fun h => h1 ((hcond0_1 t).mp h)) (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, HS0⟩
    isplitl [HS0 Hoth Hg]
    · isplitr [Hg]
      · isplitl [HS0]
        · iapply (owns_intro (c : Thread nD τ) scM0 fullShare _); iexact HS0
        iexact Hoth
      iexact Hg
    isplitl [Ho]; · iexact Ho
    isplitl [H0]; · iexact H0
    isplitl [H1]; · iexact H1
    iexists _; iexact H2
  · have hz : t.val ≠ 0 := fun e => h0 (by rw [e])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ scM0 hscM0 (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hoth Hg]
      · isplitr [Hg]
        · isplitl [HS0]
          · iapply (owns_intro (c : Thread nD τ) scM0 fullShare _); iexact HS0
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ scM0 hscM0 (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitr [Hg]
        · isplitl [HS0]
          · iapply (owns_intro (c : Thread nD τ) scM0 fullShare _); iexact HS0
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the scratch's named contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht]
  refine (?_ : _ ⊢ (iprop(iprop((∃ d, owns (c : Thread nD τ) scM0 fullShare d) ∗ others0 c) ∗ (∃ r, prngReg c r)) : sProp 𝕄)).trans (PhiA0_in c)
  iintro ⟨⟨HS0, Hoth⟩, Hg⟩
  isplitr [Hg]
  · isplitl [HS0]; · iexists _; iexact HS0
    iexact Hoth
  iexact Hg

end Cert.Kernel.Hand

end
-- ==== Proof.Kernel.LoopK1T1.lean ====
import proofs.«160032_j64836826300486_2_alg».proof.Proof.Gen.Kernel.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 1 of kernel 1: batch 0, scratch row 0 -/

/-- Row 0 of the scratch as a memref of its own: what the trips of this batch load and store through. -/
abbrev k1_row0 (arg5 : Memref sig .tc .vmem S4x512 .f32) : Memref sig .tc .vmem S512 .f32 :=
  (arg5.slice (Rect.unit (s := S4x512) ![0, 0] S1x512.size inb_S4x512_S1x512_0_0) (fun _ => rfl)).squeeze S512 squeezes_S1x512_S512

theorem k1_row0_sub (arg5 : Memref sig .tc .vmem S4x512 .f32) : (k1_row0 arg5).view.set ⊆ arg5.view.set :=
  View.set_slice_subset _ _

/-- The scratch held whole is its row 0 beside the rest of it, at the same contents. -/
theorem k1_row0_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k1_row0 arg5).view.loc (c : Thread nD τ) ↦[(k1_row0 arg5).view.set]{fullShare} f)
        ∗ (arg5.view.loc (c : Thread nD τ) ↦[arg5.view.set \ (k1_row0 arg5).view.set]{fullShare} f)) :=
  (pointsTo_split_subset (k1_row0_sub arg5)).1

/-- The row written and the rest of the scratch untouched make the scratch written through the row. -/
theorem k1_row0_rejoin (c : Dev nD) (arg5 : Memref sig .tc .vmem S4x512 .f32) (f : BufTy.Contents (Elt F) arg5.view.ty) (L : List (View.Piece (Elt F) S512 .f32)) :
    iprop(((k1_row0 arg5).view.loc (c : Thread nD τ) ↦[(k1_row0 arg5).view.set]{fullShare} ((k1_row0 arg5).view.writes (Elt F) f L))
        ∗ (arg5.view.loc (c : Thread nD τ) ↦[arg5.view.set \ (k1_row0 arg5).view.set]{fullShare} f))
      ⊢ (arg5.view.loc (c : Thread nD τ) ↦[arg5.view.set]{fullShare} ((k1_row0 arg5).view.writes (Elt F) f L) : sProp 𝕄G) := by
  have e : (arg5.view.loc (c : Thread nD τ) ↦[arg5.view.set \ (k1_row0 arg5).view.set]{fullShare} f : sProp 𝕄G)
      = (arg5.view.loc (c : Thread nD τ) ↦[arg5.view.set \ (k1_row0 arg5).view.set]{fullShare} ((k1_row0 arg5).view.writes (Elt F) f L)) :=
    pointsTo_congr (fun i hi => (writes_outside (k1_row0 arg5).view f L (Finset.mem_sdiff.mp hi).2).symm)
  rw [e]
  exact (pointsTo_split_subset (k1_row0_sub arg5)).2

/-- One trip's resources: the query block read at its contents, the scratch row at any. -/
abbrev Trip_k1_t1 (c : Dev nD) (arg2 : Memref sig .tc .vmem S4x512x3 .f32) (arg5 : Memref sig .tc .vmem S4x512 .f32) (X_arg2 : BufTy.Contents (Elt F) arg2.view.ty) (f_row : BufTy.Contents (Elt F) (k1_row0 arg5).view.ty) : sProp 𝕄G :=
  iprop((arg2.view.loc (c : Thread nD τ) ↦[arg2.view.set]{fullShare} X_arg2) ∗ ((k1_row0 arg5).view.loc (c : Thread nD τ) ↦[(k1_row0 arg5).view.set]{fullShare} f_row))

/-- One trip at a symbolic trip number: it loads a chunk of 128 queries and the same chunk of the scratch row and stores
    the chunk back; the piece it writes is what the run finds, as a function of the contents the trip meets. -/
@[irreducible] def trip_k1_t1 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k1_t1_loop.trips) :
    { L_row : (BufTy.Contents (Elt F) (k1_row0 arg5).view.ty → List (View.Piece (Elt F) S512 .f32)) // ∀ (E : Set ℕ) (f_row : BufTy.Contents (Elt F) (k1_row0 arg5).view.ty),
      Trip_k1_t1 (F := F) c arg2 arg5 X_arg2 f_row
      ⊢ wp frame (wpE (defs₀ (F := F)) 𝒱 (c : Thread nD τ) bd) E (k1_t1_body (F := F) i arg2 harg2 arg3 harg3 arg4 harg4 arg5 harg5 v3 k PUnit.unit)
          (fun _ => Trip_k1_t1 (F := F) c arg2 arg5 X_arg2 ((k1_row0 arg5).view.writes (Elt F) f_row (L_row f_row))) } := by
  have hk : k.val < 4 := Nat.lt_of_lt_of_le k.isLt k1_t1_abs.2.1
  refine ⟨?_, fun E f_row => ?run⟩
  case run =>
    unfold k1_t1_body
    iintro ⟨HR_arg2, HW_row⟩
    sl_exec
    sl_step
    sl_close

abbrev tripL_k1_t1 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k1_t1_loop.trips) (f_row : BufTy.Contents (Elt F) (k1_row0 arg5).view.ty) : List (View.Piece (Elt F) S512 .f32) :=
  (trip_k1_t1 (F := F) 𝒱 c bd i arg2 harg2 arg3 harg3 arg4 harg4 arg5 harg5 v3 X_arg2 k).1 f_row

@[irreducible] def pb_k1_t1Step (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k1_row0 arg5).view.ty) (k : ℕ) (prev : List (View.Piece (Elt F) S512 .f32)) : List (View.Piece (Elt F) S512 .f32) :=
  if h : k < k1_t1_loop.trips then
    (tripL_k1_t1 (F := F) 𝒱 c bd i arg2 harg2 arg3 harg3 arg4 harg4 arg5 harg5 v3 X_arg2 ⟨k, h⟩ ((k1_row0 arg5).view.writes (Elt F) G_arg5 prev)) ++ prev
  else prev

/-- The pieces of the trips before `k` (last first), each taken at the contents the earlier trips left. -/
def pb_k1_t1 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k1_row0 arg5).view.ty) : ℕ → List (View.Piece (Elt F) S512 .f32)
  | 0 => []
  | k + 1 => pb_k1_t1Step 𝒱 c bd i arg2 harg2 arg3 harg3 arg4 harg4 arg5 harg5 v3 X_arg2 G_arg5 k (pb_k1_t1 𝒱 c bd i arg2 harg2 arg3 harg3 arg4 harg4 arg5 harg5 v3 X_arg2 G_arg5 k)

theorem pb_k1_t1_succ (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k1_row0 arg5).view.ty) (k : Fin k1_t1_loop.trips) :
    pb_k1_t1 (F := F) 𝒱 c bd i arg2 harg2 arg3 harg3 arg4 harg4 arg5 harg5 v3 X_arg2 G_arg5 (k.val + 1)
      = (tripL_k1_t1 (F := F) 𝒱 c bd i arg2 harg2 arg3 harg3 arg4 harg4 arg5 harg5 v3 X_arg2 k ((k1_row0 arg5).view.writes (Elt F) G_arg5 (pb_k1_t1 (F := F) 𝒱 c bd i arg2 harg2 arg3 harg3 arg4 harg4 arg5 harg5 v3 X_arg2 G_arg5 k.val))) ++ (pb_k1_t1 (F := F) 𝒱 c bd i arg2 harg2 arg3 harg3 arg4 harg4 arg5 harg5 v3 X_arg2 G_arg5 k.val) := by
  rw [pb_k1_t1.eq_2]; unfold pb_k1_t1Step; exact dif_pos k.isLt

/-- The invariant before trip `k`: the query block at its contents; the whole scratch holding the pieces of the trips
    before `k` written through row 0 over the contents at loop entry. -/
abbrev inv_k1_t1 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k1_row0 arg5).view.writes (Elt F) G_arg5 (pb_k1_t1 (F := F) 𝒱 c bd i arg2 harg2 arg3 harg3 arg4 harg4 arg5 harg5 v3 X_arg2 G_arg5 k)⌝))

set_option warn.classDefReducibility false in
/-- The loop by its invariant: a trip splits row 0 off the scratch, runs on it, and puts it back. -/
@[sl_loop] def loopInv_k1_t1 (𝒱 : Variants) (c : Dev nD) (bd : Option 𝒱.V) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) arg5.view.ty) :
    LoopInvTy_k1_t1 (F := F) Unit ℕ (UR sig nD τ) ℕ 𝒱 c bd E i arg2 harg2 arg3 harg3 arg4 harg4 arg5 harg5 v3 where
  inv := inv_k1_t1 (F := F) 𝒱 c bd i arg2 harg2 arg3 harg3 arg4 harg4 arg5 harg5 v3 X_arg2 G_arg5
  step k acc := by
    iintro ⟨HR_arg2, ⟨%f_arg5, HW_arg5, %h_arg5⟩⟩
    ihave Hs := (k1_row0_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k1_t1 (F := F) 𝒱 c bd i arg2 harg2 arg3 harg3 arg4 harg4 arg5 harg5 v3 X_arg2 k).2 E f_arg5)
      isplitl [HR_arg2]; · iexact HR_arg2
      iexact HW_row
    · iintro %_ ⟨HR_arg2, HW_row⟩
      isplitl [HR_arg2]; · iexact HR_arg2
      rw [pb_k1_t1_succ]
      iexists _; isplitl [HW_row HW_rest]
      · iapply (k1_row0_rejoin (F := F) c arg5 f_arg5 _)
        isplitl [HW_row]; · iexact HW_row
        iexact HW_rest
      ipureintro; rw [h_arg5, ← View.writes_append]

end Cert.Kernel.Hand

end
-- ==== Proof.Kernel.LoopK1T2.lean ====
import proofs.«160032_j64836826300486_2_alg».proof.Proof.Gen.Kernel.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 2 of kernel 1: batch 1, scratch row 1 -/

/-- Row 1 of the scratch as a memref of its own: what the trips of this batch load and store through. -/
abbrev k1_row1 (arg5 : Memref sig .tc .vmem S4x512 .f32) : Memref sig .tc .vmem S512 .f32 :=
  (arg5.slice (Rect.unit (s := S4x512) ![1, 0] S1x512.size inb_S4x512_S1x512_1_0) (fun _ => rfl)).squeeze S512 squeezes_S1x512_S512

theorem k1_row1_sub (arg5 : Memref sig .tc .vmem S4x512 .f32) : (k1_row1 arg5).view.set ⊆ arg5.view.set :=
  View.set_slice_subset _ _

/-- The scratch held whole is its row 1 beside the rest of it, at the same contents. -/
theorem k1_row1_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k1_row1 arg5).view.loc (c : Thread nD τ) ↦[(k1_row1 arg5).view.set]{fullShare} f)
        ∗ (arg5.view.loc (c : Thread nD τ) ↦[arg5.view.set \ (k1_row1 arg5).view.set]{fullShare} f)) :=
  (pointsTo_split_subset (k1_row1_sub arg5)).1

/-- The row written and the rest of the scratch untouched make the scratch written through the row. -/
theorem k1_row1_rejoin (c : Dev nD) (arg5 : Memref sig .tc .vmem S4x512 .f32) (f : BufTy.Contents (Elt F) arg5.view.ty) (L : List (View.Piece (Elt F) S512 .f32)) :
    iprop(((k1_row1 arg5).view.loc (c : Thread nD τ) ↦[(k1_row1 arg5).view.set]{fullShare} ((k1_row1 arg5).view.writes (Elt F) f L))
        ∗ (arg5.view.loc (c : Thread nD τ) ↦[arg5.view.set \ (k1_row1 arg5).view.set]{fullShare} f))
      ⊢ (arg5.view.loc (c : Thread nD τ) ↦[arg5.view.set]{fullShare} ((k1_row1 arg5).view.writes (Elt F) f L) : sProp 𝕄G) := by
  have e : (arg5.view.loc (c : Thread nD τ) ↦[arg5.view.set \ (k1_row1 arg5).view.set]{fullShare} f : sProp 𝕄G)
      = (arg5.view.loc (c : Thread nD τ) ↦[arg5.view.set \ (k1_row1 arg5).view.set]{fullShare} ((k1_row1 arg5).view.writes (Elt F) f L)) :=
    pointsTo_congr (fun i hi => (writes_outside (k1_row1 arg5).view f L (Finset.mem_sdiff.mp hi).2).symm)
  rw [e]
  exact (pointsTo_split_subset (k1_row1_sub arg5)).2

/-- One trip's resources: the query block read at its contents, the scratch row at any. -/
abbrev Trip_k1_t2 (c : Dev nD) (arg2 : Memref sig .tc .vmem S4x512x3 .f32) (arg5 : Memref sig .tc .vmem S4x512 .f32) (X_arg2 : BufTy.Contents (Elt F) arg2.view.ty) (f_row : BufTy.Contents (Elt F) (k1_row1 arg5).view.ty) : sProp 𝕄G :=
  iprop((arg2.view.loc (c : Thread nD τ) ↦[arg2.view.set]{fullShare} X_arg2) ∗ ((k1_row1 arg5).view.loc (c : Thread nD τ) ↦[(k1_row1 arg5).view.set]{fullShare} f_row))

/-- One trip at a symbolic trip number: it loads a chunk of 128 queries and the same chunk of the scratch row and stores
    the chunk back; the piece it writes is what the run finds, as a function of the contents the trip meets. -/
@[irreducible] def trip_k1_t2 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k1_t2_loop.trips) :
    { L_row : (BufTy.Contents (Elt F) (k1_row1 arg5).view.ty → List (View.Piece (Elt F) S512 .f32)) // ∀ (E : Set ℕ) (f_row : BufTy.Contents (Elt F) (k1_row1 arg5).view.ty),
      Trip_k1_t2 (F := F) c arg2 arg5 X_arg2 f_row
      ⊢ wp frame (wpE (defs₀ (F := F)) 𝒱 (c : Thread nD τ) bd) E (k1_t2_body (F := F) i arg2 harg2 arg3 harg3 arg4 harg4 arg5 harg5 v17 k PUnit.unit)
          (fun _ => Trip_k1_t2 (F := F) c arg2 arg5 X_arg2 ((k1_row1 arg5).view.writes (Elt F) f_row (L_row f_row))) } := by
  have hk : k.val < 4 := Nat.lt_of_lt_of_le k.isLt k1_t2_abs.2.1
  refine ⟨?_, fun E f_row => ?run⟩
  case run =>
    unfold k1_t2_body
    iintro ⟨HR_arg2, HW_row⟩
    sl_exec
    sl_step
    sl_close

abbrev tripL_k1_t2 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k1_t2_loop.trips) (f_row : BufTy.Contents (Elt F) (k1_row1 arg5).view.ty) : List (View.Piece (Elt F) S512 .f32) :=
  (trip_k1_t2 (F := F) 𝒱 c bd i arg2 harg2 arg3 harg3 arg4 harg4 arg5 harg5 v17 X_arg2 k).1 f_row

@[irreducible] def pb_k1_t2Step (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k1_row1 arg5).view.ty) (k : ℕ) (prev : List (View.Piece (Elt F) S512 .f32)) : List (View.Piece (Elt F) S512 .f32) :=
  if h : k < k1_t2_loop.trips then
    (tripL_k1_t2 (F := F) 𝒱 c bd i arg2 harg2 arg3 harg3 arg4 harg4 arg5 harg5 v17 X_arg2 ⟨k, h⟩ ((k1_row1 arg5).view.writes (Elt F) G_arg5 prev)) ++ prev
  else prev

/-- The pieces of the trips before `k` (last first), each taken at the contents the earlier trips left. -/
def pb_k1_t2 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k1_row1 arg5).view.ty) : ℕ → List (View.Piece (Elt F) S512 .f32)
  | 0 => []
  | k + 1 => pb_k1_t2Step 𝒱 c bd i arg2 harg2 arg3 harg3 arg4 harg4 arg5 harg5 v17 X_arg2 G_arg5 k (pb_k1_t2 𝒱 c bd i arg2 harg2 arg3 harg3 arg4 harg4 arg5 harg5 v17 X_arg2 G_arg5 k)

theorem pb_k1_t2_succ (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k1_row1 arg5).view.ty) (k : Fin k1_t2_loop.trips) :
    pb_k1_t2 (F := F) 𝒱 c bd i arg2 harg2 arg3 harg3 arg4 harg4 arg5 harg5 v17 X_arg2 G_arg5 (k.val + 1)
      = (tripL_k1_t2 (F := F) 𝒱 c bd i arg2 harg2 arg3 harg3 arg4 harg4 arg5 harg5 v17 X_arg2 k ((k1_row1 arg5).view.writes (Elt F) G_arg5 (pb_k1_t2 (F := F) 𝒱 c bd i arg2 harg2 arg3 harg3 arg4 harg4 arg5 harg5 v17 X_arg2 G_arg5 k.val))) ++ (pb_k1_t2 (F := F) 𝒱 c bd i arg2 harg2 arg3 harg3 arg4 harg4 arg5 harg5 v17 X_arg2 G_arg5 k.val) := by
  rw [pb_k1_t2.eq_2]; unfold pb_k1_t2Step; exact dif_pos k.isLt

/-- The invariant before trip `k`: the query block at its contents; the whole scratch holding the pieces of the trips
    before `k` written through row 1 over the contents at loop entry. -/
abbrev inv_k1_t2 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k1_row1 arg5).view.writes (Elt F) G_arg5 (pb_k1_t2 (F := F) 𝒱 c bd i arg2 harg2 arg3 harg3 arg4 harg4 arg5 harg5 v17 X_arg2 G_arg5 k)⌝))

set_option warn.classDefReducibility false in
/-- The loop by its invariant: a trip splits row 1 off the scratch, runs on it, and puts it back. -/
@[sl_loop] def loopInv_k1_t2 (𝒱 : Variants) (c : Dev nD) (bd : Option 𝒱.V) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) arg5.view.ty) :
    LoopInvTy_k1_t2 (F := F) Unit ℕ (UR sig nD τ) ℕ 𝒱 c bd E i arg2 harg2 arg3 harg3 arg4 harg4 arg5 harg5 v17 where
  inv := inv_k1_t2 (F := F) 𝒱 c bd i arg2 harg2 arg3 harg3 arg4 harg4 arg5 harg5 v17 X_arg2 G_arg5
  step k acc := by
    iintro ⟨HR_arg2, ⟨%f_arg5, HW_arg5, %h_arg5⟩⟩
    ihave Hs := (k1_row1_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k1_t2 (F := F) 𝒱 c bd i arg2 harg2 arg3 harg3 arg4 harg4 arg5 harg5 v17 X_arg2 k).2 E f_arg5)
      isplitl [HR_arg2]; · iexact HR_arg2
      iexact HW_row
    · iintro %_ ⟨HR_arg2, HW_row⟩
      isplitl [HR_arg2]; · iexact HR_arg2
      rw [pb_k1_t2_succ]
      iexists _; isplitl [HW_row HW_rest]
      · iapply (k1_row1_rejoin (F := F) c arg5 f_arg5 _)
        isplitl [HW_row]; · iexact HW_row
        iexact HW_rest
      ipureintro; rw [h_arg5, ← View.writes_append]

end Cert.Kernel.Hand

end
-- ==== Proof.Kernel.LoopK1T3.lean ====
import proofs.«160032_j64836826300486_2_alg».proof.Proof.Gen.Kernel.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 3 of kernel 1: batch 2, scratch row 2 -/

/-- Row 2 of the scratch as a memref of its own: what the trips of this batch load and store through. -/
abbrev k1_row2 (arg5 : Memref sig .tc .vmem S4x512 .f32) : Memref sig .tc .vmem S512 .f32 :=
  (arg5.slice (Rect.unit (s := S4x512) ![2, 0] S1x512.size inb_S4x512_S1x512_2_0) (fun _ => rfl)).squeeze S512 squeezes_S1x512_S512

theorem k1_row2_sub (arg5 : Memref sig .tc .vmem S4x512 .f32) : (k1_row2 arg5).view.set ⊆ arg5.view.set :=
  View.set_slice_subset _ _

/-- The scratch held whole is its row 2 beside the rest of it, at the same contents. -/
theorem k1_row2_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k1_row2 arg5).view.loc (c : Thread nD τ) ↦[(k1_row2 arg5).view.set]{fullShare} f)
        ∗ (arg5.view.loc (c : Thread nD τ) ↦[arg5.view.set \ (k1_row2 arg5).view.set]{fullShare} f)) :=
  (pointsTo_split_subset (k1_row2_sub arg5)).1

/-- The row written and the rest of the scratch untouched make the scratch written through the row. -/
theorem k1_row2_rejoin (c : Dev nD) (arg5 : Memref sig .tc .vmem S4x512 .f32) (f : BufTy.Contents (Elt F) arg5.view.ty) (L : List (View.Piece (Elt F) S512 .f32)) :
    iprop(((k1_row2 arg5).view.loc (c : Thread nD τ) ↦[(k1_row2 arg5).view.set]{fullShare} ((k1_row2 arg5).view.writes (Elt F) f L))
        ∗ (arg5.view.loc (c : Thread nD τ) ↦[arg5.view.set \ (k1_row2 arg5).view.set]{fullShare} f))
      ⊢ (arg5.view.loc (c : Thread nD τ) ↦[arg5.view.set]{fullShare} ((k1_row2 arg5).view.writes (Elt F) f L) : sProp 𝕄G) := by
  have e : (arg5.view.loc (c : Thread nD τ) ↦[arg5.view.set \ (k1_row2 arg5).view.set]{fullShare} f : sProp 𝕄G)
      = (arg5.view.loc (c : Thread nD τ) ↦[arg5.view.set \ (k1_row2 arg5).view.set]{fullShare} ((k1_row2 arg5).view.writes (Elt F) f L)) :=
    pointsTo_congr (fun i hi => (writes_outside (k1_row2 arg5).view f L (Finset.mem_sdiff.mp hi).2).symm)
  rw [e]
  exact (pointsTo_split_subset (k1_row2_sub arg5)).2

/-- One trip's resources: the query block read at its contents, the scratch row at any. -/
abbrev Trip_k1_t3 (c : Dev nD) (arg2 : Memref sig .tc .vmem S4x512x3 .f32) (arg5 : Memref sig .tc .vmem S4x512 .f32) (X_arg2 : BufTy.Contents (Elt F) arg2.view.ty) (f_row : BufTy.Contents (Elt F) (k1_row2 arg5).view.ty) : sProp 𝕄G :=
  iprop((arg2.view.loc (c : Thread nD τ) ↦[arg2.view.set]{fullShare} X_arg2) ∗ ((k1_row2 arg5).view.loc (c : Thread nD τ) ↦[(k1_row2 arg5).view.set]{fullShare} f_row))

/-- One trip at a symbolic trip number: it loads a chunk of 128 queries and the same chunk of the scratch row and stores
    the chunk back; the piece it writes is what the run finds, as a function of the contents the trip meets. -/
@[irreducible] def trip_k1_t3 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k1_t3_loop.trips) :
    { L_row : (BufTy.Contents (Elt F) (k1_row2 arg5).view.ty → List (View.Piece (Elt F) S512 .f32)) // ∀ (E : Set ℕ) (f_row : BufTy.Contents (Elt F) (k1_row2 arg5).view.ty),
      Trip_k1_t3 (F := F) c arg2 arg5 X_arg2 f_row
      ⊢ wp frame (wpE (defs₀ (F := F)) 𝒱 (c : Thread nD τ) bd) E (k1_t3_body (F := F) i arg2 harg2 arg3 harg3 arg4 harg4 arg5 harg5 v31 k PUnit.unit)
          (fun _ => Trip_k1_t3 (F := F) c arg2 arg5 X_arg2 ((k1_row2 arg5).view.writes (Elt F) f_row (L_row f_row))) } := by
  have hk : k.val < 4 := Nat.lt_of_lt_of_le k.isLt k1_t3_abs.2.1
  refine ⟨?_, fun E f_row => ?run⟩
  case run =>
    unfold k1_t3_body
    iintro ⟨HR_arg2, HW_row⟩
    sl_exec
    sl_step
    sl_close

abbrev tripL_k1_t3 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k1_t3_loop.trips) (f_row : BufTy.Contents (Elt F) (k1_row2 arg5).view.ty) : List (View.Piece (Elt F) S512 .f32) :=
  (trip_k1_t3 (F := F) 𝒱 c bd i arg2 harg2 arg3 harg3 arg4 harg4 arg5 harg5 v31 X_arg2 k).1 f_row

@[irreducible] def pb_k1_t3Step (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k1_row2 arg5).view.ty) (k : ℕ) (prev : List (View.Piece (Elt F) S512 .f32)) : List (View.Piece (Elt F) S512 .f32) :=
  if h : k < k1_t3_loop.trips then
    (tripL_k1_t3 (F := F) 𝒱 c bd i arg2 harg2 arg3 harg3 arg4 harg4 arg5 harg5 v31 X_arg2 ⟨k, h⟩ ((k1_row2 arg5).view.writes (Elt F) G_arg5 prev)) ++ prev
  else prev

/-- The pieces of the trips before `k` (last first), each taken at the contents the earlier trips left. -/
def pb_k1_t3 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k1_row2 arg5).view.ty) : ℕ → List (View.Piece (Elt F) S512 .f32)
  | 0 => []
  | k + 1 => pb_k1_t3Step 𝒱 c bd i arg2 harg2 arg3 harg3 arg4 harg4 arg5 harg5 v31 X_arg2 G_arg5 k (pb_k1_t3 𝒱 c bd i arg2 harg2 arg3 harg3 arg4 harg4 arg5 harg5 v31 X_arg2 G_arg5 k)

theorem pb_k1_t3_succ (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k1_row2 arg5).view.ty) (k : Fin k1_t3_loop.trips) :
    pb_k1_t3 (F := F) 𝒱 c bd i arg2 harg2 arg3 harg3 arg4 harg4 arg5 harg5 v31 X_arg2 G_arg5 (k.val + 1)
      = (tripL_k1_t3 (F := F) 𝒱 c bd i arg2 harg2 arg3 harg3 arg4 harg4 arg5 harg5 v31 X_arg2 k ((k1_row2 arg5).view.writes (Elt F) G_arg5 (pb_k1_t3 (F := F) 𝒱 c bd i arg2 harg2 arg3 harg3 arg4 harg4 arg5 harg5 v31 X_arg2 G_arg5 k.val))) ++ (pb_k1_t3 (F := F) 𝒱 c bd i arg2 harg2 arg3 harg3 arg4 harg4 arg5 harg5 v31 X_arg2 G_arg5 k.val) := by
  rw [pb_k1_t3.eq_2]; unfold pb_k1_t3Step; exact dif_pos k.isLt

/-- The invariant before trip `k`: the query block at its contents; the whole scratch holding the pieces of the trips
    before `k` written through row 2 over the contents at loop entry. -/
abbrev inv_k1_t3 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k1_row2 arg5).view.writes (Elt F) G_arg5 (pb_k1_t3 (F := F) 𝒱 c bd i arg2 harg2 arg3 harg3 arg4 harg4 arg5 harg5 v31 X_arg2 G_arg5 k)⌝))

set_option warn.classDefReducibility false in
/-- The loop by its invariant: a trip splits row 2 off the scratch, runs on it, and puts it back. -/
@[sl_loop] def loopInv_k1_t3 (𝒱 : Variants) (c : Dev nD) (bd : Option 𝒱.V) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) arg5.view.ty) :
    LoopInvTy_k1_t3 (F := F) Unit ℕ (UR sig nD τ) ℕ 𝒱 c bd E i arg2 harg2 arg3 harg3 arg4 harg4 arg5 harg5 v31 where
  inv := inv_k1_t3 (F := F) 𝒱 c bd i arg2 harg2 arg3 harg3 arg4 harg4 arg5 harg5 v31 X_arg2 G_arg5
  step k acc := by
    iintro ⟨HR_arg2, ⟨%f_arg5, HW_arg5, %h_arg5⟩⟩
    ihave Hs := (k1_row2_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k1_t3 (F := F) 𝒱 c bd i arg2 harg2 arg3 harg3 arg4 harg4 arg5 harg5 v31 X_arg2 k).2 E f_arg5)
      isplitl [HR_arg2]; · iexact HR_arg2
      iexact HW_row
    · iintro %_ ⟨HR_arg2, HW_row⟩
      isplitl [HR_arg2]; · iexact HR_arg2
      rw [pb_k1_t3_succ]
      iexists _; isplitl [HW_row HW_rest]
      · iapply (k1_row2_rejoin (F := F) c arg5 f_arg5 _)
        isplitl [HW_row]; · iexact HW_row
        iexact HW_rest
      ipureintro; rw [h_arg5, ← View.writes_append]

end Cert.Kernel.Hand

end
-- ==== Proof.Kernel.LoopK1T4.lean ====
import proofs.«160032_j64836826300486_2_alg».proof.Proof.Gen.Kernel.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 4 of kernel 1: batch 3, scratch row 3 -/

/-- Row 3 of the scratch as a memref of its own: what the trips of this batch load and store through. -/
abbrev k1_row3 (arg5 : Memref sig .tc .vmem S4x512 .f32) : Memref sig .tc .vmem S512 .f32 :=
  (arg5.slice (Rect.unit (s := S4x512) ![3, 0] S1x512.size inb_S4x512_S1x512_3_0) (fun _ => rfl)).squeeze S512 squeezes_S1x512_S512

theorem k1_row3_sub (arg5 : Memref sig .tc .vmem S4x512 .f32) : (k1_row3 arg5).view.set ⊆ arg5.view.set :=
  View.set_slice_subset _ _

/-- The scratch held whole is its row 3 beside the rest of it, at the same contents. -/
theorem k1_row3_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k1_row3 arg5).view.loc (c : Thread nD τ) ↦[(k1_row3 arg5).view.set]{fullShare} f)
        ∗ (arg5.view.loc (c : Thread nD τ) ↦[arg5.view.set \ (k1_row3 arg5).view.set]{fullShare} f)) :=
  (pointsTo_split_subset (k1_row3_sub arg5)).1

/-- The row written and the rest of the scratch untouched make the scratch written through the row. -/
theorem k1_row3_rejoin (c : Dev nD) (arg5 : Memref sig .tc .vmem S4x512 .f32) (f : BufTy.Contents (Elt F) arg5.view.ty) (L : List (View.Piece (Elt F) S512 .f32)) :
    iprop(((k1_row3 arg5).view.loc (c : Thread nD τ) ↦[(k1_row3 arg5).view.set]{fullShare} ((k1_row3 arg5).view.writes (Elt F) f L))
        ∗ (arg5.view.loc (c : Thread nD τ) ↦[arg5.view.set \ (k1_row3 arg5).view.set]{fullShare} f))
      ⊢ (arg5.view.loc (c : Thread nD τ) ↦[arg5.view.set]{fullShare} ((k1_row3 arg5).view.writes (Elt F) f L) : sProp 𝕄G) := by
  have e : (arg5.view.loc (c : Thread nD τ) ↦[arg5.view.set \ (k1_row3 arg5).view.set]{fullShare} f : sProp 𝕄G)
      = (arg5.view.loc (c : Thread nD τ) ↦[arg5.view.set \ (k1_row3 arg5).view.set]{fullShare} ((k1_row3 arg5).view.writes (Elt F) f L)) :=
    pointsTo_congr (fun i hi => (writes_outside (k1_row3 arg5).view f L (Finset.mem_sdiff.mp hi).2).symm)
  rw [e]
  exact (pointsTo_split_subset (k1_row3_sub arg5)).2

/-- One trip's resources: the query block read at its contents, the scratch row at any. -/
abbrev Trip_k1_t4 (c : Dev nD) (arg2 : Memref sig .tc .vmem S4x512x3 .f32) (arg5 : Memref sig .tc .vmem S4x512 .f32) (X_arg2 : BufTy.Contents (Elt F) arg2.view.ty) (f_row : BufTy.Contents (Elt F) (k1_row3 arg5).view.ty) : sProp 𝕄G :=
  iprop((arg2.view.loc (c : Thread nD τ) ↦[arg2.view.set]{fullShare} X_arg2) ∗ ((k1_row3 arg5).view.loc (c : Thread nD τ) ↦[(k1_row3 arg5).view.set]{fullShare} f_row))

/-- One trip at a symbolic trip number: it loads a chunk of 128 queries and the same chunk of the scratch row and stores
    the chunk back; the piece it writes is what the run finds, as a function of the contents the trip meets. -/
@[irreducible] def trip_k1_t4 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k1_t4_loop.trips) :
    { L_row : (BufTy.Contents (Elt F) (k1_row3 arg5).view.ty → List (View.Piece (Elt F) S512 .f32)) // ∀ (E : Set ℕ) (f_row : BufTy.Contents (Elt F) (k1_row3 arg5).view.ty),
      Trip_k1_t4 (F := F) c arg2 arg5 X_arg2 f_row
      ⊢ wp frame (wpE (defs₀ (F := F)) 𝒱 (c : Thread nD τ) bd) E (k1_t4_body (F := F) i arg2 harg2 arg3 harg3 arg4 harg4 arg5 harg5 v45 k PUnit.unit)
          (fun _ => Trip_k1_t4 (F := F) c arg2 arg5 X_arg2 ((k1_row3 arg5).view.writes (Elt F) f_row (L_row f_row))) } := by
  have hk : k.val < 4 := Nat.lt_of_lt_of_le k.isLt k1_t4_abs.2.1
  refine ⟨?_, fun E f_row => ?run⟩
  case run =>
    unfold k1_t4_body
    iintro ⟨HR_arg2, HW_row⟩
    sl_exec
    sl_step
    sl_close

abbrev tripL_k1_t4 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k1_t4_loop.trips) (f_row : BufTy.Contents (Elt F) (k1_row3 arg5).view.ty) : List (View.Piece (Elt F) S512 .f32) :=
  (trip_k1_t4 (F := F) 𝒱 c bd i arg2 harg2 arg3 harg3 arg4 harg4 arg5 harg5 v45 X_arg2 k).1 f_row

@[irreducible] def pb_k1_t4Step (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k1_row3 arg5).view.ty) (k : ℕ) (prev : List (View.Piece (Elt F) S512 .f32)) : List (View.Piece (Elt F) S512 .f32) :=
  if h : k < k1_t4_loop.trips then
    (tripL_k1_t4 (F := F) 𝒱 c bd i arg2 harg2 arg3 harg3 arg4 harg4 arg5 harg5 v45 X_arg2 ⟨k, h⟩ ((k1_row3 arg5).view.writes (Elt F) G_arg5 prev)) ++ prev
  else prev

/-- The pieces of the trips before `k` (last first), each taken at the contents the earlier trips left. -/
def pb_k1_t4 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k1_row3 arg5).view.ty) : ℕ → List (View.Piece (Elt F) S512 .f32)
  | 0 => []
  | k + 1 => pb_k1_t4Step 𝒱 c bd i arg2 harg2 arg3 harg3 arg4 harg4 arg5 harg5 v45 X_arg2 G_arg5 k (pb_k1_t4 𝒱 c bd i arg2 harg2 arg3 harg3 arg4 harg4 arg5 harg5 v45 X_arg2 G_arg5 k)

theorem pb_k1_t4_succ (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k1_row3 arg5).view.ty) (k : Fin k1_t4_loop.trips) :
    pb_k1_t4 (F := F) 𝒱 c bd i arg2 harg2 arg3 harg3 arg4 harg4 arg5 harg5 v45 X_arg2 G_arg5 (k.val + 1)
      = (tripL_k1_t4 (F := F) 𝒱 c bd i arg2 harg2 arg3 harg3 arg4 harg4 arg5 harg5 v45 X_arg2 k ((k1_row3 arg5).view.writes (Elt F) G_arg5 (pb_k1_t4 (F := F) 𝒱 c bd i arg2 harg2 arg3 harg3 arg4 harg4 arg5 harg5 v45 X_arg2 G_arg5 k.val))) ++ (pb_k1_t4 (F := F) 𝒱 c bd i arg2 harg2 arg3 harg3 arg4 harg4 arg5 harg5 v45 X_arg2 G_arg5 k.val) := by
  rw [pb_k1_t4.eq_2]; unfold pb_k1_t4Step; exact dif_pos k.isLt

/-- The invariant before trip `k`: the query block at its contents; the whole scratch holding the pieces of the trips
    before `k` written through row 3 over the contents at loop entry. -/
abbrev inv_k1_t4 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k1_row3 arg5).view.writes (Elt F) G_arg5 (pb_k1_t4 (F := F) 𝒱 c bd i arg2 harg2 arg3 harg3 arg4 harg4 arg5 harg5 v45 X_arg2 G_arg5 k)⌝))

set_option warn.classDefReducibility false in
/-- The loop by its invariant: a trip splits row 3 off the scratch, runs on it, and puts it back. -/
@[sl_loop] def loopInv_k1_t4 (𝒱 : Variants) (c : Dev nD) (bd : Option 𝒱.V) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) arg5.view.ty) :
    LoopInvTy_k1_t4 (F := F) Unit ℕ (UR sig nD τ) ℕ 𝒱 c bd E i arg2 harg2 arg3 harg3 arg4 harg4 arg5 harg5 v45 where
  inv := inv_k1_t4 (F := F) 𝒱 c bd i arg2 harg2 arg3 harg3 arg4 harg4 arg5 harg5 v45 X_arg2 G_arg5
  step k acc := by
    iintro ⟨HR_arg2, ⟨%f_arg5, HW_arg5, %h_arg5⟩⟩
    ihave Hs := (k1_row3_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k1_t4 (F := F) 𝒱 c bd i arg2 harg2 arg3 harg3 arg4 harg4 arg5 harg5 v45 X_arg2 k).2 E f_arg5)
      isplitl [HR_arg2]; · iexact HR_arg2
      iexact HW_row
    · iintro %_ ⟨HR_arg2, HW_row⟩
      isplitl [HR_arg2]; · iexact HR_arg2
      rw [pb_k1_t4_succ]
      iexists _; isplitl [HW_row HW_rest]
      · iapply (k1_row3_rejoin (F := F) c arg5 f_arg5 _)
        isplitl [HW_row]; · iexact HW_row
        iexact HW_rest
      ipureintro; rw [h_arg5, ← View.writes_append]

end Cert.Kernel.Hand

end
-- ==== Proof.Kernel.Scoped1.lean ====
import proofs.«160032_j64836826300486_2_alg».proof.Proof.Gen.Kernel.Launch
import Idealize.ShloMosaic.Lib.Pipeline.FrameBody
import Idealize.ShloMosaic.Lib.Tactic

/-! Kernel 1's scratch among the core's scoped buffers.

What the launch hands a region beside its windows is every scoped buffer that is no staging buffer of the region, each
whole at some contents, and the generator register. This kernel's scratch is one of them; the body needs it as a memref
it owns, the others ride along untouched. The two entailments below pull the scratch out and put it back. -/

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Kernel 1's scratch, whole. -/
abbrev scM1 : Memref sig .tc .vmem S4x512 .f32 := Memref.whole cc1_scratch0
abbrev hscM1 : (scM1 : Memref sig .tc .vmem S4x512 .f32).IsWhole := Memref.isWhole_whole _

/-- The core's scoped buffers that are neither kernel 1's staging buffers nor its scratch, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the launch hands region 1: the scratch owned at some contents, the others, the generator register. -/
theorem PhiA1_out (c : Dev nD) :
    (Pipeline.ΦA spec1 c : sProp 𝕄) ⊢ iprop(iprop((∃ d, owns (c : Thread nD τ) scM1 fullShare d) ∗ others1 c) ∗ (∃ r, prngReg c r)) := by
  unfold Pipeline.ΦA; rw [scopedRest1_eq]; simp only [scM1, owns_whole]
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- And back. -/
theorem PhiA1_in (c : Dev nD) :
    (iprop(iprop((∃ d, owns (c : Thread nD τ) scM1 fullShare d) ∗ others1 c) ∗ (∃ r, prngReg c r)) : sProp 𝕄) ⊢ Pipeline.ΦA spec1 c := by
  unfold Pipeline.ΦA; rw [scopedRest1_eq]; simp only [scM1, owns_whole]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.Kernel.Hand

end
-- ==== Proof.Kernel.Body1.lean ====
import proofs.«160032_j64836826300486_2_alg».proof.Proof.Kernel.LoopK1T1
import proofs.«160032_j64836826300486_2_alg».proof.Proof.Kernel.LoopK1T2
import proofs.«160032_j64836826300486_2_alg».proof.Proof.Kernel.LoopK1T3
import proofs.«160032_j64836826300486_2_alg».proof.Proof.Kernel.LoopK1T4
import proofs.«160032_j64836826300486_2_alg».proof.Proof.Kernel.Scoped1
import proofs.«160032_j64836826300486_2_alg».proof.Proof.Gen.Kernel.Launch
import proofs.«160032_j64836826300486_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! The body of nearest-neighbour kernel 1 at every grid point, and the region's proof data.

The grid is 16 rows of query tiles by 16 key tiles; point t = 16 i + j meets query tile i and key tile j. At j = 0 the body
resets the [4, 512] scratch of running minima to +inf; at every point it lowers each batch's row of the scratch by the
row minima of the clamped squared distances to the key tile (four counted loops, one per batch); at j = 15 it copies the
scratch into the output's staging buffer, which the pipeline writes back there and only there. So the body has three
cases by t mod 16, the scratch is carried from a point to the next, and what it holds after a point is defined by
recursion on the point from what each case's run leaves. -/

set_option maxRecDepth 16384
set_option maxHeartbeats 4000000

noncomputable section

namespace Cert.Kernel.Hand

open Cert.Kernel Cert.Kernel.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals -/

/-- The first conditional of the body: the grid's second coordinate is 0 (the running minimum is reset). -/
abbrev cond1_0 (i : grid1.Coords) : Prop := (Scalar.cmpi .ne (Scalar.extui (Scalar.cmpi .eq (BitVec.ofNat 32 (i 1).val) 0#32)) 0#32) = 1#1
/-- The second: the grid's second coordinate is 15 (the running minimum is copied out). -/
abbrev cond1_1 (i : grid1.Coords) : Prop := k1_cond2 i = 1#1

/-! ## The body in each of its three cases

The pieces each buffer ends with are what the run finds: they are assigned when the buffers are handed to the
continuation. The scratch's final contents is the entry contents written through its four rows by the four loops. -/

/-- Key tile 0 of a row of query tiles: the running minimum is reset to +inf, then lowered by this key tile; the output's
    staging buffer is not touched. -/
def kernelRun1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 x1 : Vec F S4x512x3 .f32) :
    { GS : BufTy.Contents (Elt F) arg5.view.ty //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (arg5.view.loc (c : Thread nD τ) ↦[arg5.view.set]{fullShare} GS)) -∗ K ⟨⟩))
          ⊢ wp frame (wpE (defs₀ (F := F)) Variants.none c none) E (cc1__nn_min_kernel i arg2 harg2 arg3 harg3 arg4 harg4 arg5 harg5) K } := by
  refine ⟨?_, fun xi E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

/-- A middle key tile: the running minimum, at `xs` before, is lowered by this key tile; the output's staging buffer is
    not touched. -/
def kernelRun1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 x1 : Vec F S4x512x3 .f32) (xs : Vec F S4x512 .f32) :
    { GS : BufTy.Contents (Elt F) arg5.view.ty //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (arg5.view.loc (c : Thread nD τ) ↦[arg5.view.set]{fullShare} GS)) -∗ K ⟨⟩))
          ⊢ wp frame (wpE (defs₀ (F := F)) Variants.none c none) E (cc1__nn_min_kernel i arg2 harg2 arg3 harg3 arg4 harg4 arg5 harg5) K } := by
  refine ⟨?_, fun xi E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

/-- The last key tile: the running minimum is lowered by this key tile and then copied whole into the output's staging
    buffer. -/
def kernelRun1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 x1 : Vec F S4x512x3 .f32) (xs : Vec F S4x512 .f32) :
    Σ' (LO : List (View.Piece (Elt F) S4x512 .f32)), { GS : BufTy.Contents (Elt F) arg5.view.ty //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (arg5.view.loc (c : Thread nD τ) ↦[arg5.view.set]{fullShare} GS)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact HS

variable (V : (c : Dev nD) → (b : Ref sig .tc) → Buf (Elt F) ((c : Thread nD τ).loc b))

/-! ## The body's conditions over the grid, and where the output window is idle -/

/-- The reset is taken at the points ≡ 0 (mod 16): the first key tile of each row of query tiles. -/
theorem hcond1_0 : ∀ t : Fin cfg1.N, cond1_0 (grid1.coords t) ↔ t.val % 16 = 0 :=
  (by decide +kernel : ∀ t : Fin grid1.N, cond1_0 (grid1.coords t) ↔ t.val % 16 = 0)
/-- The copy-out is taken at the points ≡ 15 (mod 16): the last key tile. -/
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last key tile the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- Each window's current staging memref at point `t`, and the scratch. -/
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
/-- One staging buffer of the output window, through which its contents are stated. -/
abbrev VO1 : View sig .tc .vmem S4x512 .f32 := (Memref.whole cc1_stg2_0 : Memref sig .tc .vmem S4x512 .f32).view

/-! ## What each case leaves -/

def sout1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : cond1_0 i) (hc1 : ¬cond1_1 i) (x0 x1 : Vec F S4x512x3 .f32) : Vec F S4x512 .f32 :=
  scM1.view.read (Elt F) (kernelRun1_A c i arg2 harg2 arg3 harg3 arg4 harg4 scM1 hscM1 hc0 hc1 x0 x1).1
def sout1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : ¬cond1_1 i) (x0 x1 : Vec F S4x512x3 .f32) (xs : Vec F S4x512 .f32) : Vec F S4x512 .f32 :=
  scM1.view.read (Elt F) (kernelRun1_B c i arg2 harg2 arg3 harg3 arg4 harg4 scM1 hscM1 hc0 hc1 x0 x1 xs).1
def sout1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : cond1_1 i) (x0 x1 : Vec F S4x512x3 .f32) (xs : Vec F S4x512 .f32) : Vec F S4x512 .f32 :=
  scM1.view.read (Elt F) (kernelRun1_C c i arg2 harg2 arg3 harg3 arg4 harg4 scM1 hscM1 hc0 hc1 x0 x1 xs).2.1
/-- At the last key tile the output's staging buffer is stored whole: its pieces cover it. -/
theorem cover1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : cond1_1 i) (x0 x1 : Vec F S4x512x3 .f32) (xs : Vec F S4x512 .f32) (y : S4x512.Idx) :
    ∃ pc ∈ (kernelRun1_C c i arg2 harg2 arg3 harg3 arg4 harg4 scM1 hscM1 hc0 hc1 x0 x1 xs).1, y ∈ pc.1.set :=
  View.cover_of_tiledL (kernelRun1_C c i arg2 harg2 arg3 harg3 arg4 harg4 scM1 hscM1 hc0 hc1 x0 x1 xs).1 S4x512.size (by sl_kernel_rfl) y
def out1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : cond1_1 i) (x0 x1 : Vec F S4x512x3 .f32) (xs : Vec F S4x512 .f32) : Vec F S4x512 .f32 :=
  VO1.read (Elt F) (VO1.writes (Elt F) VO1.junk (kernelRun1_C c i arg2 harg2 arg3 harg3 arg4 harg4 scM1 hscM1 hc0 hc1 x0 x1 xs).1)
/-- Where the output window is idle nothing consults its contents: a placeholder. -/
def out1_idle : Vec F S4x512 .f32 := VO1.read (Elt F) VO1.junk

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output's staging buffer and the scratch hold after each point -/

/-- The accumulation: after the body at position `n`, the output's staging buffer and the scratch. The case is the
    position's remainder mod 16; the running minimum a later key tile lowers is the one the point before left. -/
def outsAt1 (c : Dev nD) : (n : ℕ) → n < cfg1.N → Vec F S4x512 .f32 × Vec F S4x512 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_idle, sout1_A c (grid1.coords t) (ms1_0 t) (hs1_0 t) (ms1_1 t) (hs1_1 t) (ms1_2 t) (hs1_2 t) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_idle, sout1_B c (grid1.coords t) (ms1_0 t) (hs1_0 t) (ms1_1 t) (hs1_1 t) (ms1_2 t) (hs1_2 t) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    scratch at what the point before left in it, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- Region 1's proof data on core `c`: the arrays as the region finds them; after the body each input's buffer at its
    block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- Before any point the invariant holds the scratch at some contents, beside the rest. -/
theorem PhiS1_any (c : Dev nD) (t : Fin cfg1.N) :
    (dat1 V c).Φ t.castSucc ⊢ (iprop(iprop((∃ d, owns (c : Thread nD τ) scM1 fullShare d) ∗ others1 c) ∗ (∃ r, prngReg c r)) : sProp 𝕄) := by
  rw [PhiS1_castSucc V c t]
  by_cases hz : t.val = 0
  · rw [PhiS1_zero V c _ _ hz]; exact PhiA1_out c
  · rw [PhiS1_pos V c _ _ hz]
    iintro ⟨⟨HS0, Hoth⟩, Hg⟩
    isplitr [Hg]
    · isplitl [HS0]; · iexists _; iexact HS0
      iexact Hoth
    iexact Hg

set_option maxHeartbeats 4800000 in
/-- The body at any point: the inputs' memrefs hold their blocks; the point's remainder mod 16 says which case it is
    in; the invariant hands the body the scratch (at what the point before left when the case reads it) and takes it back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    iintro ⟨HΦ, Ho, ⟨%d0, H0⟩, ⟨%d1, H1⟩, ⟨%d2, H2⟩⟩
    ihave HΦ' := (PhiS1_any V c t) $$ HΦ
    icases HΦ' with ⟨⟨HS0, Hoth⟩, Hg⟩
    iapply ((kernelRun1_A c (grid1.coords t) _ _ _ _ _ _ scM1 hscM1 ((hcond1_0 t).mpr h0) (fun h => h1 ((hcond1_1 t).mp h)) (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, HS0⟩
    isplitl [HS0 Hoth Hg]
    · isplitr [Hg]
      · isplitl [HS0]
        · iapply (owns_intro (c : Thread nD τ) scM1 fullShare _); iexact HS0
        iexact Hoth
      iexact Hg
    isplitl [Ho]; · iexact Ho
    isplitl [H0]; · iexact H0
    isplitl [H1]; · iexact H1
    iexists _; iexact H2
  · have hz : t.val ≠ 0 := fun e => h0 (by rw [e])
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ scM1 hscM1 (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hoth Hg]
      · isplitr [Hg]
        · isplitl [HS0]
          · iapply (owns_intro (c : Thread nD τ) scM1 fullShare _); iexact HS0
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ scM1 hscM1 (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitr [Hg]
        · isplitl [HS0]
          · iapply (owns_intro (c : Thread nD τ) scM1 fullShare _); iexact HS0
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's named contents are forgotten. -/
theorem hout1 (c : Dev nD) : (dat1 V c).Φ (Fin.last cfg1.N) ⊢ (Pipeline.ΦA spec1 c : sProp 𝕄) := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht]
  refine (?_ : _ ⊢ (iprop(iprop((∃ d, owns (c : Thread nD τ) scM1 fullShare d) ∗ others1 c) ∗ (∃ r, prngReg c r)) : sProp 𝕄)).trans (PhiA1_in c)
  iintro ⟨⟨HS0, Hoth⟩, Hg⟩
  isplitr [Hg]
  · isplitl [HS0]; · iexists _; iexact HS0
    iexact Hoth
  iexact Hg

end Cert.Kernel.Hand

end
-- ==== Proof.Kernel.Assembly.lean ====
import proofs.«160032_j64836826300486_2_alg».proof.Proof.Kernel.Body0
import proofs.«160032_j64836826300486_2_alg».proof.Proof.Kernel.Body1
import proofs.«160032_j64836826300486_2_alg».proof.Proof.Gen.Kernel.Launch
import proofs.«160032_j64836826300486_2_alg».proof.Proof.Gen.Kernel.Points
import proofs.«160032_j64836826300486_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main, assembled from its two regions

@main is four items in order: a stretch of host operations (the two point clouds scaled by one), region 0, region 1
and a second stretch of host operations (the two regions' outputs reduced to the result). The buffer contents at
each boundary are a fold from the launch memory; each region is entered from every unscoped buffer held at its
boundary's contents and left with them at the next boundary's; the run theorem reads the result buffer and the two
arguments off the last boundary's contents. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit, which is region 1's entry: region 0's arrays at what its pipeline leaves, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: region 1's arrays at what its pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch: what the launch reads at the end. -/
abbrev W4 : Dev nD → Valuation τ sig (Elt F) := fun c => StableHlo.after hostOps2 (W3 m ρ c)

/-! ## The arguments end as launched

No host operation writes an argument and neither region has one among its arrays, so the fold at an argument's
buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left with them at `W2`. Its
    arrays are split out of the unscoped buffers at entry and put back at their exit contents; the generator register
    goes into the region's invariant through the class invariant and comes back out of it; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left with them at `W3`. Its
    arrays are split out of the unscoped buffers at entry and put back at their exit contents; the generator register
    goes into the region's invariant through the class invariant and comes back out of it; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has the result buffer at the last boundary's contents and the two
    argument arrays as launched. -/
theorem run_main : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c)⟩)

/-- THE FRAME: @main runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (run_main m ρ).mono fun r h c => (h c).2

/-! ## Reading the values

What the result buffer holds at the end, from the two regions' outputs; what each region finds in its input
arrays, from the launch memory. -/

/-- The second host stretch composed: each region's output (`d1` for region 0's, `d2` for region 1's) summed along
    its long axis and divided by that axis' length, the two added, summed over the batch and divided by its size. -/
def tailK (d1 d2 : (⟨S4x8192, .f32⟩ : BufTy).Contents (Elt F)) : (⟨S1, .f32⟩ : BufTy).Contents (Elt F) :=
  shapeCast S1
    (Host.divf
      (Host.reduceAdd
        (addf
          (Host.divf (Host.reduceAdd d1 (constant (F := F) S_ .f32 0x00000000#32) reducesTo_S4x8192_S4_d1 h_S_)
            (broadcastInDim S4 ![] bcast_S_S4 (constant (F := F) S_ .f32 0x46000000#32)))
          (Host.divf (Host.reduceAdd d2 (constant (F := F) S_ .f32 0x00000000#32) reducesTo_S4x8192_S4_d1 h_S_)
            (broadcastInDim S4 ![] bcast_S_S4 (constant (F := F) S_ .f32 0x46000000#32))))
        (constant (F := F) S_ .f32 0x00000000#32) reducesTo_S4_S_d0 h_S_)
      (constant (F := F) S_ .f32 0x40800000#32))
    shapeCasts_S_S1

/-- The result buffer at the end is the second host stretch applied to the two regions' outputs as region 1 leaves
    them. -/
theorem W4_main_v15 (c : Dev nD) : W4 m ρ c (Proc.devRef .tc main_v15)
    = tailK (W3 m ρ c (Proc.devRef .tc main_v4)) (W3 m ρ c (Proc.devRef .tc main_v5)) := by
  show StableHlo.after hostOps2 (W3 m ρ c) (Proc.devRef .tc main_v15) = _
  generalize W3 m ρ c = X
  after_results
  rfl

/-- Region 0's output is no array of region 1: at region 1's exit it is what region 0's pipeline left. -/
theorem W3_main_v4 (c : Dev nD) : W3 m ρ c (Proc.devRef .tc main_v4) = (dat0 (V1 m ρ) c).arrAt 2 cfg0.N :=
  (W3_of_ne m ρ c main_v4 (by decide)).trans (W2_arr m ρ c 2)

/-- Region 1's output at its exit is what its pipeline left. -/
theorem W3_main_v5 (c : Dev nD) : W3 m ρ c (Proc.devRef .tc main_v5) = (dat1 (V2 m ρ) c).arrAt 2 cfg1.N :=
  W3_arr m ρ c 2

/-- The first point cloud as region 0 finds it: the first argument times the constant one. -/
theorem V1_main_v1 (c : Dev nD) : V1 m ρ c main_v1
    = mulf (m ((c : Thread nD τ).loc main_arg0)) (broadcastInDim S4x8192x3 ![] bcast_S_S4x8192x3 (constant (F := F) S_ .f32 0x3F800000#32)) := by
  show StableHlo.after hostOps0 (W0 m ρ c) (Proc.devRef .tc main_v1) = _
  after_results

/-- The second point cloud as region 0 finds it: the second argument times the constant one. -/
theorem V1_main_v3 (c : Dev nD) : V1 m ρ c main_v3
    = mulf (m ((c : Thread nD τ).loc main_arg1)) (broadcastInDim S4x8192x3 ![] bcast_S_S4x8192x3 (constant (F := F) S_ .f32 0x3F800000#32)) := by
  show StableHlo.after hostOps0 (W0 m ρ c) (Proc.devRef .tc main_v3) = _
  after_results

/-- Region 0 leaves its input arrays as it found them: region 1 finds the first point cloud as region 0 did, -/
theorem V2_main_v1 (c : Dev nD) : V2 m ρ c main_v1 = V1 m ρ c main_v1 :=
  (W2_arr m ρ c 0).trans (((dat0 (V1 m ρ) c).arrAt_in 0 rfl _).trans (A_eq0 (V1 m ρ) c 0))

/-- and the second. -/
theorem V2_main_v3 (c : Dev nD) : V2 m ρ c main_v3 = V1 m ρ c main_v3 :=
  (W2_arr m ρ c 1).trans (((dat0 (V1 m ρ) c).arrAt_in 1 rfl _).trans (A_eq0 (V1 m ρ) c 1))

end Cert.Kernel.Hand

end
-- ==== Proof.KernelIdeal.LoopK0T1.lean ====
import proofs.«160032_j64836826300486_2_alg».proof.Proof.Gen.KernelIdeal.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 1 of kernel 0: batch 0, scratch row 0 -/

/-- Row 0 of the scratch as a memref of its own: what the trips of this batch load and store through. -/
abbrev k0_row0 (arg5 : Memref sig .tc .vmem S4x512 .f32) : Memref sig .tc .vmem S512 .f32 :=
  (arg5.slice (Rect.unit (s := S4x512) ![0, 0] S1x512.size inb_S4x512_S1x512_0_0) (fun _ => rfl)).squeeze S512 squeezes_S1x512_S512

theorem k0_row0_sub (arg5 : Memref sig .tc .vmem S4x512 .f32) : (k0_row0 arg5).view.set ⊆ arg5.view.set :=
  View.set_slice_subset _ _

/-- The scratch held whole is its row 0 beside the rest of it, at the same contents. -/
theorem k0_row0_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k0_row0 arg5).view.loc (c : Thread nD τ) ↦[(k0_row0 arg5).view.set]{fullShare} f)
        ∗ (arg5.view.loc (c : Thread nD τ) ↦[arg5.view.set \ (k0_row0 arg5).view.set]{fullShare} f)) :=
  (pointsTo_split_subset (k0_row0_sub arg5)).1

/-- The row written and the rest of the scratch untouched make the scratch written through the row. -/
theorem k0_row0_rejoin (c : Dev nD) (arg5 : Memref sig .tc .vmem S4x512 .f32) (f : BufTy.Contents (Elt F) arg5.view.ty) (L : List (View.Piece (Elt F) S512 .f32)) :
    iprop(((k0_row0 arg5).view.loc (c : Thread nD τ) ↦[(k0_row0 arg5).view.set]{fullShare} ((k0_row0 arg5).view.writes (Elt F) f L))
        ∗ (arg5.view.loc (c : Thread nD τ) ↦[arg5.view.set \ (k0_row0 arg5).view.set]{fullShare} f))
      ⊢ (arg5.view.loc (c : Thread nD τ) ↦[arg5.view.set]{fullShare} ((k0_row0 arg5).view.writes (Elt F) f L) : sProp 𝕄G) := by
  have e : (arg5.view.loc (c : Thread nD τ) ↦[arg5.view.set \ (k0_row0 arg5).view.set]{fullShare} f : sProp 𝕄G)
      = (arg5.view.loc (c : Thread nD τ) ↦[arg5.view.set \ (k0_row0 arg5).view.set]{fullShare} ((k0_row0 arg5).view.writes (Elt F) f L)) :=
    pointsTo_congr (fun i hi => (writes_outside (k0_row0 arg5).view f L (Finset.mem_sdiff.mp hi).2).symm)
  rw [e]
  exact (pointsTo_split_subset (k0_row0_sub arg5)).2

/-- One trip's resources: the query block read at its contents, the scratch row at any. -/
abbrev Trip_k0_t1 (c : Dev nD) (arg2 : Memref sig .tc .vmem S4x512x3 .f32) (arg5 : Memref sig .tc .vmem S4x512 .f32) (X_arg2 : BufTy.Contents (Elt F) arg2.view.ty) (f_row : BufTy.Contents (Elt F) (k0_row0 arg5).view.ty) : sProp 𝕄G :=
  iprop((arg2.view.loc (c : Thread nD τ) ↦[arg2.view.set]{fullShare} X_arg2) ∗ ((k0_row0 arg5).view.loc (c : Thread nD τ) ↦[(k0_row0 arg5).view.set]{fullShare} f_row))

/-- One trip at a symbolic trip number: it loads a chunk of 128 queries and the same chunk of the scratch row and stores
    the chunk back; the piece it writes is what the run finds, as a function of the contents the trip meets. -/
@[irreducible] def trip_k0_t1 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k0_t1_loop.trips) :
    { L_row : (BufTy.Contents (Elt F) (k0_row0 arg5).view.ty → List (View.Piece (Elt F) S512 .f32)) // ∀ (E : Set ℕ) (f_row : BufTy.Contents (Elt F) (k0_row0 arg5).view.ty),
      Trip_k0_t1 (F := F) c arg2 arg5 X_arg2 f_row
      ⊢ wp frame (wpE (defs₀ (F := F)) 𝒱 (c : Thread nD τ) bd) E (k0_t1_body (F := F) i arg2 harg2 arg3 harg3 arg4 harg4 arg5 harg5 v3 k PUnit.unit)
          (fun _ => Trip_k0_t1 (F := F) c arg2 arg5 X_arg2 ((k0_row0 arg5).view.writes (Elt F) f_row (L_row f_row))) } := by
  have hk : k.val < 4 := Nat.lt_of_lt_of_le k.isLt k0_t1_abs.2.1
  refine ⟨?_, fun E f_row => ?run⟩
  case run =>
    unfold k0_t1_body
    iintro ⟨HR_arg2, HW_row⟩
    sl_exec
    sl_step
    sl_close

abbrev tripL_k0_t1 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k0_t1_loop.trips) (f_row : BufTy.Contents (Elt F) (k0_row0 arg5).view.ty) : List (View.Piece (Elt F) S512 .f32) :=
  (trip_k0_t1 (F := F) 𝒱 c bd i arg2 harg2 arg3 harg3 arg4 harg4 arg5 harg5 v3 X_arg2 k).1 f_row

@[irreducible] def pb_k0_t1Step (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k0_row0 arg5).view.ty) (k : ℕ) (prev : List (View.Piece (Elt F) S512 .f32)) : List (View.Piece (Elt F) S512 .f32) :=
  if h : k < k0_t1_loop.trips then
    (tripL_k0_t1 (F := F) 𝒱 c bd i arg2 harg2 arg3 harg3 arg4 harg4 arg5 harg5 v3 X_arg2 ⟨k, h⟩ ((k0_row0 arg5).view.writes (Elt F) G_arg5 prev)) ++ prev
  else prev

/-- The pieces of the trips before `k` (last first), each taken at the contents the earlier trips left. -/
def pb_k0_t1 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k0_row0 arg5).view.ty) : ℕ → List (View.Piece (Elt F) S512 .f32)
  | 0 => []
  | k + 1 => pb_k0_t1Step 𝒱 c bd i arg2 harg2 arg3 harg3 arg4 harg4 arg5 harg5 v3 X_arg2 G_arg5 k (pb_k0_t1 𝒱 c bd i arg2 harg2 arg3 harg3 arg4 harg4 arg5 harg5 v3 X_arg2 G_arg5 k)

theorem pb_k0_t1_succ (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k0_row0 arg5).view.ty) (k : Fin k0_t1_loop.trips) :
    pb_k0_t1 (F := F) 𝒱 c bd i arg2 harg2 arg3 harg3 arg4 harg4 arg5 harg5 v3 X_arg2 G_arg5 (k.val + 1)
      = (tripL_k0_t1 (F := F) 𝒱 c bd i arg2 harg2 arg3 harg3 arg4 harg4 arg5 harg5 v3 X_arg2 k ((k0_row0 arg5).view.writes (Elt F) G_arg5 (pb_k0_t1 (F := F) 𝒱 c bd i arg2 harg2 arg3 harg3 arg4 harg4 arg5 harg5 v3 X_arg2 G_arg5 k.val))) ++ (pb_k0_t1 (F := F) 𝒱 c bd i arg2 harg2 arg3 harg3 arg4 harg4 arg5 harg5 v3 X_arg2 G_arg5 k.val) := by
  rw [pb_k0_t1.eq_2]; unfold pb_k0_t1Step; exact dif_pos k.isLt

/-- The invariant before trip `k`: the query block at its contents; the whole scratch holding the pieces of the trips
    before `k` written through row 0 over the contents at loop entry. -/
abbrev inv_k0_t1 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k0_row0 arg5).view.writes (Elt F) G_arg5 (pb_k0_t1 (F := F) 𝒱 c bd i arg2 harg2 arg3 harg3 arg4 harg4 arg5 harg5 v3 X_arg2 G_arg5 k)⌝))

set_option warn.classDefReducibility false in
/-- The loop by its invariant: a trip splits row 0 off the scratch, runs on it, and puts it back. -/
@[sl_loop] def loopInv_k0_t1 (𝒱 : Variants) (c : Dev nD) (bd : Option 𝒱.V) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) arg5.view.ty) :
    LoopInvTy_k0_t1 (F := F) Unit ℕ (UR sig nD τ) ℕ 𝒱 c bd E i arg2 harg2 arg3 harg3 arg4 harg4 arg5 harg5 v3 where
  inv := inv_k0_t1 (F := F) 𝒱 c bd i arg2 harg2 arg3 harg3 arg4 harg4 arg5 harg5 v3 X_arg2 G_arg5
  step k acc := by
    iintro ⟨HR_arg2, ⟨%f_arg5, HW_arg5, %h_arg5⟩⟩
    ihave Hs := (k0_row0_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k0_t1 (F := F) 𝒱 c bd i arg2 harg2 arg3 harg3 arg4 harg4 arg5 harg5 v3 X_arg2 k).2 E f_arg5)
      isplitl [HR_arg2]; · iexact HR_arg2
      iexact HW_row
    · iintro %_ ⟨HR_arg2, HW_row⟩
      isplitl [HR_arg2]; · iexact HR_arg2
      rw [pb_k0_t1_succ]
      iexists _; isplitl [HW_row HW_rest]
      · iapply (k0_row0_rejoin (F := F) c arg5 f_arg5 _)
        isplitl [HW_row]; · iexact HW_row
        iexact HW_rest
      ipureintro; rw [h_arg5, ← View.writes_append]

end Cert.KernelIdeal.Hand

end
-- ==== Proof.KernelIdeal.LoopK0T2.lean ====
import proofs.«160032_j64836826300486_2_alg».proof.Proof.Gen.KernelIdeal.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 2 of kernel 0: batch 1, scratch row 1 -/

/-- Row 1 of the scratch as a memref of its own: what the trips of this batch load and store through. -/
abbrev k0_row1 (arg5 : Memref sig .tc .vmem S4x512 .f32) : Memref sig .tc .vmem S512 .f32 :=
  (arg5.slice (Rect.unit (s := S4x512) ![1, 0] S1x512.size inb_S4x512_S1x512_1_0) (fun _ => rfl)).squeeze S512 squeezes_S1x512_S512

theorem k0_row1_sub (arg5 : Memref sig .tc .vmem S4x512 .f32) : (k0_row1 arg5).view.set ⊆ arg5.view.set :=
  View.set_slice_subset _ _

/-- The scratch held whole is its row 1 beside the rest of it, at the same contents. -/
theorem k0_row1_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k0_row1 arg5).view.loc (c : Thread nD τ) ↦[(k0_row1 arg5).view.set]{fullShare} f)
        ∗ (arg5.view.loc (c : Thread nD τ) ↦[arg5.view.set \ (k0_row1 arg5).view.set]{fullShare} f)) :=
  (pointsTo_split_subset (k0_row1_sub arg5)).1

/-- The row written and the rest of the scratch untouched make the scratch written through the row. -/
theorem k0_row1_rejoin (c : Dev nD) (arg5 : Memref sig .tc .vmem S4x512 .f32) (f : BufTy.Contents (Elt F) arg5.view.ty) (L : List (View.Piece (Elt F) S512 .f32)) :
    iprop(((k0_row1 arg5).view.loc (c : Thread nD τ) ↦[(k0_row1 arg5).view.set]{fullShare} ((k0_row1 arg5).view.writes (Elt F) f L))
        ∗ (arg5.view.loc (c : Thread nD τ) ↦[arg5.view.set \ (k0_row1 arg5).view.set]{fullShare} f))
      ⊢ (arg5.view.loc (c : Thread nD τ) ↦[arg5.view.set]{fullShare} ((k0_row1 arg5).view.writes (Elt F) f L) : sProp 𝕄G) := by
  have e : (arg5.view.loc (c : Thread nD τ) ↦[arg5.view.set \ (k0_row1 arg5).view.set]{fullShare} f : sProp 𝕄G)
      = (arg5.view.loc (c : Thread nD τ) ↦[arg5.view.set \ (k0_row1 arg5).view.set]{fullShare} ((k0_row1 arg5).view.writes (Elt F) f L)) :=
    pointsTo_congr (fun i hi => (writes_outside (k0_row1 arg5).view f L (Finset.mem_sdiff.mp hi).2).symm)
  rw [e]
  exact (pointsTo_split_subset (k0_row1_sub arg5)).2

/-- One trip's resources: the query block read at its contents, the scratch row at any. -/
abbrev Trip_k0_t2 (c : Dev nD) (arg2 : Memref sig .tc .vmem S4x512x3 .f32) (arg5 : Memref sig .tc .vmem S4x512 .f32) (X_arg2 : BufTy.Contents (Elt F) arg2.view.ty) (f_row : BufTy.Contents (Elt F) (k0_row1 arg5).view.ty) : sProp 𝕄G :=
  iprop((arg2.view.loc (c : Thread nD τ) ↦[arg2.view.set]{fullShare} X_arg2) ∗ ((k0_row1 arg5).view.loc (c : Thread nD τ) ↦[(k0_row1 arg5).view.set]{fullShare} f_row))

/-- One trip at a symbolic trip number: it loads a chunk of 128 queries and the same chunk of the scratch row and stores
    the chunk back; the piece it writes is what the run finds, as a function of the contents the trip meets. -/
@[irreducible] def trip_k0_t2 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k0_t2_loop.trips) :
    { L_row : (BufTy.Contents (Elt F) (k0_row1 arg5).view.ty → List (View.Piece (Elt F) S512 .f32)) // ∀ (E : Set ℕ) (f_row : BufTy.Contents (Elt F) (k0_row1 arg5).view.ty),
      Trip_k0_t2 (F := F) c arg2 arg5 X_arg2 f_row
      ⊢ wp frame (wpE (defs₀ (F := F)) 𝒱 (c : Thread nD τ) bd) E (k0_t2_body (F := F) i arg2 harg2 arg3 harg3 arg4 harg4 arg5 harg5 v17 k PUnit.unit)
          (fun _ => Trip_k0_t2 (F := F) c arg2 arg5 X_arg2 ((k0_row1 arg5).view.writes (Elt F) f_row (L_row f_row))) } := by
  have hk : k.val < 4 := Nat.lt_of_lt_of_le k.isLt k0_t2_abs.2.1
  refine ⟨?_, fun E f_row => ?run⟩
  case run =>
    unfold k0_t2_body
    iintro ⟨HR_arg2, HW_row⟩
    sl_exec
    sl_step
    sl_close

abbrev tripL_k0_t2 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k0_t2_loop.trips) (f_row : BufTy.Contents (Elt F) (k0_row1 arg5).view.ty) : List (View.Piece (Elt F) S512 .f32) :=
  (trip_k0_t2 (F := F) 𝒱 c bd i arg2 harg2 arg3 harg3 arg4 harg4 arg5 harg5 v17 X_arg2 k).1 f_row

@[irreducible] def pb_k0_t2Step (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k0_row1 arg5).view.ty) (k : ℕ) (prev : List (View.Piece (Elt F) S512 .f32)) : List (View.Piece (Elt F) S512 .f32) :=
  if h : k < k0_t2_loop.trips then
    (tripL_k0_t2 (F := F) 𝒱 c bd i arg2 harg2 arg3 harg3 arg4 harg4 arg5 harg5 v17 X_arg2 ⟨k, h⟩ ((k0_row1 arg5).view.writes (Elt F) G_arg5 prev)) ++ prev
  else prev

/-- The pieces of the trips before `k` (last first), each taken at the contents the earlier trips left. -/
def pb_k0_t2 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k0_row1 arg5).view.ty) : ℕ → List (View.Piece (Elt F) S512 .f32)
  | 0 => []
  | k + 1 => pb_k0_t2Step 𝒱 c bd i arg2 harg2 arg3 harg3 arg4 harg4 arg5 harg5 v17 X_arg2 G_arg5 k (pb_k0_t2 𝒱 c bd i arg2 harg2 arg3 harg3 arg4 harg4 arg5 harg5 v17 X_arg2 G_arg5 k)

theorem pb_k0_t2_succ (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k0_row1 arg5).view.ty) (k : Fin k0_t2_loop.trips) :
    pb_k0_t2 (F := F) 𝒱 c bd i arg2 harg2 arg3 harg3 arg4 harg4 arg5 harg5 v17 X_arg2 G_arg5 (k.val + 1)
      = (tripL_k0_t2 (F := F) 𝒱 c bd i arg2 harg2 arg3 harg3 arg4 harg4 arg5 harg5 v17 X_arg2 k ((k0_row1 arg5).view.writes (Elt F) G_arg5 (pb_k0_t2 (F := F) 𝒱 c bd i arg2 harg2 arg3 harg3 arg4 harg4 arg5 harg5 v17 X_arg2 G_arg5 k.val))) ++ (pb_k0_t2 (F := F) 𝒱 c bd i arg2 harg2 arg3 harg3 arg4 harg4 arg5 harg5 v17 X_arg2 G_arg5 k.val) := by
  rw [pb_k0_t2.eq_2]; unfold pb_k0_t2Step; exact dif_pos k.isLt

/-- The invariant before trip `k`: the query block at its contents; the whole scratch holding the pieces of the trips
    before `k` written through row 1 over the contents at loop entry. -/
abbrev inv_k0_t2 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k0_row1 arg5).view.writes (Elt F) G_arg5 (pb_k0_t2 (F := F) 𝒱 c bd i arg2 harg2 arg3 harg3 arg4 harg4 arg5 harg5 v17 X_arg2 G_arg5 k)⌝))

set_option warn.classDefReducibility false in
/-- The loop by its invariant: a trip splits row 1 off the scratch, runs on it, and puts it back. -/
@[sl_loop] def loopInv_k0_t2 (𝒱 : Variants) (c : Dev nD) (bd : Option 𝒱.V) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) arg5.view.ty) :
    LoopInvTy_k0_t2 (F := F) Unit ℕ (UR sig nD τ) ℕ 𝒱 c bd E i arg2 harg2 arg3 harg3 arg4 harg4 arg5 harg5 v17 where
  inv := inv_k0_t2 (F := F) 𝒱 c bd i arg2 harg2 arg3 harg3 arg4 harg4 arg5 harg5 v17 X_arg2 G_arg5
  step k acc := by
    iintro ⟨HR_arg2, ⟨%f_arg5, HW_arg5, %h_arg5⟩⟩
    ihave Hs := (k0_row1_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k0_t2 (F := F) 𝒱 c bd i arg2 harg2 arg3 harg3 arg4 harg4 arg5 harg5 v17 X_arg2 k).2 E f_arg5)
      isplitl [HR_arg2]; · iexact HR_arg2
      iexact HW_row
    · iintro %_ ⟨HR_arg2, HW_row⟩
      isplitl [HR_arg2]; · iexact HR_arg2
      rw [pb_k0_t2_succ]
      iexists _; isplitl [HW_row HW_rest]
      · iapply (k0_row1_rejoin (F := F) c arg5 f_arg5 _)
        isplitl [HW_row]; · iexact HW_row
        iexact HW_rest
      ipureintro; rw [h_arg5, ← View.writes_append]

end Cert.KernelIdeal.Hand

end
-- ==== Proof.KernelIdeal.LoopK0T3.lean ====
import proofs.«160032_j64836826300486_2_alg».proof.Proof.Gen.KernelIdeal.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 3 of kernel 0: batch 2, scratch row 2 -/

/-- Row 2 of the scratch as a memref of its own: what the trips of this batch load and store through. -/
abbrev k0_row2 (arg5 : Memref sig .tc .vmem S4x512 .f32) : Memref sig .tc .vmem S512 .f32 :=
  (arg5.slice (Rect.unit (s := S4x512) ![2, 0] S1x512.size inb_S4x512_S1x512_2_0) (fun _ => rfl)).squeeze S512 squeezes_S1x512_S512

theorem k0_row2_sub (arg5 : Memref sig .tc .vmem S4x512 .f32) : (k0_row2 arg5).view.set ⊆ arg5.view.set :=
  View.set_slice_subset _ _

/-- The scratch held whole is its row 2 beside the rest of it, at the same contents. -/
theorem k0_row2_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k0_row2 arg5).view.loc (c : Thread nD τ) ↦[(k0_row2 arg5).view.set]{fullShare} f)
        ∗ (arg5.view.loc (c : Thread nD τ) ↦[arg5.view.set \ (k0_row2 arg5).view.set]{fullShare} f)) :=
  (pointsTo_split_subset (k0_row2_sub arg5)).1

/-- The row written and the rest of the scratch untouched make the scratch written through the row. -/
theorem k0_row2_rejoin (c : Dev nD) (arg5 : Memref sig .tc .vmem S4x512 .f32) (f : BufTy.Contents (Elt F) arg5.view.ty) (L : List (View.Piece (Elt F) S512 .f32)) :
    iprop(((k0_row2 arg5).view.loc (c : Thread nD τ) ↦[(k0_row2 arg5).view.set]{fullShare} ((k0_row2 arg5).view.writes (Elt F) f L))
        ∗ (arg5.view.loc (c : Thread nD τ) ↦[arg5.view.set \ (k0_row2 arg5).view.set]{fullShare} f))
      ⊢ (arg5.view.loc (c : Thread nD τ) ↦[arg5.view.set]{fullShare} ((k0_row2 arg5).view.writes (Elt F) f L) : sProp 𝕄G) := by
  have e : (arg5.view.loc (c : Thread nD τ) ↦[arg5.view.set \ (k0_row2 arg5).view.set]{fullShare} f : sProp 𝕄G)
      = (arg5.view.loc (c : Thread nD τ) ↦[arg5.view.set \ (k0_row2 arg5).view.set]{fullShare} ((k0_row2 arg5).view.writes (Elt F) f L)) :=
    pointsTo_congr (fun i hi => (writes_outside (k0_row2 arg5).view f L (Finset.mem_sdiff.mp hi).2).symm)
  rw [e]
  exact (pointsTo_split_subset (k0_row2_sub arg5)).2

/-- One trip's resources: the query block read at its contents, the scratch row at any. -/
abbrev Trip_k0_t3 (c : Dev nD) (arg2 : Memref sig .tc .vmem S4x512x3 .f32) (arg5 : Memref sig .tc .vmem S4x512 .f32) (X_arg2 : BufTy.Contents (Elt F) arg2.view.ty) (f_row : BufTy.Contents (Elt F) (k0_row2 arg5).view.ty) : sProp 𝕄G :=
  iprop((arg2.view.loc (c : Thread nD τ) ↦[arg2.view.set]{fullShare} X_arg2) ∗ ((k0_row2 arg5).view.loc (c : Thread nD τ) ↦[(k0_row2 arg5).view.set]{fullShare} f_row))

/-- One trip at a symbolic trip number: it loads a chunk of 128 queries and the same chunk of the scratch row and stores
    the chunk back; the piece it writes is what the run finds, as a function of the contents the trip meets. -/
@[irreducible] def trip_k0_t3 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k0_t3_loop.trips) :
    { L_row : (BufTy.Contents (Elt F) (k0_row2 arg5).view.ty → List (View.Piece (Elt F) S512 .f32)) // ∀ (E : Set ℕ) (f_row : BufTy.Contents (Elt F) (k0_row2 arg5).view.ty),
      Trip_k0_t3 (F := F) c arg2 arg5 X_arg2 f_row
      ⊢ wp frame (wpE (defs₀ (F := F)) 𝒱 (c : Thread nD τ) bd) E (k0_t3_body (F := F) i arg2 harg2 arg3 harg3 arg4 harg4 arg5 harg5 v31 k PUnit.unit)
          (fun _ => Trip_k0_t3 (F := F) c arg2 arg5 X_arg2 ((k0_row2 arg5).view.writes (Elt F) f_row (L_row f_row))) } := by
  have hk : k.val < 4 := Nat.lt_of_lt_of_le k.isLt k0_t3_abs.2.1
  refine ⟨?_, fun E f_row => ?run⟩
  case run =>
    unfold k0_t3_body
    iintro ⟨HR_arg2, HW_row⟩
    sl_exec
    sl_step
    sl_close

abbrev tripL_k0_t3 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k0_t3_loop.trips) (f_row : BufTy.Contents (Elt F) (k0_row2 arg5).view.ty) : List (View.Piece (Elt F) S512 .f32) :=
  (trip_k0_t3 (F := F) 𝒱 c bd i arg2 harg2 arg3 harg3 arg4 harg4 arg5 harg5 v31 X_arg2 k).1 f_row

@[irreducible] def pb_k0_t3Step (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k0_row2 arg5).view.ty) (k : ℕ) (prev : List (View.Piece (Elt F) S512 .f32)) : List (View.Piece (Elt F) S512 .f32) :=
  if h : k < k0_t3_loop.trips then
    (tripL_k0_t3 (F := F) 𝒱 c bd i arg2 harg2 arg3 harg3 arg4 harg4 arg5 harg5 v31 X_arg2 ⟨k, h⟩ ((k0_row2 arg5).view.writes (Elt F) G_arg5 prev)) ++ prev
  else prev

/-- The pieces of the trips before `k` (last first), each taken at the contents the earlier trips left. -/
def pb_k0_t3 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k0_row2 arg5).view.ty) : ℕ → List (View.Piece (Elt F) S512 .f32)
  | 0 => []
  | k + 1 => pb_k0_t3Step 𝒱 c bd i arg2 harg2 arg3 harg3 arg4 harg4 arg5 harg5 v31 X_arg2 G_arg5 k (pb_k0_t3 𝒱 c bd i arg2 harg2 arg3 harg3 arg4 harg4 arg5 harg5 v31 X_arg2 G_arg5 k)

theorem pb_k0_t3_succ (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k0_row2 arg5).view.ty) (k : Fin k0_t3_loop.trips) :
    pb_k0_t3 (F := F) 𝒱 c bd i arg2 harg2 arg3 harg3 arg4 harg4 arg5 harg5 v31 X_arg2 G_arg5 (k.val + 1)
      = (tripL_k0_t3 (F := F) 𝒱 c bd i arg2 harg2 arg3 harg3 arg4 harg4 arg5 harg5 v31 X_arg2 k ((k0_row2 arg5).view.writes (Elt F) G_arg5 (pb_k0_t3 (F := F) 𝒱 c bd i arg2 harg2 arg3 harg3 arg4 harg4 arg5 harg5 v31 X_arg2 G_arg5 k.val))) ++ (pb_k0_t3 (F := F) 𝒱 c bd i arg2 harg2 arg3 harg3 arg4 harg4 arg5 harg5 v31 X_arg2 G_arg5 k.val) := by
  rw [pb_k0_t3.eq_2]; unfold pb_k0_t3Step; exact dif_pos k.isLt

/-- The invariant before trip `k`: the query block at its contents; the whole scratch holding the pieces of the trips
    before `k` written through row 2 over the contents at loop entry. -/
abbrev inv_k0_t3 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k0_row2 arg5).view.writes (Elt F) G_arg5 (pb_k0_t3 (F := F) 𝒱 c bd i arg2 harg2 arg3 harg3 arg4 harg4 arg5 harg5 v31 X_arg2 G_arg5 k)⌝))

set_option warn.classDefReducibility false in
/-- The loop by its invariant: a trip splits row 2 off the scratch, runs on it, and puts it back. -/
@[sl_loop] def loopInv_k0_t3 (𝒱 : Variants) (c : Dev nD) (bd : Option 𝒱.V) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) arg5.view.ty) :
    LoopInvTy_k0_t3 (F := F) Unit ℕ (UR sig nD τ) ℕ 𝒱 c bd E i arg2 harg2 arg3 harg3 arg4 harg4 arg5 harg5 v31 where
  inv := inv_k0_t3 (F := F) 𝒱 c bd i arg2 harg2 arg3 harg3 arg4 harg4 arg5 harg5 v31 X_arg2 G_arg5
  step k acc := by
    iintro ⟨HR_arg2, ⟨%f_arg5, HW_arg5, %h_arg5⟩⟩
    ihave Hs := (k0_row2_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k0_t3 (F := F) 𝒱 c bd i arg2 harg2 arg3 harg3 arg4 harg4 arg5 harg5 v31 X_arg2 k).2 E f_arg5)
      isplitl [HR_arg2]; · iexact HR_arg2
      iexact HW_row
    · iintro %_ ⟨HR_arg2, HW_row⟩
      isplitl [HR_arg2]; · iexact HR_arg2
      rw [pb_k0_t3_succ]
      iexists _; isplitl [HW_row HW_rest]
      · iapply (k0_row2_rejoin (F := F) c arg5 f_arg5 _)
        isplitl [HW_row]; · iexact HW_row
        iexact HW_rest
      ipureintro; rw [h_arg5, ← View.writes_append]

end Cert.KernelIdeal.Hand

end
-- ==== Proof.KernelIdeal.LoopK0T4.lean ====
import proofs.«160032_j64836826300486_2_alg».proof.Proof.Gen.KernelIdeal.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 4 of kernel 0: batch 3, scratch row 3 -/

/-- Row 3 of the scratch as a memref of its own: what the trips of this batch load and store through. -/
abbrev k0_row3 (arg5 : Memref sig .tc .vmem S4x512 .f32) : Memref sig .tc .vmem S512 .f32 :=
  (arg5.slice (Rect.unit (s := S4x512) ![3, 0] S1x512.size inb_S4x512_S1x512_3_0) (fun _ => rfl)).squeeze S512 squeezes_S1x512_S512

theorem k0_row3_sub (arg5 : Memref sig .tc .vmem S4x512 .f32) : (k0_row3 arg5).view.set ⊆ arg5.view.set :=
  View.set_slice_subset _ _

/-- The scratch held whole is its row 3 beside the rest of it, at the same contents. -/
theorem k0_row3_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k0_row3 arg5).view.loc (c : Thread nD τ) ↦[(k0_row3 arg5).view.set]{fullShare} f)
        ∗ (arg5.view.loc (c : Thread nD τ) ↦[arg5.view.set \ (k0_row3 arg5).view.set]{fullShare} f)) :=
  (pointsTo_split_subset (k0_row3_sub arg5)).1

/-- The row written and the rest of the scratch untouched make the scratch written through the row. -/
theorem k0_row3_rejoin (c : Dev nD) (arg5 : Memref sig .tc .vmem S4x512 .f32) (f : BufTy.Contents (Elt F) arg5.view.ty) (L : List (View.Piece (Elt F) S512 .f32)) :
    iprop(((k0_row3 arg5).view.loc (c : Thread nD τ) ↦[(k0_row3 arg5).view.set]{fullShare} ((k0_row3 arg5).view.writes (Elt F) f L))
        ∗ (arg5.view.loc (c : Thread nD τ) ↦[arg5.view.set \ (k0_row3 arg5).view.set]{fullShare} f))
      ⊢ (arg5.view.loc (c : Thread nD τ) ↦[arg5.view.set]{fullShare} ((k0_row3 arg5).view.writes (Elt F) f L) : sProp 𝕄G) := by
  have e : (arg5.view.loc (c : Thread nD τ) ↦[arg5.view.set \ (k0_row3 arg5).view.set]{fullShare} f : sProp 𝕄G)
      = (arg5.view.loc (c : Thread nD τ) ↦[arg5.view.set \ (k0_row3 arg5).view.set]{fullShare} ((k0_row3 arg5).view.writes (Elt F) f L)) :=
    pointsTo_congr (fun i hi => (writes_outside (k0_row3 arg5).view f L (Finset.mem_sdiff.mp hi).2).symm)
  rw [e]
  exact (pointsTo_split_subset (k0_row3_sub arg5)).2

/-- One trip's resources: the query block read at its contents, the scratch row at any. -/
abbrev Trip_k0_t4 (c : Dev nD) (arg2 : Memref sig .tc .vmem S4x512x3 .f32) (arg5 : Memref sig .tc .vmem S4x512 .f32) (X_arg2 : BufTy.Contents (Elt F) arg2.view.ty) (f_row : BufTy.Contents (Elt F) (k0_row3 arg5).view.ty) : sProp 𝕄G :=
  iprop((arg2.view.loc (c : Thread nD τ) ↦[arg2.view.set]{fullShare} X_arg2) ∗ ((k0_row3 arg5).view.loc (c : Thread nD τ) ↦[(k0_row3 arg5).view.set]{fullShare} f_row))

/-- One trip at a symbolic trip number: it loads a chunk of 128 queries and the same chunk of the scratch row and stores
    the chunk back; the piece it writes is what the run finds, as a function of the contents the trip meets. -/
@[irreducible] def trip_k0_t4 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k0_t4_loop.trips) :
    { L_row : (BufTy.Contents (Elt F) (k0_row3 arg5).view.ty → List (View.Piece (Elt F) S512 .f32)) // ∀ (E : Set ℕ) (f_row : BufTy.Contents (Elt F) (k0_row3 arg5).view.ty),
      Trip_k0_t4 (F := F) c arg2 arg5 X_arg2 f_row
      ⊢ wp frame (wpE (defs₀ (F := F)) 𝒱 (c : Thread nD τ) bd) E (k0_t4_body (F := F) i arg2 harg2 arg3 harg3 arg4 harg4 arg5 harg5 v45 k PUnit.unit)
          (fun _ => Trip_k0_t4 (F := F) c arg2 arg5 X_arg2 ((k0_row3 arg5).view.writes (Elt F) f_row (L_row f_row))) } := by
  have hk : k.val < 4 := Nat.lt_of_lt_of_le k.isLt k0_t4_abs.2.1
  refine ⟨?_, fun E f_row => ?run⟩
  case run =>
    unfold k0_t4_body
    iintro ⟨HR_arg2, HW_row⟩
    sl_exec
    sl_step
    sl_close

abbrev tripL_k0_t4 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k0_t4_loop.trips) (f_row : BufTy.Contents (Elt F) (k0_row3 arg5).view.ty) : List (View.Piece (Elt F) S512 .f32) :=
  (trip_k0_t4 (F := F) 𝒱 c bd i arg2 harg2 arg3 harg3 arg4 harg4 arg5 harg5 v45 X_arg2 k).1 f_row

@[irreducible] def pb_k0_t4Step (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k0_row3 arg5).view.ty) (k : ℕ) (prev : List (View.Piece (Elt F) S512 .f32)) : List (View.Piece (Elt F) S512 .f32) :=
  if h : k < k0_t4_loop.trips then
    (tripL_k0_t4 (F := F) 𝒱 c bd i arg2 harg2 arg3 harg3 arg4 harg4 arg5 harg5 v45 X_arg2 ⟨k, h⟩ ((k0_row3 arg5).view.writes (Elt F) G_arg5 prev)) ++ prev
  else prev

/-- The pieces of the trips before `k` (last first), each taken at the contents the earlier trips left. -/
def pb_k0_t4 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k0_row3 arg5).view.ty) : ℕ → List (View.Piece (Elt F) S512 .f32)
  | 0 => []
  | k + 1 => pb_k0_t4Step 𝒱 c bd i arg2 harg2 arg3 harg3 arg4 harg4 arg5 harg5 v45 X_arg2 G_arg5 k (pb_k0_t4 𝒱 c bd i arg2 harg2 arg3 harg3 arg4 harg4 arg5 harg5 v45 X_arg2 G_arg5 k)

theorem pb_k0_t4_succ (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k0_row3 arg5).view.ty) (k : Fin k0_t4_loop.trips) :
    pb_k0_t4 (F := F) 𝒱 c bd i arg2 harg2 arg3 harg3 arg4 harg4 arg5 harg5 v45 X_arg2 G_arg5 (k.val + 1)
      = (tripL_k0_t4 (F := F) 𝒱 c bd i arg2 harg2 arg3 harg3 arg4 harg4 arg5 harg5 v45 X_arg2 k ((k0_row3 arg5).view.writes (Elt F) G_arg5 (pb_k0_t4 (F := F) 𝒱 c bd i arg2 harg2 arg3 harg3 arg4 harg4 arg5 harg5 v45 X_arg2 G_arg5 k.val))) ++ (pb_k0_t4 (F := F) 𝒱 c bd i arg2 harg2 arg3 harg3 arg4 harg4 arg5 harg5 v45 X_arg2 G_arg5 k.val) := by
  rw [pb_k0_t4.eq_2]; unfold pb_k0_t4Step; exact dif_pos k.isLt

/-- The invariant before trip `k`: the query block at its contents; the whole scratch holding the pieces of the trips
    before `k` written through row 3 over the contents at loop entry. -/
abbrev inv_k0_t4 (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k0_row3 arg5).view.writes (Elt F) G_arg5 (pb_k0_t4 (F := F) 𝒱 c bd i arg2 harg2 arg3 harg3 arg4 harg4 arg5 harg5 v45 X_arg2 G_arg5 k)⌝))

set_option warn.classDefReducibility false in
/-- The loop by its invariant: a trip splits row 3 off the scratch, runs on it, and puts it back. -/
@[sl_loop] def loopInv_k0_t4 (𝒱 : Variants) (c : Dev nD) (bd : Option 𝒱.V) (E : Set ℕ) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) arg5.view.ty) :
    LoopInvTy_k0_t4 (F := F) Unit ℕ (UR sig nD τ) ℕ 𝒱 c bd E i arg2 harg2 arg3 harg3 arg4 harg4 arg5 harg5 v45 where
  inv := inv_k0_t4 (F := F) 𝒱 c bd i arg2 harg2 arg3 harg3 arg4 harg4 arg5 harg5 v45 X_arg2 G_arg5
  step k acc := by
    iintro ⟨HR_arg2, ⟨%f_arg5, HW_arg5, %h_arg5⟩⟩
    ihave Hs := (k0_row3_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k0_t4 (F := F) 𝒱 c bd i arg2 harg2 arg3 harg3 arg4 harg4 arg5 harg5 v45 X_arg2 k).2 E f_arg5)
      isplitl [HR_arg2]; · iexact HR_arg2
      iexact HW_row
    · iintro %_ ⟨HR_arg2, HW_row⟩
      isplitl [HR_arg2]; · iexact HR_arg2
      rw [pb_k0_t4_succ]
      iexists _; isplitl [HW_row HW_rest]
      · iapply (k0_row3_rejoin (F := F) c arg5 f_arg5 _)
        isplitl [HW_row]; · iexact HW_row
        iexact HW_rest
      ipureintro; rw [h_arg5, ← View.writes_append]

end Cert.KernelIdeal.Hand

end
-- ==== Proof.KernelIdeal.Scoped0.lean ====
import proofs.«160032_j64836826300486_2_alg».proof.Proof.Gen.KernelIdeal.Launch
import Idealize.ShloMosaic.Lib.Pipeline.FrameBody
import Idealize.ShloMosaic.Lib.Tactic

/-! Kernel 0's scratch among the core's scoped buffers.

What the launch hands a region beside its windows is every scoped buffer that is no staging buffer of the region, each
whole at some contents, and the generator register. This kernel's scratch is one of them; the body needs it as a memref
it owns, the others ride along untouched. The two entailments below pull the scratch out and put it back. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Kernel 0's scratch, whole. -/
abbrev scM0 : Memref sig .tc .vmem S4x512 .f32 := Memref.whole cc0_scratch0
abbrev hscM0 : (scM0 : Memref sig .tc .vmem S4x512 .f32).IsWhole := Memref.isWhole_whole _

/-- The core's scoped buffers that are neither kernel 0's staging buffers nor its scratch, each at some contents. -/
abbrev others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_scratch0), ((c : Thread nD τ).loc cc1_scratch0) ↦{fullShare} f))

/-- What the launch hands region 0: the scratch owned at some contents, the others, the generator register. -/
theorem PhiA0_out (c : Dev nD) :
    (Pipeline.ΦA spec0 c : sProp 𝕄) ⊢ iprop(iprop((∃ d, owns (c : Thread nD τ) scM0 fullShare d) ∗ others0 c) ∗ (∃ r, prngReg c r)) := by
  unfold Pipeline.ΦA; rw [scopedRest0_eq]; simp only [scM0, owns_whole]
  iintro ⟨⟨HS, H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- And back. -/
theorem PhiA0_in (c : Dev nD) :
    (iprop(iprop((∃ d, owns (c : Thread nD τ) scM0 fullShare d) ∗ others0 c) ∗ (∃ r, prngReg c r)) : sProp 𝕄) ⊢ Pipeline.ΦA spec0 c := by
  unfold Pipeline.ΦA; rw [scopedRest0_eq]; simp only [scM0, owns_whole]
  iintro ⟨⟨HS, H1, H2, H3, H4, H5, H6, H7⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

end Cert.KernelIdeal.Hand

end
-- ==== Proof.KernelIdeal.Body0.lean ====
import proofs.«160032_j64836826300486_2_alg».proof.Proof.KernelIdeal.LoopK0T1
import proofs.«160032_j64836826300486_2_alg».proof.Proof.KernelIdeal.LoopK0T2
import proofs.«160032_j64836826300486_2_alg».proof.Proof.KernelIdeal.LoopK0T3
import proofs.«160032_j64836826300486_2_alg».proof.Proof.KernelIdeal.LoopK0T4
import proofs.«160032_j64836826300486_2_alg».proof.Proof.KernelIdeal.Scoped0
import proofs.«160032_j64836826300486_2_alg».proof.Proof.Gen.KernelIdeal.Launch
import proofs.«160032_j64836826300486_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The body of nearest-neighbour kernel 0 at every grid point, and the region's proof data.

The grid is 16 rows of query tiles by 16 key tiles; point t = 16 i + j meets query tile i and key tile j. At j = 0 the body
resets the [4, 512] scratch of running minima to +inf; at every point it lowers each batch's row of the scratch by the
row minima of the clamped squared distances to the key tile (four counted loops, one per batch); at j = 15 it copies the
scratch into the output's staging buffer, which the pipeline writes back there and only there. So the body has three
cases by t mod 16, the scratch is carried from a point to the next, and what it holds after a point is defined by
recursion on the point from what each case's run leaves. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals -/

/-- The first conditional of the body: the grid's second coordinate is 0 (the running minimum is reset). -/
abbrev cond0_0 (i : grid0.Coords) : Prop := (Scalar.cmpi .ne (Scalar.extui (Scalar.cmpi .eq (BitVec.ofNat 32 (i 1).val) 0#32)) 0#32) = 1#1
/-- The second: the grid's second coordinate is 15 (the running minimum is copied out). -/
abbrev cond0_1 (i : grid0.Coords) : Prop := k0_cond2 i = 1#1

/-! ## The body in each of its three cases

The pieces each buffer ends with are what the run finds: they are assigned when the buffers are handed to the
continuation. The scratch's final contents is the entry contents written through its four rows by the four loops. -/

/-- Key tile 0 of a row of query tiles: the running minimum is reset to +inf, then lowered by this key tile; the output's
    staging buffer is not touched. -/
def kernelRun0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond0_0 i) (hc1 : ¬cond0_1 i)
    (x0 x1 : Vec F S4x512x3 .f32) :
    { GS : BufTy.Contents (Elt F) arg5.view.ty //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (arg5.view.loc (c : Thread nD τ) ↦[arg5.view.set]{fullShare} GS)) -∗ K ⟨⟩))
          ⊢ wp frame (wpE (defs₀ (F := F)) Variants.none c none) E (cc0__nn_min_kernel i arg2 harg2 arg3 harg3 arg4 harg4 arg5 harg5) K } := by
  refine ⟨?_, fun xi E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

/-- A middle key tile: the running minimum, at `xs` before, is lowered by this key tile; the output's staging buffer is
    not touched. -/
def kernelRun0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : ¬cond0_1 i)
    (x0 x1 : Vec F S4x512x3 .f32) (xs : Vec F S4x512 .f32) :
    { GS : BufTy.Contents (Elt F) arg5.view.ty //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (arg5.view.loc (c : Thread nD τ) ↦[arg5.view.set]{fullShare} GS)) -∗ K ⟨⟩))
          ⊢ wp frame (wpE (defs₀ (F := F)) Variants.none c none) E (cc0__nn_min_kernel i arg2 harg2 arg3 harg3 arg4 harg4 arg5 harg5) K } := by
  refine ⟨?_, fun xi E K => ?run⟩
  case run =>
    simp only [cc0__nn_min_kernel_eq_skeleton]; unfold cc0__nn_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

/-- The last key tile: the running minimum is lowered by this key tile and then copied whole into the output's staging
    buffer. -/
def kernelRun0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond0_0 i) (hc1 : cond0_1 i)
    (x0 x1 : Vec F S4x512x3 .f32) (xs : Vec F S4x512 .f32) :
    Σ' (LO : List (View.Piece (Elt F) S4x512 .f32)), { GS : BufTy.Contents (Elt F) arg5.view.ty //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (arg5.view.loc (c : Thread nD τ) ↦[arg5.view.set]{fullShare} GS)) -∗ K ⟨⟩))
          ⊢ wp frame (wpE (defs₀ (F := F)) Variants.none c none) E (cc0__nn_min_kernel i arg2 harg2 arg3 harg3 arg4 harg4 arg5 harg5) K } := by
  refine ⟨?_, ?_, fun E K => ?run⟩
  case run =>
    simp only [cc0__nn_min_kernel_eq_skeleton]; unfold cc0__nn_min_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact HS

variable (V : (c : Dev nD) → (b : Ref sig .tc) → Buf (Elt F) ((c : Thread nD τ).loc b))

/-! ## The body's conditions over the grid, and where the output window is idle -/

/-- The reset is taken at the points ≡ 0 (mod 16): the first key tile of each row of query tiles. -/
theorem hcond0_0 : ∀ t : Fin cfg0.N, cond0_0 (grid0.coords t) ↔ t.val % 16 = 0 :=
  (by decide +kernel : ∀ t : Fin grid0.N, cond0_0 (grid0.coords t) ↔ t.val % 16 = 0)
/-- The copy-out is taken at the points ≡ 15 (mod 16): the last key tile. -/
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from the last key tile the output window is idle and is not written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-- Each window's current staging memref at point `t`, and the scratch. -/
abbrev ms0_0 (t : Fin cfg0.N) : Memref sig .tc .vmem S4x512x3 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4x512x3 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4x512 .f32 := win0_2.stage (cfg0.slots t 2)
abbrev hs0_2 (t : Fin cfg0.N) : (ms0_2 t).IsWhole := hstage0_2 ((cfg0.slots t 2).cast nbuf0_2)
/-- One staging buffer of the output window, through which its contents are stated. -/
abbrev VO0 : View sig .tc .vmem S4x512 .f32 := (Memref.whole cc0_stg2_0 : Memref sig .tc .vmem S4x512 .f32).view

/-! ## What each case leaves -/

def sout0_A (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : cond0_0 i) (hc1 : ¬cond0_1 i) (x0 x1 : Vec F S4x512x3 .f32) : Vec F S4x512 .f32 :=
  scM0.view.read (Elt F) (kernelRun0_A c i arg2 harg2 arg3 harg3 arg4 harg4 scM0 hscM0 hc0 hc1 x0 x1).1
def sout0_B (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : ¬cond0_1 i) (x0 x1 : Vec F S4x512x3 .f32) (xs : Vec F S4x512 .f32) : Vec F S4x512 .f32 :=
  scM0.view.read (Elt F) (kernelRun0_B c i arg2 harg2 arg3 harg3 arg4 harg4 scM0 hscM0 hc0 hc1 x0 x1 xs).1
def sout0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : cond0_1 i) (x0 x1 : Vec F S4x512x3 .f32) (xs : Vec F S4x512 .f32) : Vec F S4x512 .f32 :=
  scM0.view.read (Elt F) (kernelRun0_C c i arg2 harg2 arg3 harg3 arg4 harg4 scM0 hscM0 hc0 hc1 x0 x1 xs).2.1
/-- At the last key tile the output's staging buffer is stored whole: its pieces cover it. -/
theorem cover0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : cond0_1 i) (x0 x1 : Vec F S4x512x3 .f32) (xs : Vec F S4x512 .f32) (y : S4x512.Idx) :
    ∃ pc ∈ (kernelRun0_C c i arg2 harg2 arg3 harg3 arg4 harg4 scM0 hscM0 hc0 hc1 x0 x1 xs).1, y ∈ pc.1.set :=
  View.cover_of_tiledL (kernelRun0_C c i arg2 harg2 arg3 harg3 arg4 harg4 scM0 hscM0 hc0 hc1 x0 x1 xs).1 S4x512.size (by sl_kernel_rfl) y
def out0_C (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : cond0_1 i) (x0 x1 : Vec F S4x512x3 .f32) (xs : Vec F S4x512 .f32) : Vec F S4x512 .f32 :=
  VO0.read (Elt F) (VO0.writes (Elt F) VO0.junk (kernelRun0_C c i arg2 harg2 arg3 harg3 arg4 harg4 scM0 hscM0 hc0 hc1 x0 x1 xs).1)
/-- Where the output window is idle nothing consults its contents: a placeholder. -/
def out0_idle : Vec F S4x512 .f32 := VO0.read (Elt F) VO0.junk

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## What the output's staging buffer and the scratch hold after each point -/

/-- The accumulation: after the body at position `n`, the output's staging buffer and the scratch. The case is the
    position's remainder mod 16; the running minimum a later key tile lowers is the one the point before left. -/
def outsAt0 (c : Dev nD) : (n : ℕ) → n < cfg0.N → Vec F S4x512 .f32 × Vec F S4x512 .f32
  | 0, hn => (out0_idle, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 16 = 0 then
      if h1 : (n + 1) % 16 = 15 then
        False.elim (by omega)
      else
        (out0_idle, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 16 = 15 then
        (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
          sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_idle, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (out0_idle, sout0_A c (grid0.coords t) (ms0_0 t) (hs0_0 t) (ms0_1 t) (hs0_1 t) (ms0_2 t) (hs0_2 t) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 16 = 0) (h1 : ¬t.val % 16 = 15) :
    outsAt0 V c t.val t.isLt = (out0_idle, sout0_B c (grid0.coords t) (ms0_0 t) (hs0_0 t) (ms0_1 t) (hs0_1 t) (ms0_2 t) (hs0_2 t) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    scratch at what the point before left in it, beside the other scoped buffers and the generator register. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ others0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ others0 c) ∗ (∃ r, prngReg c r)) := by
  cases n with
  | zero => exact absurd rfl hz
  | succ n => rfl

/-! ## The proof data -/

/-- Region 0's proof data on core `c`: the arrays as the region finds them; after the body each input's buffer at its
    block and the output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

/-- Before any point the invariant holds the scratch at some contents, beside the rest. -/
theorem PhiS0_any (c : Dev nD) (t : Fin cfg0.N) :
    (dat0 V c).Φ t.castSucc ⊢ (iprop(iprop((∃ d, owns (c : Thread nD τ) scM0 fullShare d) ∗ others0 c) ∗ (∃ r, prngReg c r)) : sProp 𝕄) := by
  rw [PhiS0_castSucc V c t]
  by_cases hz : t.val = 0
  · rw [PhiS0_zero V c _ _ hz]; exact PhiA0_out c
  · rw [PhiS0_pos V c _ _ hz]
    iintro ⟨⟨HS0, Hoth⟩, Hg⟩
    isplitr [Hg]
    · isplitl [HS0]; · iexists _; iexact HS0
      iexact Hoth
    iexact Hg

set_option maxHeartbeats 4800000 in
/-- The body at any point: the inputs' memrefs hold their blocks; the point's remainder mod 16 says which case it is
    in; the invariant hands the body the scratch (at what the point before left when the case reads it) and takes it back
    at this point's contents; the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h0 : t.val % 16 = 0
  · have h1 : ¬t.val % 16 = 15 := by omega
    rw [Dat.leavesExact_idle (dat0 V c) 2 t (idleAt0_2 t (fun h => h1 ((hcond0_1 t).mp h))) (noFlush0_2 t (fun h => h1 ((hcond0_1 t).mp h)))]
    rw [outsAt0_A V c t h0 h1]
    unfold sout0_A; (try dsimp only)
    iintro ⟨HΦ, Ho, ⟨%d0, H0⟩, ⟨%d1, H1⟩, ⟨%d2, H2⟩⟩
    ihave HΦ' := (PhiS0_any V c t) $$ HΦ
    icases HΦ' with ⟨⟨HS0, Hoth⟩, Hg⟩
    iapply ((kernelRun0_A c (grid0.coords t) _ _ _ _ _ _ scM0 hscM0 ((hcond0_0 t).mpr h0) (fun h => h1 ((hcond0_1 t).mp h)) (iblk0 V c 0 t) (iblk0 V c 1 t)).2 _ Set.univ _)
    isplitl [H0]; · iexact H0
    isplitl [H1]; · iexact H1
    isplitl [H2]; · iexact H2
    isplitl [HS0]; · iexact HS0
    iintro ⟨H0, H1, H2, HS0⟩
    isplitl [HS0 Hoth Hg]
    · isplitr [Hg]
      · isplitl [HS0]
        · iapply (owns_intro (c : Thread nD τ) scM0 fullShare _); iexact HS0
        iexact Hoth
      iexact Hg
    isplitl [Ho]; · iexact Ho
    isplitl [H0]; · iexact H0
    isplitl [H1]; · iexact H1
    iexists _; iexact H2
  · have hz : t.val ≠ 0 := fun e => h0 (by rw [e])
    by_cases h1 : t.val % 16 = 15
    · rw [show (dat0 V c).leavesExact 2 t = owns (c : Thread nD τ) (ms0_2 t) fullShare ((dat0 V c).after 2 t) from by
        unfold Dat.leavesExact; rw [liveAt0_2 t ((hcond0_1 t).mpr h1)], after0_2]
      rw [outsAt0_C V c t h0 h1]
      unfold out0_C sout0_C; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_C c (grid0.coords t) _ _ _ _ _ _ scM0 hscM0 (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hoth Hg]
      · isplitr [Hg]
        · isplitl [HS0]
          · iapply (owns_intro (c : Thread nD τ) scM0 fullShare _); iexact HS0
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C c _ _ _ _ _ _ _ _ _ _ _ _)
    · rw [Dat.leavesExact_idle (dat0 V c) 2 t (idleAt0_2 t (fun h => h1 ((hcond0_1 t).mp h))) (noFlush0_2 t (fun h => h1 ((hcond0_1 t).mp h)))]
      rw [outsAt0_B V c t h0 h1]
      unfold sout0_B; (try dsimp only)
      rw [PhiS0_castSucc V c t, PhiS0_pos V c _ _ hz]
      iintro ⟨⟨⟨HS0, Hoth⟩, Hg⟩, Ho, ⟨%d0, H0⟩, ⟨%d1, H1⟩, ⟨%d2, H2⟩⟩
      iapply ((kernelRun0_B c (grid0.coords t) _ _ _ _ _ _ scM0 hscM0 (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitr [Hg]
        · isplitl [HS0]
          · iapply (owns_intro (c : Thread nD τ) scM0 fullShare _); iexact HS0
          iexact Hoth
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]
  try exact Idealize.SL.BI.Entails.refl _

/-- After the last point the invariant gives it back: the scratch's named contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 256 := N_0; omega
  rw [show (dat0 V c).Φ (Fin.last cfg0.N) = PhiS0 V c (Fin.last cfg0.N).val (Nat.le_of_lt_succ (Fin.last cfg0.N).isLt) from rfl, PhiS0_pos V c _ _ ht]
  refine (?_ : _ ⊢ (iprop(iprop((∃ d, owns (c : Thread nD τ) scM0 fullShare d) ∗ others0 c) ∗ (∃ r, prngReg c r)) : sProp 𝕄)).trans (PhiA0_in c)
  iintro ⟨⟨HS0, Hoth⟩, Hg⟩
  isplitr [Hg]
  · isplitl [HS0]; · iexists _; iexact HS0
    iexact Hoth
  iexact Hg

end Cert.KernelIdeal.Hand

end
-- ==== Proof.KernelIdeal.LoopK1T1.lean ====
import proofs.«160032_j64836826300486_2_alg».proof.Proof.Gen.KernelIdeal.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 1 of kernel 1: batch 0, scratch row 0 -/

/-- Row 0 of the scratch as a memref of its own: what the trips of this batch load and store through. -/
abbrev k1_row0 (arg5 : Memref sig .tc .vmem S4x512 .f32) : Memref sig .tc .vmem S512 .f32 :=
  (arg5.slice (Rect.unit (s := S4x512) ![0, 0] S1x512.size inb_S4x512_S1x512_0_0) (fun _ => rfl)).squeeze S512 squeezes_S1x512_S512

theorem k1_row0_sub (arg5 : Memref sig .tc .vmem S4x512 .f32) : (k1_row0 arg5).view.set ⊆ arg5.view.set :=
  View.set_slice_subset _ _

/-- The scratch held whole is its row 0 beside the rest of it, at the same contents. -/
theorem k1_row0_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k1_row0 arg5).view.loc (c : Thread nD τ) ↦[(k1_row0 arg5).view.set]{fullShare} f)
        ∗ (arg5.view.loc (c : Thread nD τ) ↦[arg5.view.set \ (k1_row0 arg5).view.set]{fullShare} f)) :=
  (pointsTo_split_subset (k1_row0_sub arg5)).1

/-- The row written and the rest of the scratch untouched make the scratch written through the row. -/
theorem k1_row0_rejoin (c : Dev nD) (arg5 : Memref sig .tc .vmem S4x512 .f32) (f : BufTy.Contents (Elt F) arg5.view.ty) (L : List (View.Piece (Elt F) S512 .f32)) :
    iprop(((k1_row0 arg5).view.loc (c : Thread nD τ) ↦[(k1_row0 arg5).view.set]{fullShare} ((k1_row0 arg5).view.writes (Elt F) f L))
        ∗ (arg5.view.loc (c : Thread nD τ) ↦[arg5.view.set \ (k1_row0 arg5).view.set]{fullShare} f))
      ⊢ (arg5.view.loc (c : Thread nD τ) ↦[arg5.view.set]{fullShare} ((k1_row0 arg5).view.writes (Elt F) f L) : sProp 𝕄G) := by
  have e : (arg5.view.loc (c : Thread nD τ) ↦[arg5.view.set \ (k1_row0 arg5).view.set]{fullShare} f : sProp 𝕄G)
      = (arg5.view.loc (c : Thread nD τ) ↦[arg5.view.set \ (k1_row0 arg5).view.set]{fullShare} ((k1_row0 arg5).view.writes (Elt F) f L)) :=
    pointsTo_congr (fun i hi => (writes_outside (k1_row0 arg5).view f L (Finset.mem_sdiff.mp hi).2).symm)
  rw [e]
  exact (pointsTo_split_subset (k1_row0_sub arg5)).2

/-- One trip's resources: the query block read at its contents, the scratch row at any. -/
abbrev Trip_k1_t1 (c : Dev nD) (arg2 : Memref sig .tc .vmem S4x512x3 .f32) (arg5 : Memref sig .tc .vmem S4x512 .f32) (X_arg2 : BufTy.Contents (Elt F) arg2.view.ty) (f_row : BufTy.Contents (Elt F) (k1_row0 arg5).view.ty) : sProp 𝕄G :=
  iprop((arg2.view.loc (c : Thread nD τ) ↦[arg2.view.set]{fullShare} X_arg2) ∗ ((k1_row0 arg5).view.loc (c : Thread nD τ) ↦[(k1_row0 arg5).view.set]{fullShare} f_row))

/-- One trip at a symbolic trip number: it loads a chunk of 128 queries and the same chunk of the scratch row and stores
    the chunk back; the piece it writes is what the run finds, as a function of the contents the trip meets. -/
@[irreducible] def trip_k1_t1 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k1_t1_loop.trips) :
    { L_row : (BufTy.Contents (Elt F) (k1_row0 arg5).view.ty → List (View.Piece (Elt F) S512 .f32)) // ∀ (E : Set ℕ) (f_row : BufTy.Contents (Elt F) (k1_row0 arg5).view.ty),
      Trip_k1_t1 (F := F) c arg2 arg5 X_arg2 f_row
      ⊢ wp frame (wpE (defs₀ (F := F)) 𝒱 (c : Thread nD τ) bd) E (k1_t1_body (F := F) i arg2 harg2 arg3 harg3 arg4 harg4 arg5 harg5 v3 k PUnit.unit)
          (fun _ => Trip_k1_t1 (F := F) c arg2 arg5 X_arg2 ((k1_row0 arg5).view.writes (Elt F) f_row (L_row f_row))) } := by
  have hk : k.val < 4 := Nat.lt_of_lt_of_le k.isLt k1_t1_abs.2.1
  refine ⟨?_, fun E f_row => ?run⟩
  case run =>
    unfold k1_t1_body
    iintro ⟨HR_arg2, HW_row⟩
    sl_exec
    sl_step
    sl_close

abbrev tripL_k1_t1 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k1_t1_loop.trips) (f_row : BufTy.Contents (Elt F) (k1_row0 arg5).view.ty) : List (View.Piece (Elt F) S512 .f32) :=
  (trip_k1_t1 (F := F) 𝒱 c bd i arg2 harg2 arg3 harg3 arg4 harg4 arg5 harg5 v3 X_arg2 k).1 f_row

@[irreducible] def pb_k1_t1Step (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k1_row0 arg5).view.ty) (k : ℕ) (prev : List (View.Piece (Elt F) S512 .f32)) : List (View.Piece (Elt F) S512 .f32) :=
  if h : k < k1_t1_loop.trips then
    (tripL_k1_t1 (F := F) 𝒱 c bd i arg2 harg2 arg3 harg3 arg4 harg4 arg5 harg5 v3 X_arg2 ⟨k, h⟩ ((k1_row0 arg5).view.writes (Elt F) G_arg5 prev)) ++ prev
  else prev

/-- The pieces of the trips before `k` (last first), each taken at the contents the earlier trips left. -/
def pb_k1_t1 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k1_row0 arg5).view.ty) : ℕ → List (View.Piece (Elt F) S512 .f32)
  | 0 => []
  | k + 1 => pb_k1_t1Step 𝒱 c bd i arg2 harg2 arg3 harg3 arg4 harg4 arg5 harg5 v3 X_arg2 G_arg5 k (pb_k1_t1 𝒱 c bd i arg2 harg2 arg3 harg3 arg4 harg4 arg5 harg5 v3 X_arg2 G_arg5 k)

theorem pb_k1_t1_succ (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) (k1_row0 arg5).view.ty) (k : Fin k1_t1_loop.trips) :
    pb_k1_t1 (F := F) 𝒱 c bd i arg2 harg2 arg3 harg3 arg4 harg4 arg5 harg5 v3 X_arg2 G_arg5 (k.val + 1)
      = (tripL_k1_t1 (F := F) 𝒱 c bd i arg2 harg2 arg3 harg3 arg4 harg4 arg5 harg5 v3 X_arg2 k ((k1_row0 arg5).view.writes (Elt F) G_arg5 (pb_k1_t1 (F := F) 𝒱 c bd i arg2 harg2 arg3 harg3 arg4 harg4 arg5 harg5 v3 X_arg2 G_arg5 k.val))) ++ (pb_k1_t1 (F := F) 𝒱 c bd i arg2 harg2 arg3 harg3 arg4 harg4 arg5 harg5 v3 X_arg2 G_arg5 k.val) := by
  rw [pb_k1_t1.eq_2]; unfold pb_k1_t1Step; exact dif_pos k.isLt

/-- The invariant before trip `k`: the query block at its contents; the whole scratch holding the pieces of the trips
    before `k` written through row 0 over the contents at loop entry. -/
abbrev inv_k1_t1 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k1_row0 arg5).view.writes (Elt F) G_arg5 (pb_k1_t1 (F := F) 𝒱 c bd i arg2 harg2 arg3 harg3 arg4 harg4 arg5 harg5 v3 X_arg2 G_arg5 k)⌝))

set_option warn.classDefReducibility false in
/-- The loop by its invariant: a trip splits row 0 off the scratch, runs on it, and puts it back. -/
@[sl_loop] def loopInv_k1_t1 (𝒱 : Variants) (c : Dev nD) (bd : Option 𝒱.V) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (G_arg5 : BufTy.Contents (Elt F) arg5.view.ty) :
    LoopInvTy_k1_t1 (F := F) Unit ℕ (UR sig nD τ) ℕ 𝒱 c bd E i arg2 harg2 arg3 harg3 arg4 harg4 arg5 harg5 v3 where
  inv := inv_k1_t1 (F := F) 𝒱 c bd i arg2 harg2 arg3 harg3 arg4 harg4 arg5 harg5 v3 X_arg2 G_arg5
  step k acc := by
    iintro ⟨HR_arg2, ⟨%f_arg5, HW_arg5, %h_arg5⟩⟩
    ihave Hs := (k1_row0_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k1_t1 (F := F) 𝒱 c bd i arg2 harg2 arg3 harg3 arg4 harg4 arg5 harg5 v3 X_arg2 k).2 E f_arg5)
      isplitl [HR_arg2]; · iexact HR_arg2
      iexact HW_row
    · iintro %_ ⟨HR_arg2, HW_row⟩
      isplitl [HR_arg2]; · iexact HR_arg2
      rw [pb_k1_t1_succ]
      iexists _; isplitl [HW_row HW_rest]
      · iapply (k1_row0_rejoin (F := F) c arg5 f_arg5 _)
        isplitl [HW_row]; · iexact HW_row
        iexact HW_rest
      ipureintro; rw [h_arg5, ← View.writes_append]

end Cert.KernelIdeal.Hand

end
-- ==== Proof.KernelIdeal.LoopK1T2.lean ====
import proofs.«160032_j64836826300486_2_alg».proof.Proof.Gen.KernelIdeal.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 2 of kernel 1: batch 1, scratch row 1 -/

/-- Row 1 of the scratch as a memref of its own: what the trips of this batch load and store through. -/
abbrev k1_row1 (arg5 : Memref sig .tc .vmem S4x512 .f32) : Memref sig .tc .vmem S512 .f32 :=
  (arg5.slice (Rect.unit (s := S4x512) ![1, 0] S1x512.size inb_S4x512_S1x512_1_0) (fun _ => rfl)).squeeze S512 squeezes_S1x512_S512

theorem k1_row1_sub (arg5 : Memref sig .tc .vmem S4x512 .f32) : (k1_row1 arg5).view.set ⊆ arg5.view.set :=
  View.set_slice_subset _ _

/-- The scratch held whole is its row 1 beside the rest of it, at the same contents. -/
theorem k1_row1_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k1_row1 arg5).view.loc (c : Thread nD τ) ↦[(k1_row1 arg5).view.set]{fullShare} f)
        ∗ (arg5.view.loc (c : Thread nD τ) ↦[arg5.view.set \ (k1_row1 arg5).view.set]{fullShare} f)) :=
  (pointsTo_split_subset (k1_row1_sub arg5)).1

/-- The row written and the rest of the scratch untouched make the scratch written through the row. -/
theorem k1_row1_rejoin (c : Dev nD) (arg5 : Memref sig .tc .vmem S4x512 .f32) (f : BufTy.Contents (Elt F) arg5.view.ty) (L : List (View.Piece (Elt F) S512 .f32)) :
    iprop(((k1_row1 arg5).view.loc (c : Thread nD τ) ↦[(k1_row1 arg5).view.set]{fullShare} ((k1_row1 arg5).view.writes (Elt F) f L))
        ∗ (arg5.view.loc (c : Thread nD τ) ↦[arg5.view.set \ (k1_row1 arg5).view.set]{fullShare} f))
      ⊢ (arg5.view.loc (c : Thread nD τ) ↦[arg5.view.set]{fullShare} ((k1_row1 arg5).view.writes (Elt F) f L) : sProp 𝕄G) := by
  have e : (arg5.view.loc (c : Thread nD τ) ↦[arg5.view.set \ (k1_row1 arg5).view.set]{fullShare} f : sProp 𝕄G)
      = (arg5.view.loc (c : Thread nD τ) ↦[arg5.view.set \ (k1_row1 arg5).view.set]{fullShare} ((k1_row1 arg5).view.writes (Elt F) f L)) :=
    pointsTo_congr (fun i hi => (writes_outside (k1_row1 arg5).view f L (Finset.mem_sdiff.mp hi).2).symm)
  rw [e]
  exact (pointsTo_split_subset (k1_row1_sub arg5)).2

/-- One trip's resources: the query block read at its contents, the scratch row at any. -/
abbrev Trip_k1_t2 (c : Dev nD) (arg2 : Memref sig .tc .vmem S4x512x3 .f32) (arg5 : Memref sig .tc .vmem S4x512 .f32) (X_arg2 : BufTy.Contents (Elt F) arg2.view.ty) (f_row : BufTy.Contents (Elt F) (k1_row1 arg5).view.ty) : sProp 𝕄G :=
  iprop((arg2.view.loc (c : Thread nD τ) ↦[arg2.view.set]{fullShare} X_arg2) ∗ ((k1_row1 arg5).view.loc (c : Thread nD τ) ↦[(k1_row1 arg5).view.set]{fullShare} f_row))

/-- One trip at a symbolic trip number: it loads a chunk of 128 queries and the same chunk of the scratch row and stores
    the chunk back; the piece it writes is what the run finds, as a function of the contents the trip meets. -/
@[irreducible] def trip_k1_t2 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k1_t2_loop.trips) :
    { L_row : (BufTy.Contents (Elt F) (k1_row1 arg5).view.ty → List (View.Piece (Elt F) S512 .f32)) // ∀ (E : Set ℕ) (f_row : BufTy.Contents (Elt F) (k1_row1 arg5).view.ty),
      Trip_k1_t2 (F := F) c arg2 arg5 X_arg2 f_row
      ⊢ wp frame (wpE (defs₀ (F := F)) 𝒱 (c : Thread nD τ) bd) E (k1_t2_body (F := F) i arg2 harg2 arg3 harg3 arg4 harg4 arg5 harg5 v17 k PUnit.unit)
          (fun _ => Trip_k1_t2 (F := F) c arg2 arg5 X_arg2 ((k1_row1 arg5).view.writes (Elt F) f_row (L_row f_row))) } := by
  have hk : k.val < 4 := Nat.lt_of_lt_of_le k.isLt k1_t2_abs.2.1
  refine ⟨?_, fun E f_row => ?run⟩
  case run =>
    unfold k1_t2_body
    iintro ⟨HR_arg2, HW_row⟩
    sl_exec
    sl_step
    sl_close

abbrev tripL_k1_t2 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k1_t2_loop.trips) (f_row : BufTy.Contents (Elt F) (k1_row1 arg5).view.ty) : List (View.Piece (Elt F) S512 .f32) :=
  (trip_k1_t2 (F := F) 𝒱 c bd i arg2 harg2 arg3 harg3 arg4 harg4 arg5 harg5 v17 X_arg2 k).1 f_row

@[irreducible] def pb_k1_t2Step (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k1_row1 arg5).view.ty) (k : ℕ) (prev : List (View.Piece (Elt F) S512 .f32)) : List (View.Piece (Elt F) S512 .f32) :=
  if h : k < k1_t2_loop.trips then
    (tripL_k1_t2 (F := F) 𝒱 c bd i arg2 harg2 arg3 harg3 arg4 harg4 arg5 harg5 v17 X_arg2 ⟨k, h⟩ ((k1_row1 arg5).view.writes (Elt F) G_arg5 prev)) ++ prev
  else prev

/-- The pieces of the trips before `k` (last first), each taken at the contents the earlier trips left. -/
def pb_k1_t2 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k1_row1 arg5).view.ty) : ℕ → List (View.Piece (Elt F) S512 .f32)
  | 0 => []
  | k + 1 => pb_k1_t2Step 𝒱 c bd i arg2 harg2 arg3 harg3 arg4 harg4 arg5 harg5 v17 X_arg2 G_arg5 k (pb_k1_t2 𝒱 c bd i arg2 harg2 arg3 harg3 arg4 harg4 arg5 harg5 v17 X_arg2 G_arg5 k)

theorem pb_k1_t2_succ (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) (k1_row1 arg5).view.ty) (k : Fin k1_t2_loop.trips) :
    pb_k1_t2 (F := F) 𝒱 c bd i arg2 harg2 arg3 harg3 arg4 harg4 arg5 harg5 v17 X_arg2 G_arg5 (k.val + 1)
      = (tripL_k1_t2 (F := F) 𝒱 c bd i arg2 harg2 arg3 harg3 arg4 harg4 arg5 harg5 v17 X_arg2 k ((k1_row1 arg5).view.writes (Elt F) G_arg5 (pb_k1_t2 (F := F) 𝒱 c bd i arg2 harg2 arg3 harg3 arg4 harg4 arg5 harg5 v17 X_arg2 G_arg5 k.val))) ++ (pb_k1_t2 (F := F) 𝒱 c bd i arg2 harg2 arg3 harg3 arg4 harg4 arg5 harg5 v17 X_arg2 G_arg5 k.val) := by
  rw [pb_k1_t2.eq_2]; unfold pb_k1_t2Step; exact dif_pos k.isLt

/-- The invariant before trip `k`: the query block at its contents; the whole scratch holding the pieces of the trips
    before `k` written through row 1 over the contents at loop entry. -/
abbrev inv_k1_t2 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k1_row1 arg5).view.writes (Elt F) G_arg5 (pb_k1_t2 (F := F) 𝒱 c bd i arg2 harg2 arg3 harg3 arg4 harg4 arg5 harg5 v17 X_arg2 G_arg5 k)⌝))

set_option warn.classDefReducibility false in
/-- The loop by its invariant: a trip splits row 1 off the scratch, runs on it, and puts it back. -/
@[sl_loop] def loopInv_k1_t2 (𝒱 : Variants) (c : Dev nD) (bd : Option 𝒱.V) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (G_arg5 : BufTy.Contents (Elt F) arg5.view.ty) :
    LoopInvTy_k1_t2 (F := F) Unit ℕ (UR sig nD τ) ℕ 𝒱 c bd E i arg2 harg2 arg3 harg3 arg4 harg4 arg5 harg5 v17 where
  inv := inv_k1_t2 (F := F) 𝒱 c bd i arg2 harg2 arg3 harg3 arg4 harg4 arg5 harg5 v17 X_arg2 G_arg5
  step k acc := by
    iintro ⟨HR_arg2, ⟨%f_arg5, HW_arg5, %h_arg5⟩⟩
    ihave Hs := (k1_row1_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k1_t2 (F := F) 𝒱 c bd i arg2 harg2 arg3 harg3 arg4 harg4 arg5 harg5 v17 X_arg2 k).2 E f_arg5)
      isplitl [HR_arg2]; · iexact HR_arg2
      iexact HW_row
    · iintro %_ ⟨HR_arg2, HW_row⟩
      isplitl [HR_arg2]; · iexact HR_arg2
      rw [pb_k1_t2_succ]
      iexists _; isplitl [HW_row HW_rest]
      · iapply (k1_row1_rejoin (F := F) c arg5 f_arg5 _)
        isplitl [HW_row]; · iexact HW_row
        iexact HW_rest
      ipureintro; rw [h_arg5, ← View.writes_append]

end Cert.KernelIdeal.Hand

end
-- ==== Proof.KernelIdeal.LoopK1T3.lean ====
import proofs.«160032_j64836826300486_2_alg».proof.Proof.Gen.KernelIdeal.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 3 of kernel 1: batch 2, scratch row 2 -/

/-- Row 2 of the scratch as a memref of its own: what the trips of this batch load and store through. -/
abbrev k1_row2 (arg5 : Memref sig .tc .vmem S4x512 .f32) : Memref sig .tc .vmem S512 .f32 :=
  (arg5.slice (Rect.unit (s := S4x512) ![2, 0] S1x512.size inb_S4x512_S1x512_2_0) (fun _ => rfl)).squeeze S512 squeezes_S1x512_S512

theorem k1_row2_sub (arg5 : Memref sig .tc .vmem S4x512 .f32) : (k1_row2 arg5).view.set ⊆ arg5.view.set :=
  View.set_slice_subset _ _

/-- The scratch held whole is its row 2 beside the rest of it, at the same contents. -/
theorem k1_row2_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k1_row2 arg5).view.loc (c : Thread nD τ) ↦[(k1_row2 arg5).view.set]{fullShare} f)
        ∗ (arg5.view.loc (c : Thread nD τ) ↦[arg5.view.set \ (k1_row2 arg5).view.set]{fullShare} f)) :=
  (pointsTo_split_subset (k1_row2_sub arg5)).1

/-- The row written and the rest of the scratch untouched make the scratch written through the row. -/
theorem k1_row2_rejoin (c : Dev nD) (arg5 : Memref sig .tc .vmem S4x512 .f32) (f : BufTy.Contents (Elt F) arg5.view.ty) (L : List (View.Piece (Elt F) S512 .f32)) :
    iprop(((k1_row2 arg5).view.loc (c : Thread nD τ) ↦[(k1_row2 arg5).view.set]{fullShare} ((k1_row2 arg5).view.writes (Elt F) f L))
        ∗ (arg5.view.loc (c : Thread nD τ) ↦[arg5.view.set \ (k1_row2 arg5).view.set]{fullShare} f))
      ⊢ (arg5.view.loc (c : Thread nD τ) ↦[arg5.view.set]{fullShare} ((k1_row2 arg5).view.writes (Elt F) f L) : sProp 𝕄G) := by
  have e : (arg5.view.loc (c : Thread nD τ) ↦[arg5.view.set \ (k1_row2 arg5).view.set]{fullShare} f : sProp 𝕄G)
      = (arg5.view.loc (c : Thread nD τ) ↦[arg5.view.set \ (k1_row2 arg5).view.set]{fullShare} ((k1_row2 arg5).view.writes (Elt F) f L)) :=
    pointsTo_congr (fun i hi => (writes_outside (k1_row2 arg5).view f L (Finset.mem_sdiff.mp hi).2).symm)
  rw [e]
  exact (pointsTo_split_subset (k1_row2_sub arg5)).2

/-- One trip's resources: the query block read at its contents, the scratch row at any. -/
abbrev Trip_k1_t3 (c : Dev nD) (arg2 : Memref sig .tc .vmem S4x512x3 .f32) (arg5 : Memref sig .tc .vmem S4x512 .f32) (X_arg2 : BufTy.Contents (Elt F) arg2.view.ty) (f_row : BufTy.Contents (Elt F) (k1_row2 arg5).view.ty) : sProp 𝕄G :=
  iprop((arg2.view.loc (c : Thread nD τ) ↦[arg2.view.set]{fullShare} X_arg2) ∗ ((k1_row2 arg5).view.loc (c : Thread nD τ) ↦[(k1_row2 arg5).view.set]{fullShare} f_row))

/-- One trip at a symbolic trip number: it loads a chunk of 128 queries and the same chunk of the scratch row and stores
    the chunk back; the piece it writes is what the run finds, as a function of the contents the trip meets. -/
@[irreducible] def trip_k1_t3 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k1_t3_loop.trips) :
    { L_row : (BufTy.Contents (Elt F) (k1_row2 arg5).view.ty → List (View.Piece (Elt F) S512 .f32)) // ∀ (E : Set ℕ) (f_row : BufTy.Contents (Elt F) (k1_row2 arg5).view.ty),
      Trip_k1_t3 (F := F) c arg2 arg5 X_arg2 f_row
      ⊢ wp frame (wpE (defs₀ (F := F)) 𝒱 (c : Thread nD τ) bd) E (k1_t3_body (F := F) i arg2 harg2 arg3 harg3 arg4 harg4 arg5 harg5 v31 k PUnit.unit)
          (fun _ => Trip_k1_t3 (F := F) c arg2 arg5 X_arg2 ((k1_row2 arg5).view.writes (Elt F) f_row (L_row f_row))) } := by
  have hk : k.val < 4 := Nat.lt_of_lt_of_le k.isLt k1_t3_abs.2.1
  refine ⟨?_, fun E f_row => ?run⟩
  case run =>
    unfold k1_t3_body
    iintro ⟨HR_arg2, HW_row⟩
    sl_exec
    sl_step
    sl_close

abbrev tripL_k1_t3 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k1_t3_loop.trips) (f_row : BufTy.Contents (Elt F) (k1_row2 arg5).view.ty) : List (View.Piece (Elt F) S512 .f32) :=
  (trip_k1_t3 (F := F) 𝒱 c bd i arg2 harg2 arg3 harg3 arg4 harg4 arg5 harg5 v31 X_arg2 k).1 f_row

@[irreducible] def pb_k1_t3Step (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k1_row2 arg5).view.ty) (k : ℕ) (prev : List (View.Piece (Elt F) S512 .f32)) : List (View.Piece (Elt F) S512 .f32) :=
  if h : k < k1_t3_loop.trips then
    (tripL_k1_t3 (F := F) 𝒱 c bd i arg2 harg2 arg3 harg3 arg4 harg4 arg5 harg5 v31 X_arg2 ⟨k, h⟩ ((k1_row2 arg5).view.writes (Elt F) G_arg5 prev)) ++ prev
  else prev

/-- The pieces of the trips before `k` (last first), each taken at the contents the earlier trips left. -/
def pb_k1_t3 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k1_row2 arg5).view.ty) : ℕ → List (View.Piece (Elt F) S512 .f32)
  | 0 => []
  | k + 1 => pb_k1_t3Step 𝒱 c bd i arg2 harg2 arg3 harg3 arg4 harg4 arg5 harg5 v31 X_arg2 G_arg5 k (pb_k1_t3 𝒱 c bd i arg2 harg2 arg3 harg3 arg4 harg4 arg5 harg5 v31 X_arg2 G_arg5 k)

theorem pb_k1_t3_succ (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) (k1_row2 arg5).view.ty) (k : Fin k1_t3_loop.trips) :
    pb_k1_t3 (F := F) 𝒱 c bd i arg2 harg2 arg3 harg3 arg4 harg4 arg5 harg5 v31 X_arg2 G_arg5 (k.val + 1)
      = (tripL_k1_t3 (F := F) 𝒱 c bd i arg2 harg2 arg3 harg3 arg4 harg4 arg5 harg5 v31 X_arg2 k ((k1_row2 arg5).view.writes (Elt F) G_arg5 (pb_k1_t3 (F := F) 𝒱 c bd i arg2 harg2 arg3 harg3 arg4 harg4 arg5 harg5 v31 X_arg2 G_arg5 k.val))) ++ (pb_k1_t3 (F := F) 𝒱 c bd i arg2 harg2 arg3 harg3 arg4 harg4 arg5 harg5 v31 X_arg2 G_arg5 k.val) := by
  rw [pb_k1_t3.eq_2]; unfold pb_k1_t3Step; exact dif_pos k.isLt

/-- The invariant before trip `k`: the query block at its contents; the whole scratch holding the pieces of the trips
    before `k` written through row 2 over the contents at loop entry. -/
abbrev inv_k1_t3 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k1_row2 arg5).view.writes (Elt F) G_arg5 (pb_k1_t3 (F := F) 𝒱 c bd i arg2 harg2 arg3 harg3 arg4 harg4 arg5 harg5 v31 X_arg2 G_arg5 k)⌝))

set_option warn.classDefReducibility false in
/-- The loop by its invariant: a trip splits row 2 off the scratch, runs on it, and puts it back. -/
@[sl_loop] def loopInv_k1_t3 (𝒱 : Variants) (c : Dev nD) (bd : Option 𝒱.V) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (G_arg5 : BufTy.Contents (Elt F) arg5.view.ty) :
    LoopInvTy_k1_t3 (F := F) Unit ℕ (UR sig nD τ) ℕ 𝒱 c bd E i arg2 harg2 arg3 harg3 arg4 harg4 arg5 harg5 v31 where
  inv := inv_k1_t3 (F := F) 𝒱 c bd i arg2 harg2 arg3 harg3 arg4 harg4 arg5 harg5 v31 X_arg2 G_arg5
  step k acc := by
    iintro ⟨HR_arg2, ⟨%f_arg5, HW_arg5, %h_arg5⟩⟩
    ihave Hs := (k1_row2_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k1_t3 (F := F) 𝒱 c bd i arg2 harg2 arg3 harg3 arg4 harg4 arg5 harg5 v31 X_arg2 k).2 E f_arg5)
      isplitl [HR_arg2]; · iexact HR_arg2
      iexact HW_row
    · iintro %_ ⟨HR_arg2, HW_row⟩
      isplitl [HR_arg2]; · iexact HR_arg2
      rw [pb_k1_t3_succ]
      iexists _; isplitl [HW_row HW_rest]
      · iapply (k1_row2_rejoin (F := F) c arg5 f_arg5 _)
        isplitl [HW_row]; · iexact HW_row
        iexact HW_rest
      ipureintro; rw [h_arg5, ← View.writes_append]

end Cert.KernelIdeal.Hand

end
-- ==== Proof.KernelIdeal.LoopK1T4.lean ====
import proofs.«160032_j64836826300486_2_alg».proof.Proof.Gen.KernelIdeal.Loops
import proofs.«160032_j64836826300486_2_alg».proof.Proof.LibWritesOutside

/-! One counted loop of the nearest-neighbour kernel, gone through by its invariant.

The kernel keeps, per batch, a running minimum of clamped squared distances in one row of a [4, 512] scratch. A loop
of four trips walks the 512 queries of the block in chunks of 128: trip `k` loads query chunk `k` and chunk `k` of the
scratch row, and stores back the elementwise minimum of that chunk with the chunk's row minima over the 512 keys.
The trips load and store through the row as a memref of its own (a slice of the scratch with its unit axis dropped), so a
trip is run holding the row apart from the rest of the scratch; the invariant holds the scratch whole, at the entry
contents with the pieces of the trips so far written through the row. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

/-! ### Loop 4 of kernel 1: batch 3, scratch row 3 -/

/-- Row 3 of the scratch as a memref of its own: what the trips of this batch load and store through. -/
abbrev k1_row3 (arg5 : Memref sig .tc .vmem S4x512 .f32) : Memref sig .tc .vmem S512 .f32 :=
  (arg5.slice (Rect.unit (s := S4x512) ![3, 0] S1x512.size inb_S4x512_S1x512_3_0) (fun _ => rfl)).squeeze S512 squeezes_S1x512_S512

theorem k1_row3_sub (arg5 : Memref sig .tc .vmem S4x512 .f32) : (k1_row3 arg5).view.set ⊆ arg5.view.set :=
  View.set_slice_subset _ _

/-- The scratch held whole is its row 3 beside the rest of it, at the same contents. -/
theorem k1_row3_split (c : Dev nD) (arg5 : Memref sig .tc .vmem S4x512 .f32) (f : BufTy.Contents (Elt F) arg5.view.ty) :
    (arg5.view.loc (c : Thread nD τ) ↦[arg5.view.set]{fullShare} f : sProp 𝕄G)
      ⊢ iprop(((k1_row3 arg5).view.loc (c : Thread nD τ) ↦[(k1_row3 arg5).view.set]{fullShare} f)
        ∗ (arg5.view.loc (c : Thread nD τ) ↦[arg5.view.set \ (k1_row3 arg5).view.set]{fullShare} f)) :=
  (pointsTo_split_subset (k1_row3_sub arg5)).1

/-- The row written and the rest of the scratch untouched make the scratch written through the row. -/
theorem k1_row3_rejoin (c : Dev nD) (arg5 : Memref sig .tc .vmem S4x512 .f32) (f : BufTy.Contents (Elt F) arg5.view.ty) (L : List (View.Piece (Elt F) S512 .f32)) :
    iprop(((k1_row3 arg5).view.loc (c : Thread nD τ) ↦[(k1_row3 arg5).view.set]{fullShare} ((k1_row3 arg5).view.writes (Elt F) f L))
        ∗ (arg5.view.loc (c : Thread nD τ) ↦[arg5.view.set \ (k1_row3 arg5).view.set]{fullShare} f))
      ⊢ (arg5.view.loc (c : Thread nD τ) ↦[arg5.view.set]{fullShare} ((k1_row3 arg5).view.writes (Elt F) f L) : sProp 𝕄G) := by
  have e : (arg5.view.loc (c : Thread nD τ) ↦[arg5.view.set \ (k1_row3 arg5).view.set]{fullShare} f : sProp 𝕄G)
      = (arg5.view.loc (c : Thread nD τ) ↦[arg5.view.set \ (k1_row3 arg5).view.set]{fullShare} ((k1_row3 arg5).view.writes (Elt F) f L)) :=
    pointsTo_congr (fun i hi => (writes_outside (k1_row3 arg5).view f L (Finset.mem_sdiff.mp hi).2).symm)
  rw [e]
  exact (pointsTo_split_subset (k1_row3_sub arg5)).2

/-- One trip's resources: the query block read at its contents, the scratch row at any. -/
abbrev Trip_k1_t4 (c : Dev nD) (arg2 : Memref sig .tc .vmem S4x512x3 .f32) (arg5 : Memref sig .tc .vmem S4x512 .f32) (X_arg2 : BufTy.Contents (Elt F) arg2.view.ty) (f_row : BufTy.Contents (Elt F) (k1_row3 arg5).view.ty) : sProp 𝕄G :=
  iprop((arg2.view.loc (c : Thread nD τ) ↦[arg2.view.set]{fullShare} X_arg2) ∗ ((k1_row3 arg5).view.loc (c : Thread nD τ) ↦[(k1_row3 arg5).view.set]{fullShare} f_row))

/-- One trip at a symbolic trip number: it loads a chunk of 128 queries and the same chunk of the scratch row and stores
    the chunk back; the piece it writes is what the run finds, as a function of the contents the trip meets. -/
@[irreducible] def trip_k1_t4 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k1_t4_loop.trips) :
    { L_row : (BufTy.Contents (Elt F) (k1_row3 arg5).view.ty → List (View.Piece (Elt F) S512 .f32)) // ∀ (E : Set ℕ) (f_row : BufTy.Contents (Elt F) (k1_row3 arg5).view.ty),
      Trip_k1_t4 (F := F) c arg2 arg5 X_arg2 f_row
      ⊢ wp frame (wpE (defs₀ (F := F)) 𝒱 (c : Thread nD τ) bd) E (k1_t4_body (F := F) i arg2 harg2 arg3 harg3 arg4 harg4 arg5 harg5 v45 k PUnit.unit)
          (fun _ => Trip_k1_t4 (F := F) c arg2 arg5 X_arg2 ((k1_row3 arg5).view.writes (Elt F) f_row (L_row f_row))) } := by
  have hk : k.val < 4 := Nat.lt_of_lt_of_le k.isLt k1_t4_abs.2.1
  refine ⟨?_, fun E f_row => ?run⟩
  case run =>
    unfold k1_t4_body
    iintro ⟨HR_arg2, HW_row⟩
    sl_exec
    sl_step
    sl_close

abbrev tripL_k1_t4 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k1_t4_loop.trips) (f_row : BufTy.Contents (Elt F) (k1_row3 arg5).view.ty) : List (View.Piece (Elt F) S512 .f32) :=
  (trip_k1_t4 (F := F) 𝒱 c bd i arg2 harg2 arg3 harg3 arg4 harg4 arg5 harg5 v45 X_arg2 k).1 f_row

@[irreducible] def pb_k1_t4Step (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k1_row3 arg5).view.ty) (k : ℕ) (prev : List (View.Piece (Elt F) S512 .f32)) : List (View.Piece (Elt F) S512 .f32) :=
  if h : k < k1_t4_loop.trips then
    (tripL_k1_t4 (F := F) 𝒱 c bd i arg2 harg2 arg3 harg3 arg4 harg4 arg5 harg5 v45 X_arg2 ⟨k, h⟩ ((k1_row3 arg5).view.writes (Elt F) G_arg5 prev)) ++ prev
  else prev

/-- The pieces of the trips before `k` (last first), each taken at the contents the earlier trips left. -/
def pb_k1_t4 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k1_row3 arg5).view.ty) : ℕ → List (View.Piece (Elt F) S512 .f32)
  | 0 => []
  | k + 1 => pb_k1_t4Step 𝒱 c bd i arg2 harg2 arg3 harg3 arg4 harg4 arg5 harg5 v45 X_arg2 G_arg5 k (pb_k1_t4 𝒱 c bd i arg2 harg2 arg3 harg3 arg4 harg4 arg5 harg5 v45 X_arg2 G_arg5 k)

theorem pb_k1_t4_succ (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) (k1_row3 arg5).view.ty) (k : Fin k1_t4_loop.trips) :
    pb_k1_t4 (F := F) 𝒱 c bd i arg2 harg2 arg3 harg3 arg4 harg4 arg5 harg5 v45 X_arg2 G_arg5 (k.val + 1)
      = (tripL_k1_t4 (F := F) 𝒱 c bd i arg2 harg2 arg3 harg3 arg4 harg4 arg5 harg5 v45 X_arg2 k ((k1_row3 arg5).view.writes (Elt F) G_arg5 (pb_k1_t4 (F := F) 𝒱 c bd i arg2 harg2 arg3 harg3 arg4 harg4 arg5 harg5 v45 X_arg2 G_arg5 k.val))) ++ (pb_k1_t4 (F := F) 𝒱 c bd i arg2 harg2 arg3 harg3 arg4 harg4 arg5 harg5 v45 X_arg2 G_arg5 k.val) := by
  rw [pb_k1_t4.eq_2]; unfold pb_k1_t4Step; exact dif_pos k.isLt

/-- The invariant before trip `k`: the query block at its contents; the whole scratch holding the pieces of the trips
    before `k` written through row 3 over the contents at loop entry. -/
abbrev inv_k1_t4 (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) arg5.view.ty) (k : ℕ) (_u : PUnit) : sProp 𝕄G :=
  iprop((arg2.view.loc (c : Thread nD τ) ↦[arg2.view.set]{fullShare} X_arg2) ∗ (∃ f, (arg5.view.loc (c : Thread nD τ) ↦[arg5.view.set]{fullShare} f) ∗ ⌜f = (k1_row3 arg5).view.writes (Elt F) G_arg5 (pb_k1_t4 (F := F) 𝒱 c bd i arg2 harg2 arg3 harg3 arg4 harg4 arg5 harg5 v45 X_arg2 G_arg5 k)⌝))

set_option warn.classDefReducibility false in
/-- The loop by its invariant: a trip splits row 3 off the scratch, runs on it, and puts it back. -/
@[sl_loop] def loopInv_k1_t4 (𝒱 : Variants) (c : Dev nD) (bd : Option 𝒱.V) (E : Set ℕ) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (G_arg5 : BufTy.Contents (Elt F) arg5.view.ty) :
    LoopInvTy_k1_t4 (F := F) Unit ℕ (UR sig nD τ) ℕ 𝒱 c bd E i arg2 harg2 arg3 harg3 arg4 harg4 arg5 harg5 v45 where
  inv := inv_k1_t4 (F := F) 𝒱 c bd i arg2 harg2 arg3 harg3 arg4 harg4 arg5 harg5 v45 X_arg2 G_arg5
  step k acc := by
    iintro ⟨HR_arg2, ⟨%f_arg5, HW_arg5, %h_arg5⟩⟩
    ihave Hs := (k1_row3_split (F := F) c arg5 f_arg5) $$ HW_arg5
    icases Hs with ⟨HW_row, HW_rest⟩
    iapply (wp_wand_r Idealize.ShloMosaic.frame (wpE (defs₀ (F := F)) 𝒱 (c : Thread nD τ) bd) E)
    isplitl [HR_arg2 HW_row]
    · iapply ((trip_k1_t4 (F := F) 𝒱 c bd i arg2 harg2 arg3 harg3 arg4 harg4 arg5 harg5 v45 X_arg2 k).2 E f_arg5)
      isplitl [HR_arg2]; · iexact HR_arg2
      iexact HW_row
    · iintro %_ ⟨HR_arg2, HW_row⟩
      isplitl [HR_arg2]; · iexact HR_arg2
      rw [pb_k1_t4_succ]
      iexists _; isplitl [HW_row HW_rest]
      · iapply (k1_row3_rejoin (F := F) c arg5 f_arg5 _)
        isplitl [HW_row]; · iexact HW_row
        iexact HW_rest
      ipureintro; rw [h_arg5, ← View.writes_append]

end Cert.KernelIdeal.Hand

end
-- ==== Proof.KernelIdeal.Scoped1.lean ====
import proofs.«160032_j64836826300486_2_alg».proof.Proof.Gen.KernelIdeal.Launch
import Idealize.ShloMosaic.Lib.Pipeline.FrameBody
import Idealize.ShloMosaic.Lib.Tactic

/-! Kernel 1's scratch among the core's scoped buffers.

What the launch hands a region beside its windows is every scoped buffer that is no staging buffer of the region, each
whole at some contents, and the generator register. This kernel's scratch is one of them; the body needs it as a memref
it owns, the others ride along untouched. The two entailments below pull the scratch out and put it back. -/

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Kernel 1's scratch, whole. -/
abbrev scM1 : Memref sig .tc .vmem S4x512 .f32 := Memref.whole cc1_scratch0
abbrev hscM1 : (scM1 : Memref sig .tc .vmem S4x512 .f32).IsWhole := Memref.isWhole_whole _

/-- The core's scoped buffers that are neither kernel 1's staging buffers nor its scratch, each at some contents. -/
abbrev others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_scratch0), ((c : Thread nD τ).loc cc0_scratch0) ↦{fullShare} f))

/-- What the launch hands region 1: the scratch owned at some contents, the others, the generator register. -/
theorem PhiA1_out (c : Dev nD) :
    (Pipeline.ΦA spec1 c : sProp 𝕄) ⊢ iprop(iprop((∃ d, owns (c : Thread nD τ) scM1 fullShare d) ∗ others1 c) ∗ (∃ r, prngReg c r)) := by
  unfold Pipeline.ΦA; rw [scopedRest1_eq]; simp only [scM1, owns_whole]
  iintro ⟨⟨H1, H2, H3, H4, H5, H6, H7, HS⟩, Hg⟩
  isplitr [Hg]
  · isplitl [HS]; · iexact HS
    isplitl [H1]; · iexact H1
    isplitl [H2]; · iexact H2
    isplitl [H3]; · iexact H3
    isplitl [H4]; · iexact H4
    isplitl [H5]; · iexact H5
    isplitl [H6]; · iexact H6
    iexact H7
  iexact Hg

/-- And back. -/
theorem PhiA1_in (c : Dev nD) :
    (iprop(iprop((∃ d, owns (c : Thread nD τ) scM1 fullShare d) ∗ others1 c) ∗ (∃ r, prngReg c r)) : sProp 𝕄) ⊢ Pipeline.ΦA spec1 c := by
  unfold Pipeline.ΦA; rw [scopedRest1_eq]; simp only [scM1, owns_whole]
  iintro ⟨⟨HS, H1, H2, H3, H4, H5, H6, H7⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HS
  iexact Hg

end Cert.KernelIdeal.Hand

end
-- ==== Proof.KernelIdeal.Body1.lean ====
import proofs.«160032_j64836826300486_2_alg».proof.Proof.KernelIdeal.LoopK1T1
import proofs.«160032_j64836826300486_2_alg».proof.Proof.KernelIdeal.LoopK1T2
import proofs.«160032_j64836826300486_2_alg».proof.Proof.KernelIdeal.LoopK1T3
import proofs.«160032_j64836826300486_2_alg».proof.Proof.KernelIdeal.LoopK1T4
import proofs.«160032_j64836826300486_2_alg».proof.Proof.KernelIdeal.Scoped1
import proofs.«160032_j64836826300486_2_alg».proof.Proof.Gen.KernelIdeal.Launch
import proofs.«160032_j64836826300486_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! The body of nearest-neighbour kernel 1 at every grid point, and the region's proof data.

The grid is 16 rows of query tiles by 16 key tiles; point t = 16 i + j meets query tile i and key tile j. At j = 0 the body
resets the [4, 512] scratch of running minima to +inf; at every point it lowers each batch's row of the scratch by the
row minima of the clamped squared distances to the key tile (four counted loops, one per batch); at j = 15 it copies the
scratch into the output's staging buffer, which the pipeline writes back there and only there. So the body has three
cases by t mod 16, the scratch is carried from a point to the next, and what it holds after a point is defined by
recursion on the point from what each case's run leaves. -/

set_option maxRecDepth 16384
set_option maxHeartbeats 4000000

noncomputable section

namespace Cert.KernelIdeal.Hand

open Cert.KernelIdeal Cert.KernelIdeal.Gen Cert.Lib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's two conditionals -/

/-- The first conditional of the body: the grid's second coordinate is 0 (the running minimum is reset). -/
abbrev cond1_0 (i : grid1.Coords) : Prop := (Scalar.cmpi .ne (Scalar.extui (Scalar.cmpi .eq (BitVec.ofNat 32 (i 1).val) 0#32)) 0#32) = 1#1
/-- The second: the grid's second coordinate is 15 (the running minimum is copied out). -/
abbrev cond1_1 (i : grid1.Coords) : Prop := k1_cond2 i = 1#1

/-! ## The body in each of its three cases

The pieces each buffer ends with are what the run finds: they are assigned when the buffers are handed to the
continuation. The scratch's final contents is the entry contents written through its four rows by the four loops. -/

/-- Key tile 0 of a row of query tiles: the running minimum is reset to +inf, then lowered by this key tile; the output's
    staging buffer is not touched. -/
def kernelRun1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : cond1_0 i) (hc1 : ¬cond1_1 i)
    (x0 x1 : Vec F S4x512x3 .f32) :
    { GS : BufTy.Contents (Elt F) arg5.view.ty //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi
            ∗ (∃ d, owns (c : Thread nD τ) arg5 fullShare d)
            ∗ (iprop(owns (c : Thread nD τ) arg2 fullShare x0 ∗ owns (c : Thread nD τ) arg3 fullShare x1 ∗ owns (c : Thread nD τ) arg4 fullShare xi
                ∗ (arg5.view.loc (c : Thread nD τ) ↦[arg5.view.set]{fullShare} GS)) -∗ K ⟨⟩))
          ⊢ wp frame (wpE (defs₀ (F := F)) Variants.none c none) E (cc1__nn_min_kernel i arg2 harg2 arg3 harg3 arg4 harg4 arg5 harg5) K } := by
  refine ⟨?_, fun xi E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%ds, %fs, -, HS⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

/-- A middle key tile: the running minimum, at `xs` before, is lowered by this key tile; the output's staging buffer is
    not touched. -/
def kernelRun1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : ¬cond1_1 i)
    (x0 x1 : Vec F S4x512x3 .f32) (xs : Vec F S4x512 .f32) :
    { GS : BufTy.Contents (Elt F) arg5.view.ty //
      ∀ (xi : Vec F S4x512 .f32) (E : Set ℕ) (K : PUnit → sProp 𝕄),
        iprop(owns (c : Thread nD τ) arg2 fullShare x0 ∗ owns (c : Thread nD τ) arg3 fullShare x1 ∗ owns (c : Thread nD τ) arg4 fullShare xi
            ∗ owns (c : Thread nD τ) arg5 fullShare xs
            ∗ (iprop(owns (c : Thread nD τ) arg2 fullShare x0 ∗ owns (c : Thread nD τ) arg3 fullShare x1 ∗ owns (c : Thread nD τ) arg4 fullShare xi
                ∗ (arg5.view.loc (c : Thread nD τ) ↦[arg5.view.set]{fullShare} GS)) -∗ K ⟨⟩))
          ⊢ wp frame (wpE (defs₀ (F := F)) Variants.none c none) E (cc1__nn_min_kernel i arg2 harg2 arg3 harg3 arg4 harg4 arg5 harg5) K } := by
  refine ⟨?_, fun xi E K => ?run⟩
  case run =>
    simp only [cc1__nn_min_kernel_eq_skeleton]; unfold cc1__nn_min_kernel_skel
    unfold owns
    iintro ⟨⟨%f0, %hf0, H0⟩, ⟨%f1, %hf1, H1⟩, ⟨%f2, %hf2, H2⟩, ⟨%fs, %hfs, HS⟩, Hk⟩
    obtain rfl := harg2.eq_unread hf0; obtain rfl := harg3.eq_unread hf1; obtain rfl := harg4.eq_unread hf2; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexact HS

/-- The last key tile: the running minimum is lowered by this key tile and then copied whole into the output's staging
    buffer. -/
def kernelRun1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (hc0 : ¬cond1_0 i) (hc1 : cond1_1 i)
    (x0 x1 : Vec F S4x512x3 .f32) (xs : Vec F S4x512 .f32) :
    Σ' (LO : List (View.Piece (Elt F) S4x512 .f32)), { GS : BufTy.Contents (Elt F) arg5.view.ty //
      ∀ (E : Set ℕ) (K : PUnit → sProp 𝕄),
        iprop(owns (c : Thread nD τ) arg2 fullShare x0 ∗ owns (c : Thread nD τ) arg3 fullShare x1 ∗ (∃ d, owns (c : Thread nD τ) arg4 fullShare d)
            ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (arg5.view.loc (c : Thread nD τ) ↦[arg5.view.set]{fullShare} GS)) -∗ K ⟨⟩))
          ⊢ wp frame (wpE (defs₀ (F := F)) Variants.none c none) E (cc1__nn_min_kernel i arg2 harg2 arg3 harg3 arg4 harg4 arg5 harg5) K } := by
  refine ⟨?_, ?_, fun E K => ?run⟩
  case run =>
    simp only [cc1__nn_min_kernel_eq_skeleton]; unfold cc1__nn_min_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; iexact H2
    iexact HS

variable (V : (c : Dev nD) → (b : Ref sig .tc) → Buf (Elt F) ((c : Thread nD τ).loc b))

/-! ## The body's conditions over the grid, and where the output window is idle -/

/-- The reset is taken at the points ≡ 0 (mod 16): the first key tile of each row of query tiles. -/
theorem hcond1_0 : ∀ t : Fin cfg1.N, cond1_0 (grid1.coords t) ↔ t.val % 16 = 0 :=
  (by decide +kernel : ∀ t : Fin grid1.N, cond1_0 (grid1.coords t) ↔ t.val % 16 = 0)
/-- The copy-out is taken at the points ≡ 15 (mod 16): the last key tile. -/
theorem hcond1_1 : ∀ t : Fin cfg1.N, cond1_1 (grid1.coords t) ↔ t.val % 16 = 15 :=
  (by decide +kernel : ∀ t : Fin grid1.N, cond1_1 (grid1.coords t) ↔ t.val % 16 = 15)

theorem liveAt1_0 : ∀ t : Fin cfg1.N, cfg1.idle 0 (grid1.coords t) = false := by decide +kernel
theorem liveAt1_1 : ∀ t : Fin cfg1.N, cfg1.idle 1 (grid1.coords t) = false := by decide +kernel
/-- Away from the last key tile the output window is idle and is not written back. -/
theorem idleAt1_2 : ∀ t : Fin cfg1.N, ¬cond1_1 (grid1.coords t) → cfg1.idle 2 (grid1.coords t) = true := by decide +kernel
theorem noFlush1_2 : ∀ t : Fin cfg1.N, ¬cond1_1 (grid1.coords t) → (cfg1.win 2).flush t = false := by decide +kernel
theorem liveAt1_2 : ∀ t : Fin cfg1.N, cond1_1 (grid1.coords t) → cfg1.idle 2 (grid1.coords t) = false := by decide +kernel

/-- Each window's current staging memref at point `t`, and the scratch. -/
abbrev ms1_0 (t : Fin cfg1.N) : Memref sig .tc .vmem S4x512x3 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4x512x3 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x512 .f32 := win1_2.stage (cfg1.slots t 2)
abbrev hs1_2 (t : Fin cfg1.N) : (ms1_2 t).IsWhole := hstage1_2 ((cfg1.slots t 2).cast nbuf1_2)
/-- One staging buffer of the output window, through which its contents are stated. -/
abbrev VO1 : View sig .tc .vmem S4x512 .f32 := (Memref.whole cc1_stg2_0 : Memref sig .tc .vmem S4x512 .f32).view

/-! ## What each case leaves -/

def sout1_A (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : cond1_0 i) (hc1 : ¬cond1_1 i) (x0 x1 : Vec F S4x512x3 .f32) : Vec F S4x512 .f32 :=
  scM1.view.read (Elt F) (kernelRun1_A c i arg2 harg2 arg3 harg3 arg4 harg4 scM1 hscM1 hc0 hc1 x0 x1).1
def sout1_B (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : ¬cond1_1 i) (x0 x1 : Vec F S4x512x3 .f32) (xs : Vec F S4x512 .f32) : Vec F S4x512 .f32 :=
  scM1.view.read (Elt F) (kernelRun1_B c i arg2 harg2 arg3 harg3 arg4 harg4 scM1 hscM1 hc0 hc1 x0 x1 xs).1
def sout1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : cond1_1 i) (x0 x1 : Vec F S4x512x3 .f32) (xs : Vec F S4x512 .f32) : Vec F S4x512 .f32 :=
  scM1.view.read (Elt F) (kernelRun1_C c i arg2 harg2 arg3 harg3 arg4 harg4 scM1 hscM1 hc0 hc1 x0 x1 xs).2.1
/-- At the last key tile the output's staging buffer is stored whole: its pieces cover it. -/
theorem cover1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : cond1_1 i) (x0 x1 : Vec F S4x512x3 .f32) (xs : Vec F S4x512 .f32) (y : S4x512.Idx) :
    ∃ pc ∈ (kernelRun1_C c i arg2 harg2 arg3 harg3 arg4 harg4 scM1 hscM1 hc0 hc1 x0 x1 xs).1, y ∈ pc.1.set :=
  View.cover_of_tiledL (kernelRun1_C c i arg2 harg2 arg3 harg3 arg4 harg4 scM1 hscM1 hc0 hc1 x0 x1 xs).1 S4x512.size (by sl_kernel_rfl) y
def out1_C (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : cond1_1 i) (x0 x1 : Vec F S4x512x3 .f32) (xs : Vec F S4x512 .f32) : Vec F S4x512 .f32 :=
  VO1.read (Elt F) (VO1.writes (Elt F) VO1.junk (kernelRun1_C c i arg2 harg2 arg3 harg3 arg4 harg4 scM1 hscM1 hc0 hc1 x0 x1 xs).1)
/-- Where the output window is idle nothing consults its contents: a placeholder. -/
def out1_idle : Vec F S4x512 .f32 := VO1.read (Elt F) VO1.junk

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the output's staging buffer and the scratch hold after each point -/

/-- The accumulation: after the body at position `n`, the output's staging buffer and the scratch. The case is the
    position's remainder mod 16; the running minimum a later key tile lowers is the one the point before left. -/
def outsAt1 (c : Dev nD) : (n : ℕ) → n < cfg1.N → Vec F S4x512 .f32 × Vec F S4x512 .f32
  | 0, hn => (out1_idle, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩))
  | n + 1, hn =>
    if h0 : (n + 1) % 16 = 0 then
      if h1 : (n + 1) % 16 = 15 then
        False.elim (by omega)
      else
        (out1_idle, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) ((hcond1_0 ⟨n + 1, hn⟩).mpr h0) (fun h => h1 ((hcond1_1 ⟨n + 1, hn⟩).mp h)) (iblk1 V c 0 ⟨n + 1, hn⟩) (iblk1 V c 1 ⟨n + 1, hn⟩))
    else
      if h1 : (n + 1) % 16 = 15 then
        (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2,
          sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) ((hcond1_1 ⟨n + 1, hn⟩).mpr h1) (iblk1 V c 0 ⟨n + 1, hn⟩) (iblk1 V c 1 ⟨n + 1, hn⟩) (outsAt1 c n (Nat.lt_of_succ_lt hn)).2)
      else
        (out1_idle, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (outsAt1 c n (Nat.lt_of_succ_lt hn)).2)

theorem outsAt1_A (c : Dev nD) (t : Fin cfg1.N) (h0 : t.val % 16 = 0) (h1 : ¬t.val % 16 = 15) :
    outsAt1 V c t.val t.isLt = (out1_idle, sout1_A c (grid1.coords t) (ms1_0 t) (hs1_0 t) (ms1_1 t) (hs1_1 t) (ms1_2 t) (hs1_2 t) ((hcond1_0 t).mpr h0) (fun h => h1 ((hcond1_1 t).mp h)) (iblk1 V c 0 t) (iblk1 V c 1 t)) := by
  obtain ⟨n, hn⟩ := t
  cases n with
  | zero => exact rfl
  | succ n => exact (dif_pos h0).trans ((dif_neg h1).trans rfl)

theorem outsAt1_B (c : Dev nD) (t : Fin cfg1.N) (h0 : ¬t.val % 16 = 0) (h1 : ¬t.val % 16 = 15) :
    outsAt1 V c t.val t.isLt = (out1_idle, sout1_B c (grid1.coords t) (ms1_0 t) (hs1_0 t) (ms1_1 t) (hs1_1 t) (ms1_2 t) (hs1_2 t) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

theorem outsAt1_C (c : Dev nD) (t : Fin cfg1.N) (h0 : ¬t.val % 16 = 0) (h1 : t.val % 16 = 15) :
    outsAt1 V c t.val t.isLt = (out1_C c (grid1.coords t) (ms1_0 t) (hs1_0 t) (ms1_1 t) (hs1_1 t) (ms1_2 t) (hs1_2 t) (fun h => h0 ((hcond1_0 t).mp h)) ((hcond1_1 t).mpr h1) (iblk1 V c 0 t) (iblk1 V c 1 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (fun h => h0 ((hcond1_0 t).mp h)) ((hcond1_1 t).mpr h1) (iblk1 V c 0 t) (iblk1 V c 1 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point what the launch hands over; afterwards the
    scratch at what the point before left in it, beside the other scoped buffers and the generator register. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ others1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ others1 c) ∗ (∃ r, prngReg c r)) := by
  cases n with
  | zero => exact absurd rfl hz
  | succ n => rfl

/-! ## The proof data -/

/-- Region 1's proof data on core `c`: the arrays as the region finds them; after the body each input's buffer at its
    block and the output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

/-- Before any point the invariant holds the scratch at some contents, beside the rest. -/
theorem PhiS1_any (c : Dev nD) (t : Fin cfg1.N) :
    (dat1 V c).Φ t.castSucc ⊢ (iprop(iprop((∃ d, owns (c : Thread nD τ) scM1 fullShare d) ∗ others1 c) ∗ (∃ r, prngReg c r)) : sProp 𝕄) := by
  rw [PhiS1_castSucc V c t]
  by_cases hz : t.val = 0
  · rw [PhiS1_zero V c _ _ hz]; exact PhiA1_out c
  · rw [PhiS1_pos V c _ _ hz]
    iintro ⟨⟨HS0, Hoth⟩, Hg⟩
    isplitr [Hg]
    · isplitl [HS0]; · iexists _; iexact HS0
      iexact Hoth
    iexact Hg

set_option maxHeartbeats 4800000 in
/-- The body at any point: the inputs' memrefs hold their blocks; the point's remainder mod 16 says which case it is
    in; the invariant hands the body the scratch (at what the point before left when the case reads it) and takes it back
    at this point's contents; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  by_cases h0 : t.val % 16 = 0
  · have h1 : ¬t.val % 16 = 15 := by omega
    rw [Dat.leavesExact_idle (dat1 V c) 2 t (idleAt1_2 t (fun h => h1 ((hcond1_1 t).mp h))) (noFlush1_2 t (fun h => h1 ((hcond1_1 t).mp h)))]
    rw [outsAt1_A V c t h0 h1]
    unfold sout1_A; (try dsimp only)
    iintro ⟨HΦ, Ho, ⟨%d0, H0⟩, ⟨%d1, H1⟩, ⟨%d2, H2⟩⟩
    ihave HΦ' := (PhiS1_any V c t) $$ HΦ
    icases HΦ' with ⟨⟨HS0, Hoth⟩, Hg⟩
    iapply ((kernelRun1_A c (grid1.coords t) _ _ _ _ _ _ scM1 hscM1 ((hcond1_0 t).mpr h0) (fun h => h1 ((hcond1_1 t).mp h)) (iblk1 V c 0 t) (iblk1 V c 1 t)).2 _ Set.univ _)
    isplitl [H0]; · iexact H0
    isplitl [H1]; · iexact H1
    isplitl [H2]; · iexact H2
    isplitl [HS0]; · iexact HS0
    iintro ⟨H0, H1, H2, HS0⟩
    isplitl [HS0 Hoth Hg]
    · isplitr [Hg]
      · isplitl [HS0]
        · iapply (owns_intro (c : Thread nD τ) scM1 fullShare _); iexact HS0
        iexact Hoth
      iexact Hg
    isplitl [Ho]; · iexact Ho
    isplitl [H0]; · iexact H0
    isplitl [H1]; · iexact H1
    iexists _; iexact H2
  · have hz : t.val ≠ 0 := fun e => h0 (by rw [e])
    by_cases h1 : t.val % 16 = 15
    · rw [show (dat1 V c).leavesExact 2 t = owns (c : Thread nD τ) (ms1_2 t) fullShare ((dat1 V c).after 2 t) from by
        unfold Dat.leavesExact; rw [liveAt1_2 t ((hcond1_1 t).mpr h1)], after1_2]
      rw [outsAt1_C V c t h0 h1]
      unfold out1_C sout1_C; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_C c (grid1.coords t) _ _ _ _ _ _ scM1 hscM1 (fun h => h0 ((hcond1_0 t).mp h)) ((hcond1_1 t).mpr h1) (iblk1 V c 0 t) (iblk1 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, HS0⟩
      isplitl [HS0 Hoth Hg]
      · isplitr [Hg]
        · isplitl [HS0]
          · iapply (owns_intro (c : Thread nD τ) scM1 fullShare _); iexact HS0
          iexact Hoth
        iexact Hg
      isplitl [Ho]; · iexact Ho
      isplitl [H0]; · iexact H0
      isplitl [H1]; · iexact H1
      unfold owns; iexists _; isplitr
      swap; · iexact H2
      ipureintro; exact View.read_writes_of_cover _ _ _ _ _ (cover1_C c _ _ _ _ _ _ _ _ _ _ _ _)
    · rw [Dat.leavesExact_idle (dat1 V c) 2 t (idleAt1_2 t (fun h => h1 ((hcond1_1 t).mp h))) (noFlush1_2 t (fun h => h1 ((hcond1_1 t).mp h)))]
      rw [outsAt1_B V c t h0 h1]
      unfold sout1_B; (try dsimp only)
      rw [PhiS1_castSucc V c t, PhiS1_pos V c _ _ hz]
      iintro ⟨⟨⟨HS0, Hoth⟩, Hg⟩, Ho, ⟨%d0, H0⟩, ⟨%d1, H1⟩, ⟨%d2, H2⟩⟩
      iapply ((kernelRun1_B c (grid1.coords t) _ _ _ _ _ _ scM1 hscM1 (fun h => h0 ((hcond1_0 t).mp h)) (fun h => h1 ((hcond1_1 t).mp h)) (iblk1 V c 0 t) (iblk1 V c 1 t) _).2 _ Set.univ _)
      isplitl [H0]; · iexact H0
      isplitl [H1]; · iexact H1
      isplitl [H2]; · iexact H2
      isplitl [HS0]; · iexact HS0
      iintro ⟨H0, H1, H2, HS0⟩
      isplitl [HS0 Hoth Hg]
      · isplitr [Hg]
        · isplitl [HS0]
          · iapply (owns_intro (c : Thread nD τ) scM1 fullShare _); iexact HS0
          iexact Hoth
        iexact Hg
      isplitl [Ho]; · iexact Ho
      isplitl [H0]; · iexact H0
      isplitl [H1]; · iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives it back: the scratch's named contents are forgotten. -/
theorem hout1 (c : Dev nD) : (dat1 V c).Φ (Fin.last cfg1.N) ⊢ (Pipeline.ΦA spec1 c : sProp 𝕄) := by
  have ht : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl, PhiS1_pos V c _ _ ht]
  refine (?_ : _ ⊢ (iprop(iprop((∃ d, owns (c : Thread nD τ) scM1 fullShare d) ∗ others1 c) ∗ (∃ r, prngReg c r)) : sProp 𝕄)).trans (PhiA1_in c)
  iintro ⟨⟨HS0, Hoth⟩, Hg⟩
  isplitr [Hg]
  · isplitl [HS0]; · iexists _; iexact HS0
    iexact Hoth
  iexact Hg

end Cert.KernelIdeal.Hand

end
-- ==== Proof.KernelIdeal.Assembly.lean ====
import proofs.«160032_j64836826300486_2_alg».proof.Proof.KernelIdeal.Body0
import proofs.«160032_j64836826300486_2_alg».proof.Proof.KernelIdeal.Body1
import proofs.«160032_j64836826300486_2_alg».proof.Proof.Gen.KernelIdeal.Launch
import proofs.«160032_j64836826300486_2_alg».proof.Proof.Gen.KernelIdeal.Points
import proofs.«160032_j64836826300486_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Tactic

/-! # The run of @main, assembled from its two regions

@main is four items in order: a stretch of host operations (the two point clouds scaled by one), region 0, region 1
and a second stretch of host operations (the two regions' outputs reduced to the result). The buffer contents at
each boundary are a fold from the launch memory; each region is entered from every unscoped buffer held at its
boundary's contents and left with them at the next boundary's; the run theorem reads the result buffer and the two
arguments off the last boundary's contents. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the first host stretch: region 0's entry. -/
abbrev W1 : Dev nD → Valuation τ sig (Elt F) := fun c => StableHlo.after hostOps0 (W0 m ρ c)
/-- The same, read at the TensorCore's references. -/
abbrev V1 : (c : Dev nD) → (b : Ref sig .tc) → Buf (Elt F) ((c : Thread nD τ).loc b) := fun c b => W1 m ρ c b
/-- At region 0's exit, which is region 1's entry: region 0's arrays at what its pipeline leaves, every other
    buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same, read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: region 1's arrays at what its pipeline leaves, every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same, read at the TensorCore's references. -/
abbrev V3 : (c : Dev nD) → (b : Ref sig .tc) → Buf (Elt F) ((c : Thread nD τ).loc b) := fun c b => W3 m ρ c b
theorem hF1 (c : Dev nD) (w : Fin cfg1.W) : (dat1 (V2 m ρ) c).arrAt w cfg1.N = V3 m ρ c (Pipeline.arrRef spec1 w) :=
  (W3_arr m ρ c w).symm
theorem hrest1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- After the second host stretch: what the launch reads at the end. -/
abbrev W4 : Dev nD → Valuation τ sig (Elt F) := fun c => StableHlo.after hostOps2 (W3 m ρ c)

/-! ## The arguments end as launched

No host operation writes an argument and neither region has one among its arrays, so the fold at an argument's
buffer walks back to the launch memory. -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg0) := W3_of_ne m ρ c main_arg0 (by decide)
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := StableHlo.after_of_forall_not_mem (b := Proc.devRef .tc main_arg1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg1) := W3_of_ne m ρ c main_arg1 (by decide)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-! ## The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its
    `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along: it ends with
    those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left with them at `W2`. Its
    arrays are split out of the unscoped buffers at entry and put back at their exit contents; the generator register
    goes into the region's invariant through the class invariant and comes back out of it; nothing is owed; the kernel
    has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec0 c : sProp 𝕄)).trans (hin0 (V1 m ρ) c)
    unfold Pipeline.ΦA
    iintro ⟨Hp, -, Hr⟩
    isplitl [Hr]; · iexact Hr
    iexact Hp
  hout c := by
    rw [Pipeline.ownSems0_none]
    refine (hout0 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left with them at `W3`. Its
    arrays are split out of the unscoped buffers at entry and put back at their exit contents; the generator register
    goes into the region's invariant through the class invariant and comes back out of it; nothing is owed; the kernel
    has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    refine (?_ : _ ⊢ (Pipeline.ΦA spec1 c : sProp 𝕄)).trans (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's four segments in order. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .region (reg1 m ρ),
    .host (hseg hostOps2 hostOps2_sub hostOps2_fresh (W3 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters, every weakly fair execution of @main on the TensorCores terminates,
    nothing faulting, and every final state has the result buffer at the last boundary's contents and the two
    argument arrays as launched. -/
theorem run_main : θ_run defs (onTc (τ := τ) (main (F := F))) ⟨m, fun _ => 0, ρ⟩ (fun r => ∀ c : Dev nD,
      r.2.mem ((c.tc : Thread nD τ).loc main_v15) = W4 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      show iprop(StableHlo.held (c : Thread nD τ) (Pipeline.ucRefs τ sig) (W4 m ρ c) ∗ R c)
        ⊢ iprop(Tₙ m ρ c ∗ ∃ W, owes (c : Thread nD τ) (0 : CellTallies nD τ sig Unit) W)
      iintro ⟨Hh, Hp, HO⟩
      isplitr [HO]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v15 (by decide)),
       (h c _ (mem_uc main_arg0 (by decide))).trans (W4_main_arg0 m ρ c),
       (h c _ (mem_uc main_arg1 (by decide))).trans (W4_main_arg1 m ρ c)⟩)

/-- THE FRAME: @main runs and its two argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (run_main m ρ).mono fun r h c => (h c).2

/-! ## Reading the values

What the result buffer holds at the end, from the two regions' outputs; what each region finds in its input
arrays, from the launch memory. -/

/-- The second host stretch composed: each region's output (`d1` for region 0's, `d2` for region 1's) summed along
    its long axis and divided by that axis' length, the two added, summed over the batch and divided by its size. -/
def tailK (d1 d2 : (⟨S4x8192, .f32⟩ : BufTy).Contents (Elt F)) : (⟨S1, .f32⟩ : BufTy).Contents (Elt F) :=
  shapeCast S1
    (Host.divf
      (Host.reduceAdd
        (addf
          (Host.divf (Host.reduceAdd d1 (constant (F := F) S_ .f32 0x00000000#32) reducesTo_S4x8192_S4_d1 h_S_)
            (broadcastInDim S4 ![] bcast_S_S4 (constant (F := F) S_ .f32 0x46000000#32)))
          (Host.divf (Host.reduceAdd d2 (constant (F := F) S_ .f32 0x00000000#32) reducesTo_S4x8192_S4_d1 h_S_)
            (broadcastInDim S4 ![] bcast_S_S4 (constant (F := F) S_ .f32 0x46000000#32))))
        (constant (F := F) S_ .f32 0x00000000#32) reducesTo_S4_S_d0 h_S_)
      (constant (F := F) S_ .f32 0x40800000#32))
    shapeCasts_S_S1

/-- The result buffer at the end is the second host stretch applied to the two regions' outputs as region 1 leaves
    them. -/
theorem W4_main_v15 (c : Dev nD) : W4 m ρ c (Proc.devRef .tc main_v15)
    = tailK (W3 m ρ c (Proc.devRef .tc main_v4)) (W3 m ρ c (Proc.devRef .tc main_v5)) := by
  show StableHlo.after hostOps2 (W3 m ρ c) (Proc.devRef .tc main_v15) = _
  generalize W3 m ρ c = X
  after_results
  rfl

/-- Region 0's output is no array of region 1: at region 1's exit it is what region 0's pipeline left. -/
theorem W3_main_v4 (c : Dev nD) : W3 m ρ c (Proc.devRef .tc main_v4) = (dat0 (V1 m ρ) c).arrAt 2 cfg0.N :=
  (W3_of_ne m ρ c main_v4 (by decide)).trans (W2_arr m ρ c 2)

/-- Region 1's output at its exit is what its pipeline left. -/
theorem W3_main_v5 (c : Dev nD) : W3 m ρ c (Proc.devRef .tc main_v5) = (dat1 (V2 m ρ) c).arrAt 2 cfg1.N :=
  W3_arr m ρ c 2

/-- The first point cloud as region 0 finds it: the first argument times the constant one. -/
theorem V1_main_v1 (c : Dev nD) : V1 m ρ c main_v1
    = mulf (m ((c : Thread nD τ).loc main_arg0)) (broadcastInDim S4x8192x3 ![] bcast_S_S4x8192x3 (constant (F := F) S_ .f32 0x3F800000#32)) := by
  show StableHlo.after hostOps0 (W0 m ρ c) (Proc.devRef .tc main_v1) = _
  after_results

/-- The second point cloud as region 0 finds it: the second argument times the constant one. -/
theorem V1_main_v3 (c : Dev nD) : V1 m ρ c main_v3
    = mulf (m ((c : Thread nD τ).loc main_arg1)) (broadcastInDim S4x8192x3 ![] bcast_S_S4x8192x3 (constant (F := F) S_ .f32 0x3F800000#32)) := by
  show StableHlo.after hostOps0 (W0 m ρ c) (Proc.devRef .tc main_v3) = _
  after_results

/-- Region 0 leaves its input arrays as it found them: region 1 finds the first point cloud as region 0 did, -/
theorem V2_main_v1 (c : Dev nD) : V2 m ρ c main_v1 = V1 m ρ c main_v1 :=
  (W2_arr m ρ c 0).trans (((dat0 (V1 m ρ) c).arrAt_in 0 rfl _).trans (A_eq0 (V1 m ρ) c 0))

/-- and the second. -/
theorem V2_main_v3 (c : Dev nD) : V2 m ρ c main_v3 = V1 m ρ c main_v3 :=
  (W2_arr m ρ c 1).trans (((dat0 (V1 m ρ) c).arrAt_in 1 rfl _).trans (A_eq0 (V1 m ρ) c 1))

end Cert.KernelIdeal.Hand

end
-- ==== Proof.Spec.lean ====
import Idealize.ShloMosaic.PureOps.Ideal
import Idealize.ShloMosaic.Lib.ValueIdx

/-! The nearest-neighbour distances both programs compute, as one function of the two point clouds.

Each input is four batches of 8192 points of R^3. For a query point `x` and a key point `y` the programs form the
clamped squared distance max(|x|^2 + |y|^2 - 2<x,y>, 0); the nearest-neighbour distance of a query point is the infimum
of that over the 8192 key points of its batch. Sums of three terms are added left to right, the literals 2 and 0 are kept
as their 32-bit words (the same words on both sides, never evaluated). -/

noncomputable section

namespace Cert.Chamfer

open Idealize.ShloMosaic

/-- The squared length of a point of R^3, its three squares added left to right. -/
def sq3 (x : Fin 3 → EReal) : EReal := x 0 * x 0 + x 1 * x 1 + x 2 * x 2

/-- The inner product of two points, its three products added left to right. -/
def dot3 (x y : Fin 3 → EReal) : EReal := x 0 * y 0 + x 1 * y 1 + x 2 * y 2

/-- The clamped squared distance max(|x|^2 + |y|^2 - 2<x,y>, 0), the literals 2 and 0 kept as their words. -/
def dist (x y : Fin 3 → EReal) : EReal :=
  max (sq3 x + sq3 y - Ideal.ofBits .f32 0x40000000#32 * dot3 x y) (Ideal.ofBits .f32 0x00000000#32)

/-- The nearest-neighbour distance of query point `n` of batch `b` among the 8192 key points of that batch. -/
def nn (q k : Fin 4 → Fin 8192 → Fin 3 → EReal) (b : Fin 4) (n : Fin 8192) : EReal :=
  ⨅ m : Fin 8192, dist (q b n) (k b m)

/-- An array [4, 8192, 3] of extended reals as a family of points. -/
def pts (x : (⟨3, ![4, 8192, 3]⟩ : Shape).Idx → EReal) : Fin 4 → Fin 8192 → Fin 3 → EReal :=
  fun b n d => x (ValueIdx.ix3 b n d)

end Cert.Chamfer

end
-- ==== Proof.KernelIdeal.Payload0.lean ====
import proofs.«160032_j64836826300486_2_alg».proof.Proof.Gen.KernelIdeal.Skeleton
import proofs.«160032_j64836826300486_2_alg».proof.Proof.Spec
import Idealize.ShloMosaic.PureOps.Ideal.Laws
import Idealize.ShloMosaic.Lib.ValueIdx
import Idealize.ShloMosaic.Lib.ValueLayout
import Idealize.ShloMosaic.Lib.Pipeline.Value

/-! The arithmetic of the first kernel's body, read at an index, at the ideal values.

One trip of a batch's loop takes a chunk of 128 query points `q` and the batch's 512 key points `k`, forms for every
pair the clamped squared distance max(|q|^2 + |k|^2 - 2<q,k>, 0) as a [128, 512] matrix, takes each row's minimum over
the 512 keys and lowers the chunk of the running minimum by it. Read at query `r` the stored value is
min(old r, inf over the keys m of dist(q r, k m)). The matrix is built from column vectors by shape casts that add a
unit axis and broadcasts along it; each such layout step is read at an index by one small lemma, the row minimum is a
fold of `min` from the top element over the 512 lanes, which is the infimum. -/

noncomputable section

namespace Cert.KernelIdeal.Hand

open Cert.KernelIdeal Cert.KernelIdeal.Gen Cert.Chamfer Idealize.ShloMosaic Idealize.ShloMosaic.ValueIdx

/-! ## Layout steps with a trailing unit axis, read at an index -/

section Layout
variable {α : Type}

/-- A column `[a, 1]` cast to the vector `[a]` reads, at `i`, the column at `(i, 0)`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A vector `[a]` cast to the column `[a, 1]` reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## A row minimum as an infimum -/

/-- A fold of `min` from the top element over a whole finite type is the infimum. -/
theorem fold_min_top_univ {ι : Type} [Fintype ι] (f : ι → EReal) :
    (Finset.univ : Finset ι).fold min ⊤ f = ⨅ i, f i :=
  eq_of_forall_le_iff fun c => by
    rw [Finset.le_fold_min, le_iInf_iff]
    exact ⟨fun h i => h.2 i (Finset.mem_univ i), fun h => ⟨le_top, fun i _ => h i⟩⟩

/-- The word of the running minimum's start, positive infinity, is the top element. -/
theorem ofBits_inf_f32 : Ideal.ofBits .f32 0x7F800000#32 = ⊤ := by simp [Ideal.ofBits, Ideal.ieee]

/-- A float `vector.multi_reduction <minimumf>` over one axis, read at the ideal values: the fold of `min` from the
    accumulator's value over that axis's coordinates. -/
theorem multiReduction_minimumf_single {s t : Shape} {a : Fin s.rank} {φ : FTy} (src : FVec Ideal s φ)
    (acc : BitVec φ.bits) (h : s.Reduces [a] t) (hφ : FKind.Formats φ) (hacc : acc = FKind.minimumf.neutral φ hφ)
    (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

/-- The minimum over the 512 lanes of a `[128, 512]` matrix from positive infinity, at row `r`, is the infimum of the
    row. -/
theorem laneMin_apply (src : FVec Ideal S128x512 .f32) (hφ : FKind.Formats .f32)
    (hacc : (0x7F800000#32 : BitVec 32) = FKind.minimumf.neutral .f32 hφ) (r : Fin 128) :
    multiReduction (F := Ideal) .minimumf [1] S128 src 0x7F800000#32 reduces_S128x512_S128 hφ hacc (ix1 r)
      = ⨅ m : Fin 512, src (ix2 r m) := by
  refine (multiReduction_minimumf_single src _ reduces_S128x512_S128 hφ hacc (ix1 r)).trans ?_
  show (Finset.univ : Finset (Fin 512)).fold min (Ideal.ofBits .f32 0x7F800000#32)
      (fun m : Fin 512 => src (reduces_S128x512_S128.lift (ix1 r) m)) = _
  rw [ofBits_inf_f32, fold_min_top_univ]
  refine iInf_congr fun m => congrArg src ?_
  funext c
  match c with
  | ⟨0, _⟩ => exact Fin.ext rfl
  | ⟨1, _⟩ => exact Fin.ext rfl

/-! ## The key block: its columns and squared lengths -/

section Keys
variable (v3 : Vec Ideal S1x512x3 .f32) (m : Fin 512)

/-- Column 0 of the key block at key `m`. -/
theorem k0_pay19_apply : k0_pay19 (F := Ideal) v3 (ix1 m) = v3 (ix3 (0 : Fin 1) m (0 : Fin 3)) := by
  unfold k0_pay19 k0_pay18
  refine (shapeCast_a1_a_apply _ _ m).trans ?_
  refine (slice2_axis1_apply 0 _ _ m (0 : Fin 1) (0 : Fin 3) rfl).trans ?_
  exact shapeCast_1ab_ab_apply _ _ m (0 : Fin 3)

/-- Column 1 of the key block at key `m`. -/
theorem k0_pay20_apply : k0_pay20 (F := Ideal) v3 (ix1 m) = v3 (ix3 (0 : Fin 1) m (1 : Fin 3)) := by
  unfold k0_pay20 k0_pay18
  refine (shapeCast_a1_a_apply _ _ m).trans ?_
  refine (slice2_axis1_apply 1 _ _ m (0 : Fin 1) (1 : Fin 3) rfl).trans ?_
  exact shapeCast_1ab_ab_apply _ _ m (1 : Fin 3)

/-- Column 2 of the key block at key `m`. -/
theorem k0_pay21_apply : k0_pay21 (F := Ideal) v3 (ix1 m) = v3 (ix3 (0 : Fin 1) m (2 : Fin 3)) := by
  unfold k0_pay21 k0_pay18
  refine (shapeCast_a1_a_apply _ _ m).trans ?_
  refine (slice2_axis1_apply 2 _ _ m (0 : Fin 1) (2 : Fin 3) rfl).trans ?_
  exact shapeCast_1ab_ab_apply _ _ m (2 : Fin 3)

/-- The squared length of key `m`. -/
theorem k0_pay22_apply : k0_pay22 (F := Ideal) v3 (ix1 m) = sq3 (fun d => v3 (ix3 (0 : Fin 1) m d)) := by
  unfold k0_pay22
  simp only [addf_apply, mulf_apply, k0_pay19_apply, k0_pay20_apply, k0_pay21_apply]
  rfl

end Keys

/-! ## One trip's payload -/

section Trip
variable (v6 v8 v10 v15 : FVec Ideal S512 .f32) (v67 : Vec Ideal S128x3 .f32) (v111 : Vec Ideal S128 .f32)
  (r : Fin 128)

/-- The trip's new running minimum at query `r`, over the key columns and squared lengths it is given. -/
theorem k0_pay13_apply :
    k0_pay13 (F := Ideal) v6 v8 v10 v15 v67 v111 (ix1 r)
      = min (v111 (ix1 r)) (⨅ m : Fin 512,
          max ((v67 (ix2 r (0 : Fin 3)) * v67 (ix2 r (0 : Fin 3)) + v67 (ix2 r (1 : Fin 3)) * v67 (ix2 r (1 : Fin 3))
                  + v67 (ix2 r (2 : Fin 3)) * v67 (ix2 r (2 : Fin 3)) + v15 (ix1 m))
                - Ideal.ofBits .f32 0x40000000#32
                  * (v67 (ix2 r (0 : Fin 3)) * v6 (ix1 m) + v67 (ix2 r (1 : Fin 3)) * v8 (ix1 m)
                      + v67 (ix2 r (2 : Fin 3)) * v10 (ix1 m)))
              (Ideal.ofBits .f32 0x00000000#32)) := by
  unfold k0_pay13
  refine (minimumf_apply _ _ _).trans (congrArg (min (v111 (ix1 r))) ?_)
  refine (laneMin_apply _ _ _ r).trans (iInf_congr fun m => ?_)
  simp only [maximumf_apply, subf_apply, addf_apply, mulf_apply, broadcast_apply, broadcastTo_a1_ab_apply,
    broadcastTo_1b_ab_apply, shapeCast_a_a1_apply, shapeCast_a_1a_apply, shapeCast_a1_a_apply, shapeCast_self,
    slice2_axis1_eq]
  rfl

end Trip

/-! ## What each trip stores, and the reset -/

/-- Batch 0: the value a trip stores at query `r` is the old running minimum lowered by the nearest key's clamped
    squared distance. -/
theorem k0_trip1_value (v3 : Vec Ideal S1x512x3 .f32) (v67 : Vec Ideal S128x3 .f32) (v111 : Vec Ideal S128 .f32)
    (r : Fin 128) :
    k0_pay23 (F := Ideal) (k0_pay13 (k0_pay19 v3) (k0_pay20 v3) (k0_pay21 v3) (k0_pay22 v3) v67 v111) (ValueIdx.ix1 r)
      = min (v111 (ValueIdx.ix1 r))
          (⨅ m : Fin 512, dist (fun d => v67 (ValueIdx.ix2 r d)) (fun d => v3 (ValueIdx.ix3 (0 : Fin 1) m d))) := by
  unfold k0_pay23
  rw [shapeCast_self, k0_pay13_apply]
  refine congrArg (min (v111 (ix1 r))) (iInf_congr fun m => ?_)
  rw [k0_pay19_apply, k0_pay20_apply, k0_pay21_apply, k0_pay22_apply]
  rfl

/-- Batch 1: the same body under other names. -/
theorem k0_trip2_value (v17 : Vec Ideal S1x512x3 .f32) (v67 : Vec Ideal S128x3 .f32) (v111 : Vec Ideal S128 .f32)
    (r : Fin 128) :
    k0_pay29 (F := Ideal) (k0_pay14 (k0_pay25 v17) (k0_pay26 v17) (k0_pay27 v17) (k0_pay28 v17) v67 v111) (ValueIdx.ix1 r)
      = min (v111 (ValueIdx.ix1 r))
          (⨅ m : Fin 512, dist (fun d => v67 (ValueIdx.ix2 r d)) (fun d => v17 (ValueIdx.ix3 (0 : Fin 1) m d))) :=
  k0_trip1_value v17 v67 v111 r

/-- Batch 2: the same body under other names. -/
theorem k0_trip3_value (v31 : Vec Ideal S1x512x3 .f32) (v67 : Vec Ideal S128x3 .f32) (v111 : Vec Ideal S128 .f32)
    (r : Fin 128) :
    k0_pay6 (F := Ideal) (k0_pay15 (k0_pay2 v31) (k0_pay3 v31) (k0_pay4 v31) (k0_pay5 v31) v67 v111) (ValueIdx.ix1 r)
      = min (v111 (ValueIdx.ix1 r))
          (⨅ m : Fin 512, dist (fun d => v67 (ValueIdx.ix2 r d)) (fun d => v31 (ValueIdx.ix3 (0 : Fin 1) m d))) :=
  k0_trip1_value v31 v67 v111 r

/-- Batch 3: the same body under other names. -/
theorem k0_trip4_value (v45 : Vec Ideal S1x512x3 .f32) (v67 : Vec Ideal S128x3 .f32) (v111 : Vec Ideal S128 .f32)
    (r : Fin 128) :
    k0_pay12 (F := Ideal) (k0_pay16 (k0_pay8 v45) (k0_pay9 v45) (k0_pay10 v45) (k0_pay11 v45) v67 v111) (ValueIdx.ix1 r)
      = min (v111 (ValueIdx.ix1 r))
          (⨅ m : Fin 512, dist (fun d => v67 (ValueIdx.ix2 r d)) (fun d => v45 (ValueIdx.ix3 (0 : Fin 1) m d))) :=
  k0_trip1_value v45 v67 v111 r

/-- The reset of the running minimum stores positive infinity everywhere. -/
theorem k0_reset_value (j : S4x512.Idx) : k0_pay17 (F := Ideal) j = ⊤ := by
  unfold k0_pay17
  rw [shapeCast_self]
  exact ofBits_inf_f32

end Cert.KernelIdeal.Hand

end
-- ==== Proof.KernelIdeal.LoopValueK0T1.lean ====
import proofs.«160032_j64836826300486_2_alg».proof.Proof.KernelIdeal.LoopK0T1
import proofs.«160032_j64836826300486_2_alg».proof.Proof.KernelIdeal.Payload0
import proofs.«160032_j64836826300486_2_alg».proof.Proof.Spec
import Idealize.ShloMosaic.Lib.WritesUnit
import Idealize.ShloMosaic.Lib.WholeRead

/-! What a batch's loop leaves in the scratch, read at an index, at the ideal values.

The loop of batch 0 walks the 512 queries of the block in four chunks of 128. Trip `k` stores through row 0 of the
[4, 512] scratch ONE piece, the chunk [128 k, 128 k + 128), whose payload at `r` is the minimum of what the row held
there and the infimum over the 512 keys of the clamped squared distance to query 128 k + r. The chunks are disjoint, so
what trip `k` reads of its chunk is what the scratch held at loop entry; by induction on the number of trips done, the
row holds the lowered value on the chunks done and the entry value on the others, and the other rows are never
touched. -/

set_option maxRecDepth 16384

noncomputable section

namespace Cert.KernelIdeal.Hand

open Cert.KernelIdeal Cert.KernelIdeal.Gen Cert.Lib Cert.Chamfer
open Idealize.ShloMosaic Idealize.ShloMosaic.TcCoe Idealize.ShloMosaic.ValueIdx
open Idealize.SL Idealize.SL.Sem

/-! ## The trip, opened once -/

section Trip
variable {F : FTy → Type} [FloatOps F]

/-- The query block of batch 0 as a memref [512, 3] of its own: what the trips load their chunks through. -/
abbrev k0_qry0 (arg2 : Memref sig .tc .vmem S4x512x3 .f32) : Memref sig .tc .vmem S512x3 .f32 :=
  (arg2.slice (Rect.unit (s := S4x512x3) ![0, 0, 0] S1x512x3.size inb_S4x512x3_S1x512x3_0_0_0) (fun _ => rfl)).squeeze S512x3 squeezes_S1x512x3_S512x3

/-- One trip writes one piece through the row: chunk `k`, holding the body's payload of query chunk `k` and of
    chunk `k` of what the row holds. -/
theorem tripL_k0_t1_eq (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k0_t1_loop.trips) (f_row : BufTy.Contents (Elt F) (k0_row0 arg5).view.ty) :
    tripL_k0_t1 (F := F) 𝒱 c bd i arg2 harg2 arg3 harg3 arg4 harg4 arg5 harg5 v3 X_arg2 k f_row
      = [⟨Rect.unit (s := S512) (k0_off2 k) S128.size (k0_off2_inb k),
          k0_pay23 (k0_pay13 (k0_pay19 v3) (k0_pay20 v3) (k0_pay21 v3) (k0_pay22 v3)
            (View.readAt (Elt F) (k0_qry0 arg2).view (Rect.unit (s := S512x3) (k0_off1 k) S128x3.size (k0_off1_inb k)).toLoadRect X_arg2)
            (View.readAt (Elt F) (k0_row0 arg5).view (Rect.unit (s := S512) (k0_off2 k) S128.size (k0_off2_inb k)).toLoadRect f_row))⟩] := by
  unfold tripL_k0_t1 trip_k0_t1
  rfl

end Trip

/-! ## Row 0 of the scratch inside the scratch -/

section Row
variable {Val : EltTy → Type} (arg5 : Memref sig .tc .vmem S4x512 .f32)

/-- Entry `l` of the row is entry `(0, l)` of the scratch, in the buffer. -/
theorem k0_row0_emb (l : Fin 512) : (k0_row0 arg5).view.emb (ix1 l) = arg5.view.emb (ix2 (0 : Fin 4) l) := by
  have e : Shape.reshapeEquiv squeezes_S1x512_S512.numel_eq (ix1 l) = (ix2 (0 : Fin 1) l : (⟨2, S1x512.size⟩ : Shape).Idx) :=
    Shape.reshapeEquiv_eq_of_rowMajor _ (by
      rw [Shape.rowMajor_val_two, Shape.rowMajor_val_one]
      show 0 * 512 + l.val = l.val
      rw [Nat.zero_mul, Nat.zero_add])
  show arg5.view.emb ((Rect.unit (s := S4x512) ![0, 0] S1x512.size inb_S4x512_S1x512_0_0).emb
      (Shape.reshapeEquiv squeezes_S1x512_S512.numel_eq (ix1 l))) = _
  rw [e]
  refine congrArg arg5.view.emb (funext fun a => Fin.ext ?_)
  match a with
  | ⟨0, _⟩ => rfl
  | ⟨1, _⟩ => show 0 + 1 * l.val = l.val; rw [Nat.one_mul, Nat.zero_add]

/-- The row reads entry `l` where the scratch reads entry `(0, l)`. -/
theorem k0_row0_read (g : BufTy.Contents Val arg5.view.ty) (l : Fin 512) :
    (k0_row0 arg5).view.read Val g (ix1 l) = arg5.view.read Val g (ix2 (0 : Fin 4) l) := by
  rw [View.read_apply, View.read_apply, k0_row0_emb]

/-- Writes through the row leave the other rows of the scratch as they were. -/
theorem k0_row0_writes_other (g : BufTy.Contents Val arg5.view.ty) (L : List (View.Piece Val S512 .f32)) (b : Fin 4)
    (hb : b ≠ 0) (l : Fin 512) :
    arg5.view.read Val ((k0_row0 arg5).view.writes Val g L) (ix2 b l) = arg5.view.read Val g (ix2 b l) := by
  refine View.read_congr_at _ (View.writes_apply_of_forall_ne (k0_row0 arg5).view g L fun y hy => hb ?_)
  have h1 : (Rect.unit (s := S4x512) ![0, 0] S1x512.size inb_S4x512_S1x512_0_0).emb
      (Shape.reshapeEquiv squeezes_S1x512_S512.numel_eq y) = ix2 b l := arg5.view.emb.injective hy
  have h2 := congrArg (fun j : S4x512.Idx => (j 0).val) h1
  have h3 : ((Shape.reshapeEquiv squeezes_S1x512_S512.numel_eq y) 0).val < 1 :=
    ((Shape.reshapeEquiv squeezes_S1x512_S512.numel_eq y) 0).isLt
  refine Fin.ext ?_
  have h4 : 0 + 1 * ((Shape.reshapeEquiv squeezes_S1x512_S512.numel_eq y) 0).val = b.val := h2
  show b.val = 0
  omega

end Row

/-! ## What a trip loads, in closed form -/

section Loads

/-- Chunk `k` of the row, at `r`: the row's entry `128 k + r`. -/
theorem k0_row0_chunk (arg5 : Memref sig .tc .vmem S4x512 .f32) (k : Fin k0_t1_loop.trips)
    (f : BufTy.Contents (Elt Ideal) (k0_row0 arg5).view.ty) (r : Fin 128) (l : Fin 512) (hl : l.val = 128 * k.val + r.val) :
    View.readAt (Elt Ideal) (k0_row0 arg5).view (Rect.unit (s := S512) (k0_off2 k) S128.size (k0_off2_inb k)).toLoadRect f (ix1 r)
      = (k0_row0 arg5).view.read (Elt Ideal) f (ix1 l) := by
  refine congrArg ((k0_row0 arg5).view.read (Elt Ideal) f) (funext fun a => Fin.ext ?_)
  match a with
  | ⟨0, _⟩ =>
    show k0_off2 k 0 + 1 * r.val = l.val
    rw [k0_off2_eq k, hl, Nat.one_mul]
    rfl

/-- Chunk `k` of the query block, at `(r, d)`: coordinate `d` of query `128 k + r` of batch 0. -/
theorem k0_qry0_chunk (arg2 : Memref sig .tc .vmem S4x512x3 .f32) (harg2 : arg2.IsWhole) (x0 : Vec Ideal S4x512x3 .f32)
    (k : Fin k0_t1_loop.trips) (r : Fin 128) (d : Fin 3) (l : Fin 512) (hl : l.val = 128 * k.val + r.val) :
    View.readAt (Elt Ideal) (k0_qry0 arg2).view (Rect.unit (s := S512x3) (k0_off1 k) S128x3.size (k0_off1_inb k)).toLoadRect
        (harg2.unread x0) (ix2 r d)
      = x0 (ix3 (0 : Fin 4) l d) := by
  refine (harg2.readAt_slice_reshape_unread x0 (Rect.unit (s := S4x512x3) ![0, 0, 0] S1x512x3.size inb_S4x512x3_S1x512x3_0_0_0)
    squeezes_S1x512x3_S512x3.numel_eq (Rect.unit (s := S512x3) (k0_off1 k) S128x3.size (k0_off1_inb k)).toLoadRect (ix2 r d)).trans
    (congrArg x0 ?_)
  have e1 : (Rect.unit (s := S512x3) (k0_off1 k) S128x3.size (k0_off1_inb k)).toLoadRect.idx (ix2 r d) = ix2 l d := by
    funext a
    refine Fin.ext ?_
    match a with
    | ⟨0, _⟩ =>
      show k0_off1 k 0 + 1 * r.val = l.val
      rw [k0_off1_eq k, hl, Nat.one_mul]
      rfl
    | ⟨1, _⟩ =>
      show k0_off1 k 1 + 1 * d.val = d.val
      rw [k0_off1_eq k, Nat.one_mul]
      exact Nat.zero_add _
  rw [e1, reshapeEquiv_ix2_1ab]
  funext a
  refine Fin.ext ?_
  match a with
  | ⟨0, _⟩ => rfl
  | ⟨1, _⟩ => show 0 + 1 * l.val = l.val; rw [Nat.one_mul, Nat.zero_add]
  | ⟨2, _⟩ => show 0 + 1 * d.val = d.val; rw [Nat.one_mul, Nat.zero_add]

end Loads

/-! ## The loop: the row after the trips done -/

section Loop
variable (𝒱 : Variants) (c : Dev nD) (bd : Option 𝒱.V) (i : grid0.Coords)
  (arg2 : Memref sig .tc .vmem S4x512x3 .f32) (harg2 : arg2.IsWhole) (arg3 : Memref sig .tc .vmem S4x512x3 .f32) (harg3 : arg3.IsWhole)
  (arg4 : Memref sig .tc .vmem S4x512 .f32) (harg4 : arg4.IsWhole) (arg5 : Memref sig .tc .vmem S4x512 .f32) (harg5 : arg5.IsWhole)
  (v3 : Vec Ideal S1x512x3 .f32) (x0 : Vec Ideal S4x512x3 .f32) (G : BufTy.Contents (Elt Ideal) arg5.view.ty)

/-- After `n` trips the row holds, on the chunks done, the entry value lowered by the nearest key's clamped squared
    distance, and the entry value on the chunks to come. -/
theorem k0_loop1_row (n : ℕ) (hn : n ≤ 4) (l : Fin 512) :
    (k0_row0 arg5).view.read (Elt Ideal) ((k0_row0 arg5).view.writes (Elt Ideal) G
        (pb_k0_t1 (F := Ideal) 𝒱 c bd i arg2 harg2 arg3 harg3 arg4 harg4 arg5 harg5 v3 (harg2.unread x0) G n)) (ix1 l)
      = if l.val < 128 * n then
          min ((k0_row0 arg5).view.read (Elt Ideal) G (ix1 l))
            (⨅ m : Fin 512, dist (fun d => x0 (ix3 (0 : Fin 4) l d)) (fun d => v3 (ix3 (0 : Fin 1) m d)))
        else (k0_row0 arg5).view.read (Elt Ideal) G (ix1 l) := by
  induction n generalizing l with
  | zero => rw [if_neg (by omega)]; rfl
  | succ n ih =>
    have h4 : k0_t1_loop.trips = 4 := by decide
    have hk : n < k0_t1_loop.trips := by omega
    have hs : pb_k0_t1 (F := Ideal) 𝒱 c bd i arg2 harg2 arg3 harg3 arg4 harg4 arg5 harg5 v3 (harg2.unread x0) G (n + 1) = _ :=
      pb_k0_t1_succ (F := Ideal) 𝒱 c bd i arg2 harg2 arg3 harg3 arg4 harg4 arg5 harg5 v3 (harg2.unread x0) G ⟨n, hk⟩
    rw [hs, tripL_k0_t1_eq, List.singleton_append]
    by_cases hl : 128 * n ≤ l.val ∧ l.val < 128 * n + 128
    · rw [if_pos (by omega)]
      refine (View.read_writes_cons_unit_of_mem (k0_row0 arg5).view G (k0_off2_inb ⟨n, hk⟩) _ _ (ix1 l)
        (ix1 (⟨l.val - 128 * n, by omega⟩ : Fin 128)) (k0_off2_eq ⟨n, hk⟩) (fun a => ?_)).trans ?_
      · match a with
        | ⟨0, _⟩ => show l.val = 128 * n + (l.val - 128 * n); omega
      · refine (k0_trip1_value v3 _ _ (⟨l.val - 128 * n, by omega⟩ : Fin 128)).trans (congrArg₂ min ?_ ?_)
        · refine (k0_row0_chunk arg5 ⟨n, hk⟩ _ _ l (by show l.val = 128 * n + (l.val - 128 * n); omega)).trans ?_
          rw [ih (by omega) l, if_neg (by omega)]
        · refine iInf_congr fun m => congrArg (fun q => dist q _) (funext fun d => ?_)
          exact k0_qry0_chunk arg2 harg2 x0 ⟨n, hk⟩ _ d l (by show l.val = 128 * n + (l.val - 128 * n); omega)
    · rw [View.read_writes_cons_unit_of_not_mem (k0_row0 arg5).view G (k0_off2_inb ⟨n, hk⟩) _ _ (ix1 l) (k0_off2_eq ⟨n, hk⟩)
        (0 : Fin 1) (by show l.val < 128 * n ∨ 128 * n + 128 ≤ l.val; omega), ih (by omega) l]
      by_cases h' : l.val < 128 * n
      · rw [if_pos h', if_pos (by omega)]
      · rw [if_neg h', if_neg (by omega)]

end Loop

/-! ## The loop: the scratch after all four trips -/

/-- The loop lowers row 0 of the scratch, at entry `l`, by the infimum over the 512 keys of the clamped squared distance
    to query `(0, l)`, and leaves the other rows alone. -/
theorem k0_loop1_value (𝒱 : Variants) (c : Dev nD) (bd : Option 𝒱.V) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (v3 : Vec Ideal S1x512x3 .f32) (x0 : Vec Ideal S4x512x3 .f32) (G : BufTy.Contents (Elt Ideal) arg5.view.ty)
    (b : Fin 4) (l : Fin 512) :
    arg5.view.read (Elt Ideal) ((k0_row0 arg5).view.writes (Elt Ideal) G
        (pb_k0_t1 (F := Ideal) 𝒱 c bd i arg2 harg2 arg3 harg3 arg4 harg4 arg5 harg5 v3 (harg2.unread x0) G 4)) (ValueIdx.ix2 b l)
      = if b = 0 then
          min (arg5.view.read (Elt Ideal) G (ValueIdx.ix2 0 l))
            (⨅ m : Fin 512, dist (fun d => x0 (ValueIdx.ix3 0 l d)) (fun d => v3 (ValueIdx.ix3 (0 : Fin 1) m d)))
        else arg5.view.read (Elt Ideal) G (ValueIdx.ix2 b l) := by
  by_cases hb : b = 0
  · subst hb
    rw [if_pos rfl, ← k0_row0_read, ← k0_row0_read,
      k0_loop1_row 𝒱 c bd i arg2 harg2 arg3 harg3 arg4 harg4 arg5 harg5 v3 x0 G 4 (Nat.le_refl 4) l,
      if_pos (by have := l.isLt; omega)]
  · rw [if_neg hb]
    exact k0_row0_writes_other arg5 G _ b hb l

end Cert.KernelIdeal.Hand

end
-- ==== Proof.KernelIdeal.LoopValueK0T2.lean ====
import proofs.«160032_j64836826300486_2_alg».proof.Proof.KernelIdeal.LoopK0T2
import proofs.«160032_j64836826300486_2_alg».proof.Proof.KernelIdeal.Payload0
import proofs.«160032_j64836826300486_2_alg».proof.Proof.Spec
import Idealize.ShloMosaic.Lib.WritesUnit
import Idealize.ShloMosaic.Lib.WholeRead

/-! What a batch's loop leaves in the scratch, read at an index, at the ideal values.

The loop of batch 1 walks the 512 queries of the block in four chunks of 128. Trip `k` stores through row 1 of the
[4, 512] scratch ONE piece, the chunk [128 k, 128 k + 128), whose payload at `r` is the minimum of what the row held
there and the infimum over the 512 keys of the clamped squared distance to query 128 k + r. The chunks are disjoint, so
what trip `k` reads of its chunk is what the scratch held at loop entry; by induction on the number of trips done, the
row holds the lowered value on the chunks done and the entry value on the others, and the other rows are never
touched. -/

set_option maxRecDepth 16384

noncomputable section

namespace Cert.KernelIdeal.Hand

open Cert.KernelIdeal Cert.KernelIdeal.Gen Cert.Lib Cert.Chamfer
open Idealize.ShloMosaic Idealize.ShloMosaic.TcCoe Idealize.ShloMosaic.ValueIdx
open Idealize.SL Idealize.SL.Sem

/-! ## The trip, opened once -/

section Trip
variable {F : FTy → Type} [FloatOps F]

/-- The query block of batch 1 as a memref [512, 3] of its own: what the trips load their chunks through. -/
abbrev k0_qry1 (arg2 : Memref sig .tc .vmem S4x512x3 .f32) : Memref sig .tc .vmem S512x3 .f32 :=
  (arg2.slice (Rect.unit (s := S4x512x3) ![1, 0, 0] S1x512x3.size inb_S4x512x3_S1x512x3_1_0_0) (fun _ => rfl)).squeeze S512x3 squeezes_S1x512x3_S512x3

/-- One trip writes one piece through the row: chunk `k`, holding the body's payload of query chunk `k` and of
    chunk `k` of what the row holds. -/
theorem tripL_k0_t2_eq (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k0_t2_loop.trips) (f_row : BufTy.Contents (Elt F) (k0_row1 arg5).view.ty) :
    tripL_k0_t2 (F := F) 𝒱 c bd i arg2 harg2 arg3 harg3 arg4 harg4 arg5 harg5 v17 X_arg2 k f_row
      = [⟨Rect.unit (s := S512) (k0_off4 k) S128.size (k0_off4_inb k),
          k0_pay29 (k0_pay14 (k0_pay25 v17) (k0_pay26 v17) (k0_pay27 v17) (k0_pay28 v17)
            (View.readAt (Elt F) (k0_qry1 arg2).view (Rect.unit (s := S512x3) (k0_off3 k) S128x3.size (k0_off3_inb k)).toLoadRect X_arg2)
            (View.readAt (Elt F) (k0_row1 arg5).view (Rect.unit (s := S512) (k0_off4 k) S128.size (k0_off4_inb k)).toLoadRect f_row))⟩] := by
  unfold tripL_k0_t2 trip_k0_t2
  rfl

end Trip

/-! ## Row 1 of the scratch inside the scratch -/

section Row
variable {Val : EltTy → Type} (arg5 : Memref sig .tc .vmem S4x512 .f32)

/-- Entry `l` of the row is entry `(1, l)` of the scratch, in the buffer. -/
theorem k0_row1_emb (l : Fin 512) : (k0_row1 arg5).view.emb (ix1 l) = arg5.view.emb (ix2 (1 : Fin 4) l) := by
  have e : Shape.reshapeEquiv squeezes_S1x512_S512.numel_eq (ix1 l) = (ix2 (0 : Fin 1) l : (⟨2, S1x512.size⟩ : Shape).Idx) :=
    Shape.reshapeEquiv_eq_of_rowMajor _ (by
      rw [Shape.rowMajor_val_two, Shape.rowMajor_val_one]
      show 0 * 512 + l.val = l.val
      rw [Nat.zero_mul, Nat.zero_add])
  show arg5.view.emb ((Rect.unit (s := S4x512) ![1, 0] S1x512.size inb_S4x512_S1x512_1_0).emb
      (Shape.reshapeEquiv squeezes_S1x512_S512.numel_eq (ix1 l))) = _
  rw [e]
  refine congrArg arg5.view.emb (funext fun a => Fin.ext ?_)
  match a with
  | ⟨0, _⟩ => rfl
  | ⟨1, _⟩ => show 0 + 1 * l.val = l.val; rw [Nat.one_mul, Nat.zero_add]

/-- The row reads entry `l` where the scratch reads entry `(1, l)`. -/
theorem k0_row1_read (g : BufTy.Contents Val arg5.view.ty) (l : Fin 512) :
    (k0_row1 arg5).view.read Val g (ix1 l) = arg5.view.read Val g (ix2 (1 : Fin 4) l) := by
  rw [View.read_apply, View.read_apply, k0_row1_emb]

/-- Writes through the row leave the other rows of the scratch as they were. -/
theorem k0_row1_writes_other (g : BufTy.Contents Val arg5.view.ty) (L : List (View.Piece Val S512 .f32)) (b : Fin 4)
    (hb : b ≠ 1) (l : Fin 512) :
    arg5.view.read Val ((k0_row1 arg5).view.writes Val g L) (ix2 b l) = arg5.view.read Val g (ix2 b l) := by
  refine View.read_congr_at _ (View.writes_apply_of_forall_ne (k0_row1 arg5).view g L fun y hy => hb ?_)
  have h1 : (Rect.unit (s := S4x512) ![1, 0] S1x512.size inb_S4x512_S1x512_1_0).emb
      (Shape.reshapeEquiv squeezes_S1x512_S512.numel_eq y) = ix2 b l := arg5.view.emb.injective hy
  have h2 := congrArg (fun j : S4x512.Idx => (j 0).val) h1
  have h3 : ((Shape.reshapeEquiv squeezes_S1x512_S512.numel_eq y) 0).val < 1 :=
    ((Shape.reshapeEquiv squeezes_S1x512_S512.numel_eq y) 0).isLt
  refine Fin.ext ?_
  have h4 : 1 + 1 * ((Shape.reshapeEquiv squeezes_S1x512_S512.numel_eq y) 0).val = b.val := h2
  show b.val = 1
  omega

end Row

/-! ## What a trip loads, in closed form -/

section Loads

/-- Chunk `k` of the row, at `r`: the row's entry `128 k + r`. -/
theorem k0_row1_chunk (arg5 : Memref sig .tc .vmem S4x512 .f32) (k : Fin k0_t2_loop.trips)
    (f : BufTy.Contents (Elt Ideal) (k0_row1 arg5).view.ty) (r : Fin 128) (l : Fin 512) (hl : l.val = 128 * k.val + r.val) :
    View.readAt (Elt Ideal) (k0_row1 arg5).view (Rect.unit (s := S512) (k0_off4 k) S128.size (k0_off4_inb k)).toLoadRect f (ix1 r)
      = (k0_row1 arg5).view.read (Elt Ideal) f (ix1 l) := by
  refine congrArg ((k0_row1 arg5).view.read (Elt Ideal) f) (funext fun a => Fin.ext ?_)
  match a with
  | ⟨0, _⟩ =>
    show k0_off4 k 0 + 1 * r.val = l.val
    rw [k0_off4_eq k, hl, Nat.one_mul]
    rfl

/-- Chunk `k` of the query block, at `(r, d)`: coordinate `d` of query `128 k + r` of batch 1. -/
theorem k0_qry1_chunk (arg2 : Memref sig .tc .vmem S4x512x3 .f32) (harg2 : arg2.IsWhole) (x0 : Vec Ideal S4x512x3 .f32)
    (k : Fin k0_t2_loop.trips) (r : Fin 128) (d : Fin 3) (l : Fin 512) (hl : l.val = 128 * k.val + r.val) :
    View.readAt (Elt Ideal) (k0_qry1 arg2).view (Rect.unit (s := S512x3) (k0_off3 k) S128x3.size (k0_off3_inb k)).toLoadRect
        (harg2.unread x0) (ix2 r d)
      = x0 (ix3 (1 : Fin 4) l d) := by
  refine (harg2.readAt_slice_reshape_unread x0 (Rect.unit (s := S4x512x3) ![1, 0, 0] S1x512x3.size inb_S4x512x3_S1x512x3_1_0_0)
    squeezes_S1x512x3_S512x3.numel_eq (Rect.unit (s := S512x3) (k0_off3 k) S128x3.size (k0_off3_inb k)).toLoadRect (ix2 r d)).trans
    (congrArg x0 ?_)
  have e1 : (Rect.unit (s := S512x3) (k0_off3 k) S128x3.size (k0_off3_inb k)).toLoadRect.idx (ix2 r d) = ix2 l d := by
    funext a
    refine Fin.ext ?_
    match a with
    | ⟨0, _⟩ =>
      show k0_off3 k 0 + 1 * r.val = l.val
      rw [k0_off3_eq k, hl, Nat.one_mul]
      rfl
    | ⟨1, _⟩ =>
      show k0_off3 k 1 + 1 * d.val = d.val
      rw [k0_off3_eq k, Nat.one_mul]
      exact Nat.zero_add _
  rw [e1, reshapeEquiv_ix2_1ab]
  funext a
  refine Fin.ext ?_
  match a with
  | ⟨0, _⟩ => rfl
  | ⟨1, _⟩ => show 0 + 1 * l.val = l.val; rw [Nat.one_mul, Nat.zero_add]
  | ⟨2, _⟩ => show 0 + 1 * d.val = d.val; rw [Nat.one_mul, Nat.zero_add]

end Loads

/-! ## The loop: the row after the trips done -/

section Loop
variable (𝒱 : Variants) (c : Dev nD) (bd : Option 𝒱.V) (i : grid0.Coords)
  (arg2 : Memref sig .tc .vmem S4x512x3 .f32) (harg2 : arg2.IsWhole) (arg3 : Memref sig .tc .vmem S4x512x3 .f32) (harg3 : arg3.IsWhole)
  (arg4 : Memref sig .tc .vmem S4x512 .f32) (harg4 : arg4.IsWhole) (arg5 : Memref sig .tc .vmem S4x512 .f32) (harg5 : arg5.IsWhole)
  (v17 : Vec Ideal S1x512x3 .f32) (x0 : Vec Ideal S4x512x3 .f32) (G : BufTy.Contents (Elt Ideal) arg5.view.ty)

/-- After `n` trips the row holds, on the chunks done, the entry value lowered by the nearest key's clamped squared
    distance, and the entry value on the chunks to come. -/
theorem k0_loop2_row (n : ℕ) (hn : n ≤ 4) (l : Fin 512) :
    (k0_row1 arg5).view.read (Elt Ideal) ((k0_row1 arg5).view.writes (Elt Ideal) G
        (pb_k0_t2 (F := Ideal) 𝒱 c bd i arg2 harg2 arg3 harg3 arg4 harg4 arg5 harg5 v17 (harg2.unread x0) G n)) (ix1 l)
      = if l.val < 128 * n then
          min ((k0_row1 arg5).view.read (Elt Ideal) G (ix1 l))
            (⨅ m : Fin 512, dist (fun d => x0 (ix3 (1 : Fin 4) l d)) (fun d => v17 (ix3 (0 : Fin 1) m d)))
        else (k0_row1 arg5).view.read (Elt Ideal) G (ix1 l) := by
  induction n generalizing l with
  | zero => rw [if_neg (by omega)]; rfl
  | succ n ih =>
    have h4 : k0_t2_loop.trips = 4 := by decide
    have hk : n < k0_t2_loop.trips := by omega
    have hs : pb_k0_t2 (F := Ideal) 𝒱 c bd i arg2 harg2 arg3 harg3 arg4 harg4 arg5 harg5 v17 (harg2.unread x0) G (n + 1) = _ :=
      pb_k0_t2_succ (F := Ideal) 𝒱 c bd i arg2 harg2 arg3 harg3 arg4 harg4 arg5 harg5 v17 (harg2.unread x0) G ⟨n, hk⟩
    rw [hs, tripL_k0_t2_eq, List.singleton_append]
    by_cases hl : 128 * n ≤ l.val ∧ l.val < 128 * n + 128
    · rw [if_pos (by omega)]
      refine (View.read_writes_cons_unit_of_mem (k0_row1 arg5).view G (k0_off4_inb ⟨n, hk⟩) _ _ (ix1 l)
        (ix1 (⟨l.val - 128 * n, by omega⟩ : Fin 128)) (k0_off4_eq ⟨n, hk⟩) (fun a => ?_)).trans ?_
      · match a with
        | ⟨0, _⟩ => show l.val = 128 * n + (l.val - 128 * n); omega
      · refine (k0_trip2_value v17 _ _ (⟨l.val - 128 * n, by omega⟩ : Fin 128)).trans (congrArg₂ min ?_ ?_)
        · refine (k0_row1_chunk arg5 ⟨n, hk⟩ _ _ l (by show l.val = 128 * n + (l.val - 128 * n); omega)).trans ?_
          rw [ih (by omega) l, if_neg (by omega)]
        · refine iInf_congr fun m => congrArg (fun q => dist q _) (funext fun d => ?_)
          exact k0_qry1_chunk arg2 harg2 x0 ⟨n, hk⟩ _ d l (by show l.val = 128 * n + (l.val - 128 * n); omega)
    · rw [View.read_writes_cons_unit_of_not_mem (k0_row1 arg5).view G (k0_off4_inb ⟨n, hk⟩) _ _ (ix1 l) (k0_off4_eq ⟨n, hk⟩)
        (0 : Fin 1) (by show l.val < 128 * n ∨ 128 * n + 128 ≤ l.val; omega), ih (by omega) l]
      by_cases h' : l.val < 128 * n
      · rw [if_pos h', if_pos (by omega)]
      · rw [if_neg h', if_neg (by omega)]

end Loop

/-! ## The loop: the scratch after all four trips -/

/-- The loop lowers row 1 of the scratch, at entry `l`, by the infimum over the 512 keys of the clamped squared distance
    to query `(1, l)`, and leaves the other rows alone. -/
theorem k0_loop2_value (𝒱 : Variants) (c : Dev nD) (bd : Option 𝒱.V) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (v17 : Vec Ideal S1x512x3 .f32) (x0 : Vec Ideal S4x512x3 .f32) (G : BufTy.Contents (Elt Ideal) arg5.view.ty)
    (b : Fin 4) (l : Fin 512) :
    arg5.view.read (Elt Ideal) ((k0_row1 arg5).view.writes (Elt Ideal) G
        (pb_k0_t2 (F := Ideal) 𝒱 c bd i arg2 harg2 arg3 harg3 arg4 harg4 arg5 harg5 v17 (harg2.unread x0) G 4)) (ValueIdx.ix2 b l)
      = if b = 1 then
          min (arg5.view.read (Elt Ideal) G (ValueIdx.ix2 1 l))
            (⨅ m : Fin 512, dist (fun d => x0 (ValueIdx.ix3 1 l d)) (fun d => v17 (ValueIdx.ix3 (0 : Fin 1) m d)))
        else arg5.view.read (Elt Ideal) G (ValueIdx.ix2 b l) := by
  by_cases hb : b = 1
  · subst hb
    rw [if_pos rfl, ← k0_row1_read, ← k0_row1_read,
      k0_loop2_row 𝒱 c bd i arg2 harg2 arg3 harg3 arg4 harg4 arg5 harg5 v17 x0 G 4 (Nat.le_refl 4) l,
      if_pos (by have := l.isLt; omega)]
  · rw [if_neg hb]
    exact k0_row1_writes_other arg5 G _ b hb l

end Cert.KernelIdeal.Hand

end
-- ==== Proof.KernelIdeal.LoopValueK0T3.lean ====
import proofs.«160032_j64836826300486_2_alg».proof.Proof.KernelIdeal.LoopK0T3
import proofs.«160032_j64836826300486_2_alg».proof.Proof.KernelIdeal.Payload0
import proofs.«160032_j64836826300486_2_alg».proof.Proof.Spec
import Idealize.ShloMosaic.Lib.WritesUnit
import Idealize.ShloMosaic.Lib.WholeRead

/-! What a batch's loop leaves in the scratch, read at an index, at the ideal values.

The loop of batch 2 walks the 512 queries of the block in four chunks of 128. Trip `k` stores through row 2 of the
[4, 512] scratch ONE piece, the chunk [128 k, 128 k + 128), whose payload at `r` is the minimum of what the row held
there and the infimum over the 512 keys of the clamped squared distance to query 128 k + r. The chunks are disjoint, so
what trip `k` reads of its chunk is what the scratch held at loop entry; by induction on the number of trips done, the
row holds the lowered value on the chunks done and the entry value on the others, and the other rows are never
touched. -/

set_option maxRecDepth 16384

noncomputable section

namespace Cert.KernelIdeal.Hand

open Cert.KernelIdeal Cert.KernelIdeal.Gen Cert.Lib Cert.Chamfer
open Idealize.ShloMosaic Idealize.ShloMosaic.TcCoe Idealize.ShloMosaic.ValueIdx
open Idealize.SL Idealize.SL.Sem

/-! ## The trip, opened once -/

section Trip
variable {F : FTy → Type} [FloatOps F]

/-- The query block of batch 2 as a memref [512, 3] of its own: what the trips load their chunks through. -/
abbrev k0_qry2 (arg2 : Memref sig .tc .vmem S4x512x3 .f32) : Memref sig .tc .vmem S512x3 .f32 :=
  (arg2.slice (Rect.unit (s := S4x512x3) ![2, 0, 0] S1x512x3.size inb_S4x512x3_S1x512x3_2_0_0) (fun _ => rfl)).squeeze S512x3 squeezes_S1x512x3_S512x3

/-- One trip writes one piece through the row: chunk `k`, holding the body's payload of query chunk `k` and of
    chunk `k` of what the row holds. -/
theorem tripL_k0_t3_eq (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k0_t3_loop.trips) (f_row : BufTy.Contents (Elt F) (k0_row2 arg5).view.ty) :
    tripL_k0_t3 (F := F) 𝒱 c bd i arg2 harg2 arg3 harg3 arg4 harg4 arg5 harg5 v31 X_arg2 k f_row
      = [⟨Rect.unit (s := S512) (k0_off6 k) S128.size (k0_off6_inb k),
          k0_pay6 (k0_pay15 (k0_pay2 v31) (k0_pay3 v31) (k0_pay4 v31) (k0_pay5 v31)
            (View.readAt (Elt F) (k0_qry2 arg2).view (Rect.unit (s := S512x3) (k0_off5 k) S128x3.size (k0_off5_inb k)).toLoadRect X_arg2)
            (View.readAt (Elt F) (k0_row2 arg5).view (Rect.unit (s := S512) (k0_off6 k) S128.size (k0_off6_inb k)).toLoadRect f_row))⟩] := by
  unfold tripL_k0_t3 trip_k0_t3
  rfl

end Trip

/-! ## Row 2 of the scratch inside the scratch -/

section Row
variable {Val : EltTy → Type} (arg5 : Memref sig .tc .vmem S4x512 .f32)

/-- Entry `l` of the row is entry `(2, l)` of the scratch, in the buffer. -/
theorem k0_row2_emb (l : Fin 512) : (k0_row2 arg5).view.emb (ix1 l) = arg5.view.emb (ix2 (2 : Fin 4) l) := by
  have e : Shape.reshapeEquiv squeezes_S1x512_S512.numel_eq (ix1 l) = (ix2 (0 : Fin 1) l : (⟨2, S1x512.size⟩ : Shape).Idx) :=
    Shape.reshapeEquiv_eq_of_rowMajor _ (by
      rw [Shape.rowMajor_val_two, Shape.rowMajor_val_one]
      show 0 * 512 + l.val = l.val
      rw [Nat.zero_mul, Nat.zero_add])
  show arg5.view.emb ((Rect.unit (s := S4x512) ![2, 0] S1x512.size inb_S4x512_S1x512_2_0).emb
      (Shape.reshapeEquiv squeezes_S1x512_S512.numel_eq (ix1 l))) = _
  rw [e]
  refine congrArg arg5.view.emb (funext fun a => Fin.ext ?_)
  match a with
  | ⟨0, _⟩ => rfl
  | ⟨1, _⟩ => show 0 + 1 * l.val = l.val; rw [Nat.one_mul, Nat.zero_add]

/-- The row reads entry `l` where the scratch reads entry `(2, l)`. -/
theorem k0_row2_read (g : BufTy.Contents Val arg5.view.ty) (l : Fin 512) :
    (k0_row2 arg5).view.read Val g (ix1 l) = arg5.view.read Val g (ix2 (2 : Fin 4) l) := by
  rw [View.read_apply, View.read_apply, k0_row2_emb]

/-- Writes through the row leave the other rows of the scratch as they were. -/
theorem k0_row2_writes_other (g : BufTy.Contents Val arg5.view.ty) (L : List (View.Piece Val S512 .f32)) (b : Fin 4)
    (hb : b ≠ 2) (l : Fin 512) :
    arg5.view.read Val ((k0_row2 arg5).view.writes Val g L) (ix2 b l) = arg5.view.read Val g (ix2 b l) := by
  refine View.read_congr_at _ (View.writes_apply_of_forall_ne (k0_row2 arg5).view g L fun y hy => hb ?_)
  have h1 : (Rect.unit (s := S4x512) ![2, 0] S1x512.size inb_S4x512_S1x512_2_0).emb
      (Shape.reshapeEquiv squeezes_S1x512_S512.numel_eq y) = ix2 b l := arg5.view.emb.injective hy
  have h2 := congrArg (fun j : S4x512.Idx => (j 0).val) h1
  have h3 : ((Shape.reshapeEquiv squeezes_S1x512_S512.numel_eq y) 0).val < 1 :=
    ((Shape.reshapeEquiv squeezes_S1x512_S512.numel_eq y) 0).isLt
  refine Fin.ext ?_
  have h4 : 2 + 1 * ((Shape.reshapeEquiv squeezes_S1x512_S512.numel_eq y) 0).val = b.val := h2
  show b.val = 2
  omega

end Row

/-! ## What a trip loads, in closed form -/

section Loads

/-- Chunk `k` of the row, at `r`: the row's entry `128 k + r`. -/
theorem k0_row2_chunk (arg5 : Memref sig .tc .vmem S4x512 .f32) (k : Fin k0_t3_loop.trips)
    (f : BufTy.Contents (Elt Ideal) (k0_row2 arg5).view.ty) (r : Fin 128) (l : Fin 512) (hl : l.val = 128 * k.val + r.val) :
    View.readAt (Elt Ideal) (k0_row2 arg5).view (Rect.unit (s := S512) (k0_off6 k) S128.size (k0_off6_inb k)).toLoadRect f (ix1 r)
      = (k0_row2 arg5).view.read (Elt Ideal) f (ix1 l) := by
  refine congrArg ((k0_row2 arg5).view.read (Elt Ideal) f) (funext fun a => Fin.ext ?_)
  match a with
  | ⟨0, _⟩ =>
    show k0_off6 k 0 + 1 * r.val = l.val
    rw [k0_off6_eq k, hl, Nat.one_mul]
    rfl

/-- Chunk `k` of the query block, at `(r, d)`: coordinate `d` of query `128 k + r` of batch 2. -/
theorem k0_qry2_chunk (arg2 : Memref sig .tc .vmem S4x512x3 .f32) (harg2 : arg2.IsWhole) (x0 : Vec Ideal S4x512x3 .f32)
    (k : Fin k0_t3_loop.trips) (r : Fin 128) (d : Fin 3) (l : Fin 512) (hl : l.val = 128 * k.val + r.val) :
    View.readAt (Elt Ideal) (k0_qry2 arg2).view (Rect.unit (s := S512x3) (k0_off5 k) S128x3.size (k0_off5_inb k)).toLoadRect
        (harg2.unread x0) (ix2 r d)
      = x0 (ix3 (2 : Fin 4) l d) := by
  refine (harg2.readAt_slice_reshape_unread x0 (Rect.unit (s := S4x512x3) ![2, 0, 0] S1x512x3.size inb_S4x512x3_S1x512x3_2_0_0)
    squeezes_S1x512x3_S512x3.numel_eq (Rect.unit (s := S512x3) (k0_off5 k) S128x3.size (k0_off5_inb k)).toLoadRect (ix2 r d)).trans
    (congrArg x0 ?_)
  have e1 : (Rect.unit (s := S512x3) (k0_off5 k) S128x3.size (k0_off5_inb k)).toLoadRect.idx (ix2 r d) = ix2 l d := by
    funext a
    refine Fin.ext ?_
    match a with
    | ⟨0, _⟩ =>
      show k0_off5 k 0 + 1 * r.val = l.val
      rw [k0_off5_eq k, hl, Nat.one_mul]
      rfl
    | ⟨1, _⟩ =>
      show k0_off5 k 1 + 1 * d.val = d.val
      rw [k0_off5_eq k, Nat.one_mul]
      exact Nat.zero_add _
  rw [e1, reshapeEquiv_ix2_1ab]
  funext a
  refine Fin.ext ?_
  match a with
  | ⟨0, _⟩ => rfl
  | ⟨1, _⟩ => show 0 + 1 * l.val = l.val; rw [Nat.one_mul, Nat.zero_add]
  | ⟨2, _⟩ => show 0 + 1 * d.val = d.val; rw [Nat.one_mul, Nat.zero_add]

end Loads

/-! ## The loop: the row after the trips done -/

section Loop
variable (𝒱 : Variants) (c : Dev nD) (bd : Option 𝒱.V) (i : grid0.Coords)
  (arg2 : Memref sig .tc .vmem S4x512x3 .f32) (harg2 : arg2.IsWhole) (arg3 : Memref sig .tc .vmem S4x512x3 .f32) (harg3 : arg3.IsWhole)
  (arg4 : Memref sig .tc .vmem S4x512 .f32) (harg4 : arg4.IsWhole) (arg5 : Memref sig .tc .vmem S4x512 .f32) (harg5 : arg5.IsWhole)
  (v31 : Vec Ideal S1x512x3 .f32) (x0 : Vec Ideal S4x512x3 .f32) (G : BufTy.Contents (Elt Ideal) arg5.view.ty)

/-- After `n` trips the row holds, on the chunks done, the entry value lowered by the nearest key's clamped squared
    distance, and the entry value on the chunks to come. -/
theorem k0_loop3_row (n : ℕ) (hn : n ≤ 4) (l : Fin 512) :
    (k0_row2 arg5).view.read (Elt Ideal) ((k0_row2 arg5).view.writes (Elt Ideal) G
        (pb_k0_t3 (F := Ideal) 𝒱 c bd i arg2 harg2 arg3 harg3 arg4 harg4 arg5 harg5 v31 (harg2.unread x0) G n)) (ix1 l)
      = if l.val < 128 * n then
          min ((k0_row2 arg5).view.read (Elt Ideal) G (ix1 l))
            (⨅ m : Fin 512, dist (fun d => x0 (ix3 (2 : Fin 4) l d)) (fun d => v31 (ix3 (0 : Fin 1) m d)))
        else (k0_row2 arg5).view.read (Elt Ideal) G (ix1 l) := by
  induction n generalizing l with
  | zero => rw [if_neg (by omega)]; rfl
  | succ n ih =>
    have h4 : k0_t3_loop.trips = 4 := by decide
    have hk : n < k0_t3_loop.trips := by omega
    have hs : pb_k0_t3 (F := Ideal) 𝒱 c bd i arg2 harg2 arg3 harg3 arg4 harg4 arg5 harg5 v31 (harg2.unread x0) G (n + 1) = _ :=
      pb_k0_t3_succ (F := Ideal) 𝒱 c bd i arg2 harg2 arg3 harg3 arg4 harg4 arg5 harg5 v31 (harg2.unread x0) G ⟨n, hk⟩
    rw [hs, tripL_k0_t3_eq, List.singleton_append]
    by_cases hl : 128 * n ≤ l.val ∧ l.val < 128 * n + 128
    · rw [if_pos (by omega)]
      refine (View.read_writes_cons_unit_of_mem (k0_row2 arg5).view G (k0_off6_inb ⟨n, hk⟩) _ _ (ix1 l)
        (ix1 (⟨l.val - 128 * n, by omega⟩ : Fin 128)) (k0_off6_eq ⟨n, hk⟩) (fun a => ?_)).trans ?_
      · match a with
        | ⟨0, _⟩ => show l.val = 128 * n + (l.val - 128 * n); omega
      · refine (k0_trip3_value v31 _ _ (⟨l.val - 128 * n, by omega⟩ : Fin 128)).trans (congrArg₂ min ?_ ?_)
        · refine (k0_row2_chunk arg5 ⟨n, hk⟩ _ _ l (by show l.val = 128 * n + (l.val - 128 * n); omega)).trans ?_
          rw [ih (by omega) l, if_neg (by omega)]
        · refine iInf_congr fun m => congrArg (fun q => dist q _) (funext fun d => ?_)
          exact k0_qry2_chunk arg2 harg2 x0 ⟨n, hk⟩ _ d l (by show l.val = 128 * n + (l.val - 128 * n); omega)
    · rw [View.read_writes_cons_unit_of_not_mem (k0_row2 arg5).view G (k0_off6_inb ⟨n, hk⟩) _ _ (ix1 l) (k0_off6_eq ⟨n, hk⟩)
        (0 : Fin 1) (by show l.val < 128 * n ∨ 128 * n + 128 ≤ l.val; omega), ih (by omega) l]
      by_cases h' : l.val < 128 * n
      · rw [if_pos h', if_pos (by omega)]
      · rw [if_neg h', if_neg (by omega)]

end Loop

/-! ## The loop: the scratch after all four trips -/

/-- The loop lowers row 2 of the scratch, at entry `l`, by the infimum over the 512 keys of the clamped squared distance
    to query `(2, l)`, and leaves the other rows alone. -/
theorem k0_loop3_value (𝒱 : Variants) (c : Dev nD) (bd : Option 𝒱.V) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (v31 : Vec Ideal S1x512x3 .f32) (x0 : Vec Ideal S4x512x3 .f32) (G : BufTy.Contents (Elt Ideal) arg5.view.ty)
    (b : Fin 4) (l : Fin 512) :
    arg5.view.read (Elt Ideal) ((k0_row2 arg5).view.writes (Elt Ideal) G
        (pb_k0_t3 (F := Ideal) 𝒱 c bd i arg2 harg2 arg3 harg3 arg4 harg4 arg5 harg5 v31 (harg2.unread x0) G 4)) (ValueIdx.ix2 b l)
      = if b = 2 then
          min (arg5.view.read (Elt Ideal) G (ValueIdx.ix2 2 l))
            (⨅ m : Fin 512, dist (fun d => x0 (ValueIdx.ix3 2 l d)) (fun d => v31 (ValueIdx.ix3 (0 : Fin 1) m d)))
        else arg5.view.read (Elt Ideal) G (ValueIdx.ix2 b l) := by
  by_cases hb : b = 2
  · subst hb
    rw [if_pos rfl, ← k0_row2_read, ← k0_row2_read,
      k0_loop3_row 𝒱 c bd i arg2 harg2 arg3 harg3 arg4 harg4 arg5 harg5 v31 x0 G 4 (Nat.le_refl 4) l,
      if_pos (by have := l.isLt; omega)]
  · rw [if_neg hb]
    exact k0_row2_writes_other arg5 G _ b hb l

end Cert.KernelIdeal.Hand

end
-- ==== Proof.KernelIdeal.LoopValueK0T4.lean ====
import proofs.«160032_j64836826300486_2_alg».proof.Proof.KernelIdeal.LoopK0T4
import proofs.«160032_j64836826300486_2_alg».proof.Proof.KernelIdeal.Payload0
import proofs.«160032_j64836826300486_2_alg».proof.Proof.Spec
import Idealize.ShloMosaic.Lib.WritesUnit
import Idealize.ShloMosaic.Lib.WholeRead

/-! What a batch's loop leaves in the scratch, read at an index, at the ideal values.

The loop of batch 3 walks the 512 queries of the block in four chunks of 128. Trip `k` stores through row 3 of the
[4, 512] scratch ONE piece, the chunk [128 k, 128 k + 128), whose payload at `r` is the minimum of what the row held
there and the infimum over the 512 keys of the clamped squared distance to query 128 k + r. The chunks are disjoint, so
what trip `k` reads of its chunk is what the scratch held at loop entry; by induction on the number of trips done, the
row holds the lowered value on the chunks done and the entry value on the others, and the other rows are never
touched. -/

set_option maxRecDepth 16384

noncomputable section

namespace Cert.KernelIdeal.Hand

open Cert.KernelIdeal Cert.KernelIdeal.Gen Cert.Lib Cert.Chamfer
open Idealize.ShloMosaic Idealize.ShloMosaic.TcCoe Idealize.ShloMosaic.ValueIdx
open Idealize.SL Idealize.SL.Sem

/-! ## The trip, opened once -/

section Trip
variable {F : FTy → Type} [FloatOps F]

/-- The query block of batch 3 as a memref [512, 3] of its own: what the trips load their chunks through. -/
abbrev k0_qry3 (arg2 : Memref sig .tc .vmem S4x512x3 .f32) : Memref sig .tc .vmem S512x3 .f32 :=
  (arg2.slice (Rect.unit (s := S4x512x3) ![3, 0, 0] S1x512x3.size inb_S4x512x3_S1x512x3_3_0_0) (fun _ => rfl)).squeeze S512x3 squeezes_S1x512x3_S512x3

/-- One trip writes one piece through the row: chunk `k`, holding the body's payload of query chunk `k` and of
    chunk `k` of what the row holds. -/
theorem tripL_k0_t4_eq (𝒱 : Variants) (c : Dev nD) (bd : Option 𝒱.V) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k0_t4_loop.trips) (f_row : BufTy.Contents (Elt F) (k0_row3 arg5).view.ty) :
    tripL_k0_t4 (F := F) 𝒱 c bd i arg2 harg2 arg3 harg3 arg4 harg4 arg5 harg5 v45 X_arg2 k f_row
      = [⟨Rect.unit (s := S512) (k0_off8 k) S128.size (k0_off8_inb k),
          k0_pay12 (k0_pay16 (k0_pay8 v45) (k0_pay9 v45) (k0_pay10 v45) (k0_pay11 v45)
            (View.readAt (Elt F) (k0_qry3 arg2).view (Rect.unit (s := S512x3) (k0_off7 k) S128x3.size (k0_off7_inb k)).toLoadRect X_arg2)
            (View.readAt (Elt F) (k0_row3 arg5).view (Rect.unit (s := S512) (k0_off8 k) S128.size (k0_off8_inb k)).toLoadRect f_row))⟩] := by
  unfold tripL_k0_t4 trip_k0_t4
  rfl

end Trip

/-! ## Row 3 of the scratch inside the scratch -/

section Row
variable {Val : EltTy → Type} (arg5 : Memref sig .tc .vmem S4x512 .f32)

/-- Entry `l` of the row is entry `(3, l)` of the scratch, in the buffer. -/
theorem k0_row3_emb (l : Fin 512) : (k0_row3 arg5).view.emb (ix1 l) = arg5.view.emb (ix2 (3 : Fin 4) l) := by
  have e : Shape.reshapeEquiv squeezes_S1x512_S512.numel_eq (ix1 l) = (ix2 (0 : Fin 1) l : (⟨2, S1x512.size⟩ : Shape).Idx) :=
    Shape.reshapeEquiv_eq_of_rowMajor _ (by
      rw [Shape.rowMajor_val_two, Shape.rowMajor_val_one]
      show 0 * 512 + l.val = l.val
      rw [Nat.zero_mul, Nat.zero_add])
  show arg5.view.emb ((Rect.unit (s := S4x512) ![3, 0] S1x512.size inb_S4x512_S1x512_3_0).emb
      (Shape.reshapeEquiv squeezes_S1x512_S512.numel_eq (ix1 l))) = _
  rw [e]
  refine congrArg arg5.view.emb (funext fun a => Fin.ext ?_)
  match a with
  | ⟨0, _⟩ => rfl
  | ⟨1, _⟩ => show 0 + 1 * l.val = l.val; rw [Nat.one_mul, Nat.zero_add]

/-- The row reads entry `l` where the scratch reads entry `(3, l)`. -/
theorem k0_row3_read (g : BufTy.Contents Val arg5.view.ty) (l : Fin 512) :
    (k0_row3 arg5).view.read Val g (ix1 l) = arg5.view.read Val g (ix2 (3 : Fin 4) l) := by
  rw [View.read_apply, View.read_apply, k0_row3_emb]

/-- Writes through the row leave the other rows of the scratch as they were. -/
theorem k0_row3_writes_other (g : BufTy.Contents Val arg5.view.ty) (L : List (View.Piece Val S512 .f32)) (b : Fin 4)
    (hb : b ≠ 3) (l : Fin 512) :
    arg5.view.read Val ((k0_row3 arg5).view.writes Val g L) (ix2 b l) = arg5.view.read Val g (ix2 b l) := by
  refine View.read_congr_at _ (View.writes_apply_of_forall_ne (k0_row3 arg5).view g L fun y hy => hb ?_)
  have h1 : (Rect.unit (s := S4x512) ![3, 0] S1x512.size inb_S4x512_S1x512_3_0).emb
      (Shape.reshapeEquiv squeezes_S1x512_S512.numel_eq y) = ix2 b l := arg5.view.emb.injective hy
  have h2 := congrArg (fun j : S4x512.Idx => (j 0).val) h1
  have h3 : ((Shape.reshapeEquiv squeezes_S1x512_S512.numel_eq y) 0).val < 1 :=
    ((Shape.reshapeEquiv squeezes_S1x512_S512.numel_eq y) 0).isLt
  refine Fin.ext ?_
  have h4 : 3 + 1 * ((Shape.reshapeEquiv squeezes_S1x512_S512.numel_eq y) 0).val = b.val := h2
  show b.val = 3
  omega

end Row

/-! ## What a trip loads, in closed form -/

section Loads

/-- Chunk `k` of the row, at `r`: the row's entry `128 k + r`. -/
theorem k0_row3_chunk (arg5 : Memref sig .tc .vmem S4x512 .f32) (k : Fin k0_t4_loop.trips)
    (f : BufTy.Contents (Elt Ideal) (k0_row3 arg5).view.ty) (r : Fin 128) (l : Fin 512) (hl : l.val = 128 * k.val + r.val) :
    View.readAt (Elt Ideal) (k0_row3 arg5).view (Rect.unit (s := S512) (k0_off8 k) S128.size (k0_off8_inb k)).toLoadRect f (ix1 r)
      = (k0_row3 arg5).view.read (Elt Ideal) f (ix1 l) := by
  refine congrArg ((k0_row3 arg5).view.read (Elt Ideal) f) (funext fun a => Fin.ext ?_)
  match a with
  | ⟨0, _⟩ =>
    show k0_off8 k 0 + 1 * r.val = l.val
    rw [k0_off8_eq k, hl, Nat.one_mul]
    rfl

/-- Chunk `k` of the query block, at `(r, d)`: coordinate `d` of query `128 k + r` of batch 3. -/
theorem k0_qry3_chunk (arg2 : Memref sig .tc .vmem S4x512x3 .f32) (harg2 : arg2.IsWhole) (x0 : Vec Ideal S4x512x3 .f32)
    (k : Fin k0_t4_loop.trips) (r : Fin 128) (d : Fin 3) (l : Fin 512) (hl : l.val = 128 * k.val + r.val) :
    View.readAt (Elt Ideal) (k0_qry3 arg2).view (Rect.unit (s := S512x3) (k0_off7 k) S128x3.size (k0_off7_inb k)).toLoadRect
        (harg2.unread x0) (ix2 r d)
      = x0 (ix3 (3 : Fin 4) l d) := by
  refine (harg2.readAt_slice_reshape_unread x0 (Rect.unit (s := S4x512x3) ![3, 0, 0] S1x512x3.size inb_S4x512x3_S1x512x3_3_0_0)
    squeezes_S1x512x3_S512x3.numel_eq (Rect.unit (s := S512x3) (k0_off7 k) S128x3.size (k0_off7_inb k)).toLoadRect (ix2 r d)).trans
    (congrArg x0 ?_)
  have e1 : (Rect.unit (s := S512x3) (k0_off7 k) S128x3.size (k0_off7_inb k)).toLoadRect.idx (ix2 r d) = ix2 l d := by
    funext a
    refine Fin.ext ?_
    match a with
    | ⟨0, _⟩ =>
      show k0_off7 k 0 + 1 * r.val = l.val
      rw [k0_off7_eq k, hl, Nat.one_mul]
      rfl
    | ⟨1, _⟩ =>
      show k0_off7 k 1 + 1 * d.val = d.val
      rw [k0_off7_eq k, Nat.one_mul]
      exact Nat.zero_add _
  rw [e1, reshapeEquiv_ix2_1ab]
  funext a
  refine Fin.ext ?_
  match a with
  | ⟨0, _⟩ => rfl
  | ⟨1, _⟩ => show 0 + 1 * l.val = l.val; rw [Nat.one_mul, Nat.zero_add]
  | ⟨2, _⟩ => show 0 + 1 * d.val = d.val; rw [Nat.one_mul, Nat.zero_add]

end Loads

/-! ## The loop: the row after the trips done -/

section Loop
variable (𝒱 : Variants) (c : Dev nD) (bd : Option 𝒱.V) (i : grid0.Coords)
  (arg2 : Memref sig .tc .vmem S4x512x3 .f32) (harg2 : arg2.IsWhole) (arg3 : Memref sig .tc .vmem S4x512x3 .f32) (harg3 : arg3.IsWhole)
  (arg4 : Memref sig .tc .vmem S4x512 .f32) (harg4 : arg4.IsWhole) (arg5 : Memref sig .tc .vmem S4x512 .f32) (harg5 : arg5.IsWhole)
  (v45 : Vec Ideal S1x512x3 .f32) (x0 : Vec Ideal S4x512x3 .f32) (G : BufTy.Contents (Elt Ideal) arg5.view.ty)

/-- After `n` trips the row holds, on the chunks done, the entry value lowered by the nearest key's clamped squared
    distance, and the entry value on the chunks to come. -/
theorem k0_loop4_row (n : ℕ) (hn : n ≤ 4) (l : Fin 512) :
    (k0_row3 arg5).view.read (Elt Ideal) ((k0_row3 arg5).view.writes (Elt Ideal) G
        (pb_k0_t4 (F := Ideal) 𝒱 c bd i arg2 harg2 arg3 harg3 arg4 harg4 arg5 harg5 v45 (harg2.unread x0) G n)) (ix1 l)
      = if l.val < 128 * n then
          min ((k0_row3 arg5).view.read (Elt Ideal) G (ix1 l))
            (⨅ m : Fin 512, dist (fun d => x0 (ix3 (3 : Fin 4) l d)) (fun d => v45 (ix3 (0 : Fin 1) m d)))
        else (k0_row3 arg5).view.read (Elt Ideal) G (ix1 l) := by
  induction n generalizing l with
  | zero => rw [if_neg (by omega)]; rfl
  | succ n ih =>
    have h4 : k0_t4_loop.trips = 4 := by decide
    have hk : n < k0_t4_loop.trips := by omega
    have hs : pb_k0_t4 (F := Ideal) 𝒱 c bd i arg2 harg2 arg3 harg3 arg4 harg4 arg5 harg5 v45 (harg2.unread x0) G (n + 1) = _ :=
      pb_k0_t4_succ (F := Ideal) 𝒱 c bd i arg2 harg2 arg3 harg3 arg4 harg4 arg5 harg5 v45 (harg2.unread x0) G ⟨n, hk⟩
    rw [hs, tripL_k0_t4_eq, List.singleton_append]
    by_cases hl : 128 * n ≤ l.val ∧ l.val < 128 * n + 128
    · rw [if_pos (by omega)]
      refine (View.read_writes_cons_unit_of_mem (k0_row3 arg5).view G (k0_off8_inb ⟨n, hk⟩) _ _ (ix1 l)
        (ix1 (⟨l.val - 128 * n, by omega⟩ : Fin 128)) (k0_off8_eq ⟨n, hk⟩) (fun a => ?_)).trans ?_
      · match a with
        | ⟨0, _⟩ => show l.val = 128 * n + (l.val - 128 * n); omega
      · refine (k0_trip4_value v45 _ _ (⟨l.val - 128 * n, by omega⟩ : Fin 128)).trans (congrArg₂ min ?_ ?_)
        · refine (k0_row3_chunk arg5 ⟨n, hk⟩ _ _ l (by show l.val = 128 * n + (l.val - 128 * n); omega)).trans ?_
          rw [ih (by omega) l, if_neg (by omega)]
        · refine iInf_congr fun m => congrArg (fun q => dist q _) (funext fun d => ?_)
          exact k0_qry3_chunk arg2 harg2 x0 ⟨n, hk⟩ _ d l (by show l.val = 128 * n + (l.val - 128 * n); omega)
    · rw [View.read_writes_cons_unit_of_not_mem (k0_row3 arg5).view G (k0_off8_inb ⟨n, hk⟩) _ _ (ix1 l) (k0_off8_eq ⟨n, hk⟩)
        (0 : Fin 1) (by show l.val < 128 * n ∨ 128 * n + 128 ≤ l.val; omega), ih (by omega) l]
      by_cases h' : l.val < 128 * n
      · rw [if_pos h', if_pos (by omega)]
      · rw [if_neg h', if_neg (by omega)]

end Loop

/-! ## The loop: the scratch after all four trips -/

/-- The loop lowers row 3 of the scratch, at entry `l`, by the infimum over the 512 keys of the clamped squared distance
    to query `(3, l)`, and leaves the other rows alone. -/
theorem k0_loop4_value (𝒱 : Variants) (c : Dev nD) (bd : Option 𝒱.V) (i : grid0.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (v45 : Vec Ideal S1x512x3 .f32) (x0 : Vec Ideal S4x512x3 .f32) (G : BufTy.Contents (Elt Ideal) arg5.view.ty)
    (b : Fin 4) (l : Fin 512) :
    arg5.view.read (Elt Ideal) ((k0_row3 arg5).view.writes (Elt Ideal) G
        (pb_k0_t4 (F := Ideal) 𝒱 c bd i arg2 harg2 arg3 harg3 arg4 harg4 arg5 harg5 v45 (harg2.unread x0) G 4)) (ValueIdx.ix2 b l)
      = if b = 3 then
          min (arg5.view.read (Elt Ideal) G (ValueIdx.ix2 3 l))
            (⨅ m : Fin 512, dist (fun d => x0 (ValueIdx.ix3 3 l d)) (fun d => v45 (ValueIdx.ix3 (0 : Fin 1) m d)))
        else arg5.view.read (Elt Ideal) G (ValueIdx.ix2 b l) := by
  by_cases hb : b = 3
  · subst hb
    rw [if_pos rfl, ← k0_row3_read, ← k0_row3_read,
      k0_loop4_row 𝒱 c bd i arg2 harg2 arg3 harg3 arg4 harg4 arg5 harg5 v45 x0 G 4 (Nat.le_refl 4) l,
      if_pos (by have := l.isLt; omega)]
  · rw [if_neg hb]
    exact k0_row3_writes_other arg5 G _ b hb l

end Cert.KernelIdeal.Hand

end
-- ==== Proof.AccStep.lean ====
import proofs.«160032_j64836826300486_2_alg».proof.Proof.Spec

/-! One key tile's effect on the running minima of a query tile.

A query tile is a [4, 512, 3] block (four batches of 512 points), a key tile likewise; the running minima are a [4, 512]
block. Meeting a key tile lowers entry (b, l) to the minimum of what it held and the infimum, over the 512 keys of batch b
in the tile, of the clamped squared distance to query (b, l). -/

noncomputable section

namespace Cert.Chamfer

open Idealize.ShloMosaic

/-- The running minimum at entry (b, l) after a key tile `x1`, from the query tile `x0` and the minima `a` before. -/
def accStepAt (x0 x1 : (⟨3, ![4, 512, 3]⟩ : Shape).Idx → EReal) (a : (⟨2, ![4, 512]⟩ : Shape).Idx → EReal) (b : Fin 4) (l : Fin 512) : EReal :=
  min (a (ValueIdx.ix2 b l)) (⨅ m : Fin 512, dist (fun d => x0 (ValueIdx.ix3 b l d)) (fun d => x1 (ValueIdx.ix3 b m d)))

/-- The same as a [4, 512] block. -/
def accStep (x0 x1 : (⟨3, ![4, 512, 3]⟩ : Shape).Idx → EReal) (a : (⟨2, ![4, 512]⟩ : Shape).Idx → EReal) : (⟨2, ![4, 512]⟩ : Shape).Idx → EReal :=
  fun j => accStepAt x0 x1 a (j 0) (j 1)

theorem accStep_ix2 (x0 x1 : (⟨3, ![4, 512, 3]⟩ : Shape).Idx → EReal) (a : (⟨2, ![4, 512]⟩ : Shape).Idx → EReal) (b : Fin 4) (l : Fin 512) :
    accStep x0 x1 a (ValueIdx.ix2 b l) = accStepAt x0 x1 a b l := rfl

end Cert.Chamfer

end
-- ==== Proof.LibTileMin.lean ====
import Mathlib.Data.EReal.Basic

/-! A running minimum over consecutive tiles is the infimum over the whole range.

A range of (J + 1) * b indices is cut into J + 1 consecutive tiles of b indices each. A sequence of
accumulators starts at the minimum of the top element and the infimum over tile 0, and at each
further tile takes the minimum of the previous accumulator and the infimum over that tile. Its last
term is the infimum of the family over the whole range. The facts are stated in any complete linear
order (the extended reals are one), first for a family indexed by the natural numbers, then for a
family indexed by the range itself, and last at 16 tiles of 512 indices, a range of 8192. -/

namespace Cert.Lib

variable {α : Type*} [CompleteLinearOrder α]

/-- The infimum over a range depends on the range's length only through its value. -/
theorem iInf_fin_congr {N N' : ℕ} (h : N = N') (d : ℕ → α) :
    ⨅ M : Fin N, d M.val = ⨅ M : Fin N', d M.val := by
  subst h; rfl

/-- The infimum over the first n + k naturals is the minimum of the infimum over the first n and the
    infimum over the next k. -/
theorem iInf_fin_add (n k : ℕ) (d : ℕ → α) :
    ⨅ M : Fin (n + k), d M.val = min (⨅ M : Fin n, d M.val) (⨅ m : Fin k, d (n + m.val)) := by
  refine eq_of_forall_le_iff fun c => ?_
  rw [le_iInf_iff, le_min_iff, le_iInf_iff, le_iInf_iff]
  constructor
  · intro h
    refine ⟨fun M => h ⟨M.val, ?_⟩, fun m => h ⟨n + m.val, ?_⟩⟩
    · have := M.isLt; omega
    · have := m.isLt; omega
  · rintro ⟨h1, h2⟩ M
    by_cases hM : M.val < n
    · exact h1 ⟨M.val, hM⟩
    · have hk : M.val - n < k := by have := M.isLt; omega
      have e : n + (M.val - n) = M.val := by omega
      have := h2 ⟨M.val - n, hk⟩
      rw [← e]; exact this

/-- The running minimum over J + 1 consecutive tiles of b indices, for a family indexed by the naturals:
    from the minimum of the top element and the infimum over tile 0, taking at tile j + 1 the minimum of
    the previous value and the infimum over that tile, one arrives at the infimum over all (J + 1) * b
    indices. -/
theorem running_min_tiles_nat (J b : ℕ) (d : ℕ → α) (acc : ℕ → α)
    (h0 : acc 0 = min ⊤ (⨅ m : Fin b, d m.val))
    (hs : ∀ j, j < J → acc (j + 1) = min (acc j) (⨅ m : Fin b, d ((j + 1) * b + m.val))) :
    acc J = ⨅ M : Fin ((J + 1) * b), d M.val := by
  induction J with
  | zero =>
    rw [h0, min_top_left]
    exact iInf_fin_congr (by omega) d
  | succ J ih =>
    rw [hs J (Nat.lt_succ_self J), ih (fun j hj => hs j (Nat.lt_succ_of_lt hj)), ← iInf_fin_add]
    exact iInf_fin_congr (Nat.succ_mul (J + 1) b).symm d

/-- Index m of tile j lies in the range when j is at most J. -/
theorem tile_lt (J b j : ℕ) (hj : j ≤ J) (m : Fin b) : j * b + m.val < (J + 1) * b := by
  have h1 : j * b + m.val < (j + 1) * b := by rw [Nat.succ_mul]; exact Nat.add_lt_add_left m.isLt _
  exact Nat.lt_of_lt_of_le h1 (Nat.mul_le_mul_right b (Nat.succ_le_succ hj))

/-- The same for a family indexed by the range itself. Tile j + 1 holds the indices (j + 1) * b + m,
    tile 0 the indices m, for m below b. -/
theorem running_min_tiles (J b : ℕ) (d : Fin ((J + 1) * b) → α) (acc : ℕ → α)
    (h0 : acc 0 = min ⊤ (⨅ m : Fin b, d ⟨m.val, by have := tile_lt J b 0 (Nat.zero_le J) m; omega⟩))
    (hs : ∀ j (hj : j < J), acc (j + 1)
      = min (acc j) (⨅ m : Fin b, d ⟨(j + 1) * b + m.val, tile_lt J b (j + 1) hj m⟩)) :
    acc J = ⨅ M : Fin ((J + 1) * b), d M := by
  let d' : ℕ → α := fun M => if h : M < (J + 1) * b then d ⟨M, h⟩ else ⊤
  have hd : ∀ (M : ℕ) (h : M < (J + 1) * b), d' M = d ⟨M, h⟩ := fun M h => dif_pos h
  have key := running_min_tiles_nat J b d' acc
    (by rw [h0]; exact congrArg (min ⊤) (iInf_congr fun m => (hd _ _).symm))
    (fun j hj => by rw [hs j hj]; exact congrArg (min (acc j)) (iInf_congr fun m => (hd _ _).symm))
  rw [key]
  exact iInf_congr fun M => hd M.val M.isLt

/-- Sixteen tiles of 512 indices: a range of 8192. Tile j + 1 holds the indices (j + 1) * 512 + m. -/
theorem running_min_16x512 (d : Fin 8192 → α) (acc : ℕ → α)
    (h0 : acc 0 = min ⊤ (⨅ m : Fin 512, d ⟨m.val, by have := m.isLt; omega⟩))
    (hs : ∀ j (hj : j < 15), acc (j + 1)
      = min (acc j) (⨅ m : Fin 512, d ⟨(j + 1) * 512 + m.val, by have := m.isLt; omega⟩)) :
    acc 15 = ⨅ M : Fin 8192, d M :=
  running_min_tiles 15 512 d acc h0 hs

end Cert.Lib
-- ==== Proof.GridMin.lean ====
import proofs.«160032_j64836826300486_2_alg».proof.Proof.Spec
import proofs.«160032_j64836826300486_2_alg».proof.Proof.AccStep
import proofs.«160032_j64836826300486_2_alg».proof.Proof.LibTileMin

/-! The running minima over a 16 x 16 grid of tiles.

The query array and the key array are each four batches of 8192 points, cut into 16 tiles of 512 points. Grid point
t = 16 i + j meets query tile i and key tile j; one key tile's step lowers each running minimum of the query tile by
the infimum of the clamped squared distance over the tile's 512 keys. Starting from the top element at j = 0 and
stepping through the 16 key tiles, the minima after point 16 i + 15 are the nearest-neighbour distances of the 512
query points of tile i among all 8192 key points of their batch. -/

noncomputable section

namespace Cert.Chamfer

open Idealize.ShloMosaic ValueIdx

/-- One key tile's effect at entry (b, l), when the query tile's row l is point n of the query array and the key
    tile's row m is point κ m of the key array. -/
theorem accStep_tile (Q K : (⟨3, ![4, 8192, 3]⟩ : Shape).Idx → EReal)
    (X0 X1 : (⟨3, ![4, 512, 3]⟩ : Shape).Idx → EReal) (a : (⟨2, ![4, 512]⟩ : Shape).Idx → EReal)
    (b : Fin 4) (l : Fin 512) (n : Fin 8192) (κ : Fin 512 → Fin 8192)
    (h0 : ∀ d, X0 (ix3 b l d) = Q (ix3 b n d))
    (h1 : ∀ m d, X1 (ix3 b m d) = K (ix3 b (κ m) d)) :
    accStep X0 X1 a (ix2 b l) = min (a (ix2 b l)) (⨅ m : Fin 512, dist (pts Q b n) (pts K b (κ m))) := by
  rw [accStep_ix2]
  unfold accStepAt
  have e0 : (fun d => X0 (ix3 b l d)) = pts Q b n := funext fun d => h0 d
  have e1 : ∀ m, (fun d => X1 (ix3 b m d)) = pts K b (κ m) := fun m => funext fun d => h1 m d
  rw [e0]
  exact congrArg (min (a (ix2 b l))) (iInf_congr fun m => by rw [e1 m])

/-- The running minima over the grid. Point t = 16 i + j meets query tile i (rows 512 i + l of the query array) and key
    tile j (rows 512 j + m of the key array); the minima after point t are one key tile's step from the top element
    when j = 0 and from the minima after point t - 1 otherwise. Then after the last key tile, point 16 i + 15, entry
    (b, l) is the nearest-neighbour distance of query point 512 i + l of batch b among all 8192 key points. -/
theorem grid_min (Q K : (⟨3, ![4, 8192, 3]⟩ : Shape).Idx → EReal)
    (X0 X1 : ℕ → (⟨3, ![4, 512, 3]⟩ : Shape).Idx → EReal) (S : ℕ → (⟨2, ![4, 512]⟩ : Shape).Idx → EReal)
    (hX0 : ∀ t, t < 256 → ∀ (b : Fin 4) (l : Fin 512) (n : Fin 8192), n.val = 512 * (t / 16) + l.val →
      ∀ d, X0 t (ix3 b l d) = Q (ix3 b n d))
    (hX1 : ∀ t, t < 256 → ∀ (b : Fin 4) (m : Fin 512) (n : Fin 8192), n.val = 512 * (t % 16) + m.val →
      ∀ d, X1 t (ix3 b m d) = K (ix3 b n d))
    (hS : ∀ t, t < 256 → S t = accStep (X0 t) (X1 t) (if t % 16 = 0 then fun _ => ⊤ else S (t - 1)))
    (i : Fin 16) (b : Fin 4) (l : Fin 512) (n : Fin 8192) (hn : n.val = 512 * i.val + l.val) :
    S (16 * i.val + 15) (ix2 b l) = nn (pts Q) (pts K) b n := by
  have hi := i.isLt
  have hl := l.isLt
  unfold nn
  refine Cert.Lib.running_min_16x512 (fun M => dist (pts Q b n) (pts K b M)) (fun j => S (16 * i.val + j) (ix2 b l)) ?_ ?_
  · -- key tile 0: from the top element
    show S (16 * i.val + 0) (ix2 b l) = _
    rw [hS _ (by omega), if_pos (by omega)]
    exact accStep_tile Q K _ _ _ b l n (fun m => ⟨m.val, by have := m.isLt; omega⟩)
      (hX0 _ (by omega) b l n (by rw [hn]; omega))
      (fun m => hX1 _ (by omega) b m _ (by have := m.isLt; show m.val = _; omega))
  · -- key tile j + 1: from the minima after the point before
    intro j hj
    show S (16 * i.val + (j + 1)) (ix2 b l) = min (S (16 * i.val + j) (ix2 b l)) _
    rw [hS _ (by omega), if_neg (by omega), show 16 * i.val + (j + 1) - 1 = 16 * i.val + j by omega]
    exact accStep_tile Q K _ _ _ b l n (fun m => ⟨(j + 1) * 512 + m.val, by have := m.isLt; omega⟩)
      (hX0 _ (by omega) b l n (by rw [hn]; omega))
      (fun m => hX1 _ (by omega) b m _ (by have := m.isLt; show (j + 1) * 512 + m.val = _; omega))

end Cert.Chamfer

end
-- ==== Proof.KernelIdeal.Final0.lean ====
import proofs.«160032_j64836826300486_2_alg».proof.Proof.KernelIdeal.Body0
import proofs.«160032_j64836826300486_2_alg».proof.Proof.Spec
import proofs.«160032_j64836826300486_2_alg».proof.Proof.AccStep
import proofs.«160032_j64836826300486_2_alg».proof.Proof.LibTileMin
import proofs.«160032_j64836826300486_2_alg».proof.Proof.GridMin
import Idealize.ShloMosaic.Lib.Pipeline.Value
import Idealize.ShloMosaic.Lib.ValueIdx

noncomputable section

/-! # The kernel's first output array after the run

Region 0 runs a 16 x 16 grid: point t = 16 i + j meets query tile i (rows 512 i + l of the query array) and key tile j
(rows 512 j + m of the key array), keeps per query a running minimum of the clamped squared distance over the key
tiles met so far, and after the last key tile writes the minima of query tile i back to columns 512 i + l of the
[4, 8192] output. Given what one point does to the running minima (the four facts taken as hypotheses below), the
array ends holding, at (b, n), the nearest-neighbour distance of query point n of batch b among the 8192 key points. -/

namespace Cert.KernelIdeal.Hand

open Cert.KernelIdeal Cert.KernelIdeal.Gen
open Idealize.ShloMosaic Idealize.ShloMosaic.TcCoe Idealize.SL.Sem
open Idealize.ShloMosaic.Pipeline (Dat)
open Cert.Chamfer ValueIdx

section Blocks

variable {F : FTy → Type} [FloatOps F]

/-- The windows' block indices at grid point t = 16 i + j: the query window sits at row block i, the key window at
    row block j, the output window at column block i. -/
theorem idx_facts0 : ∀ t : Fin cfg0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16 :=
  (by decide +kernel : ∀ t : Fin grid0.N,
    win0_0.index t (0 : Fin 3) = 0 ∧ win0_0.index t (1 : Fin 3) = t.val / 16 ∧ win0_0.index t (2 : Fin 3) = 0
    ∧ win0_1.index t (0 : Fin 3) = 0 ∧ win0_1.index t (1 : Fin 3) = t.val % 16 ∧ win0_1.index t (2 : Fin 3) = 0
    ∧ win0_2.index t (0 : Fin 2) = 0 ∧ win0_2.index t (1 : Fin 2) = t.val / 16)

/-- The query window's block at point t, read off an array A: entry (b, l, d) is A (b, 512 (t / 16) + l, d). -/
theorem blk0_0_read (A : S4x8192x3.Idx → Elt F .f32) (t : Fin cfg0.N) (x : S4x512x3.Idx) (k : S4x8192x3.Idx)
    (hk0 : (k 0).val = (x 0).val) (hk1 : (k 1).val = 512 * (t.val / 16) + (x 1).val) (hk2 : (k 2).val = (x 2).val) :
    (((cfg0.win 0).blk t).view.read (Elt F) A : Vec F S4x512x3 .f32) x = A k := by
  obtain ⟨e0, e1, e2, -⟩ := idx_facts0 t
  rw [View.read_apply]
  show A _ = A _
  congr 1
  funext a; apply Fin.ext
  match a with
  | ⟨0, _⟩ => show win0_0.index t (0 : Fin 3) * 4 + 1 * (x 0).val = (k 0).val; rw [e0, hk0]; omega
  | ⟨1, _⟩ => show win0_0.index t (1 : Fin 3) * 512 + 1 * (x 1).val = (k 1).val; rw [e1, hk1]; omega
  | ⟨2, _⟩ => show win0_0.index t (2 : Fin 3) * 3 + 1 * (x 2).val = (k 2).val; rw [e2, hk2]; omega

/-- The key window's block at point t, read off an array A: entry (b, m, d) is A (b, 512 (t % 16) + m, d). -/
theorem blk0_1_read (A : S4x8192x3.Idx → Elt F .f32) (t : Fin cfg0.N) (x : S4x512x3.Idx) (k : S4x8192x3.Idx)
    (hk0 : (k 0).val = (x 0).val) (hk1 : (k 1).val = 512 * (t.val % 16) + (x 1).val) (hk2 : (k 2).val = (x 2).val) :
    (((cfg0.win 1).blk t).view.read (Elt F) A : Vec F S4x512x3 .f32) x = A k := by
  obtain ⟨-, -, -, e0, e1, e2, -⟩ := idx_facts0 t
  rw [View.read_apply]
  show A _ = A _
  congr 1
  funext a; apply Fin.ext
  match a with
  | ⟨0, _⟩ => show win0_1.index t (0 : Fin 3) * 4 + 1 * (x 0).val = (k 0).val; rw [e0, hk0]; omega
  | ⟨1, _⟩ => show win0_1.index t (1 : Fin 3) * 512 + 1 * (x 1).val = (k 1).val; rw [e1, hk1]; omega
  | ⟨2, _⟩ => show win0_1.index t (2 : Fin 3) * 3 + 1 * (x 2).val = (k 2).val; rw [e2, hk2]; omega

/-- The output window's block at point t, read off an array G: entry (b, l) is G (b, 512 (t / 16) + l). -/
theorem blk0_2_read (G : S4x8192.Idx → Elt F .f32) (t : Fin cfg0.N) (x : S4x512.Idx) (k : S4x8192.Idx)
    (hk0 : (k 0).val = (x 0).val) (hk1 : (k 1).val = 512 * (t.val / 16) + (x 1).val) :
    (((cfg0.win 2).blk t).view.read (Elt F) G : Vec F S4x512 .f32) x = G k := by
  obtain ⟨-, -, -, -, -, -, e0, e1⟩ := idx_facts0 t
  rw [View.read_apply]
  show G _ = G _
  congr 1
  funext a; apply Fin.ext
  match a with
  | ⟨0, _⟩ => show win0_2.index t (0 : Fin 2) * 4 + 1 * (x 0).val = (k 0).val; rw [e0, hk0]; omega
  | ⟨1, _⟩ => show win0_2.index t (1 : Fin 2) * 512 + 1 * (x 1).val = (k 1).val; rw [e1, hk1]; omega

/-- An index of the [4, 8192] array is in point t's block iff each coordinate is in the block's range on its axis. -/
theorem mem_blk0_2 (t : Fin cfg0.N) (i : S4x8192.Idx) :
    i ∈ ((cfg0.win 2).blk t).view.set ↔ ∀ a : Fin 2, win0_2.index t a * S4x512.size a ≤ (i a).val ∧ (i a).val < win0_2.index t a * S4x512.size a + S4x512.size a := by
  show i ∈ ((View.whole (Pipeline.arrRef spec0 2)).slice (win0_2.rect t)).set ↔ _
  rw [View.set_slice_whole, Rect.mem_set_unit]
  exact Iff.rfl

/-- Every index (r, n) of the array lies in the block written back at the last point of column block n / 512. -/
theorem cover0_2 (i : S4x8192.Idx) : ∃ t : Fin cfg0.N, (cfg0.win 2).flush t = true ∧ i ∈ ((cfg0.win 2).blk t).view.set := by
  have hi0 : (i 0).val < 4 := (i 0).isLt
  have hi1 : (i 1).val < 8192 := (i 1).isLt
  have hN : cfg0.N = 256 := N_0
  have ht : 16 * ((i 1).val / 512) + 15 < cfg0.N := by omega
  refine ⟨⟨16 * ((i 1).val / 512) + 15, ht⟩, (flush0_2 _).mpr (by show (16 * ((i 1).val / 512) + 15) % 16 = 15; omega), ?_⟩
  rw [mem_blk0_2]
  obtain ⟨-, -, -, -, -, -, e0, e1⟩ := idx_facts0 ⟨16 * ((i 1).val / 512) + 15, ht⟩
  intro a
  match a with
  | ⟨0, _⟩ =>
    show win0_2.index _ (0 : Fin 2) * 4 ≤ (i 0).val ∧ (i 0).val < win0_2.index _ (0 : Fin 2) * 4 + 4
    rw [e0]; omega
  | ⟨1, _⟩ =>
    show win0_2.index _ (1 : Fin 2) * 512 ≤ (i 1).val ∧ (i 1).val < win0_2.index _ (1 : Fin 2) * 512 + 512
    rw [e1]; dsimp only; omega

end Blocks

/-! ## From the body's three cases to the array -/

section Final

variable (V : (c : Dev nD) → (b : Ref sig .tc) → Buf (Elt Ideal) ((c : Thread nD τ).loc b))

/-- What one point does to the running minima, in each of the body's three cases, and what the last key tile's point
    leaves in the output's staging buffer: the four facts this section takes as given. -/
structure BodyFacts0 : Prop where
  hA : ∀ (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc0 : cond0_0 i) (hc1 : ¬cond0_1 i) (x0 x1 : Vec Ideal S4x512x3 .f32),
    sout0_A (F := Ideal) c i arg2 harg2 arg3 harg3 arg4 harg4 hc0 hc1 x0 x1 = accStep x0 x1 (fun _ => ⊤)
  hB : ∀ (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc0 : ¬cond0_0 i) (hc1 : ¬cond0_1 i) (x0 x1 : Vec Ideal S4x512x3 .f32) (xs : Vec Ideal S4x512 .f32),
    sout0_B (F := Ideal) c i arg2 harg2 arg3 harg3 arg4 harg4 hc0 hc1 x0 x1 xs = accStep x0 x1 xs
  hC : ∀ (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc0 : ¬cond0_0 i) (hc1 : cond0_1 i) (x0 x1 : Vec Ideal S4x512x3 .f32) (xs : Vec Ideal S4x512 .f32),
    sout0_C (F := Ideal) c i arg2 harg2 arg3 harg3 arg4 harg4 hc0 hc1 x0 x1 xs = accStep x0 x1 xs
  hO : ∀ (c : Dev nD) (i : grid0.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc0 : ¬cond0_0 i) (hc1 : cond0_1 i) (x0 x1 : Vec Ideal S4x512x3 .f32) (xs : Vec Ideal S4x512 .f32),
    out0_C (F := Ideal) c i arg2 harg2 arg3 harg3 arg4 harg4 hc0 hc1 x0 x1 xs = accStep x0 x1 xs

/-- The running minima after point n (the top element past the grid). -/
def scr0 (c : Dev nD) (n : ℕ) : S4x512.Idx → EReal :=
  if h : n < cfg0.N then (outsAt0 V c n h).2 else fun _ => ⊤
/-- The query tile at point n. -/
def qblk0 (c : Dev nD) (n : ℕ) : S4x512x3.Idx → EReal :=
  if h : n < cfg0.N then iblk0 V c 0 ⟨n, h⟩ else fun _ => ⊤
/-- The key tile at point n. -/
def kblk0 (c : Dev nD) (n : ℕ) : S4x512x3.Idx → EReal :=
  if h : n < cfg0.N then iblk0 V c 1 ⟨n, h⟩ else fun _ => ⊤

theorem qblk0_apply (c : Dev nD) (t : ℕ) (ht : t < 256) (b : Fin 4) (l : Fin 512) (n : Fin 8192)
    (hn : n.val = 512 * (t / 16) + l.val) (d : Fin 3) :
    qblk0 V c t (ix3 b l d) = (V c (Pipeline.arrRef spec0 0) : S4x8192x3.Idx → EReal) (ix3 b n d) := by
  have h : t < cfg0.N := by rw [show cfg0.N = 256 from N_0]; exact ht
  unfold qblk0; rw [dif_pos h]; unfold iblk0
  exact blk0_0_read (F := Ideal) (V c (Pipeline.arrRef spec0 0)) ⟨t, h⟩ (ix3 b l d) (ix3 b n d) rfl hn rfl

theorem kblk0_apply (c : Dev nD) (t : ℕ) (ht : t < 256) (b : Fin 4) (m : Fin 512) (n : Fin 8192)
    (hn : n.val = 512 * (t % 16) + m.val) (d : Fin 3) :
    kblk0 V c t (ix3 b m d) = (V c (Pipeline.arrRef spec0 1) : S4x8192x3.Idx → EReal) (ix3 b n d) := by
  have h : t < cfg0.N := by rw [show cfg0.N = 256 from N_0]; exact ht
  unfold kblk0; rw [dif_pos h]; unfold iblk0
  exact blk0_1_read (F := Ideal) (V c (Pipeline.arrRef spec0 1)) ⟨t, h⟩ (ix3 b m d) (ix3 b n d) rfl hn rfl

variable (bf : BodyFacts0)
include bf

/-- After every point the running minima are one key tile's step: from the top element at the first key tile of a
    row of the grid, from the minima after the point before otherwise. -/
theorem scr0_step (c : Dev nD) (t : ℕ) (ht : t < 256) :
    scr0 V c t = accStep (qblk0 V c t) (kblk0 V c t) (if t % 16 = 0 then fun _ => ⊤ else scr0 V c (t - 1)) := by
  have h : t < cfg0.N := by rw [show cfg0.N = 256 from N_0]; exact ht
  have hp : t - 1 < cfg0.N := Nat.lt_of_le_of_lt (Nat.sub_le _ _) h
  unfold scr0 qblk0 kblk0
  rw [dif_pos h, dif_pos h, dif_pos h, dif_pos hp]
  by_cases h0 : t % 16 = 0
  · have h1 : ¬t % 16 = 15 := by omega
    rw [if_pos h0]
    exact (congrArg Prod.snd (outsAt0_A V c ⟨t, h⟩ h0 h1)).trans
      (bf.hA c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩)
        ((hcond0_0 ⟨t, h⟩).mpr h0) (fun hc => h1 ((hcond0_1 ⟨t, h⟩).mp hc)) (iblk0 V c 0 ⟨t, h⟩) (iblk0 V c 1 ⟨t, h⟩))
  · rw [if_neg h0]
    by_cases h1 : t % 16 = 15
    · exact (congrArg Prod.snd (outsAt0_C V c ⟨t, h⟩ h0 h1)).trans
        (bf.hC c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩)
          (fun hc => h0 ((hcond0_0 ⟨t, h⟩).mp hc)) ((hcond0_1 ⟨t, h⟩).mpr h1) (iblk0 V c 0 ⟨t, h⟩) (iblk0 V c 1 ⟨t, h⟩)
          (outsAt0 V c (t - 1) hp).2)
    · exact (congrArg Prod.snd (outsAt0_B V c ⟨t, h⟩ h0 h1)).trans
        (bf.hB c (grid0.coords ⟨t, h⟩) (ms0_0 ⟨t, h⟩) (hs0_0 ⟨t, h⟩) (ms0_1 ⟨t, h⟩) (hs0_1 ⟨t, h⟩) (ms0_2 ⟨t, h⟩) (hs0_2 ⟨t, h⟩)
          (fun hc => h0 ((hcond0_0 ⟨t, h⟩).mp hc)) (fun hc => h1 ((hcond0_1 ⟨t, h⟩).mp hc)) (iblk0 V c 0 ⟨t, h⟩) (iblk0 V c 1 ⟨t, h⟩)
          (outsAt0 V c (t - 1) hp).2)

/-- At the last key tile's point the output's staging buffer is left holding the running minima. -/
theorem out0_eq_scr (c : Dev nD) (t : Fin cfg0.N) (h1 : t.val % 16 = 15) :
    (outsAt0 V c t.val t.isLt).1 = scr0 V c t.val := by
  have h0 : ¬t.val % 16 = 0 := by omega
  unfold scr0; rw [dif_pos t.isLt]
  rw [outsAt0_C V c t h0 h1]
  dsimp only
  rw [bf.hO, bf.hC]

/-- The array of nearest-neighbour distances: the value the output array ends at. -/
def nnArr0 (c : Dev nD) : S4x8192.Idx → EReal :=
  fun j => nn (pts (V c (Pipeline.arrRef spec0 0) : S4x8192x3.Idx → EReal)) (pts (V c (Pipeline.arrRef spec0 1) : S4x8192x3.Idx → EReal)) (j 0) (j 1)

/-- What a write-back writes is its block of the array of nearest-neighbour distances. -/
theorem flushed0_eq (c : Dev nD) (t : Fin cfg0.N) (hf : (cfg0.win 2).flush t = true) :
    (dat0 V c).flushed 2 t = ((cfg0.win 2).blk t).view.read (Elt Ideal) (nnArr0 V c) := by
  have hN : cfg0.N = 256 := N_0
  have ht := t.isLt
  have h15 : t.val % 16 = 15 := (flush0_2 t).mp hf
  show (cfg0.win 2).cut (grid0.coords t) ((dat0 V c).after 2 t) = _
  rw [after0_2, out0_eq_scr V bf c t h15]
  funext x
  obtain ⟨b, l, rfl⟩ : ∃ (b : Fin 4) (l : Fin 512), x = ix2 b l := ⟨x 0, x 1, eq_ix2 x⟩
  have hl := l.isLt
  have hn : 512 * (t.val / 16) + l.val < 8192 := by omega
  rw [blk0_2_read (F := Ideal) (nnArr0 V c) t (ix2 b l) (ix2 b ⟨512 * (t.val / 16) + l.val, hn⟩) rfl rfl]
  show scr0 V c t.val (ix2 b l) = nn _ _ b ⟨512 * (t.val / 16) + l.val, hn⟩
  have e := grid_min (V c (Pipeline.arrRef spec0 0)) (V c (Pipeline.arrRef spec0 1)) (qblk0 V c) (kblk0 V c) (scr0 V c)
    (fun t ht b l n hn d => qblk0_apply V c t ht b l n hn d)
    (fun t ht b m n hn d => kblk0_apply V c t ht b m n hn d)
    (fun t ht => scr0_step V bf c t ht)
    ⟨t.val / 16, by omega⟩ b l ⟨512 * (t.val / 16) + l.val, hn⟩ rfl
  rw [show 16 * (t.val / 16) + 15 = t.val by omega] at e
  exact e

/-- The output array after the run holds, at (b, n), the nearest-neighbour distance of query point n of batch b. -/
theorem final0 (c : Dev nD) (b : Fin 4) (n : Fin 8192) :
    (dat0 (F := Ideal) V c).arrAt 2 cfg0.N (ValueIdx.ix2 b n)
      = nn (pts (V c (Pipeline.arrRef spec0 0))) (pts (V c (Pipeline.arrRef spec0 1))) b n := by
  have e := (dat0 (F := Ideal) V c).arrAt_eq_of_cover 2 (nnArr0 V c) (flushed0_eq V bf c) cover0_2
  exact congrFun e (ix2 b n)

end Final

end Cert.KernelIdeal.Hand

end
-- ==== Proof.KernelIdeal.Glue0.lean ====
import proofs.«160032_j64836826300486_2_alg».proof.Proof.KernelIdeal.Body0
import proofs.«160032_j64836826300486_2_alg».proof.Proof.KernelIdeal.Payload0
import proofs.«160032_j64836826300486_2_alg».proof.Proof.KernelIdeal.LoopValueK0T1
import proofs.«160032_j64836826300486_2_alg».proof.Proof.KernelIdeal.LoopValueK0T2
import proofs.«160032_j64836826300486_2_alg».proof.Proof.KernelIdeal.LoopValueK0T3
import proofs.«160032_j64836826300486_2_alg».proof.Proof.KernelIdeal.LoopValueK0T4
import proofs.«160032_j64836826300486_2_alg».proof.Proof.KernelIdeal.Final0
import proofs.«160032_j64836826300486_2_alg».proof.Proof.AccStep
import Idealize.ShloMosaic.Lib.WholeRead

/-! One key tile's step on the running minima, read off the body's runs.

Each case's run leaves the scratch at its entry contents written through its four rows by the four loops; the first case
enters the loops from the +inf splat, the last also copies the result into the output's staging buffer. Read at entry
(b, l) over the extended reals, all of that is one step: the entry before, lowered by the infimum over the key tile's 512
keys of batch b of the clamped squared distance to query (b, l). -/

set_option maxRecDepth 16384

noncomputable section
namespace Cert.KernelIdeal.Hand
open Cert.KernelIdeal Cert.KernelIdeal.Gen Cert.Lib Cert.Chamfer
open Idealize.ShloMosaic Idealize.ShloMosaic.TcCoe Idealize.ShloMosaic.Tactic
open Idealize.SL Idealize.SL.Sem

variable {F : FTy → Type} [FloatOps F]

/-! ### The runs' witnesses as one function of the scratch's entry contents -/

/-- Batch b's keys of a key tile, as the body loads them: a [1, 512, 3] block of the key tile's staging buffer. -/
abbrev k0_keys0 (arg3 : Memref sig .tc .vmem S4x512x3 .f32) (harg3 : arg3.IsWhole) (x1 : Vec F S4x512x3 .f32) : Vec F S1x512x3 .f32 :=
  View.readAt (Elt F) arg3.view (Rect.unit (s := S4x512x3) ![0, 0, 0] S1x512x3.size inb_S4x512x3_S1x512x3_0_0_0).toLoadRect (harg3.unread x1)
abbrev k0_keys1 (arg3 : Memref sig .tc .vmem S4x512x3 .f32) (harg3 : arg3.IsWhole) (x1 : Vec F S4x512x3 .f32) : Vec F S1x512x3 .f32 :=
  View.readAt (Elt F) arg3.view (Rect.unit (s := S4x512x3) ![1, 0, 0] S1x512x3.size inb_S4x512x3_S1x512x3_1_0_0).toLoadRect (harg3.unread x1)
abbrev k0_keys2 (arg3 : Memref sig .tc .vmem S4x512x3 .f32) (harg3 : arg3.IsWhole) (x1 : Vec F S4x512x3 .f32) : Vec F S1x512x3 .f32 :=
  View.readAt (Elt F) arg3.view (Rect.unit (s := S4x512x3) ![2, 0, 0] S1x512x3.size inb_S4x512x3_S1x512x3_2_0_0).toLoadRect (harg3.unread x1)
abbrev k0_keys3 (arg3 : Memref sig .tc .vmem S4x512x3 .f32) (harg3 : arg3.IsWhole) (x1 : Vec F S4x512x3 .f32) : Vec F S1x512x3 .f32 :=
  View.readAt (Elt F) arg3.view (Rect.unit (s := S4x512x3) ![3, 0, 0] S1x512x3.size inb_S4x512x3_S1x512x3_3_0_0).toLoadRect (harg3.unread x1)

/-- The scratch after loop 1, …, after loop 4, from its contents `G0` before them: each loop writes its trips' pieces
    through its own row over what the loop before left. -/
def k0_G1 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec F S4x512x3 .f32) (G0 : BufTy.Contents (Elt F) (scM0 : Memref sig .tc .vmem S4x512 .f32).view.ty) : BufTy.Contents (Elt F) (scM0 : Memref sig .tc .vmem S4x512 .f32).view.ty :=
  (k0_row0 scM0).view.writes (Elt F) G0 (pb_k0_t1 Variants.none c none i arg2 harg2 arg3 harg3 arg4 harg4 scM0 hscM0 (k0_keys0 arg3 harg3 x1) (harg2.unread x0) G0 4)
def k0_G2 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec F S4x512x3 .f32) (G0 : BufTy.Contents (Elt F) (scM0 : Memref sig .tc .vmem S4x512 .f32).view.ty) : BufTy.Contents (Elt F) (scM0 : Memref sig .tc .vmem S4x512 .f32).view.ty :=
  (k0_row1 scM0).view.writes (Elt F) (k0_G1 c i arg2 harg2 arg3 harg3 arg4 harg4 x0 x1 G0) (pb_k0_t2 Variants.none c none i arg2 harg2 arg3 harg3 arg4 harg4 scM0 hscM0 (k0_keys1 arg3 harg3 x1) (harg2.unread x0) (k0_G1 c i arg2 harg2 arg3 harg3 arg4 harg4 x0 x1 G0) 4)
def k0_G3 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec F S4x512x3 .f32) (G0 : BufTy.Contents (Elt F) (scM0 : Memref sig .tc .vmem S4x512 .f32).view.ty) : BufTy.Contents (Elt F) (scM0 : Memref sig .tc .vmem S4x512 .f32).view.ty :=
  (k0_row2 scM0).view.writes (Elt F) (k0_G2 c i arg2 harg2 arg3 harg3 arg4 harg4 x0 x1 G0) (pb_k0_t3 Variants.none c none i arg2 harg2 arg3 harg3 arg4 harg4 scM0 hscM0 (k0_keys2 arg3 harg3 x1) (harg2.unread x0) (k0_G2 c i arg2 harg2 arg3 harg3 arg4 harg4 x0 x1 G0) 4)
def k0_G4 (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec F S4x512x3 .f32) (G0 : BufTy.Contents (Elt F) (scM0 : Memref sig .tc .vmem S4x512 .f32).view.ty) : BufTy.Contents (Elt F) (scM0 : Memref sig .tc .vmem S4x512 .f32).view.ty :=
  (k0_row3 scM0).view.writes (Elt F) (k0_G3 c i arg2 harg2 arg3 harg3 arg4 harg4 x0 x1 G0) (pb_k0_t4 Variants.none c none i arg2 harg2 arg3 harg3 arg4 harg4 scM0 hscM0 (k0_keys3 arg3 harg3 x1) (harg2.unread x0) (k0_G3 c i arg2 harg2 arg3 harg3 arg4 harg4 x0 x1 G0) 4)

theorem k0_runB_eq (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : ¬cond0_1 i) (x0 x1 : Vec F S4x512x3 .f32) (xs : Vec F S4x512 .f32) :
    (kernelRun0_B c i arg2 harg2 arg3 harg3 arg4 harg4 scM0 hscM0 hc0 hc1 x0 x1 xs).1 = k0_G4 c i arg2 harg2 arg3 harg3 arg4 harg4 x0 x1 (hscM0.unread xs) := by
  unfold kernelRun0_B k0_G4 k0_G3 k0_G2 k0_G1
  rfl

theorem k0_runC_eq (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : cond0_1 i) (x0 x1 : Vec F S4x512x3 .f32) (xs : Vec F S4x512 .f32) :
    (kernelRun0_C c i arg2 harg2 arg3 harg3 arg4 harg4 scM0 hscM0 hc0 hc1 x0 x1 xs).2.1 = k0_G4 c i arg2 harg2 arg3 harg3 arg4 harg4 x0 x1 (hscM0.unread xs) := by
  unfold kernelRun0_C k0_G4 k0_G3 k0_G2 k0_G1
  rfl

/-- The scratch's contents right after the reset: the +inf splat stored whole. -/
abbrev k0_reset : BufTy.Contents (Elt F) (scM0 : Memref sig .tc .vmem S4x512 .f32).view.ty :=
  (scM0 : Memref sig .tc .vmem S4x512 .f32).view.writes (Elt F) (scM0 : Memref sig .tc .vmem S4x512 .f32).view.junk [⟨Rect.unit (s := S4x512) ![0, 0] S4x512.size inb_S4x512_S4x512_0_0, k0_pay17 (F := F)⟩]

theorem k0_runA_eq (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : cond0_0 i) (hc1 : ¬cond0_1 i) (x0 x1 : Vec F S4x512x3 .f32) :
    (kernelRun0_A c i arg2 harg2 arg3 harg3 arg4 harg4 scM0 hscM0 hc0 hc1 x0 x1).1 = k0_G4 c i arg2 harg2 arg3 harg3 arg4 harg4 x0 x1 (k0_reset (F := F)) := by
  unfold kernelRun0_A k0_G4 k0_G3 k0_G2 k0_G1
  rfl

theorem k0_runC_out (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond0_0 i) (hc1 : cond0_1 i) (x0 x1 : Vec F S4x512x3 .f32) (xs : Vec F S4x512 .f32) :
    (kernelRun0_C c i arg2 harg2 arg3 harg3 arg4 harg4 scM0 hscM0 hc0 hc1 x0 x1 xs).1
      = [⟨Rect.unit (s := S4x512) ![0, 0] S4x512.size inb_S4x512_S4x512_0_0,
          View.readAt (Elt F) (scM0 : Memref sig .tc .vmem S4x512 .f32).view (Rect.unit (s := S4x512) ![0, 0] S4x512.size inb_S4x512_S4x512_0_0).toLoadRect
            (k0_G4 c i arg2 harg2 arg3 harg3 arg4 harg4 x0 x1 (hscM0.unread xs))⟩] := by
  unfold kernelRun0_C k0_G4 k0_G3 k0_G2 k0_G1
  rfl

/-! ### The values, over the extended reals -/

theorem k0_keys0_apply (arg3 : Memref sig .tc .vmem S4x512x3 .f32) (harg3 : arg3.IsWhole) (x1 : Vec Ideal S4x512x3 .f32) (m : Fin 512) (d : Fin 3) :
    k0_keys0 arg3 harg3 x1 (ValueIdx.ix3 (0 : Fin 1) m d) = x1 (ValueIdx.ix3 (0 : Fin 4) m d) := by
  refine (harg3.readAt_unread x1 _ _).trans (congrArg x1 (funext fun a => Fin.ext ?_))
  match a with
  | ⟨0, _⟩ => rfl
  | ⟨1, _⟩ => show 0 + 1 * m.val = m.val; omega
  | ⟨2, _⟩ => show 0 + 1 * d.val = d.val; omega
theorem k0_keys1_apply (arg3 : Memref sig .tc .vmem S4x512x3 .f32) (harg3 : arg3.IsWhole) (x1 : Vec Ideal S4x512x3 .f32) (m : Fin 512) (d : Fin 3) :
    k0_keys1 arg3 harg3 x1 (ValueIdx.ix3 (0 : Fin 1) m d) = x1 (ValueIdx.ix3 (1 : Fin 4) m d) := by
  refine (harg3.readAt_unread x1 _ _).trans (congrArg x1 (funext fun a => Fin.ext ?_))
  match a with
  | ⟨0, _⟩ => rfl
  | ⟨1, _⟩ => show 0 + 1 * m.val = m.val; omega
  | ⟨2, _⟩ => show 0 + 1 * d.val = d.val; omega
theorem k0_keys2_apply (arg3 : Memref sig .tc .vmem S4x512x3 .f32) (harg3 : arg3.IsWhole) (x1 : Vec Ideal S4x512x3 .f32) (m : Fin 512) (d : Fin 3) :
    k0_keys2 arg3 harg3 x1 (ValueIdx.ix3 (0 : Fin 1) m d) = x1 (ValueIdx.ix3 (2 : Fin 4) m d) := by
  refine (harg3.readAt_unread x1 _ _).trans (congrArg x1 (funext fun a => Fin.ext ?_))
  match a with
  | ⟨0, _⟩ => rfl
  | ⟨1, _⟩ => show 0 + 1 * m.val = m.val; omega
  | ⟨2, _⟩ => show 0 + 1 * d.val = d.val; omega
theorem k0_keys3_apply (arg3 : Memref sig .tc .vmem S4x512x3 .f32) (harg3 : arg3.IsWhole) (x1 : Vec Ideal S4x512x3 .f32) (m : Fin 512) (d : Fin 3) :
    k0_keys3 arg3 harg3 x1 (ValueIdx.ix3 (0 : Fin 1) m d) = x1 (ValueIdx.ix3 (3 : Fin 4) m d) := by
  refine (harg3.readAt_unread x1 _ _).trans (congrArg x1 (funext fun a => Fin.ext ?_))
  match a with
  | ⟨0, _⟩ => rfl
  | ⟨1, _⟩ => show 0 + 1 * m.val = m.val; omega
  | ⟨2, _⟩ => show 0 + 1 * d.val = d.val; omega

theorem k0_G1_self (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM0 : Memref sig .tc .vmem S4x512 .f32).view.ty) (l : Fin 512) :
    (scM0 : Memref sig .tc .vmem S4x512 .f32).view.read (Elt Ideal) (k0_G1 c i arg2 harg2 arg3 harg3 arg4 harg4 x0 x1 G0) (ValueIdx.ix2 (0 : Fin 4) l)
      = min ((scM0 : Memref sig .tc .vmem S4x512 .f32).view.read (Elt Ideal) G0 (ValueIdx.ix2 (0 : Fin 4) l))
          (⨅ m : Fin 512, dist (fun d => x0 (ValueIdx.ix3 (0 : Fin 4) l d)) (fun d => x1 (ValueIdx.ix3 (0 : Fin 4) m d))) := by
  unfold k0_G1
  refine (k0_loop1_value Variants.none c none i arg2 harg2 arg3 harg3 arg4 harg4 scM0 hscM0 (k0_keys0 arg3 harg3 x1) x0 G0 (0 : Fin 4) l).trans ?_
  rw [if_pos rfl]
  simp only [k0_keys0_apply]
theorem k0_G1_other (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM0 : Memref sig .tc .vmem S4x512 .f32).view.ty) (b : Fin 4) (hb : b ≠ 0) (l : Fin 512) :
    (scM0 : Memref sig .tc .vmem S4x512 .f32).view.read (Elt Ideal) (k0_G1 c i arg2 harg2 arg3 harg3 arg4 harg4 x0 x1 G0) (ValueIdx.ix2 b l)
      = (scM0 : Memref sig .tc .vmem S4x512 .f32).view.read (Elt Ideal) G0 (ValueIdx.ix2 b l) := by
  unfold k0_G1
  refine (k0_loop1_value Variants.none c none i arg2 harg2 arg3 harg3 arg4 harg4 scM0 hscM0 (k0_keys0 arg3 harg3 x1) x0 G0 b l).trans ?_
  rw [if_neg hb]
theorem k0_G2_self (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM0 : Memref sig .tc .vmem S4x512 .f32).view.ty) (l : Fin 512) :
    (scM0 : Memref sig .tc .vmem S4x512 .f32).view.read (Elt Ideal) (k0_G2 c i arg2 harg2 arg3 harg3 arg4 harg4 x0 x1 G0) (ValueIdx.ix2 (1 : Fin 4) l)
      = min ((scM0 : Memref sig .tc .vmem S4x512 .f32).view.read (Elt Ideal) (k0_G1 c i arg2 harg2 arg3 harg3 arg4 harg4 x0 x1 G0) (ValueIdx.ix2 (1 : Fin 4) l))
          (⨅ m : Fin 512, dist (fun d => x0 (ValueIdx.ix3 (1 : Fin 4) l d)) (fun d => x1 (ValueIdx.ix3 (1 : Fin 4) m d))) := by
  unfold k0_G2
  refine (k0_loop2_value Variants.none c none i arg2 harg2 arg3 harg3 arg4 harg4 scM0 hscM0 (k0_keys1 arg3 harg3 x1) x0 (k0_G1 c i arg2 harg2 arg3 harg3 arg4 harg4 x0 x1 G0) (1 : Fin 4) l).trans ?_
  rw [if_pos rfl]
  simp only [k0_keys1_apply]
theorem k0_G2_other (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM0 : Memref sig .tc .vmem S4x512 .f32).view.ty) (b : Fin 4) (hb : b ≠ 1) (l : Fin 512) :
    (scM0 : Memref sig .tc .vmem S4x512 .f32).view.read (Elt Ideal) (k0_G2 c i arg2 harg2 arg3 harg3 arg4 harg4 x0 x1 G0) (ValueIdx.ix2 b l)
      = (scM0 : Memref sig .tc .vmem S4x512 .f32).view.read (Elt Ideal) (k0_G1 c i arg2 harg2 arg3 harg3 arg4 harg4 x0 x1 G0) (ValueIdx.ix2 b l) := by
  unfold k0_G2
  refine (k0_loop2_value Variants.none c none i arg2 harg2 arg3 harg3 arg4 harg4 scM0 hscM0 (k0_keys1 arg3 harg3 x1) x0 (k0_G1 c i arg2 harg2 arg3 harg3 arg4 harg4 x0 x1 G0) b l).trans ?_
  rw [if_neg hb]
theorem k0_G3_self (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM0 : Memref sig .tc .vmem S4x512 .f32).view.ty) (l : Fin 512) :
    (scM0 : Memref sig .tc .vmem S4x512 .f32).view.read (Elt Ideal) (k0_G3 c i arg2 harg2 arg3 harg3 arg4 harg4 x0 x1 G0) (ValueIdx.ix2 (2 : Fin 4) l)
      = min ((scM0 : Memref sig .tc .vmem S4x512 .f32).view.read (Elt Ideal) (k0_G2 c i arg2 harg2 arg3 harg3 arg4 harg4 x0 x1 G0) (ValueIdx.ix2 (2 : Fin 4) l))
          (⨅ m : Fin 512, dist (fun d => x0 (ValueIdx.ix3 (2 : Fin 4) l d)) (fun d => x1 (ValueIdx.ix3 (2 : Fin 4) m d))) := by
  unfold k0_G3
  refine (k0_loop3_value Variants.none c none i arg2 harg2 arg3 harg3 arg4 harg4 scM0 hscM0 (k0_keys2 arg3 harg3 x1) x0 (k0_G2 c i arg2 harg2 arg3 harg3 arg4 harg4 x0 x1 G0) (2 : Fin 4) l).trans ?_
  rw [if_pos rfl]
  simp only [k0_keys2_apply]
theorem k0_G3_other (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM0 : Memref sig .tc .vmem S4x512 .f32).view.ty) (b : Fin 4) (hb : b ≠ 2) (l : Fin 512) :
    (scM0 : Memref sig .tc .vmem S4x512 .f32).view.read (Elt Ideal) (k0_G3 c i arg2 harg2 arg3 harg3 arg4 harg4 x0 x1 G0) (ValueIdx.ix2 b l)
      = (scM0 : Memref sig .tc .vmem S4x512 .f32).view.read (Elt Ideal) (k0_G2 c i arg2 harg2 arg3 harg3 arg4 harg4 x0 x1 G0) (ValueIdx.ix2 b l) := by
  unfold k0_G3
  refine (k0_loop3_value Variants.none c none i arg2 harg2 arg3 harg3 arg4 harg4 scM0 hscM0 (k0_keys2 arg3 harg3 x1) x0 (k0_G2 c i arg2 harg2 arg3 harg3 arg4 harg4 x0 x1 G0) b l).trans ?_
  rw [if_neg hb]
theorem k0_G4_self (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM0 : Memref sig .tc .vmem S4x512 .f32).view.ty) (l : Fin 512) :
    (scM0 : Memref sig .tc .vmem S4x512 .f32).view.read (Elt Ideal) (k0_G4 c i arg2 harg2 arg3 harg3 arg4 harg4 x0 x1 G0) (ValueIdx.ix2 (3 : Fin 4) l)
      = min ((scM0 : Memref sig .tc .vmem S4x512 .f32).view.read (Elt Ideal) (k0_G3 c i arg2 harg2 arg3 harg3 arg4 harg4 x0 x1 G0) (ValueIdx.ix2 (3 : Fin 4) l))
          (⨅ m : Fin 512, dist (fun d => x0 (ValueIdx.ix3 (3 : Fin 4) l d)) (fun d => x1 (ValueIdx.ix3 (3 : Fin 4) m d))) := by
  unfold k0_G4
  refine (k0_loop4_value Variants.none c none i arg2 harg2 arg3 harg3 arg4 harg4 scM0 hscM0 (k0_keys3 arg3 harg3 x1) x0 (k0_G3 c i arg2 harg2 arg3 harg3 arg4 harg4 x0 x1 G0) (3 : Fin 4) l).trans ?_
  rw [if_pos rfl]
  simp only [k0_keys3_apply]
theorem k0_G4_other (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM0 : Memref sig .tc .vmem S4x512 .f32).view.ty) (b : Fin 4) (hb : b ≠ 3) (l : Fin 512) :
    (scM0 : Memref sig .tc .vmem S4x512 .f32).view.read (Elt Ideal) (k0_G4 c i arg2 harg2 arg3 harg3 arg4 harg4 x0 x1 G0) (ValueIdx.ix2 b l)
      = (scM0 : Memref sig .tc .vmem S4x512 .f32).view.read (Elt Ideal) (k0_G3 c i arg2 harg2 arg3 harg3 arg4 harg4 x0 x1 G0) (ValueIdx.ix2 b l) := by
  unfold k0_G4
  refine (k0_loop4_value Variants.none c none i arg2 harg2 arg3 harg3 arg4 harg4 scM0 hscM0 (k0_keys3 arg3 harg3 x1) x0 (k0_G3 c i arg2 harg2 arg3 harg3 arg4 harg4 x0 x1 G0) b l).trans ?_
  rw [if_neg hb]

/-- After the four loops entry (b, l) of the scratch is what it was, lowered by the infimum over the key tile's 512 keys of
    batch b of the clamped squared distance to query (b, l): each loop lowers its own row and leaves the others. -/
theorem k0_G4_value (c : Dev nD) (i : grid0.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM0 : Memref sig .tc .vmem S4x512 .f32).view.ty) (b : Fin 4) (l : Fin 512) :
    (scM0 : Memref sig .tc .vmem S4x512 .f32).view.read (Elt Ideal) (k0_G4 c i arg2 harg2 arg3 harg3 arg4 harg4 x0 x1 G0) (ValueIdx.ix2 b l)
      = min ((scM0 : Memref sig .tc .vmem S4x512 .f32).view.read (Elt Ideal) G0 (ValueIdx.ix2 b l))
          (⨅ m : Fin 512, dist (fun d => x0 (ValueIdx.ix3 b l d)) (fun d => x1 (ValueIdx.ix3 b m d))) := by
  have h4 : b = 0 ∨ b = 1 ∨ b = 2 ∨ b = 3 := by
    rcases b with ⟨bv, hb⟩
    have : bv = 0 ∨ bv = 1 ∨ bv = 2 ∨ bv = 3 := by omega
    rcases this with rfl | rfl | rfl | rfl
    · exact Or.inl rfl
    · exact Or.inr (Or.inl rfl)
    · exact Or.inr (Or.inr (Or.inl rfl))
    · exact Or.inr (Or.inr (Or.inr rfl))
  rcases h4 with rfl | rfl | rfl | rfl
  · rw [k0_G4_other _ _ _ _ _ _ _ _ _ _ _ 0 (by decide), k0_G3_other _ _ _ _ _ _ _ _ _ _ _ 0 (by decide), k0_G2_other _ _ _ _ _ _ _ _ _ _ _ 0 (by decide), k0_G1_self]
  · rw [k0_G4_other _ _ _ _ _ _ _ _ _ _ _ 1 (by decide), k0_G3_other _ _ _ _ _ _ _ _ _ _ _ 1 (by decide), k0_G2_self, k0_G1_other _ _ _ _ _ _ _ _ _ _ _ 1 (by decide)]
  · rw [k0_G4_other _ _ _ _ _ _ _ _ _ _ _ 2 (by decide), k0_G3_self, k0_G2_other _ _ _ _ _ _ _ _ _ _ _ 2 (by decide), k0_G1_other _ _ _ _ _ _ _ _ _ _ _ 2 (by decide)]
  · rw [k0_G4_self, k0_G3_other _ _ _ _ _ _ _ _ _ _ _ 3 (by decide), k0_G2_other _ _ _ _ _ _ _ _ _ _ _ 3 (by decide), k0_G1_other _ _ _ _ _ _ _ _ _ _ _ 3 (by decide)]

/-! ### What each case's run leaves, as one key tile's step on the running minima -/

/-- The scratch is a whole buffer: reading it through its own view is reading it. -/
theorem k0_scratch_read (f : BufTy.Contents (Elt F) (scM0 : Memref sig .tc .vmem S4x512 .f32).view.ty) : (scM0 : Memref sig .tc .vmem S4x512 .f32).view.read (Elt F) f = f :=
  Memref.read_access_unit_zero (Elt F) cc0_scratch0 (off := fun _ => 0) rfl (fun a => by simp) f |>.symm ▸ rfl

/-- So is each staging buffer of the output window. -/
theorem k0_out_read (f : BufTy.Contents (Elt F) (VO0 : View sig .tc .vmem S4x512 .f32).ty) : (VO0 : View sig .tc .vmem S4x512 .f32).read (Elt F) f = f :=
  Memref.read_access_unit_zero (Elt F) cc0_stg2_0 (off := fun _ => 0) rfl (fun a => by simp) f |>.symm ▸ rfl

/-- The reset stores the +inf splat over the whole scratch. -/
theorem k0_reset_eq : (k0_reset (F := F)) = k0_pay17 (F := F) :=
  Memref.write_access_unit_zero_univ (Elt F) cc0_scratch0 (funext fun a => by fin_cases a <;> rfl) inb_S4x512_S4x512_0_0 _ _

theorem k0_bodyFacts : BodyFacts0 where
  hA c i arg2 harg2 arg3 harg3 arg4 harg4 hc0 hc1 x0 x1 := by
    funext j
    obtain ⟨b, l, rfl⟩ : ∃ (b : Fin 4) (l : Fin 512), j = ValueIdx.ix2 b l := ⟨j 0, j 1, ValueIdx.eq_ix2 j⟩
    unfold sout0_A
    rw [k0_runA_eq, k0_G4_value, k0_reset_eq, k0_scratch_read, k0_reset_value]
    rfl
  hB c i arg2 harg2 arg3 harg3 arg4 harg4 hc0 hc1 x0 x1 xs := by
    funext j
    obtain ⟨b, l, rfl⟩ : ∃ (b : Fin 4) (l : Fin 512), j = ValueIdx.ix2 b l := ⟨j 0, j 1, ValueIdx.eq_ix2 j⟩
    unfold sout0_B
    rw [k0_runB_eq, k0_G4_value, hscM0.read_unread]
    rfl
  hC c i arg2 harg2 arg3 harg3 arg4 harg4 hc0 hc1 x0 x1 xs := by
    funext j
    obtain ⟨b, l, rfl⟩ : ∃ (b : Fin 4) (l : Fin 512), j = ValueIdx.ix2 b l := ⟨j 0, j 1, ValueIdx.eq_ix2 j⟩
    unfold sout0_C
    rw [k0_runC_eq, k0_G4_value, hscM0.read_unread]
    rfl
  hO c i arg2 harg2 arg3 harg3 arg4 harg4 hc0 hc1 x0 x1 xs := by
    funext j
    obtain ⟨b, l, rfl⟩ : ∃ (b : Fin 4) (l : Fin 512), j = ValueIdx.ix2 b l := ⟨j 0, j 1, ValueIdx.eq_ix2 j⟩
    unfold out0_C
    rw [k0_runC_out, View.writes_singleton]
    have e1 := Memref.write_access_unit_zero_univ (Elt Ideal) cc0_stg2_0 (funext fun a => by fin_cases a <;> rfl) inb_S4x512_S4x512_0_0
      (VO0.junk (Val := Elt Ideal))
      (View.readAt (Elt Ideal) (scM0 : Memref sig .tc .vmem S4x512 .f32).view (Rect.unit (s := S4x512) ![0, 0] S4x512.size inb_S4x512_S4x512_0_0).toLoadRect
        (k0_G4 c i arg2 harg2 arg3 harg3 arg4 harg4 x0 x1 (hscM0.unread xs)))
    have e2 := Memref.readAt_unit_zero (Elt Ideal) cc0_scratch0 (funext fun a => by fin_cases a <;> rfl) inb_S4x512_S4x512_0_0
      (k0_G4 c i arg2 harg2 arg3 harg3 arg4 harg4 x0 x1 (hscM0.unread xs))
    refine (congrFun (congrArg (VO0.read (Elt Ideal)) e1) (ValueIdx.ix2 b l)).trans ?_
    refine (congrFun (congrArg (VO0.read (Elt Ideal)) e2) (ValueIdx.ix2 b l)).trans ?_
    refine (congrFun (k0_out_read (k0_G4 c i arg2 harg2 arg3 harg3 arg4 harg4 x0 x1 (hscM0.unread xs))) (ValueIdx.ix2 b l)).trans ?_
    refine (congrFun (k0_scratch_read (k0_G4 c i arg2 harg2 arg3 harg3 arg4 harg4 x0 x1 (hscM0.unread xs))).symm (ValueIdx.ix2 b l)).trans ?_
    rw [k0_G4_value, hscM0.read_unread]
    rfl

end Cert.KernelIdeal.Hand
end
-- ==== Proof.KernelIdeal.Payload1.lean ====
import proofs.«160032_j64836826300486_2_alg».proof.Proof.Gen.KernelIdeal.Skeleton
import proofs.«160032_j64836826300486_2_alg».proof.Proof.Spec
import proofs.«160032_j64836826300486_2_alg».proof.Proof.KernelIdeal.Payload0

/-! The arithmetic of the second kernel's body, read at an index, at the ideal values.

The second kernel's body is the first one's text under other names: one trip of a batch's loop lowers a chunk of the
running minimum, at query `r`, to min(old r, inf over the 512 keys m of dist(q r, k m)). The layout steps with a
trailing unit axis and the row minimum as an infimum are the first kernel's lemmas. -/

noncomputable section

namespace Cert.KernelIdeal.Hand

open Cert.KernelIdeal Cert.KernelIdeal.Gen Cert.Chamfer Idealize.ShloMosaic Idealize.ShloMosaic.ValueIdx

/-! ## The key block: its columns and squared lengths -/

section Keys
variable (v3 : Vec Ideal S1x512x3 .f32) (m : Fin 512)

/-- Column 0 of the key block at key `m`. -/
theorem k1_pay19_apply : k1_pay19 (F := Ideal) v3 (ix1 m) = v3 (ix3 (0 : Fin 1) m (0 : Fin 3)) := by
  unfold k1_pay19 k1_pay18
  refine (shapeCast_a1_a_apply _ _ m).trans ?_
  refine (slice2_axis1_apply 0 _ _ m (0 : Fin 1) (0 : Fin 3) rfl).trans ?_
  exact shapeCast_1ab_ab_apply _ _ m (0 : Fin 3)

/-- Column 1 of the key block at key `m`. -/
theorem k1_pay20_apply : k1_pay20 (F := Ideal) v3 (ix1 m) = v3 (ix3 (0 : Fin 1) m (1 : Fin 3)) := by
  unfold k1_pay20 k1_pay18
  refine (shapeCast_a1_a_apply _ _ m).trans ?_
  refine (slice2_axis1_apply 1 _ _ m (0 : Fin 1) (1 : Fin 3) rfl).trans ?_
  exact shapeCast_1ab_ab_apply _ _ m (1 : Fin 3)

/-- Column 2 of the key block at key `m`. -/
theorem k1_pay21_apply : k1_pay21 (F := Ideal) v3 (ix1 m) = v3 (ix3 (0 : Fin 1) m (2 : Fin 3)) := by
  unfold k1_pay21 k1_pay18
  refine (shapeCast_a1_a_apply _ _ m).trans ?_
  refine (slice2_axis1_apply 2 _ _ m (0 : Fin 1) (2 : Fin 3) rfl).trans ?_
  exact shapeCast_1ab_ab_apply _ _ m (2 : Fin 3)

/-- The squared length of key `m`. -/
theorem k1_pay22_apply : k1_pay22 (F := Ideal) v3 (ix1 m) = sq3 (fun d => v3 (ix3 (0 : Fin 1) m d)) := by
  unfold k1_pay22
  simp only [addf_apply, mulf_apply, k1_pay19_apply, k1_pay20_apply, k1_pay21_apply]
  rfl

end Keys

/-! ## One trip's payload -/

section Trip
variable (v6 v8 v10 v15 : FVec Ideal S512 .f32) (v67 : Vec Ideal S128x3 .f32) (v111 : Vec Ideal S128 .f32)
  (r : Fin 128)

/-- The trip's new running minimum at query `r`, over the key columns and squared lengths it is given. -/
theorem k1_pay13_apply :
    k1_pay13 (F := Ideal) v6 v8 v10 v15 v67 v111 (ix1 r)
      = min (v111 (ix1 r)) (⨅ m : Fin 512,
          max ((v67 (ix2 r (0 : Fin 3)) * v67 (ix2 r (0 : Fin 3)) + v67 (ix2 r (1 : Fin 3)) * v67 (ix2 r (1 : Fin 3))
                  + v67 (ix2 r (2 : Fin 3)) * v67 (ix2 r (2 : Fin 3)) + v15 (ix1 m))
                - Ideal.ofBits .f32 0x40000000#32
                  * (v67 (ix2 r (0 : Fin 3)) * v6 (ix1 m) + v67 (ix2 r (1 : Fin 3)) * v8 (ix1 m)
                      + v67 (ix2 r (2 : Fin 3)) * v10 (ix1 m)))
              (Ideal.ofBits .f32 0x00000000#32)) := by
  unfold k1_pay13
  refine (minimumf_apply _ _ _).trans (congrArg (min (v111 (ix1 r))) ?_)
  refine (laneMin_apply _ _ _ r).trans (iInf_congr fun m => ?_)
  simp only [maximumf_apply, subf_apply, addf_apply, mulf_apply, broadcast_apply, broadcastTo_a1_ab_apply,
    broadcastTo_1b_ab_apply, shapeCast_a_a1_apply, shapeCast_a_1a_apply, shapeCast_a1_a_apply, shapeCast_self,
    slice2_axis1_eq]
  rfl

end Trip

/-! ## What each trip stores, and the reset -/

/-- Batch 0: the value a trip stores at query `r` is the old running minimum lowered by the nearest key's clamped
    squared distance. -/
theorem k1_trip1_value (v3 : Vec Ideal S1x512x3 .f32) (v67 : Vec Ideal S128x3 .f32) (v111 : Vec Ideal S128 .f32)
    (r : Fin 128) :
    k1_pay23 (F := Ideal) (k1_pay13 (k1_pay19 v3) (k1_pay20 v3) (k1_pay21 v3) (k1_pay22 v3) v67 v111) (ValueIdx.ix1 r)
      = min (v111 (ValueIdx.ix1 r))
          (⨅ m : Fin 512, dist (fun d => v67 (ValueIdx.ix2 r d)) (fun d => v3 (ValueIdx.ix3 (0 : Fin 1) m d))) := by
  unfold k1_pay23
  rw [shapeCast_self, k1_pay13_apply]
  refine congrArg (min (v111 (ix1 r))) (iInf_congr fun m => ?_)
  rw [k1_pay19_apply, k1_pay20_apply, k1_pay21_apply, k1_pay22_apply]
  rfl

/-- Batch 1: the same body under other names. -/
theorem k1_trip2_value (v17 : Vec Ideal S1x512x3 .f32) (v67 : Vec Ideal S128x3 .f32) (v111 : Vec Ideal S128 .f32)
    (r : Fin 128) :
    k1_pay29 (F := Ideal) (k1_pay14 (k1_pay25 v17) (k1_pay26 v17) (k1_pay27 v17) (k1_pay28 v17) v67 v111) (ValueIdx.ix1 r)
      = min (v111 (ValueIdx.ix1 r))
          (⨅ m : Fin 512, dist (fun d => v67 (ValueIdx.ix2 r d)) (fun d => v17 (ValueIdx.ix3 (0 : Fin 1) m d))) :=
  k1_trip1_value v17 v67 v111 r

/-- Batch 2: the same body under other names. -/
theorem k1_trip3_value (v31 : Vec Ideal S1x512x3 .f32) (v67 : Vec Ideal S128x3 .f32) (v111 : Vec Ideal S128 .f32)
    (r : Fin 128) :
    k1_pay6 (F := Ideal) (k1_pay15 (k1_pay2 v31) (k1_pay3 v31) (k1_pay4 v31) (k1_pay5 v31) v67 v111) (ValueIdx.ix1 r)
      = min (v111 (ValueIdx.ix1 r))
          (⨅ m : Fin 512, dist (fun d => v67 (ValueIdx.ix2 r d)) (fun d => v31 (ValueIdx.ix3 (0 : Fin 1) m d))) :=
  k1_trip1_value v31 v67 v111 r

/-- Batch 3: the same body under other names. -/
theorem k1_trip4_value (v45 : Vec Ideal S1x512x3 .f32) (v67 : Vec Ideal S128x3 .f32) (v111 : Vec Ideal S128 .f32)
    (r : Fin 128) :
    k1_pay12 (F := Ideal) (k1_pay16 (k1_pay8 v45) (k1_pay9 v45) (k1_pay10 v45) (k1_pay11 v45) v67 v111) (ValueIdx.ix1 r)
      = min (v111 (ValueIdx.ix1 r))
          (⨅ m : Fin 512, dist (fun d => v67 (ValueIdx.ix2 r d)) (fun d => v45 (ValueIdx.ix3 (0 : Fin 1) m d))) :=
  k1_trip1_value v45 v67 v111 r

/-- The reset of the running minimum stores positive infinity everywhere. -/
theorem k1_reset_value (j : S4x512.Idx) : k1_pay17 (F := Ideal) j = ⊤ := by
  unfold k1_pay17
  rw [shapeCast_self]
  exact ofBits_inf_f32

end Cert.KernelIdeal.Hand

end
-- ==== Proof.KernelIdeal.LoopValueK1T1.lean ====
import proofs.«160032_j64836826300486_2_alg».proof.Proof.KernelIdeal.LoopK1T1
import proofs.«160032_j64836826300486_2_alg».proof.Proof.KernelIdeal.Payload1
import proofs.«160032_j64836826300486_2_alg».proof.Proof.Spec
import Idealize.ShloMosaic.Lib.WritesUnit
import Idealize.ShloMosaic.Lib.WholeRead

/-! What a batch's loop leaves in the scratch, read at an index, at the ideal values.

The loop of batch 0 walks the 512 queries of the block in four chunks of 128. Trip `k` stores through row 0 of the
[4, 512] scratch ONE piece, the chunk [128 k, 128 k + 128), whose payload at `r` is the minimum of what the row held
there and the infimum over the 512 keys of the clamped squared distance to query 128 k + r. The chunks are disjoint, so
what trip `k` reads of its chunk is what the scratch held at loop entry; by induction on the number of trips done, the
row holds the lowered value on the chunks done and the entry value on the others, and the other rows are never
touched. -/

set_option maxRecDepth 16384

noncomputable section

namespace Cert.KernelIdeal.Hand

open Cert.KernelIdeal Cert.KernelIdeal.Gen Cert.Lib Cert.Chamfer
open Idealize.ShloMosaic Idealize.ShloMosaic.TcCoe Idealize.ShloMosaic.ValueIdx
open Idealize.SL Idealize.SL.Sem

/-! ## The trip, opened once -/

section Trip
variable {F : FTy → Type} [FloatOps F]

/-- The query block of batch 0 as a memref [512, 3] of its own: what the trips load their chunks through. -/
abbrev k1_qry0 (arg2 : Memref sig .tc .vmem S4x512x3 .f32) : Memref sig .tc .vmem S512x3 .f32 :=
  (arg2.slice (Rect.unit (s := S4x512x3) ![0, 0, 0] S1x512x3.size inb_S4x512x3_S1x512x3_0_0_0) (fun _ => rfl)).squeeze S512x3 squeezes_S1x512x3_S512x3

/-- One trip writes one piece through the row: chunk `k`, holding the body's payload of query chunk `k` and of
    chunk `k` of what the row holds. -/
theorem tripL_k1_t1_eq (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v3 : Vec F S1x512x3 .f32) (X_arg2 : BufTy.Contents (Elt F) arg2.view.ty) (k : Fin k1_t1_loop.trips) (f_row : BufTy.Contents (Elt F) (k1_row0 arg5).view.ty) :
    tripL_k1_t1 (F := F) 𝒱 c bd i arg2 harg2 arg3 harg3 arg4 harg4 arg5 harg5 v3 X_arg2 k f_row
      = [⟨Rect.unit (s := S512) (k1_off2 k) S128.size (k1_off2_inb k),
          k1_pay23 (k1_pay13 (k1_pay19 v3) (k1_pay20 v3) (k1_pay21 v3) (k1_pay22 v3)
            (View.readAt (Elt F) (k1_qry0 arg2).view (Rect.unit (s := S512x3) (k1_off1 k) S128x3.size (k1_off1_inb k)).toLoadRect X_arg2)
            (View.readAt (Elt F) (k1_row0 arg5).view (Rect.unit (s := S512) (k1_off2 k) S128.size (k1_off2_inb k)).toLoadRect f_row))⟩] := by
  unfold tripL_k1_t1 trip_k1_t1
  rfl

end Trip

/-! ## Row 0 of the scratch inside the scratch -/

section Row
variable {Val : EltTy → Type} (arg5 : Memref sig .tc .vmem S4x512 .f32)

/-- Entry `l` of the row is entry `(0, l)` of the scratch, in the buffer. -/
theorem k1_row0_emb (l : Fin 512) : (k1_row0 arg5).view.emb (ix1 l) = arg5.view.emb (ix2 (0 : Fin 4) l) := by
  have e : Shape.reshapeEquiv squeezes_S1x512_S512.numel_eq (ix1 l) = (ix2 (0 : Fin 1) l : (⟨2, S1x512.size⟩ : Shape).Idx) :=
    Shape.reshapeEquiv_eq_of_rowMajor _ (by
      rw [Shape.rowMajor_val_two, Shape.rowMajor_val_one]
      show 0 * 512 + l.val = l.val
      rw [Nat.zero_mul, Nat.zero_add])
  show arg5.view.emb ((Rect.unit (s := S4x512) ![0, 0] S1x512.size inb_S4x512_S1x512_0_0).emb
      (Shape.reshapeEquiv squeezes_S1x512_S512.numel_eq (ix1 l))) = _
  rw [e]
  refine congrArg arg5.view.emb (funext fun a => Fin.ext ?_)
  match a with
  | ⟨0, _⟩ => rfl
  | ⟨1, _⟩ => show 0 + 1 * l.val = l.val; rw [Nat.one_mul, Nat.zero_add]

/-- The row reads entry `l` where the scratch reads entry `(0, l)`. -/
theorem k1_row0_read (g : BufTy.Contents Val arg5.view.ty) (l : Fin 512) :
    (k1_row0 arg5).view.read Val g (ix1 l) = arg5.view.read Val g (ix2 (0 : Fin 4) l) := by
  rw [View.read_apply, View.read_apply, k1_row0_emb]

/-- Writes through the row leave the other rows of the scratch as they were. -/
theorem k1_row0_writes_other (g : BufTy.Contents Val arg5.view.ty) (L : List (View.Piece Val S512 .f32)) (b : Fin 4)
    (hb : b ≠ 0) (l : Fin 512) :
    arg5.view.read Val ((k1_row0 arg5).view.writes Val g L) (ix2 b l) = arg5.view.read Val g (ix2 b l) := by
  refine View.read_congr_at _ (View.writes_apply_of_forall_ne (k1_row0 arg5).view g L fun y hy => hb ?_)
  have h1 : (Rect.unit (s := S4x512) ![0, 0] S1x512.size inb_S4x512_S1x512_0_0).emb
      (Shape.reshapeEquiv squeezes_S1x512_S512.numel_eq y) = ix2 b l := arg5.view.emb.injective hy
  have h2 := congrArg (fun j : S4x512.Idx => (j 0).val) h1
  have h3 : ((Shape.reshapeEquiv squeezes_S1x512_S512.numel_eq y) 0).val < 1 :=
    ((Shape.reshapeEquiv squeezes_S1x512_S512.numel_eq y) 0).isLt
  refine Fin.ext ?_
  have h4 : 0 + 1 * ((Shape.reshapeEquiv squeezes_S1x512_S512.numel_eq y) 0).val = b.val := h2
  show b.val = 0
  omega

end Row

/-! ## What a trip loads, in closed form -/

section Loads

/-- Chunk `k` of the row, at `r`: the row's entry `128 k + r`. -/
theorem k1_row0_chunk (arg5 : Memref sig .tc .vmem S4x512 .f32) (k : Fin k1_t1_loop.trips)
    (f : BufTy.Contents (Elt Ideal) (k1_row0 arg5).view.ty) (r : Fin 128) (l : Fin 512) (hl : l.val = 128 * k.val + r.val) :
    View.readAt (Elt Ideal) (k1_row0 arg5).view (Rect.unit (s := S512) (k1_off2 k) S128.size (k1_off2_inb k)).toLoadRect f (ix1 r)
      = (k1_row0 arg5).view.read (Elt Ideal) f (ix1 l) := by
  refine congrArg ((k1_row0 arg5).view.read (Elt Ideal) f) (funext fun a => Fin.ext ?_)
  match a with
  | ⟨0, _⟩ =>
    show k1_off2 k 0 + 1 * r.val = l.val
    rw [k1_off2_eq k, hl, Nat.one_mul]
    rfl

/-- Chunk `k` of the query block, at `(r, d)`: coordinate `d` of query `128 k + r` of batch 0. -/
theorem k1_qry0_chunk (arg2 : Memref sig .tc .vmem S4x512x3 .f32) (harg2 : arg2.IsWhole) (x0 : Vec Ideal S4x512x3 .f32)
    (k : Fin k1_t1_loop.trips) (r : Fin 128) (d : Fin 3) (l : Fin 512) (hl : l.val = 128 * k.val + r.val) :
    View.readAt (Elt Ideal) (k1_qry0 arg2).view (Rect.unit (s := S512x3) (k1_off1 k) S128x3.size (k1_off1_inb k)).toLoadRect
        (harg2.unread x0) (ix2 r d)
      = x0 (ix3 (0 : Fin 4) l d) := by
  refine (harg2.readAt_slice_reshape_unread x0 (Rect.unit (s := S4x512x3) ![0, 0, 0] S1x512x3.size inb_S4x512x3_S1x512x3_0_0_0)
    squeezes_S1x512x3_S512x3.numel_eq (Rect.unit (s := S512x3) (k1_off1 k) S128x3.size (k1_off1_inb k)).toLoadRect (ix2 r d)).trans
    (congrArg x0 ?_)
  have e1 : (Rect.unit (s := S512x3) (k1_off1 k) S128x3.size (k1_off1_inb k)).toLoadRect.idx (ix2 r d) = ix2 l d := by
    funext a
    refine Fin.ext ?_
    match a with
    | ⟨0, _⟩ =>
      show k1_off1 k 0 + 1 * r.val = l.val
      rw [k1_off1_eq k, hl, Nat.one_mul]
      rfl
    | ⟨1, _⟩ =>
      show k1_off1 k 1 + 1 * d.val = d.val
      rw [k1_off1_eq k, Nat.one_mul]
      exact Nat.zero_add _
  rw [e1, reshapeEquiv_ix2_1ab]
  funext a
  refine Fin.ext ?_
  match a with
  | ⟨0, _⟩ => rfl
  | ⟨1, _⟩ => show 0 + 1 * l.val = l.val; rw [Nat.one_mul, Nat.zero_add]
  | ⟨2, _⟩ => show 0 + 1 * d.val = d.val; rw [Nat.one_mul, Nat.zero_add]

end Loads

/-! ## The loop: the row after the trips done -/

section Loop
variable (𝒱 : Variants) (c : Dev nD) (bd : Option 𝒱.V) (i : grid1.Coords)
  (arg2 : Memref sig .tc .vmem S4x512x3 .f32) (harg2 : arg2.IsWhole) (arg3 : Memref sig .tc .vmem S4x512x3 .f32) (harg3 : arg3.IsWhole)
  (arg4 : Memref sig .tc .vmem S4x512 .f32) (harg4 : arg4.IsWhole) (arg5 : Memref sig .tc .vmem S4x512 .f32) (harg5 : arg5.IsWhole)
  (v3 : Vec Ideal S1x512x3 .f32) (x0 : Vec Ideal S4x512x3 .f32) (G : BufTy.Contents (Elt Ideal) arg5.view.ty)

/-- After `n` trips the row holds, on the chunks done, the entry value lowered by the nearest key's clamped squared
    distance, and the entry value on the chunks to come. -/
theorem k1_loop1_row (n : ℕ) (hn : n ≤ 4) (l : Fin 512) :
    (k1_row0 arg5).view.read (Elt Ideal) ((k1_row0 arg5).view.writes (Elt Ideal) G
        (pb_k1_t1 (F := Ideal) 𝒱 c bd i arg2 harg2 arg3 harg3 arg4 harg4 arg5 harg5 v3 (harg2.unread x0) G n)) (ix1 l)
      = if l.val < 128 * n then
          min ((k1_row0 arg5).view.read (Elt Ideal) G (ix1 l))
            (⨅ m : Fin 512, dist (fun d => x0 (ix3 (0 : Fin 4) l d)) (fun d => v3 (ix3 (0 : Fin 1) m d)))
        else (k1_row0 arg5).view.read (Elt Ideal) G (ix1 l) := by
  induction n generalizing l with
  | zero => rw [if_neg (by omega)]; rfl
  | succ n ih =>
    have h4 : k1_t1_loop.trips = 4 := by decide
    have hk : n < k1_t1_loop.trips := by omega
    have hs : pb_k1_t1 (F := Ideal) 𝒱 c bd i arg2 harg2 arg3 harg3 arg4 harg4 arg5 harg5 v3 (harg2.unread x0) G (n + 1) = _ :=
      pb_k1_t1_succ (F := Ideal) 𝒱 c bd i arg2 harg2 arg3 harg3 arg4 harg4 arg5 harg5 v3 (harg2.unread x0) G ⟨n, hk⟩
    rw [hs, tripL_k1_t1_eq, List.singleton_append]
    by_cases hl : 128 * n ≤ l.val ∧ l.val < 128 * n + 128
    · rw [if_pos (by omega)]
      refine (View.read_writes_cons_unit_of_mem (k1_row0 arg5).view G (k1_off2_inb ⟨n, hk⟩) _ _ (ix1 l)
        (ix1 (⟨l.val - 128 * n, by omega⟩ : Fin 128)) (k1_off2_eq ⟨n, hk⟩) (fun a => ?_)).trans ?_
      · match a with
        | ⟨0, _⟩ => show l.val = 128 * n + (l.val - 128 * n); omega
      · refine (k1_trip1_value v3 _ _ (⟨l.val - 128 * n, by omega⟩ : Fin 128)).trans (congrArg₂ min ?_ ?_)
        · refine (k1_row0_chunk arg5 ⟨n, hk⟩ _ _ l (by show l.val = 128 * n + (l.val - 128 * n); omega)).trans ?_
          rw [ih (by omega) l, if_neg (by omega)]
        · refine iInf_congr fun m => congrArg (fun q => dist q _) (funext fun d => ?_)
          exact k1_qry0_chunk arg2 harg2 x0 ⟨n, hk⟩ _ d l (by show l.val = 128 * n + (l.val - 128 * n); omega)
    · rw [View.read_writes_cons_unit_of_not_mem (k1_row0 arg5).view G (k1_off2_inb ⟨n, hk⟩) _ _ (ix1 l) (k1_off2_eq ⟨n, hk⟩)
        (0 : Fin 1) (by show l.val < 128 * n ∨ 128 * n + 128 ≤ l.val; omega), ih (by omega) l]
      by_cases h' : l.val < 128 * n
      · rw [if_pos h', if_pos (by omega)]
      · rw [if_neg h', if_neg (by omega)]

end Loop

/-! ## The loop: the scratch after all four trips -/

/-- The loop lowers row 0 of the scratch, at entry `l`, by the infimum over the 512 keys of the clamped squared distance
    to query `(0, l)`, and leaves the other rows alone. -/
theorem k1_loop1_value (𝒱 : Variants) (c : Dev nD) (bd : Option 𝒱.V) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (v3 : Vec Ideal S1x512x3 .f32) (x0 : Vec Ideal S4x512x3 .f32) (G : BufTy.Contents (Elt Ideal) arg5.view.ty)
    (b : Fin 4) (l : Fin 512) :
    arg5.view.read (Elt Ideal) ((k1_row0 arg5).view.writes (Elt Ideal) G
        (pb_k1_t1 (F := Ideal) 𝒱 c bd i arg2 harg2 arg3 harg3 arg4 harg4 arg5 harg5 v3 (harg2.unread x0) G 4)) (ValueIdx.ix2 b l)
      = if b = 0 then
          min (arg5.view.read (Elt Ideal) G (ValueIdx.ix2 0 l))
            (⨅ m : Fin 512, dist (fun d => x0 (ValueIdx.ix3 0 l d)) (fun d => v3 (ValueIdx.ix3 (0 : Fin 1) m d)))
        else arg5.view.read (Elt Ideal) G (ValueIdx.ix2 b l) := by
  by_cases hb : b = 0
  · subst hb
    rw [if_pos rfl, ← k1_row0_read, ← k1_row0_read,
      k1_loop1_row 𝒱 c bd i arg2 harg2 arg3 harg3 arg4 harg4 arg5 harg5 v3 x0 G 4 (Nat.le_refl 4) l,
      if_pos (by have := l.isLt; omega)]
  · rw [if_neg hb]
    exact k1_row0_writes_other arg5 G _ b hb l

end Cert.KernelIdeal.Hand

end
-- ==== Proof.KernelIdeal.LoopValueK1T2.lean ====
import proofs.«160032_j64836826300486_2_alg».proof.Proof.KernelIdeal.LoopK1T2
import proofs.«160032_j64836826300486_2_alg».proof.Proof.KernelIdeal.Payload1
import proofs.«160032_j64836826300486_2_alg».proof.Proof.Spec
import Idealize.ShloMosaic.Lib.WritesUnit
import Idealize.ShloMosaic.Lib.WholeRead

/-! What a batch's loop leaves in the scratch, read at an index, at the ideal values.

The loop of batch 1 walks the 512 queries of the block in four chunks of 128. Trip `k` stores through row 1 of the
[4, 512] scratch ONE piece, the chunk [128 k, 128 k + 128), whose payload at `r` is the minimum of what the row held
there and the infimum over the 512 keys of the clamped squared distance to query 128 k + r. The chunks are disjoint, so
what trip `k` reads of its chunk is what the scratch held at loop entry; by induction on the number of trips done, the
row holds the lowered value on the chunks done and the entry value on the others, and the other rows are never
touched. -/

set_option maxRecDepth 16384

noncomputable section

namespace Cert.KernelIdeal.Hand

open Cert.KernelIdeal Cert.KernelIdeal.Gen Cert.Lib Cert.Chamfer
open Idealize.ShloMosaic Idealize.ShloMosaic.TcCoe Idealize.ShloMosaic.ValueIdx
open Idealize.SL Idealize.SL.Sem

/-! ## The trip, opened once -/

section Trip
variable {F : FTy → Type} [FloatOps F]

/-- The query block of batch 1 as a memref [512, 3] of its own: what the trips load their chunks through. -/
abbrev k1_qry1 (arg2 : Memref sig .tc .vmem S4x512x3 .f32) : Memref sig .tc .vmem S512x3 .f32 :=
  (arg2.slice (Rect.unit (s := S4x512x3) ![1, 0, 0] S1x512x3.size inb_S4x512x3_S1x512x3_1_0_0) (fun _ => rfl)).squeeze S512x3 squeezes_S1x512x3_S512x3

/-- One trip writes one piece through the row: chunk `k`, holding the body's payload of query chunk `k` and of
    chunk `k` of what the row holds. -/
theorem tripL_k1_t2_eq (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v17 : Vec F S1x512x3 .f32) (X_arg2 : BufTy.Contents (Elt F) arg2.view.ty) (k : Fin k1_t2_loop.trips) (f_row : BufTy.Contents (Elt F) (k1_row1 arg5).view.ty) :
    tripL_k1_t2 (F := F) 𝒱 c bd i arg2 harg2 arg3 harg3 arg4 harg4 arg5 harg5 v17 X_arg2 k f_row
      = [⟨Rect.unit (s := S512) (k1_off4 k) S128.size (k1_off4_inb k),
          k1_pay29 (k1_pay14 (k1_pay25 v17) (k1_pay26 v17) (k1_pay27 v17) (k1_pay28 v17)
            (View.readAt (Elt F) (k1_qry1 arg2).view (Rect.unit (s := S512x3) (k1_off3 k) S128x3.size (k1_off3_inb k)).toLoadRect X_arg2)
            (View.readAt (Elt F) (k1_row1 arg5).view (Rect.unit (s := S512) (k1_off4 k) S128.size (k1_off4_inb k)).toLoadRect f_row))⟩] := by
  unfold tripL_k1_t2 trip_k1_t2
  rfl

end Trip

/-! ## Row 1 of the scratch inside the scratch -/

section Row
variable {Val : EltTy → Type} (arg5 : Memref sig .tc .vmem S4x512 .f32)

/-- Entry `l` of the row is entry `(1, l)` of the scratch, in the buffer. -/
theorem k1_row1_emb (l : Fin 512) : (k1_row1 arg5).view.emb (ix1 l) = arg5.view.emb (ix2 (1 : Fin 4) l) := by
  have e : Shape.reshapeEquiv squeezes_S1x512_S512.numel_eq (ix1 l) = (ix2 (0 : Fin 1) l : (⟨2, S1x512.size⟩ : Shape).Idx) :=
    Shape.reshapeEquiv_eq_of_rowMajor _ (by
      rw [Shape.rowMajor_val_two, Shape.rowMajor_val_one]
      show 0 * 512 + l.val = l.val
      rw [Nat.zero_mul, Nat.zero_add])
  show arg5.view.emb ((Rect.unit (s := S4x512) ![1, 0] S1x512.size inb_S4x512_S1x512_1_0).emb
      (Shape.reshapeEquiv squeezes_S1x512_S512.numel_eq (ix1 l))) = _
  rw [e]
  refine congrArg arg5.view.emb (funext fun a => Fin.ext ?_)
  match a with
  | ⟨0, _⟩ => rfl
  | ⟨1, _⟩ => show 0 + 1 * l.val = l.val; rw [Nat.one_mul, Nat.zero_add]

/-- The row reads entry `l` where the scratch reads entry `(1, l)`. -/
theorem k1_row1_read (g : BufTy.Contents Val arg5.view.ty) (l : Fin 512) :
    (k1_row1 arg5).view.read Val g (ix1 l) = arg5.view.read Val g (ix2 (1 : Fin 4) l) := by
  rw [View.read_apply, View.read_apply, k1_row1_emb]

/-- Writes through the row leave the other rows of the scratch as they were. -/
theorem k1_row1_writes_other (g : BufTy.Contents Val arg5.view.ty) (L : List (View.Piece Val S512 .f32)) (b : Fin 4)
    (hb : b ≠ 1) (l : Fin 512) :
    arg5.view.read Val ((k1_row1 arg5).view.writes Val g L) (ix2 b l) = arg5.view.read Val g (ix2 b l) := by
  refine View.read_congr_at _ (View.writes_apply_of_forall_ne (k1_row1 arg5).view g L fun y hy => hb ?_)
  have h1 : (Rect.unit (s := S4x512) ![1, 0] S1x512.size inb_S4x512_S1x512_1_0).emb
      (Shape.reshapeEquiv squeezes_S1x512_S512.numel_eq y) = ix2 b l := arg5.view.emb.injective hy
  have h2 := congrArg (fun j : S4x512.Idx => (j 0).val) h1
  have h3 : ((Shape.reshapeEquiv squeezes_S1x512_S512.numel_eq y) 0).val < 1 :=
    ((Shape.reshapeEquiv squeezes_S1x512_S512.numel_eq y) 0).isLt
  refine Fin.ext ?_
  have h4 : 1 + 1 * ((Shape.reshapeEquiv squeezes_S1x512_S512.numel_eq y) 0).val = b.val := h2
  show b.val = 1
  omega

end Row

/-! ## What a trip loads, in closed form -/

section Loads

/-- Chunk `k` of the row, at `r`: the row's entry `128 k + r`. -/
theorem k1_row1_chunk (arg5 : Memref sig .tc .vmem S4x512 .f32) (k : Fin k1_t2_loop.trips)
    (f : BufTy.Contents (Elt Ideal) (k1_row1 arg5).view.ty) (r : Fin 128) (l : Fin 512) (hl : l.val = 128 * k.val + r.val) :
    View.readAt (Elt Ideal) (k1_row1 arg5).view (Rect.unit (s := S512) (k1_off4 k) S128.size (k1_off4_inb k)).toLoadRect f (ix1 r)
      = (k1_row1 arg5).view.read (Elt Ideal) f (ix1 l) := by
  refine congrArg ((k1_row1 arg5).view.read (Elt Ideal) f) (funext fun a => Fin.ext ?_)
  match a with
  | ⟨0, _⟩ =>
    show k1_off4 k 0 + 1 * r.val = l.val
    rw [k1_off4_eq k, hl, Nat.one_mul]
    rfl

/-- Chunk `k` of the query block, at `(r, d)`: coordinate `d` of query `128 k + r` of batch 1. -/
theorem k1_qry1_chunk (arg2 : Memref sig .tc .vmem S4x512x3 .f32) (harg2 : arg2.IsWhole) (x0 : Vec Ideal S4x512x3 .f32)
    (k : Fin k1_t2_loop.trips) (r : Fin 128) (d : Fin 3) (l : Fin 512) (hl : l.val = 128 * k.val + r.val) :
    View.readAt (Elt Ideal) (k1_qry1 arg2).view (Rect.unit (s := S512x3) (k1_off3 k) S128x3.size (k1_off3_inb k)).toLoadRect
        (harg2.unread x0) (ix2 r d)
      = x0 (ix3 (1 : Fin 4) l d) := by
  refine (harg2.readAt_slice_reshape_unread x0 (Rect.unit (s := S4x512x3) ![1, 0, 0] S1x512x3.size inb_S4x512x3_S1x512x3_1_0_0)
    squeezes_S1x512x3_S512x3.numel_eq (Rect.unit (s := S512x3) (k1_off3 k) S128x3.size (k1_off3_inb k)).toLoadRect (ix2 r d)).trans
    (congrArg x0 ?_)
  have e1 : (Rect.unit (s := S512x3) (k1_off3 k) S128x3.size (k1_off3_inb k)).toLoadRect.idx (ix2 r d) = ix2 l d := by
    funext a
    refine Fin.ext ?_
    match a with
    | ⟨0, _⟩ =>
      show k1_off3 k 0 + 1 * r.val = l.val
      rw [k1_off3_eq k, hl, Nat.one_mul]
      rfl
    | ⟨1, _⟩ =>
      show k1_off3 k 1 + 1 * d.val = d.val
      rw [k1_off3_eq k, Nat.one_mul]
      exact Nat.zero_add _
  rw [e1, reshapeEquiv_ix2_1ab]
  funext a
  refine Fin.ext ?_
  match a with
  | ⟨0, _⟩ => rfl
  | ⟨1, _⟩ => show 0 + 1 * l.val = l.val; rw [Nat.one_mul, Nat.zero_add]
  | ⟨2, _⟩ => show 0 + 1 * d.val = d.val; rw [Nat.one_mul, Nat.zero_add]

end Loads

/-! ## The loop: the row after the trips done -/

section Loop
variable (𝒱 : Variants) (c : Dev nD) (bd : Option 𝒱.V) (i : grid1.Coords)
  (arg2 : Memref sig .tc .vmem S4x512x3 .f32) (harg2 : arg2.IsWhole) (arg3 : Memref sig .tc .vmem S4x512x3 .f32) (harg3 : arg3.IsWhole)
  (arg4 : Memref sig .tc .vmem S4x512 .f32) (harg4 : arg4.IsWhole) (arg5 : Memref sig .tc .vmem S4x512 .f32) (harg5 : arg5.IsWhole)
  (v17 : Vec Ideal S1x512x3 .f32) (x0 : Vec Ideal S4x512x3 .f32) (G : BufTy.Contents (Elt Ideal) arg5.view.ty)

/-- After `n` trips the row holds, on the chunks done, the entry value lowered by the nearest key's clamped squared
    distance, and the entry value on the chunks to come. -/
theorem k1_loop2_row (n : ℕ) (hn : n ≤ 4) (l : Fin 512) :
    (k1_row1 arg5).view.read (Elt Ideal) ((k1_row1 arg5).view.writes (Elt Ideal) G
        (pb_k1_t2 (F := Ideal) 𝒱 c bd i arg2 harg2 arg3 harg3 arg4 harg4 arg5 harg5 v17 (harg2.unread x0) G n)) (ix1 l)
      = if l.val < 128 * n then
          min ((k1_row1 arg5).view.read (Elt Ideal) G (ix1 l))
            (⨅ m : Fin 512, dist (fun d => x0 (ix3 (1 : Fin 4) l d)) (fun d => v17 (ix3 (0 : Fin 1) m d)))
        else (k1_row1 arg5).view.read (Elt Ideal) G (ix1 l) := by
  induction n generalizing l with
  | zero => rw [if_neg (by omega)]; rfl
  | succ n ih =>
    have h4 : k1_t2_loop.trips = 4 := by decide
    have hk : n < k1_t2_loop.trips := by omega
    have hs : pb_k1_t2 (F := Ideal) 𝒱 c bd i arg2 harg2 arg3 harg3 arg4 harg4 arg5 harg5 v17 (harg2.unread x0) G (n + 1) = _ :=
      pb_k1_t2_succ (F := Ideal) 𝒱 c bd i arg2 harg2 arg3 harg3 arg4 harg4 arg5 harg5 v17 (harg2.unread x0) G ⟨n, hk⟩
    rw [hs, tripL_k1_t2_eq, List.singleton_append]
    by_cases hl : 128 * n ≤ l.val ∧ l.val < 128 * n + 128
    · rw [if_pos (by omega)]
      refine (View.read_writes_cons_unit_of_mem (k1_row1 arg5).view G (k1_off4_inb ⟨n, hk⟩) _ _ (ix1 l)
        (ix1 (⟨l.val - 128 * n, by omega⟩ : Fin 128)) (k1_off4_eq ⟨n, hk⟩) (fun a => ?_)).trans ?_
      · match a with
        | ⟨0, _⟩ => show l.val = 128 * n + (l.val - 128 * n); omega
      · refine (k1_trip2_value v17 _ _ (⟨l.val - 128 * n, by omega⟩ : Fin 128)).trans (congrArg₂ min ?_ ?_)
        · refine (k1_row1_chunk arg5 ⟨n, hk⟩ _ _ l (by show l.val = 128 * n + (l.val - 128 * n); omega)).trans ?_
          rw [ih (by omega) l, if_neg (by omega)]
        · refine iInf_congr fun m => congrArg (fun q => dist q _) (funext fun d => ?_)
          exact k1_qry1_chunk arg2 harg2 x0 ⟨n, hk⟩ _ d l (by show l.val = 128 * n + (l.val - 128 * n); omega)
    · rw [View.read_writes_cons_unit_of_not_mem (k1_row1 arg5).view G (k1_off4_inb ⟨n, hk⟩) _ _ (ix1 l) (k1_off4_eq ⟨n, hk⟩)
        (0 : Fin 1) (by show l.val < 128 * n ∨ 128 * n + 128 ≤ l.val; omega), ih (by omega) l]
      by_cases h' : l.val < 128 * n
      · rw [if_pos h', if_pos (by omega)]
      · rw [if_neg h', if_neg (by omega)]

end Loop

/-! ## The loop: the scratch after all four trips -/

/-- The loop lowers row 1 of the scratch, at entry `l`, by the infimum over the 512 keys of the clamped squared distance
    to query `(1, l)`, and leaves the other rows alone. -/
theorem k1_loop2_value (𝒱 : Variants) (c : Dev nD) (bd : Option 𝒱.V) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (v17 : Vec Ideal S1x512x3 .f32) (x0 : Vec Ideal S4x512x3 .f32) (G : BufTy.Contents (Elt Ideal) arg5.view.ty)
    (b : Fin 4) (l : Fin 512) :
    arg5.view.read (Elt Ideal) ((k1_row1 arg5).view.writes (Elt Ideal) G
        (pb_k1_t2 (F := Ideal) 𝒱 c bd i arg2 harg2 arg3 harg3 arg4 harg4 arg5 harg5 v17 (harg2.unread x0) G 4)) (ValueIdx.ix2 b l)
      = if b = 1 then
          min (arg5.view.read (Elt Ideal) G (ValueIdx.ix2 1 l))
            (⨅ m : Fin 512, dist (fun d => x0 (ValueIdx.ix3 1 l d)) (fun d => v17 (ValueIdx.ix3 (0 : Fin 1) m d)))
        else arg5.view.read (Elt Ideal) G (ValueIdx.ix2 b l) := by
  by_cases hb : b = 1
  · subst hb
    rw [if_pos rfl, ← k1_row1_read, ← k1_row1_read,
      k1_loop2_row 𝒱 c bd i arg2 harg2 arg3 harg3 arg4 harg4 arg5 harg5 v17 x0 G 4 (Nat.le_refl 4) l,
      if_pos (by have := l.isLt; omega)]
  · rw [if_neg hb]
    exact k1_row1_writes_other arg5 G _ b hb l

end Cert.KernelIdeal.Hand

end
-- ==== Proof.KernelIdeal.LoopValueK1T3.lean ====
import proofs.«160032_j64836826300486_2_alg».proof.Proof.KernelIdeal.LoopK1T3
import proofs.«160032_j64836826300486_2_alg».proof.Proof.KernelIdeal.Payload1
import proofs.«160032_j64836826300486_2_alg».proof.Proof.Spec
import Idealize.ShloMosaic.Lib.WritesUnit
import Idealize.ShloMosaic.Lib.WholeRead

/-! What a batch's loop leaves in the scratch, read at an index, at the ideal values.

The loop of batch 2 walks the 512 queries of the block in four chunks of 128. Trip `k` stores through row 2 of the
[4, 512] scratch ONE piece, the chunk [128 k, 128 k + 128), whose payload at `r` is the minimum of what the row held
there and the infimum over the 512 keys of the clamped squared distance to query 128 k + r. The chunks are disjoint, so
what trip `k` reads of its chunk is what the scratch held at loop entry; by induction on the number of trips done, the
row holds the lowered value on the chunks done and the entry value on the others, and the other rows are never
touched. -/

set_option maxRecDepth 16384

noncomputable section

namespace Cert.KernelIdeal.Hand

open Cert.KernelIdeal Cert.KernelIdeal.Gen Cert.Lib Cert.Chamfer
open Idealize.ShloMosaic Idealize.ShloMosaic.TcCoe Idealize.ShloMosaic.ValueIdx
open Idealize.SL Idealize.SL.Sem

/-! ## The trip, opened once -/

section Trip
variable {F : FTy → Type} [FloatOps F]

/-- The query block of batch 2 as a memref [512, 3] of its own: what the trips load their chunks through. -/
abbrev k1_qry2 (arg2 : Memref sig .tc .vmem S4x512x3 .f32) : Memref sig .tc .vmem S512x3 .f32 :=
  (arg2.slice (Rect.unit (s := S4x512x3) ![2, 0, 0] S1x512x3.size inb_S4x512x3_S1x512x3_2_0_0) (fun _ => rfl)).squeeze S512x3 squeezes_S1x512x3_S512x3

/-- One trip writes one piece through the row: chunk `k`, holding the body's payload of query chunk `k` and of
    chunk `k` of what the row holds. -/
theorem tripL_k1_t3_eq (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v31 : Vec F S1x512x3 .f32) (X_arg2 : BufTy.Contents (Elt F) arg2.view.ty) (k : Fin k1_t3_loop.trips) (f_row : BufTy.Contents (Elt F) (k1_row2 arg5).view.ty) :
    tripL_k1_t3 (F := F) 𝒱 c bd i arg2 harg2 arg3 harg3 arg4 harg4 arg5 harg5 v31 X_arg2 k f_row
      = [⟨Rect.unit (s := S512) (k1_off6 k) S128.size (k1_off6_inb k),
          k1_pay6 (k1_pay15 (k1_pay2 v31) (k1_pay3 v31) (k1_pay4 v31) (k1_pay5 v31)
            (View.readAt (Elt F) (k1_qry2 arg2).view (Rect.unit (s := S512x3) (k1_off5 k) S128x3.size (k1_off5_inb k)).toLoadRect X_arg2)
            (View.readAt (Elt F) (k1_row2 arg5).view (Rect.unit (s := S512) (k1_off6 k) S128.size (k1_off6_inb k)).toLoadRect f_row))⟩] := by
  unfold tripL_k1_t3 trip_k1_t3
  rfl

end Trip

/-! ## Row 2 of the scratch inside the scratch -/

section Row
variable {Val : EltTy → Type} (arg5 : Memref sig .tc .vmem S4x512 .f32)

/-- Entry `l` of the row is entry `(2, l)` of the scratch, in the buffer. -/
theorem k1_row2_emb (l : Fin 512) : (k1_row2 arg5).view.emb (ix1 l) = arg5.view.emb (ix2 (2 : Fin 4) l) := by
  have e : Shape.reshapeEquiv squeezes_S1x512_S512.numel_eq (ix1 l) = (ix2 (0 : Fin 1) l : (⟨2, S1x512.size⟩ : Shape).Idx) :=
    Shape.reshapeEquiv_eq_of_rowMajor _ (by
      rw [Shape.rowMajor_val_two, Shape.rowMajor_val_one]
      show 0 * 512 + l.val = l.val
      rw [Nat.zero_mul, Nat.zero_add])
  show arg5.view.emb ((Rect.unit (s := S4x512) ![2, 0] S1x512.size inb_S4x512_S1x512_2_0).emb
      (Shape.reshapeEquiv squeezes_S1x512_S512.numel_eq (ix1 l))) = _
  rw [e]
  refine congrArg arg5.view.emb (funext fun a => Fin.ext ?_)
  match a with
  | ⟨0, _⟩ => rfl
  | ⟨1, _⟩ => show 0 + 1 * l.val = l.val; rw [Nat.one_mul, Nat.zero_add]

/-- The row reads entry `l` where the scratch reads entry `(2, l)`. -/
theorem k1_row2_read (g : BufTy.Contents Val arg5.view.ty) (l : Fin 512) :
    (k1_row2 arg5).view.read Val g (ix1 l) = arg5.view.read Val g (ix2 (2 : Fin 4) l) := by
  rw [View.read_apply, View.read_apply, k1_row2_emb]

/-- Writes through the row leave the other rows of the scratch as they were. -/
theorem k1_row2_writes_other (g : BufTy.Contents Val arg5.view.ty) (L : List (View.Piece Val S512 .f32)) (b : Fin 4)
    (hb : b ≠ 2) (l : Fin 512) :
    arg5.view.read Val ((k1_row2 arg5).view.writes Val g L) (ix2 b l) = arg5.view.read Val g (ix2 b l) := by
  refine View.read_congr_at _ (View.writes_apply_of_forall_ne (k1_row2 arg5).view g L fun y hy => hb ?_)
  have h1 : (Rect.unit (s := S4x512) ![2, 0] S1x512.size inb_S4x512_S1x512_2_0).emb
      (Shape.reshapeEquiv squeezes_S1x512_S512.numel_eq y) = ix2 b l := arg5.view.emb.injective hy
  have h2 := congrArg (fun j : S4x512.Idx => (j 0).val) h1
  have h3 : ((Shape.reshapeEquiv squeezes_S1x512_S512.numel_eq y) 0).val < 1 :=
    ((Shape.reshapeEquiv squeezes_S1x512_S512.numel_eq y) 0).isLt
  refine Fin.ext ?_
  have h4 : 2 + 1 * ((Shape.reshapeEquiv squeezes_S1x512_S512.numel_eq y) 0).val = b.val := h2
  show b.val = 2
  omega

end Row

/-! ## What a trip loads, in closed form -/

section Loads

/-- Chunk `k` of the row, at `r`: the row's entry `128 k + r`. -/
theorem k1_row2_chunk (arg5 : Memref sig .tc .vmem S4x512 .f32) (k : Fin k1_t3_loop.trips)
    (f : BufTy.Contents (Elt Ideal) (k1_row2 arg5).view.ty) (r : Fin 128) (l : Fin 512) (hl : l.val = 128 * k.val + r.val) :
    View.readAt (Elt Ideal) (k1_row2 arg5).view (Rect.unit (s := S512) (k1_off6 k) S128.size (k1_off6_inb k)).toLoadRect f (ix1 r)
      = (k1_row2 arg5).view.read (Elt Ideal) f (ix1 l) := by
  refine congrArg ((k1_row2 arg5).view.read (Elt Ideal) f) (funext fun a => Fin.ext ?_)
  match a with
  | ⟨0, _⟩ =>
    show k1_off6 k 0 + 1 * r.val = l.val
    rw [k1_off6_eq k, hl, Nat.one_mul]
    rfl

/-- Chunk `k` of the query block, at `(r, d)`: coordinate `d` of query `128 k + r` of batch 2. -/
theorem k1_qry2_chunk (arg2 : Memref sig .tc .vmem S4x512x3 .f32) (harg2 : arg2.IsWhole) (x0 : Vec Ideal S4x512x3 .f32)
    (k : Fin k1_t3_loop.trips) (r : Fin 128) (d : Fin 3) (l : Fin 512) (hl : l.val = 128 * k.val + r.val) :
    View.readAt (Elt Ideal) (k1_qry2 arg2).view (Rect.unit (s := S512x3) (k1_off5 k) S128x3.size (k1_off5_inb k)).toLoadRect
        (harg2.unread x0) (ix2 r d)
      = x0 (ix3 (2 : Fin 4) l d) := by
  refine (harg2.readAt_slice_reshape_unread x0 (Rect.unit (s := S4x512x3) ![2, 0, 0] S1x512x3.size inb_S4x512x3_S1x512x3_2_0_0)
    squeezes_S1x512x3_S512x3.numel_eq (Rect.unit (s := S512x3) (k1_off5 k) S128x3.size (k1_off5_inb k)).toLoadRect (ix2 r d)).trans
    (congrArg x0 ?_)
  have e1 : (Rect.unit (s := S512x3) (k1_off5 k) S128x3.size (k1_off5_inb k)).toLoadRect.idx (ix2 r d) = ix2 l d := by
    funext a
    refine Fin.ext ?_
    match a with
    | ⟨0, _⟩ =>
      show k1_off5 k 0 + 1 * r.val = l.val
      rw [k1_off5_eq k, hl, Nat.one_mul]
      rfl
    | ⟨1, _⟩ =>
      show k1_off5 k 1 + 1 * d.val = d.val
      rw [k1_off5_eq k, Nat.one_mul]
      exact Nat.zero_add _
  rw [e1, reshapeEquiv_ix2_1ab]
  funext a
  refine Fin.ext ?_
  match a with
  | ⟨0, _⟩ => rfl
  | ⟨1, _⟩ => show 0 + 1 * l.val = l.val; rw [Nat.one_mul, Nat.zero_add]
  | ⟨2, _⟩ => show 0 + 1 * d.val = d.val; rw [Nat.one_mul, Nat.zero_add]

end Loads

/-! ## The loop: the row after the trips done -/

section Loop
variable (𝒱 : Variants) (c : Dev nD) (bd : Option 𝒱.V) (i : grid1.Coords)
  (arg2 : Memref sig .tc .vmem S4x512x3 .f32) (harg2 : arg2.IsWhole) (arg3 : Memref sig .tc .vmem S4x512x3 .f32) (harg3 : arg3.IsWhole)
  (arg4 : Memref sig .tc .vmem S4x512 .f32) (harg4 : arg4.IsWhole) (arg5 : Memref sig .tc .vmem S4x512 .f32) (harg5 : arg5.IsWhole)
  (v31 : Vec Ideal S1x512x3 .f32) (x0 : Vec Ideal S4x512x3 .f32) (G : BufTy.Contents (Elt Ideal) arg5.view.ty)

/-- After `n` trips the row holds, on the chunks done, the entry value lowered by the nearest key's clamped squared
    distance, and the entry value on the chunks to come. -/
theorem k1_loop3_row (n : ℕ) (hn : n ≤ 4) (l : Fin 512) :
    (k1_row2 arg5).view.read (Elt Ideal) ((k1_row2 arg5).view.writes (Elt Ideal) G
        (pb_k1_t3 (F := Ideal) 𝒱 c bd i arg2 harg2 arg3 harg3 arg4 harg4 arg5 harg5 v31 (harg2.unread x0) G n)) (ix1 l)
      = if l.val < 128 * n then
          min ((k1_row2 arg5).view.read (Elt Ideal) G (ix1 l))
            (⨅ m : Fin 512, dist (fun d => x0 (ix3 (2 : Fin 4) l d)) (fun d => v31 (ix3 (0 : Fin 1) m d)))
        else (k1_row2 arg5).view.read (Elt Ideal) G (ix1 l) := by
  induction n generalizing l with
  | zero => rw [if_neg (by omega)]; rfl
  | succ n ih =>
    have h4 : k1_t3_loop.trips = 4 := by decide
    have hk : n < k1_t3_loop.trips := by omega
    have hs : pb_k1_t3 (F := Ideal) 𝒱 c bd i arg2 harg2 arg3 harg3 arg4 harg4 arg5 harg5 v31 (harg2.unread x0) G (n + 1) = _ :=
      pb_k1_t3_succ (F := Ideal) 𝒱 c bd i arg2 harg2 arg3 harg3 arg4 harg4 arg5 harg5 v31 (harg2.unread x0) G ⟨n, hk⟩
    rw [hs, tripL_k1_t3_eq, List.singleton_append]
    by_cases hl : 128 * n ≤ l.val ∧ l.val < 128 * n + 128
    · rw [if_pos (by omega)]
      refine (View.read_writes_cons_unit_of_mem (k1_row2 arg5).view G (k1_off6_inb ⟨n, hk⟩) _ _ (ix1 l)
        (ix1 (⟨l.val - 128 * n, by omega⟩ : Fin 128)) (k1_off6_eq ⟨n, hk⟩) (fun a => ?_)).trans ?_
      · match a with
        | ⟨0, _⟩ => show l.val = 128 * n + (l.val - 128 * n); omega
      · refine (k1_trip3_value v31 _ _ (⟨l.val - 128 * n, by omega⟩ : Fin 128)).trans (congrArg₂ min ?_ ?_)
        · refine (k1_row2_chunk arg5 ⟨n, hk⟩ _ _ l (by show l.val = 128 * n + (l.val - 128 * n); omega)).trans ?_
          rw [ih (by omega) l, if_neg (by omega)]
        · refine iInf_congr fun m => congrArg (fun q => dist q _) (funext fun d => ?_)
          exact k1_qry2_chunk arg2 harg2 x0 ⟨n, hk⟩ _ d l (by show l.val = 128 * n + (l.val - 128 * n); omega)
    · rw [View.read_writes_cons_unit_of_not_mem (k1_row2 arg5).view G (k1_off6_inb ⟨n, hk⟩) _ _ (ix1 l) (k1_off6_eq ⟨n, hk⟩)
        (0 : Fin 1) (by show l.val < 128 * n ∨ 128 * n + 128 ≤ l.val; omega), ih (by omega) l]
      by_cases h' : l.val < 128 * n
      · rw [if_pos h', if_pos (by omega)]
      · rw [if_neg h', if_neg (by omega)]

end Loop

/-! ## The loop: the scratch after all four trips -/

/-- The loop lowers row 2 of the scratch, at entry `l`, by the infimum over the 512 keys of the clamped squared distance
    to query `(2, l)`, and leaves the other rows alone. -/
theorem k1_loop3_value (𝒱 : Variants) (c : Dev nD) (bd : Option 𝒱.V) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (v31 : Vec Ideal S1x512x3 .f32) (x0 : Vec Ideal S4x512x3 .f32) (G : BufTy.Contents (Elt Ideal) arg5.view.ty)
    (b : Fin 4) (l : Fin 512) :
    arg5.view.read (Elt Ideal) ((k1_row2 arg5).view.writes (Elt Ideal) G
        (pb_k1_t3 (F := Ideal) 𝒱 c bd i arg2 harg2 arg3 harg3 arg4 harg4 arg5 harg5 v31 (harg2.unread x0) G 4)) (ValueIdx.ix2 b l)
      = if b = 2 then
          min (arg5.view.read (Elt Ideal) G (ValueIdx.ix2 2 l))
            (⨅ m : Fin 512, dist (fun d => x0 (ValueIdx.ix3 2 l d)) (fun d => v31 (ValueIdx.ix3 (0 : Fin 1) m d)))
        else arg5.view.read (Elt Ideal) G (ValueIdx.ix2 b l) := by
  by_cases hb : b = 2
  · subst hb
    rw [if_pos rfl, ← k1_row2_read, ← k1_row2_read,
      k1_loop3_row 𝒱 c bd i arg2 harg2 arg3 harg3 arg4 harg4 arg5 harg5 v31 x0 G 4 (Nat.le_refl 4) l,
      if_pos (by have := l.isLt; omega)]
  · rw [if_neg hb]
    exact k1_row2_writes_other arg5 G _ b hb l

end Cert.KernelIdeal.Hand

end
-- ==== Proof.KernelIdeal.LoopValueK1T4.lean ====
import proofs.«160032_j64836826300486_2_alg».proof.Proof.KernelIdeal.LoopK1T4
import proofs.«160032_j64836826300486_2_alg».proof.Proof.KernelIdeal.Payload1
import proofs.«160032_j64836826300486_2_alg».proof.Proof.Spec
import Idealize.ShloMosaic.Lib.WritesUnit
import Idealize.ShloMosaic.Lib.WholeRead

/-! What a batch's loop leaves in the scratch, read at an index, at the ideal values.

The loop of batch 3 walks the 512 queries of the block in four chunks of 128. Trip `k` stores through row 3 of the
[4, 512] scratch ONE piece, the chunk [128 k, 128 k + 128), whose payload at `r` is the minimum of what the row held
there and the infimum over the 512 keys of the clamped squared distance to query 128 k + r. The chunks are disjoint, so
what trip `k` reads of its chunk is what the scratch held at loop entry; by induction on the number of trips done, the
row holds the lowered value on the chunks done and the entry value on the others, and the other rows are never
touched. -/

set_option maxRecDepth 16384

noncomputable section

namespace Cert.KernelIdeal.Hand

open Cert.KernelIdeal Cert.KernelIdeal.Gen Cert.Lib Cert.Chamfer
open Idealize.ShloMosaic Idealize.ShloMosaic.TcCoe Idealize.ShloMosaic.ValueIdx
open Idealize.SL Idealize.SL.Sem

/-! ## The trip, opened once -/

section Trip
variable {F : FTy → Type} [FloatOps F]

/-- The query block of batch 3 as a memref [512, 3] of its own: what the trips load their chunks through. -/
abbrev k1_qry3 (arg2 : Memref sig .tc .vmem S4x512x3 .f32) : Memref sig .tc .vmem S512x3 .f32 :=
  (arg2.slice (Rect.unit (s := S4x512x3) ![3, 0, 0] S1x512x3.size inb_S4x512x3_S1x512x3_3_0_0) (fun _ => rfl)).squeeze S512x3 squeezes_S1x512x3_S512x3

/-- One trip writes one piece through the row: chunk `k`, holding the body's payload of query chunk `k` and of
    chunk `k` of what the row holds. -/
theorem tripL_k1_t4_eq (𝒱 : Variants) (c : Dev nD) (bd : Option 𝒱.V) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (arg5 : Memref sig .tc .vmem S4x512 .f32) (harg5 : arg5.IsWhole) (v45 : Vec F S1x512x3 .f32) (X_arg2 : BufTy.Contents (Elt F) arg2.view.ty) (k : Fin k1_t4_loop.trips) (f_row : BufTy.Contents (Elt F) (k1_row3 arg5).view.ty) :
    tripL_k1_t4 (F := F) 𝒱 c bd i arg2 harg2 arg3 harg3 arg4 harg4 arg5 harg5 v45 X_arg2 k f_row
      = [⟨Rect.unit (s := S512) (k1_off8 k) S128.size (k1_off8_inb k),
          k1_pay12 (k1_pay16 (k1_pay8 v45) (k1_pay9 v45) (k1_pay10 v45) (k1_pay11 v45)
            (View.readAt (Elt F) (k1_qry3 arg2).view (Rect.unit (s := S512x3) (k1_off7 k) S128x3.size (k1_off7_inb k)).toLoadRect X_arg2)
            (View.readAt (Elt F) (k1_row3 arg5).view (Rect.unit (s := S512) (k1_off8 k) S128.size (k1_off8_inb k)).toLoadRect f_row))⟩] := by
  unfold tripL_k1_t4 trip_k1_t4
  rfl

end Trip

/-! ## Row 3 of the scratch inside the scratch -/

section Row
variable {Val : EltTy → Type} (arg5 : Memref sig .tc .vmem S4x512 .f32)

/-- Entry `l` of the row is entry `(3, l)` of the scratch, in the buffer. -/
theorem k1_row3_emb (l : Fin 512) : (k1_row3 arg5).view.emb (ix1 l) = arg5.view.emb (ix2 (3 : Fin 4) l) := by
  have e : Shape.reshapeEquiv squeezes_S1x512_S512.numel_eq (ix1 l) = (ix2 (0 : Fin 1) l : (⟨2, S1x512.size⟩ : Shape).Idx) :=
    Shape.reshapeEquiv_eq_of_rowMajor _ (by
      rw [Shape.rowMajor_val_two, Shape.rowMajor_val_one]
      show 0 * 512 + l.val = l.val
      rw [Nat.zero_mul, Nat.zero_add])
  show arg5.view.emb ((Rect.unit (s := S4x512) ![3, 0] S1x512.size inb_S4x512_S1x512_3_0).emb
      (Shape.reshapeEquiv squeezes_S1x512_S512.numel_eq (ix1 l))) = _
  rw [e]
  refine congrArg arg5.view.emb (funext fun a => Fin.ext ?_)
  match a with
  | ⟨0, _⟩ => rfl
  | ⟨1, _⟩ => show 0 + 1 * l.val = l.val; rw [Nat.one_mul, Nat.zero_add]

/-- The row reads entry `l` where the scratch reads entry `(3, l)`. -/
theorem k1_row3_read (g : BufTy.Contents Val arg5.view.ty) (l : Fin 512) :
    (k1_row3 arg5).view.read Val g (ix1 l) = arg5.view.read Val g (ix2 (3 : Fin 4) l) := by
  rw [View.read_apply, View.read_apply, k1_row3_emb]

/-- Writes through the row leave the other rows of the scratch as they were. -/
theorem k1_row3_writes_other (g : BufTy.Contents Val arg5.view.ty) (L : List (View.Piece Val S512 .f32)) (b : Fin 4)
    (hb : b ≠ 3) (l : Fin 512) :
    arg5.view.read Val ((k1_row3 arg5).view.writes Val g L) (ix2 b l) = arg5.view.read Val g (ix2 b l) := by
  refine View.read_congr_at _ (View.writes_apply_of_forall_ne (k1_row3 arg5).view g L fun y hy => hb ?_)
  have h1 : (Rect.unit (s := S4x512) ![3, 0] S1x512.size inb_S4x512_S1x512_3_0).emb
      (Shape.reshapeEquiv squeezes_S1x512_S512.numel_eq y) = ix2 b l := arg5.view.emb.injective hy
  have h2 := congrArg (fun j : S4x512.Idx => (j 0).val) h1
  have h3 : ((Shape.reshapeEquiv squeezes_S1x512_S512.numel_eq y) 0).val < 1 :=
    ((Shape.reshapeEquiv squeezes_S1x512_S512.numel_eq y) 0).isLt
  refine Fin.ext ?_
  have h4 : 3 + 1 * ((Shape.reshapeEquiv squeezes_S1x512_S512.numel_eq y) 0).val = b.val := h2
  show b.val = 3
  omega

end Row

/-! ## What a trip loads, in closed form -/

section Loads

/-- Chunk `k` of the row, at `r`: the row's entry `128 k + r`. -/
theorem k1_row3_chunk (arg5 : Memref sig .tc .vmem S4x512 .f32) (k : Fin k1_t4_loop.trips)
    (f : BufTy.Contents (Elt Ideal) (k1_row3 arg5).view.ty) (r : Fin 128) (l : Fin 512) (hl : l.val = 128 * k.val + r.val) :
    View.readAt (Elt Ideal) (k1_row3 arg5).view (Rect.unit (s := S512) (k1_off8 k) S128.size (k1_off8_inb k)).toLoadRect f (ix1 r)
      = (k1_row3 arg5).view.read (Elt Ideal) f (ix1 l) := by
  refine congrArg ((k1_row3 arg5).view.read (Elt Ideal) f) (funext fun a => Fin.ext ?_)
  match a with
  | ⟨0, _⟩ =>
    show k1_off8 k 0 + 1 * r.val = l.val
    rw [k1_off8_eq k, hl, Nat.one_mul]
    rfl

/-- Chunk `k` of the query block, at `(r, d)`: coordinate `d` of query `128 k + r` of batch 3. -/
theorem k1_qry3_chunk (arg2 : Memref sig .tc .vmem S4x512x3 .f32) (harg2 : arg2.IsWhole) (x0 : Vec Ideal S4x512x3 .f32)
    (k : Fin k1_t4_loop.trips) (r : Fin 128) (d : Fin 3) (l : Fin 512) (hl : l.val = 128 * k.val + r.val) :
    View.readAt (Elt Ideal) (k1_qry3 arg2).view (Rect.unit (s := S512x3) (k1_off7 k) S128x3.size (k1_off7_inb k)).toLoadRect
        (harg2.unread x0) (ix2 r d)
      = x0 (ix3 (3 : Fin 4) l d) := by
  refine (harg2.readAt_slice_reshape_unread x0 (Rect.unit (s := S4x512x3) ![3, 0, 0] S1x512x3.size inb_S4x512x3_S1x512x3_3_0_0)
    squeezes_S1x512x3_S512x3.numel_eq (Rect.unit (s := S512x3) (k1_off7 k) S128x3.size (k1_off7_inb k)).toLoadRect (ix2 r d)).trans
    (congrArg x0 ?_)
  have e1 : (Rect.unit (s := S512x3) (k1_off7 k) S128x3.size (k1_off7_inb k)).toLoadRect.idx (ix2 r d) = ix2 l d := by
    funext a
    refine Fin.ext ?_
    match a with
    | ⟨0, _⟩ =>
      show k1_off7 k 0 + 1 * r.val = l.val
      rw [k1_off7_eq k, hl, Nat.one_mul]
      rfl
    | ⟨1, _⟩ =>
      show k1_off7 k 1 + 1 * d.val = d.val
      rw [k1_off7_eq k, Nat.one_mul]
      exact Nat.zero_add _
  rw [e1, reshapeEquiv_ix2_1ab]
  funext a
  refine Fin.ext ?_
  match a with
  | ⟨0, _⟩ => rfl
  | ⟨1, _⟩ => show 0 + 1 * l.val = l.val; rw [Nat.one_mul, Nat.zero_add]
  | ⟨2, _⟩ => show 0 + 1 * d.val = d.val; rw [Nat.one_mul, Nat.zero_add]

end Loads

/-! ## The loop: the row after the trips done -/

section Loop
variable (𝒱 : Variants) (c : Dev nD) (bd : Option 𝒱.V) (i : grid1.Coords)
  (arg2 : Memref sig .tc .vmem S4x512x3 .f32) (harg2 : arg2.IsWhole) (arg3 : Memref sig .tc .vmem S4x512x3 .f32) (harg3 : arg3.IsWhole)
  (arg4 : Memref sig .tc .vmem S4x512 .f32) (harg4 : arg4.IsWhole) (arg5 : Memref sig .tc .vmem S4x512 .f32) (harg5 : arg5.IsWhole)
  (v45 : Vec Ideal S1x512x3 .f32) (x0 : Vec Ideal S4x512x3 .f32) (G : BufTy.Contents (Elt Ideal) arg5.view.ty)

/-- After `n` trips the row holds, on the chunks done, the entry value lowered by the nearest key's clamped squared
    distance, and the entry value on the chunks to come. -/
theorem k1_loop4_row (n : ℕ) (hn : n ≤ 4) (l : Fin 512) :
    (k1_row3 arg5).view.read (Elt Ideal) ((k1_row3 arg5).view.writes (Elt Ideal) G
        (pb_k1_t4 (F := Ideal) 𝒱 c bd i arg2 harg2 arg3 harg3 arg4 harg4 arg5 harg5 v45 (harg2.unread x0) G n)) (ix1 l)
      = if l.val < 128 * n then
          min ((k1_row3 arg5).view.read (Elt Ideal) G (ix1 l))
            (⨅ m : Fin 512, dist (fun d => x0 (ix3 (3 : Fin 4) l d)) (fun d => v45 (ix3 (0 : Fin 1) m d)))
        else (k1_row3 arg5).view.read (Elt Ideal) G (ix1 l) := by
  induction n generalizing l with
  | zero => rw [if_neg (by omega)]; rfl
  | succ n ih =>
    have h4 : k1_t4_loop.trips = 4 := by decide
    have hk : n < k1_t4_loop.trips := by omega
    have hs : pb_k1_t4 (F := Ideal) 𝒱 c bd i arg2 harg2 arg3 harg3 arg4 harg4 arg5 harg5 v45 (harg2.unread x0) G (n + 1) = _ :=
      pb_k1_t4_succ (F := Ideal) 𝒱 c bd i arg2 harg2 arg3 harg3 arg4 harg4 arg5 harg5 v45 (harg2.unread x0) G ⟨n, hk⟩
    rw [hs, tripL_k1_t4_eq, List.singleton_append]
    by_cases hl : 128 * n ≤ l.val ∧ l.val < 128 * n + 128
    · rw [if_pos (by omega)]
      refine (View.read_writes_cons_unit_of_mem (k1_row3 arg5).view G (k1_off8_inb ⟨n, hk⟩) _ _ (ix1 l)
        (ix1 (⟨l.val - 128 * n, by omega⟩ : Fin 128)) (k1_off8_eq ⟨n, hk⟩) (fun a => ?_)).trans ?_
      · match a with
        | ⟨0, _⟩ => show l.val = 128 * n + (l.val - 128 * n); omega
      · refine (k1_trip4_value v45 _ _ (⟨l.val - 128 * n, by omega⟩ : Fin 128)).trans (congrArg₂ min ?_ ?_)
        · refine (k1_row3_chunk arg5 ⟨n, hk⟩ _ _ l (by show l.val = 128 * n + (l.val - 128 * n); omega)).trans ?_
          rw [ih (by omega) l, if_neg (by omega)]
        · refine iInf_congr fun m => congrArg (fun q => dist q _) (funext fun d => ?_)
          exact k1_qry3_chunk arg2 harg2 x0 ⟨n, hk⟩ _ d l (by show l.val = 128 * n + (l.val - 128 * n); omega)
    · rw [View.read_writes_cons_unit_of_not_mem (k1_row3 arg5).view G (k1_off8_inb ⟨n, hk⟩) _ _ (ix1 l) (k1_off8_eq ⟨n, hk⟩)
        (0 : Fin 1) (by show l.val < 128 * n ∨ 128 * n + 128 ≤ l.val; omega), ih (by omega) l]
      by_cases h' : l.val < 128 * n
      · rw [if_pos h', if_pos (by omega)]
      · rw [if_neg h', if_neg (by omega)]

end Loop

/-! ## The loop: the scratch after all four trips -/

/-- The loop lowers row 3 of the scratch, at entry `l`, by the infimum over the 512 keys of the clamped squared distance
    to query `(3, l)`, and leaves the other rows alone. -/
theorem k1_loop4_value (𝒱 : Variants) (c : Dev nD) (bd : Option 𝒱.V) (i : grid1.Coords)
    (arg2 : Memref sig .tc .vmem S4x512x3 .f32) (harg2 : arg2.IsWhole) (arg3 : Memref sig .tc .vmem S4x512x3 .f32) (harg3 : arg3.IsWhole)
    (arg4 : Memref sig .tc .vmem S4x512 .f32) (harg4 : arg4.IsWhole) (arg5 : Memref sig .tc .vmem S4x512 .f32) (harg5 : arg5.IsWhole)
    (v45 : Vec Ideal S1x512x3 .f32) (x0 : Vec Ideal S4x512x3 .f32) (G : BufTy.Contents (Elt Ideal) arg5.view.ty)
    (b : Fin 4) (l : Fin 512) :
    arg5.view.read (Elt Ideal) ((k1_row3 arg5).view.writes (Elt Ideal) G
        (pb_k1_t4 (F := Ideal) 𝒱 c bd i arg2 harg2 arg3 harg3 arg4 harg4 arg5 harg5 v45 (harg2.unread x0) G 4)) (ValueIdx.ix2 b l)
      = if b = 3 then
          min (arg5.view.read (Elt Ideal) G (ValueIdx.ix2 3 l))
            (⨅ m : Fin 512, dist (fun d => x0 (ValueIdx.ix3 3 l d)) (fun d => v45 (ValueIdx.ix3 (0 : Fin 1) m d)))
        else arg5.view.read (Elt Ideal) G (ValueIdx.ix2 b l) := by
  by_cases hb : b = 3
  · subst hb
    rw [if_pos rfl, ← k1_row3_read, ← k1_row3_read,
      k1_loop4_row 𝒱 c bd i arg2 harg2 arg3 harg3 arg4 harg4 arg5 harg5 v45 x0 G 4 (Nat.le_refl 4) l,
      if_pos (by have := l.isLt; omega)]
  · rw [if_neg hb]
    exact k1_row3_writes_other arg5 G _ b hb l

end Cert.KernelIdeal.Hand

end
-- ==== Proof.KernelIdeal.Final1.lean ====
import proofs.«160032_j64836826300486_2_alg».proof.Proof.KernelIdeal.Body1
import proofs.«160032_j64836826300486_2_alg».proof.Proof.Spec
import proofs.«160032_j64836826300486_2_alg».proof.Proof.AccStep
import proofs.«160032_j64836826300486_2_alg».proof.Proof.LibTileMin
import proofs.«160032_j64836826300486_2_alg».proof.Proof.GridMin
import Idealize.ShloMosaic.Lib.Pipeline.Value
import Idealize.ShloMosaic.Lib.ValueIdx

noncomputable section

/-! # The kernel's first output array after the run

Region 1 runs a 16 x 16 grid: point t = 16 i + j meets query tile i (rows 512 i + l of the query array) and key tile j
(rows 512 j + m of the key array), keeps per query a running minimum of the clamped squared distance over the key
tiles met so far, and after the last key tile writes the minima of query tile i back to columns 512 i + l of the
[4, 8192] output. Given what one point does to the running minima (the four facts taken as hypotheses below), the
array ends holding, at (b, n), the nearest-neighbour distance of query point n of batch b among the 8192 key points. -/

namespace Cert.KernelIdeal.Hand

open Cert.KernelIdeal Cert.KernelIdeal.Gen
open Idealize.ShloMosaic Idealize.ShloMosaic.TcCoe Idealize.SL.Sem
open Idealize.ShloMosaic.Pipeline (Dat)
open Cert.Chamfer ValueIdx

section Blocks

variable {F : FTy → Type} [FloatOps F]

/-- The windows' block indices at grid point t = 16 i + j: the query window sits at row block i, the key window at
    row block j, the output window at column block i. -/
theorem idx_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16 :=
  (by decide +kernel : ∀ t : Fin grid1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 2) = 0 ∧ win1_2.index t (1 : Fin 2) = t.val / 16)

/-- The query window's block at point t, read off an array A: entry (b, l, d) is A (b, 512 (t / 16) + l, d). -/
theorem blk1_0_read (A : S4x8192x3.Idx → Elt F .f32) (t : Fin cfg1.N) (x : S4x512x3.Idx) (k : S4x8192x3.Idx)
    (hk0 : (k 0).val = (x 0).val) (hk1 : (k 1).val = 512 * (t.val / 16) + (x 1).val) (hk2 : (k 2).val = (x 2).val) :
    (((cfg1.win 0).blk t).view.read (Elt F) A : Vec F S4x512x3 .f32) x = A k := by
  obtain ⟨e0, e1, e2, -⟩ := idx_facts1 t
  rw [View.read_apply]
  show A _ = A _
  congr 1
  funext a; apply Fin.ext
  match a with
  | ⟨0, _⟩ => show win1_0.index t (0 : Fin 3) * 4 + 1 * (x 0).val = (k 0).val; rw [e0, hk0]; omega
  | ⟨1, _⟩ => show win1_0.index t (1 : Fin 3) * 512 + 1 * (x 1).val = (k 1).val; rw [e1, hk1]; omega
  | ⟨2, _⟩ => show win1_0.index t (2 : Fin 3) * 3 + 1 * (x 2).val = (k 2).val; rw [e2, hk2]; omega

/-- The key window's block at point t, read off an array A: entry (b, m, d) is A (b, 512 (t % 16) + m, d). -/
theorem blk1_1_read (A : S4x8192x3.Idx → Elt F .f32) (t : Fin cfg1.N) (x : S4x512x3.Idx) (k : S4x8192x3.Idx)
    (hk0 : (k 0).val = (x 0).val) (hk1 : (k 1).val = 512 * (t.val % 16) + (x 1).val) (hk2 : (k 2).val = (x 2).val) :
    (((cfg1.win 1).blk t).view.read (Elt F) A : Vec F S4x512x3 .f32) x = A k := by
  obtain ⟨-, -, -, e0, e1, e2, -⟩ := idx_facts1 t
  rw [View.read_apply]
  show A _ = A _
  congr 1
  funext a; apply Fin.ext
  match a with
  | ⟨0, _⟩ => show win1_1.index t (0 : Fin 3) * 4 + 1 * (x 0).val = (k 0).val; rw [e0, hk0]; omega
  | ⟨1, _⟩ => show win1_1.index t (1 : Fin 3) * 512 + 1 * (x 1).val = (k 1).val; rw [e1, hk1]; omega
  | ⟨2, _⟩ => show win1_1.index t (2 : Fin 3) * 3 + 1 * (x 2).val = (k 2).val; rw [e2, hk2]; omega

/-- The output window's block at point t, read off an array G: entry (b, l) is G (b, 512 (t / 16) + l). -/
theorem blk1_2_read (G : S4x8192.Idx → Elt F .f32) (t : Fin cfg1.N) (x : S4x512.Idx) (k : S4x8192.Idx)
    (hk0 : (k 0).val = (x 0).val) (hk1 : (k 1).val = 512 * (t.val / 16) + (x 1).val) :
    (((cfg1.win 2).blk t).view.read (Elt F) G : Vec F S4x512 .f32) x = G k := by
  obtain ⟨-, -, -, -, -, -, e0, e1⟩ := idx_facts1 t
  rw [View.read_apply]
  show G _ = G _
  congr 1
  funext a; apply Fin.ext
  match a with
  | ⟨0, _⟩ => show win1_2.index t (0 : Fin 2) * 4 + 1 * (x 0).val = (k 0).val; rw [e0, hk0]; omega
  | ⟨1, _⟩ => show win1_2.index t (1 : Fin 2) * 512 + 1 * (x 1).val = (k 1).val; rw [e1, hk1]; omega

/-- An index of the [4, 8192] array is in point t's block iff each coordinate is in the block's range on its axis. -/
theorem mem_blk1_2 (t : Fin cfg1.N) (i : S4x8192.Idx) :
    i ∈ ((cfg1.win 2).blk t).view.set ↔ ∀ a : Fin 2, win1_2.index t a * S4x512.size a ≤ (i a).val ∧ (i a).val < win1_2.index t a * S4x512.size a + S4x512.size a := by
  show i ∈ ((View.whole (Pipeline.arrRef spec1 2)).slice (win1_2.rect t)).set ↔ _
  rw [View.set_slice_whole, Rect.mem_set_unit]
  exact Iff.rfl

/-- Every index (r, n) of the array lies in the block written back at the last point of column block n / 512. -/
theorem cover1_2 (i : S4x8192.Idx) : ∃ t : Fin cfg1.N, (cfg1.win 2).flush t = true ∧ i ∈ ((cfg1.win 2).blk t).view.set := by
  have hi0 : (i 0).val < 4 := (i 0).isLt
  have hi1 : (i 1).val < 8192 := (i 1).isLt
  have hN : cfg1.N = 256 := N_1
  have ht : 16 * ((i 1).val / 512) + 15 < cfg1.N := by omega
  refine ⟨⟨16 * ((i 1).val / 512) + 15, ht⟩, (flush1_2 _).mpr (by show (16 * ((i 1).val / 512) + 15) % 16 = 15; omega), ?_⟩
  rw [mem_blk1_2]
  obtain ⟨-, -, -, -, -, -, e0, e1⟩ := idx_facts1 ⟨16 * ((i 1).val / 512) + 15, ht⟩
  intro a
  match a with
  | ⟨0, _⟩ =>
    show win1_2.index _ (0 : Fin 2) * 4 ≤ (i 0).val ∧ (i 0).val < win1_2.index _ (0 : Fin 2) * 4 + 4
    rw [e0]; omega
  | ⟨1, _⟩ =>
    show win1_2.index _ (1 : Fin 2) * 512 ≤ (i 1).val ∧ (i 1).val < win1_2.index _ (1 : Fin 2) * 512 + 512
    rw [e1]; dsimp only; omega

end Blocks

/-! ## From the body's three cases to the array -/

section Final

variable (V : (c : Dev nD) → (b : Ref sig .tc) → Buf (Elt Ideal) ((c : Thread nD τ).loc b))

/-- What one point does to the running minima, in each of the body's three cases, and what the last key tile's point
    leaves in the output's staging buffer: the four facts this section takes as given. -/
structure BodyFacts1 : Prop where
  hA : ∀ (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc0 : cond1_0 i) (hc1 : ¬cond1_1 i) (x0 x1 : Vec Ideal S4x512x3 .f32),
    sout1_A (F := Ideal) c i arg2 harg2 arg3 harg3 arg4 harg4 hc0 hc1 x0 x1 = accStep x0 x1 (fun _ => ⊤)
  hB : ∀ (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc0 : ¬cond1_0 i) (hc1 : ¬cond1_1 i) (x0 x1 : Vec Ideal S4x512x3 .f32) (xs : Vec Ideal S4x512 .f32),
    sout1_B (F := Ideal) c i arg2 harg2 arg3 harg3 arg4 harg4 hc0 hc1 x0 x1 xs = accStep x0 x1 xs
  hC : ∀ (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc0 : ¬cond1_0 i) (hc1 : cond1_1 i) (x0 x1 : Vec Ideal S4x512x3 .f32) (xs : Vec Ideal S4x512 .f32),
    sout1_C (F := Ideal) c i arg2 harg2 arg3 harg3 arg4 harg4 hc0 hc1 x0 x1 xs = accStep x0 x1 xs
  hO : ∀ (c : Dev nD) (i : grid1.Coords) (arg2 : Memref sig .tc .vmem S4x512x3 .f32) (harg2 : arg2.IsWhole)
    (arg3 : Memref sig .tc .vmem S4x512x3 .f32) (harg3 : arg3.IsWhole) (arg4 : Memref sig .tc .vmem S4x512 .f32) (harg4 : arg4.IsWhole)
    (hc0 : ¬cond1_0 i) (hc1 : cond1_1 i) (x0 x1 : Vec Ideal S4x512x3 .f32) (xs : Vec Ideal S4x512 .f32),
    out1_C (F := Ideal) c i arg2 harg2 arg3 harg3 arg4 harg4 hc0 hc1 x0 x1 xs = accStep x0 x1 xs

/-- The running minima after point n (the top element past the grid). -/
def scr1 (c : Dev nD) (n : ℕ) : S4x512.Idx → EReal :=
  if h : n < cfg1.N then (outsAt1 V c n h).2 else fun _ => ⊤
/-- The query tile at point n. -/
def qblk1 (c : Dev nD) (n : ℕ) : S4x512x3.Idx → EReal :=
  if h : n < cfg1.N then iblk1 V c 0 ⟨n, h⟩ else fun _ => ⊤
/-- The key tile at point n. -/
def kblk1 (c : Dev nD) (n : ℕ) : S4x512x3.Idx → EReal :=
  if h : n < cfg1.N then iblk1 V c 1 ⟨n, h⟩ else fun _ => ⊤

theorem qblk1_apply (c : Dev nD) (t : ℕ) (ht : t < 256) (b : Fin 4) (l : Fin 512) (n : Fin 8192)
    (hn : n.val = 512 * (t / 16) + l.val) (d : Fin 3) :
    qblk1 V c t (ix3 b l d) = (V c (Pipeline.arrRef spec1 0) : S4x8192x3.Idx → EReal) (ix3 b n d) := by
  have h : t < cfg1.N := by rw [show cfg1.N = 256 from N_1]; exact ht
  unfold qblk1; rw [dif_pos h]; unfold iblk1
  exact blk1_0_read (F := Ideal) (V c (Pipeline.arrRef spec1 0)) ⟨t, h⟩ (ix3 b l d) (ix3 b n d) rfl hn rfl

theorem kblk1_apply (c : Dev nD) (t : ℕ) (ht : t < 256) (b : Fin 4) (m : Fin 512) (n : Fin 8192)
    (hn : n.val = 512 * (t % 16) + m.val) (d : Fin 3) :
    kblk1 V c t (ix3 b m d) = (V c (Pipeline.arrRef spec1 1) : S4x8192x3.Idx → EReal) (ix3 b n d) := by
  have h : t < cfg1.N := by rw [show cfg1.N = 256 from N_1]; exact ht
  unfold kblk1; rw [dif_pos h]; unfold iblk1
  exact blk1_1_read (F := Ideal) (V c (Pipeline.arrRef spec1 1)) ⟨t, h⟩ (ix3 b m d) (ix3 b n d) rfl hn rfl

variable (bf : BodyFacts1)
include bf

/-- After every point the running minima are one key tile's step: from the top element at the first key tile of a
    row of the grid, from the minima after the point before otherwise. -/
theorem scr1_step (c : Dev nD) (t : ℕ) (ht : t < 256) :
    scr1 V c t = accStep (qblk1 V c t) (kblk1 V c t) (if t % 16 = 0 then fun _ => ⊤ else scr1 V c (t - 1)) := by
  have h : t < cfg1.N := by rw [show cfg1.N = 256 from N_1]; exact ht
  have hp : t - 1 < cfg1.N := Nat.lt_of_le_of_lt (Nat.sub_le _ _) h
  unfold scr1 qblk1 kblk1
  rw [dif_pos h, dif_pos h, dif_pos h, dif_pos hp]
  by_cases h0 : t % 16 = 0
  · have h1 : ¬t % 16 = 15 := by omega
    rw [if_pos h0]
    exact (congrArg Prod.snd (outsAt1_A V c ⟨t, h⟩ h0 h1)).trans
      (bf.hA c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩)
        ((hcond1_0 ⟨t, h⟩).mpr h0) (fun hc => h1 ((hcond1_1 ⟨t, h⟩).mp hc)) (iblk1 V c 0 ⟨t, h⟩) (iblk1 V c 1 ⟨t, h⟩))
  · rw [if_neg h0]
    by_cases h1 : t % 16 = 15
    · exact (congrArg Prod.snd (outsAt1_C V c ⟨t, h⟩ h0 h1)).trans
        (bf.hC c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩)
          (fun hc => h0 ((hcond1_0 ⟨t, h⟩).mp hc)) ((hcond1_1 ⟨t, h⟩).mpr h1) (iblk1 V c 0 ⟨t, h⟩) (iblk1 V c 1 ⟨t, h⟩)
          (outsAt1 V c (t - 1) hp).2)
    · exact (congrArg Prod.snd (outsAt1_B V c ⟨t, h⟩ h0 h1)).trans
        (bf.hB c (grid1.coords ⟨t, h⟩) (ms1_0 ⟨t, h⟩) (hs1_0 ⟨t, h⟩) (ms1_1 ⟨t, h⟩) (hs1_1 ⟨t, h⟩) (ms1_2 ⟨t, h⟩) (hs1_2 ⟨t, h⟩)
          (fun hc => h0 ((hcond1_0 ⟨t, h⟩).mp hc)) (fun hc => h1 ((hcond1_1 ⟨t, h⟩).mp hc)) (iblk1 V c 0 ⟨t, h⟩) (iblk1 V c 1 ⟨t, h⟩)
          (outsAt1 V c (t - 1) hp).2)

/-- At the last key tile's point the output's staging buffer is left holding the running minima. -/
theorem out1_eq_scr (c : Dev nD) (t : Fin cfg1.N) (h1 : t.val % 16 = 15) :
    (outsAt1 V c t.val t.isLt).1 = scr1 V c t.val := by
  have h0 : ¬t.val % 16 = 0 := by omega
  unfold scr1; rw [dif_pos t.isLt]
  rw [outsAt1_C V c t h0 h1]
  dsimp only
  rw [bf.hO, bf.hC]

/-- The array of nearest-neighbour distances: the value the output array ends at. -/
def nnArr1 (c : Dev nD) : S4x8192.Idx → EReal :=
  fun j => nn (pts (V c (Pipeline.arrRef spec1 0) : S4x8192x3.Idx → EReal)) (pts (V c (Pipeline.arrRef spec1 1) : S4x8192x3.Idx → EReal)) (j 0) (j 1)

/-- What a write-back writes is its block of the array of nearest-neighbour distances. -/
theorem flushed1_eq (c : Dev nD) (t : Fin cfg1.N) (hf : (cfg1.win 2).flush t = true) :
    (dat1 V c).flushed 2 t = ((cfg1.win 2).blk t).view.read (Elt Ideal) (nnArr1 V c) := by
  have hN : cfg1.N = 256 := N_1
  have ht := t.isLt
  have h15 : t.val % 16 = 15 := (flush1_2 t).mp hf
  show (cfg1.win 2).cut (grid1.coords t) ((dat1 V c).after 2 t) = _
  rw [after1_2, out1_eq_scr V bf c t h15]
  funext x
  obtain ⟨b, l, rfl⟩ : ∃ (b : Fin 4) (l : Fin 512), x = ix2 b l := ⟨x 0, x 1, eq_ix2 x⟩
  have hl := l.isLt
  have hn : 512 * (t.val / 16) + l.val < 8192 := by omega
  rw [blk1_2_read (F := Ideal) (nnArr1 V c) t (ix2 b l) (ix2 b ⟨512 * (t.val / 16) + l.val, hn⟩) rfl rfl]
  show scr1 V c t.val (ix2 b l) = nn _ _ b ⟨512 * (t.val / 16) + l.val, hn⟩
  have e := grid_min (V c (Pipeline.arrRef spec1 0)) (V c (Pipeline.arrRef spec1 1)) (qblk1 V c) (kblk1 V c) (scr1 V c)
    (fun t ht b l n hn d => qblk1_apply V c t ht b l n hn d)
    (fun t ht b m n hn d => kblk1_apply V c t ht b m n hn d)
    (fun t ht => scr1_step V bf c t ht)
    ⟨t.val / 16, by omega⟩ b l ⟨512 * (t.val / 16) + l.val, hn⟩ rfl
  rw [show 16 * (t.val / 16) + 15 = t.val by omega] at e
  exact e

/-- The output array after the run holds, at (b, n), the nearest-neighbour distance of query point n of batch b. -/
theorem final1 (c : Dev nD) (b : Fin 4) (n : Fin 8192) :
    (dat1 (F := Ideal) V c).arrAt 2 cfg1.N (ValueIdx.ix2 b n)
      = nn (pts (V c (Pipeline.arrRef spec1 0))) (pts (V c (Pipeline.arrRef spec1 1))) b n := by
  have e := (dat1 (F := Ideal) V c).arrAt_eq_of_cover 2 (nnArr1 V c) (flushed1_eq V bf c) cover1_2
  exact congrFun e (ix2 b n)

end Final

end Cert.KernelIdeal.Hand

end
-- ==== Proof.KernelIdeal.Glue1.lean ====
import proofs.«160032_j64836826300486_2_alg».proof.Proof.KernelIdeal.Body1
import proofs.«160032_j64836826300486_2_alg».proof.Proof.KernelIdeal.Payload1
import proofs.«160032_j64836826300486_2_alg».proof.Proof.KernelIdeal.LoopValueK1T1
import proofs.«160032_j64836826300486_2_alg».proof.Proof.KernelIdeal.LoopValueK1T2
import proofs.«160032_j64836826300486_2_alg».proof.Proof.KernelIdeal.LoopValueK1T3
import proofs.«160032_j64836826300486_2_alg».proof.Proof.KernelIdeal.LoopValueK1T4
import proofs.«160032_j64836826300486_2_alg».proof.Proof.KernelIdeal.Final1
import proofs.«160032_j64836826300486_2_alg».proof.Proof.AccStep
import Idealize.ShloMosaic.Lib.WholeRead

/-! One key tile's step on the running minima, read off the body's runs.

Each case's run leaves the scratch at its entry contents written through its four rows by the four loops; the first case
enters the loops from the +inf splat, the last also copies the result into the output's staging buffer. Read at entry
(b, l) over the extended reals, all of that is one step: the entry before, lowered by the infimum over the key tile's 512
keys of batch b of the clamped squared distance to query (b, l). -/

set_option maxRecDepth 16384

noncomputable section
namespace Cert.KernelIdeal.Hand
open Cert.KernelIdeal Cert.KernelIdeal.Gen Cert.Lib Cert.Chamfer
open Idealize.ShloMosaic Idealize.ShloMosaic.TcCoe Idealize.ShloMosaic.Tactic
open Idealize.SL Idealize.SL.Sem

variable {F : FTy → Type} [FloatOps F]

/-! ### The runs' witnesses as one function of the scratch's entry contents -/

/-- Batch b's keys of a key tile, as the body loads them: a [1, 512, 3] block of the key tile's staging buffer. -/
abbrev k1_keys0 (arg3 : Memref sig .tc .vmem S4x512x3 .f32) (harg3 : arg3.IsWhole) (x1 : Vec F S4x512x3 .f32) : Vec F S1x512x3 .f32 :=
  View.readAt (Elt F) arg3.view (Rect.unit (s := S4x512x3) ![0, 0, 0] S1x512x3.size inb_S4x512x3_S1x512x3_0_0_0).toLoadRect (harg3.unread x1)
abbrev k1_keys1 (arg3 : Memref sig .tc .vmem S4x512x3 .f32) (harg3 : arg3.IsWhole) (x1 : Vec F S4x512x3 .f32) : Vec F S1x512x3 .f32 :=
  View.readAt (Elt F) arg3.view (Rect.unit (s := S4x512x3) ![1, 0, 0] S1x512x3.size inb_S4x512x3_S1x512x3_1_0_0).toLoadRect (harg3.unread x1)
abbrev k1_keys2 (arg3 : Memref sig .tc .vmem S4x512x3 .f32) (harg3 : arg3.IsWhole) (x1 : Vec F S4x512x3 .f32) : Vec F S1x512x3 .f32 :=
  View.readAt (Elt F) arg3.view (Rect.unit (s := S4x512x3) ![2, 0, 0] S1x512x3.size inb_S4x512x3_S1x512x3_2_0_0).toLoadRect (harg3.unread x1)
abbrev k1_keys3 (arg3 : Memref sig .tc .vmem S4x512x3 .f32) (harg3 : arg3.IsWhole) (x1 : Vec F S4x512x3 .f32) : Vec F S1x512x3 .f32 :=
  View.readAt (Elt F) arg3.view (Rect.unit (s := S4x512x3) ![3, 0, 0] S1x512x3.size inb_S4x512x3_S1x512x3_3_0_0).toLoadRect (harg3.unread x1)

/-- The scratch after loop 1, …, after loop 4, from its contents `G0` before them: each loop writes its trips' pieces
    through its own row over what the loop before left. -/
def k1_G1 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec F S4x512x3 .f32) (G0 : BufTy.Contents (Elt F) (scM1 : Memref sig .tc .vmem S4x512 .f32).view.ty) : BufTy.Contents (Elt F) (scM1 : Memref sig .tc .vmem S4x512 .f32).view.ty :=
  (k1_row0 scM1).view.writes (Elt F) G0 (pb_k1_t1 Variants.none c none i arg2 harg2 arg3 harg3 arg4 harg4 scM1 hscM1 (k1_keys0 arg3 harg3 x1) (harg2.unread x0) G0 4)
def k1_G2 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec F S4x512x3 .f32) (G0 : BufTy.Contents (Elt F) (scM1 : Memref sig .tc .vmem S4x512 .f32).view.ty) : BufTy.Contents (Elt F) (scM1 : Memref sig .tc .vmem S4x512 .f32).view.ty :=
  (k1_row1 scM1).view.writes (Elt F) (k1_G1 c i arg2 harg2 arg3 harg3 arg4 harg4 x0 x1 G0) (pb_k1_t2 Variants.none c none i arg2 harg2 arg3 harg3 arg4 harg4 scM1 hscM1 (k1_keys1 arg3 harg3 x1) (harg2.unread x0) (k1_G1 c i arg2 harg2 arg3 harg3 arg4 harg4 x0 x1 G0) 4)
def k1_G3 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec F S4x512x3 .f32) (G0 : BufTy.Contents (Elt F) (scM1 : Memref sig .tc .vmem S4x512 .f32).view.ty) : BufTy.Contents (Elt F) (scM1 : Memref sig .tc .vmem S4x512 .f32).view.ty :=
  (k1_row2 scM1).view.writes (Elt F) (k1_G2 c i arg2 harg2 arg3 harg3 arg4 harg4 x0 x1 G0) (pb_k1_t3 Variants.none c none i arg2 harg2 arg3 harg3 arg4 harg4 scM1 hscM1 (k1_keys2 arg3 harg3 x1) (harg2.unread x0) (k1_G2 c i arg2 harg2 arg3 harg3 arg4 harg4 x0 x1 G0) 4)
def k1_G4 (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec F S4x512x3 .f32) (G0 : BufTy.Contents (Elt F) (scM1 : Memref sig .tc .vmem S4x512 .f32).view.ty) : BufTy.Contents (Elt F) (scM1 : Memref sig .tc .vmem S4x512 .f32).view.ty :=
  (k1_row3 scM1).view.writes (Elt F) (k1_G3 c i arg2 harg2 arg3 harg3 arg4 harg4 x0 x1 G0) (pb_k1_t4 Variants.none c none i arg2 harg2 arg3 harg3 arg4 harg4 scM1 hscM1 (k1_keys3 arg3 harg3 x1) (harg2.unread x0) (k1_G3 c i arg2 harg2 arg3 harg3 arg4 harg4 x0 x1 G0) 4)

theorem k1_runB_eq (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : ¬cond1_1 i) (x0 x1 : Vec F S4x512x3 .f32) (xs : Vec F S4x512 .f32) :
    (kernelRun1_B c i arg2 harg2 arg3 harg3 arg4 harg4 scM1 hscM1 hc0 hc1 x0 x1 xs).1 = k1_G4 c i arg2 harg2 arg3 harg3 arg4 harg4 x0 x1 (hscM1.unread xs) := by
  unfold kernelRun1_B k1_G4 k1_G3 k1_G2 k1_G1
  rfl

theorem k1_runC_eq (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : cond1_1 i) (x0 x1 : Vec F S4x512x3 .f32) (xs : Vec F S4x512 .f32) :
    (kernelRun1_C c i arg2 harg2 arg3 harg3 arg4 harg4 scM1 hscM1 hc0 hc1 x0 x1 xs).2.1 = k1_G4 c i arg2 harg2 arg3 harg3 arg4 harg4 x0 x1 (hscM1.unread xs) := by
  unfold kernelRun1_C k1_G4 k1_G3 k1_G2 k1_G1
  rfl

/-- The scratch's contents right after the reset: the +inf splat stored whole. -/
abbrev k1_reset : BufTy.Contents (Elt F) (scM1 : Memref sig .tc .vmem S4x512 .f32).view.ty :=
  (scM1 : Memref sig .tc .vmem S4x512 .f32).view.writes (Elt F) (scM1 : Memref sig .tc .vmem S4x512 .f32).view.junk [⟨Rect.unit (s := S4x512) ![0, 0] S4x512.size inb_S4x512_S4x512_0_0, k1_pay17 (F := F)⟩]

theorem k1_runA_eq (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : cond1_0 i) (hc1 : ¬cond1_1 i) (x0 x1 : Vec F S4x512x3 .f32) :
    (kernelRun1_A c i arg2 harg2 arg3 harg3 arg4 harg4 scM1 hscM1 hc0 hc1 x0 x1).1 = k1_G4 c i arg2 harg2 arg3 harg3 arg4 harg4 x0 x1 (k1_reset (F := F)) := by
  unfold kernelRun1_A k1_G4 k1_G3 k1_G2 k1_G1
  rfl

theorem k1_runC_out (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (hc0 : ¬cond1_0 i) (hc1 : cond1_1 i) (x0 x1 : Vec F S4x512x3 .f32) (xs : Vec F S4x512 .f32) :
    (kernelRun1_C c i arg2 harg2 arg3 harg3 arg4 harg4 scM1 hscM1 hc0 hc1 x0 x1 xs).1
      = [⟨Rect.unit (s := S4x512) ![0, 0] S4x512.size inb_S4x512_S4x512_0_0,
          View.readAt (Elt F) (scM1 : Memref sig .tc .vmem S4x512 .f32).view (Rect.unit (s := S4x512) ![0, 0] S4x512.size inb_S4x512_S4x512_0_0).toLoadRect
            (k1_G4 c i arg2 harg2 arg3 harg3 arg4 harg4 x0 x1 (hscM1.unread xs))⟩] := by
  unfold kernelRun1_C k1_G4 k1_G3 k1_G2 k1_G1
  rfl

/-! ### The values, over the extended reals -/

theorem k1_keys0_apply (arg3 : Memref sig .tc .vmem S4x512x3 .f32) (harg3 : arg3.IsWhole) (x1 : Vec Ideal S4x512x3 .f32) (m : Fin 512) (d : Fin 3) :
    k1_keys0 arg3 harg3 x1 (ValueIdx.ix3 (0 : Fin 1) m d) = x1 (ValueIdx.ix3 (0 : Fin 4) m d) := by
  refine (harg3.readAt_unread x1 _ _).trans (congrArg x1 (funext fun a => Fin.ext ?_))
  match a with
  | ⟨0, _⟩ => rfl
  | ⟨1, _⟩ => show 0 + 1 * m.val = m.val; omega
  | ⟨2, _⟩ => show 0 + 1 * d.val = d.val; omega
theorem k1_keys1_apply (arg3 : Memref sig .tc .vmem S4x512x3 .f32) (harg3 : arg3.IsWhole) (x1 : Vec Ideal S4x512x3 .f32) (m : Fin 512) (d : Fin 3) :
    k1_keys1 arg3 harg3 x1 (ValueIdx.ix3 (0 : Fin 1) m d) = x1 (ValueIdx.ix3 (1 : Fin 4) m d) := by
  refine (harg3.readAt_unread x1 _ _).trans (congrArg x1 (funext fun a => Fin.ext ?_))
  match a with
  | ⟨0, _⟩ => rfl
  | ⟨1, _⟩ => show 0 + 1 * m.val = m.val; omega
  | ⟨2, _⟩ => show 0 + 1 * d.val = d.val; omega
theorem k1_keys2_apply (arg3 : Memref sig .tc .vmem S4x512x3 .f32) (harg3 : arg3.IsWhole) (x1 : Vec Ideal S4x512x3 .f32) (m : Fin 512) (d : Fin 3) :
    k1_keys2 arg3 harg3 x1 (ValueIdx.ix3 (0 : Fin 1) m d) = x1 (ValueIdx.ix3 (2 : Fin 4) m d) := by
  refine (harg3.readAt_unread x1 _ _).trans (congrArg x1 (funext fun a => Fin.ext ?_))
  match a with
  | ⟨0, _⟩ => rfl
  | ⟨1, _⟩ => show 0 + 1 * m.val = m.val; omega
  | ⟨2, _⟩ => show 0 + 1 * d.val = d.val; omega
theorem k1_keys3_apply (arg3 : Memref sig .tc .vmem S4x512x3 .f32) (harg3 : arg3.IsWhole) (x1 : Vec Ideal S4x512x3 .f32) (m : Fin 512) (d : Fin 3) :
    k1_keys3 arg3 harg3 x1 (ValueIdx.ix3 (0 : Fin 1) m d) = x1 (ValueIdx.ix3 (3 : Fin 4) m d) := by
  refine (harg3.readAt_unread x1 _ _).trans (congrArg x1 (funext fun a => Fin.ext ?_))
  match a with
  | ⟨0, _⟩ => rfl
  | ⟨1, _⟩ => show 0 + 1 * m.val = m.val; omega
  | ⟨2, _⟩ => show 0 + 1 * d.val = d.val; omega

theorem k1_G1_self (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM1 : Memref sig .tc .vmem S4x512 .f32).view.ty) (l : Fin 512) :
    (scM1 : Memref sig .tc .vmem S4x512 .f32).view.read (Elt Ideal) (k1_G1 c i arg2 harg2 arg3 harg3 arg4 harg4 x0 x1 G0) (ValueIdx.ix2 (0 : Fin 4) l)
      = min ((scM1 : Memref sig .tc .vmem S4x512 .f32).view.read (Elt Ideal) G0 (ValueIdx.ix2 (0 : Fin 4) l))
          (⨅ m : Fin 512, dist (fun d => x0 (ValueIdx.ix3 (0 : Fin 4) l d)) (fun d => x1 (ValueIdx.ix3 (0 : Fin 4) m d))) := by
  unfold k1_G1
  refine (k1_loop1_value Variants.none c none i arg2 harg2 arg3 harg3 arg4 harg4 scM1 hscM1 (k1_keys0 arg3 harg3 x1) x0 G0 (0 : Fin 4) l).trans ?_
  rw [if_pos rfl]
  simp only [k1_keys0_apply]
theorem k1_G1_other (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM1 : Memref sig .tc .vmem S4x512 .f32).view.ty) (b : Fin 4) (hb : b ≠ 0) (l : Fin 512) :
    (scM1 : Memref sig .tc .vmem S4x512 .f32).view.read (Elt Ideal) (k1_G1 c i arg2 harg2 arg3 harg3 arg4 harg4 x0 x1 G0) (ValueIdx.ix2 b l)
      = (scM1 : Memref sig .tc .vmem S4x512 .f32).view.read (Elt Ideal) G0 (ValueIdx.ix2 b l) := by
  unfold k1_G1
  refine (k1_loop1_value Variants.none c none i arg2 harg2 arg3 harg3 arg4 harg4 scM1 hscM1 (k1_keys0 arg3 harg3 x1) x0 G0 b l).trans ?_
  rw [if_neg hb]
theorem k1_G2_self (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM1 : Memref sig .tc .vmem S4x512 .f32).view.ty) (l : Fin 512) :
    (scM1 : Memref sig .tc .vmem S4x512 .f32).view.read (Elt Ideal) (k1_G2 c i arg2 harg2 arg3 harg3 arg4 harg4 x0 x1 G0) (ValueIdx.ix2 (1 : Fin 4) l)
      = min ((scM1 : Memref sig .tc .vmem S4x512 .f32).view.read (Elt Ideal) (k1_G1 c i arg2 harg2 arg3 harg3 arg4 harg4 x0 x1 G0) (ValueIdx.ix2 (1 : Fin 4) l))
          (⨅ m : Fin 512, dist (fun d => x0 (ValueIdx.ix3 (1 : Fin 4) l d)) (fun d => x1 (ValueIdx.ix3 (1 : Fin 4) m d))) := by
  unfold k1_G2
  refine (k1_loop2_value Variants.none c none i arg2 harg2 arg3 harg3 arg4 harg4 scM1 hscM1 (k1_keys1 arg3 harg3 x1) x0 (k1_G1 c i arg2 harg2 arg3 harg3 arg4 harg4 x0 x1 G0) (1 : Fin 4) l).trans ?_
  rw [if_pos rfl]
  simp only [k1_keys1_apply]
theorem k1_G2_other (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM1 : Memref sig .tc .vmem S4x512 .f32).view.ty) (b : Fin 4) (hb : b ≠ 1) (l : Fin 512) :
    (scM1 : Memref sig .tc .vmem S4x512 .f32).view.read (Elt Ideal) (k1_G2 c i arg2 harg2 arg3 harg3 arg4 harg4 x0 x1 G0) (ValueIdx.ix2 b l)
      = (scM1 : Memref sig .tc .vmem S4x512 .f32).view.read (Elt Ideal) (k1_G1 c i arg2 harg2 arg3 harg3 arg4 harg4 x0 x1 G0) (ValueIdx.ix2 b l) := by
  unfold k1_G2
  refine (k1_loop2_value Variants.none c none i arg2 harg2 arg3 harg3 arg4 harg4 scM1 hscM1 (k1_keys1 arg3 harg3 x1) x0 (k1_G1 c i arg2 harg2 arg3 harg3 arg4 harg4 x0 x1 G0) b l).trans ?_
  rw [if_neg hb]
theorem k1_G3_self (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM1 : Memref sig .tc .vmem S4x512 .f32).view.ty) (l : Fin 512) :
    (scM1 : Memref sig .tc .vmem S4x512 .f32).view.read (Elt Ideal) (k1_G3 c i arg2 harg2 arg3 harg3 arg4 harg4 x0 x1 G0) (ValueIdx.ix2 (2 : Fin 4) l)
      = min ((scM1 : Memref sig .tc .vmem S4x512 .f32).view.read (Elt Ideal) (k1_G2 c i arg2 harg2 arg3 harg3 arg4 harg4 x0 x1 G0) (ValueIdx.ix2 (2 : Fin 4) l))
          (⨅ m : Fin 512, dist (fun d => x0 (ValueIdx.ix3 (2 : Fin 4) l d)) (fun d => x1 (ValueIdx.ix3 (2 : Fin 4) m d))) := by
  unfold k1_G3
  refine (k1_loop3_value Variants.none c none i arg2 harg2 arg3 harg3 arg4 harg4 scM1 hscM1 (k1_keys2 arg3 harg3 x1) x0 (k1_G2 c i arg2 harg2 arg3 harg3 arg4 harg4 x0 x1 G0) (2 : Fin 4) l).trans ?_
  rw [if_pos rfl]
  simp only [k1_keys2_apply]
theorem k1_G3_other (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM1 : Memref sig .tc .vmem S4x512 .f32).view.ty) (b : Fin 4) (hb : b ≠ 2) (l : Fin 512) :
    (scM1 : Memref sig .tc .vmem S4x512 .f32).view.read (Elt Ideal) (k1_G3 c i arg2 harg2 arg3 harg3 arg4 harg4 x0 x1 G0) (ValueIdx.ix2 b l)
      = (scM1 : Memref sig .tc .vmem S4x512 .f32).view.read (Elt Ideal) (k1_G2 c i arg2 harg2 arg3 harg3 arg4 harg4 x0 x1 G0) (ValueIdx.ix2 b l) := by
  unfold k1_G3
  refine (k1_loop3_value Variants.none c none i arg2 harg2 arg3 harg3 arg4 harg4 scM1 hscM1 (k1_keys2 arg3 harg3 x1) x0 (k1_G2 c i arg2 harg2 arg3 harg3 arg4 harg4 x0 x1 G0) b l).trans ?_
  rw [if_neg hb]
theorem k1_G4_self (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM1 : Memref sig .tc .vmem S4x512 .f32).view.ty) (l : Fin 512) :
    (scM1 : Memref sig .tc .vmem S4x512 .f32).view.read (Elt Ideal) (k1_G4 c i arg2 harg2 arg3 harg3 arg4 harg4 x0 x1 G0) (ValueIdx.ix2 (3 : Fin 4) l)
      = min ((scM1 : Memref sig .tc .vmem S4x512 .f32).view.read (Elt Ideal) (k1_G3 c i arg2 harg2 arg3 harg3 arg4 harg4 x0 x1 G0) (ValueIdx.ix2 (3 : Fin 4) l))
          (⨅ m : Fin 512, dist (fun d => x0 (ValueIdx.ix3 (3 : Fin 4) l d)) (fun d => x1 (ValueIdx.ix3 (3 : Fin 4) m d))) := by
  unfold k1_G4
  refine (k1_loop4_value Variants.none c none i arg2 harg2 arg3 harg3 arg4 harg4 scM1 hscM1 (k1_keys3 arg3 harg3 x1) x0 (k1_G3 c i arg2 harg2 arg3 harg3 arg4 harg4 x0 x1 G0) (3 : Fin 4) l).trans ?_
  rw [if_pos rfl]
  simp only [k1_keys3_apply]
theorem k1_G4_other (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM1 : Memref sig .tc .vmem S4x512 .f32).view.ty) (b : Fin 4) (hb : b ≠ 3) (l : Fin 512) :
    (scM1 : Memref sig .tc .vmem S4x512 .f32).view.read (Elt Ideal) (k1_G4 c i arg2 harg2 arg3 harg3 arg4 harg4 x0 x1 G0) (ValueIdx.ix2 b l)
      = (scM1 : Memref sig .tc .vmem S4x512 .f32).view.read (Elt Ideal) (k1_G3 c i arg2 harg2 arg3 harg3 arg4 harg4 x0 x1 G0) (ValueIdx.ix2 b l) := by
  unfold k1_G4
  refine (k1_loop4_value Variants.none c none i arg2 harg2 arg3 harg3 arg4 harg4 scM1 hscM1 (k1_keys3 arg3 harg3 x1) x0 (k1_G3 c i arg2 harg2 arg3 harg3 arg4 harg4 x0 x1 G0) b l).trans ?_
  rw [if_neg hb]

/-- After the four loops entry (b, l) of the scratch is what it was, lowered by the infimum over the key tile's 512 keys of
    batch b of the clamped squared distance to query (b, l): each loop lowers its own row and leaves the others. -/
theorem k1_G4_value (c : Dev nD) (i : grid1.Coords) (arg2 : Memref sig .tc .vmem S4x512x3 .f32) (harg2 : arg2.IsWhole) (arg3 : Memref sig .tc .vmem S4x512x3 .f32) (harg3 : arg3.IsWhole) (arg4 : Memref sig .tc .vmem S4x512 .f32) (harg4 : arg4.IsWhole) (x0 x1 : Vec Ideal S4x512x3 .f32) (G0 : BufTy.Contents (Elt Ideal) (scM1 : Memref sig .tc .vmem S4x512 .f32).view.ty) (b : Fin 4) (l : Fin 512) :
    (scM1 : Memref sig .tc .vmem S4x512 .f32).view.read (Elt Ideal) (k1_G4 c i arg2 harg2 arg3 harg3 arg4 harg4 x0 x1 G0) (ValueIdx.ix2 b l)
      = min ((scM1 : Memref sig .tc .vmem S4x512 .f32).view.read (Elt Ideal) G0 (ValueIdx.ix2 b l))
          (⨅ m : Fin 512, dist (fun d => x0 (ValueIdx.ix3 b l d)) (fun d => x1 (ValueIdx.ix3 b m d))) := by
  have h4 : b = 0 ∨ b = 1 ∨ b = 2 ∨ b = 3 := by
    rcases b with ⟨bv, hb⟩
    have : bv = 0 ∨ bv = 1 ∨ bv = 2 ∨ bv = 3 := by omega
    rcases this with rfl | rfl | rfl | rfl
    · exact Or.inl rfl
    · exact Or.inr (Or.inl rfl)
    · exact Or.inr (Or.inr (Or.inl rfl))
    · exact Or.inr (Or.inr (Or.inr rfl))
  rcases h4 with rfl | rfl | rfl | rfl
  · rw [k1_G4_other _ _ _ _ _ _ _ _ _ _ _ 0 (by decide), k1_G3_other _ _ _ _ _ _ _ _ _ _ _ 0 (by decide), k1_G2_other _ _ _ _ _ _ _ _ _ _ _ 0 (by decide), k1_G1_self]
  · rw [k1_G4_other _ _ _ _ _ _ _ _ _ _ _ 1 (by decide), k1_G3_other _ _ _ _ _ _ _ _ _ _ _ 1 (by decide), k1_G2_self, k1_G1_other _ _ _ _ _ _ _ _ _ _ _ 1 (by decide)]
  · rw [k1_G4_other _ _ _ _ _ _ _ _ _ _ _ 2 (by decide), k1_G3_self, k1_G2_other _ _ _ _ _ _ _ _ _ _ _ 2 (by decide), k1_G1_other _ _ _ _ _ _ _ _ _ _ _ 2 (by decide)]
  · rw [k1_G4_self, k1_G3_other _ _ _ _ _ _ _ _ _ _ _ 3 (by decide), k1_G2_other _ _ _ _ _ _ _ _ _ _ _ 3 (by decide), k1_G1_other _ _ _ _ _ _ _ _ _ _ _ 3 (by decide)]

/-! ### What each case's run leaves, as one key tile's step on the running minima -/

/-- The scratch is a whole buffer: reading it through its own view is reading it. -/
theorem k1_scratch_read (f : BufTy.Contents (Elt F) (scM1 : Memref sig .tc .vmem S4x512 .f32).view.ty) : (scM1 : Memref sig .tc .vmem S4x512 .f32).view.read (Elt F) f = f :=
  Memref.read_access_unit_zero (Elt F) cc1_scratch0 (off := fun _ => 0) rfl (fun a => by simp) f |>.symm ▸ rfl

/-- So is each staging buffer of the output window. -/
theorem k1_out_read (f : BufTy.Contents (Elt F) (VO1 : View sig .tc .vmem S4x512 .f32).ty) : (VO1 : View sig .tc .vmem S4x512 .f32).read (Elt F) f = f :=
  Memref.read_access_unit_zero (Elt F) cc1_stg2_0 (off := fun _ => 0) rfl (fun a => by simp) f |>.symm ▸ rfl

/-- The reset stores the +inf splat over the whole scratch. -/
theorem k1_reset_eq : (k1_reset (F := F)) = k1_pay17 (F := F) :=
  Memref.write_access_unit_zero_univ (Elt F) cc1_scratch0 (funext fun a => by fin_cases a <;> rfl) inb_S4x512_S4x512_0_0 _ _

theorem k1_bodyFacts : BodyFacts1 where
  hA c i arg2 harg2 arg3 harg3 arg4 harg4 hc0 hc1 x0 x1 := by
    funext j
    obtain ⟨b, l, rfl⟩ : ∃ (b : Fin 4) (l : Fin 512), j = ValueIdx.ix2 b l := ⟨j 0, j 1, ValueIdx.eq_ix2 j⟩
    unfold sout1_A
    rw [k1_runA_eq, k1_G4_value, k1_reset_eq, k1_scratch_read, k1_reset_value]
    rfl
  hB c i arg2 harg2 arg3 harg3 arg4 harg4 hc0 hc1 x0 x1 xs := by
    funext j
    obtain ⟨b, l, rfl⟩ : ∃ (b : Fin 4) (l : Fin 512), j = ValueIdx.ix2 b l := ⟨j 0, j 1, ValueIdx.eq_ix2 j⟩
    unfold sout1_B
    rw [k1_runB_eq, k1_G4_value, hscM1.read_unread]
    rfl
  hC c i arg2 harg2 arg3 harg3 arg4 harg4 hc0 hc1 x0 x1 xs := by
    funext j
    obtain ⟨b, l, rfl⟩ : ∃ (b : Fin 4) (l : Fin 512), j = ValueIdx.ix2 b l := ⟨j 0, j 1, ValueIdx.eq_ix2 j⟩
    unfold sout1_C
    rw [k1_runC_eq, k1_G4_value, hscM1.read_unread]
    rfl
  hO c i arg2 harg2 arg3 harg3 arg4 harg4 hc0 hc1 x0 x1 xs := by
    funext j
    obtain ⟨b, l, rfl⟩ : ∃ (b : Fin 4) (l : Fin 512), j = ValueIdx.ix2 b l := ⟨j 0, j 1, ValueIdx.eq_ix2 j⟩
    unfold out1_C
    rw [k1_runC_out, View.writes_singleton]
    have e1 := Memref.write_access_unit_zero_univ (Elt Ideal) cc1_stg2_0 (funext fun a => by fin_cases a <;> rfl) inb_S4x512_S4x512_0_0
      (VO1.junk (Val := Elt Ideal))
      (View.readAt (Elt Ideal) (scM1 : Memref sig .tc .vmem S4x512 .f32).view (Rect.unit (s := S4x512) ![0, 0] S4x512.size inb_S4x512_S4x512_0_0).toLoadRect
        (k1_G4 c i arg2 harg2 arg3 harg3 arg4 harg4 x0 x1 (hscM1.unread xs)))
    have e2 := Memref.readAt_unit_zero (Elt Ideal) cc1_scratch0 (funext fun a => by fin_cases a <;> rfl) inb_S4x512_S4x512_0_0
      (k1_G4 c i arg2 harg2 arg3 harg3 arg4 harg4 x0 x1 (hscM1.unread xs))
    refine (congrFun (congrArg (VO1.read (Elt Ideal)) e1) (ValueIdx.ix2 b l)).trans ?_
    refine (congrFun (congrArg (VO1.read (Elt Ideal)) e2) (ValueIdx.ix2 b l)).trans ?_
    refine (congrFun (k1_out_read (k1_G4 c i arg2 harg2 arg3 harg3 arg4 harg4 x0 x1 (hscM1.unread xs))) (ValueIdx.ix2 b l)).trans ?_
    refine (congrFun (k1_scratch_read (k1_G4 c i arg2 harg2 arg3 harg3 arg4 harg4 x0 x1 (hscM1.unread xs))).symm (ValueIdx.ix2 b l)).trans ?_
    rw [k1_G4_value, hscM1.read_unread]
    rfl

end Cert.KernelIdeal.Hand
end
-- ==== Proof.RefSide.lean ====
import proofs.«160032_j64836826300486_2_alg».proof.Proof.Gen.ReferenceIdeal.Read
import proofs.«160032_j64836826300486_2_alg».proof.Proof.Spec
import Idealize.ShloMosaic.Lib.ValueIdx
import Idealize.ShloMosaic.Lib.Pipeline.Value
import Idealize.ShloMosaic.PureOps.Ideal.Laws
import Idealize.ShloMosaic.Lib.IdealHost

/-! The reference's nearest-neighbour distances read index by index.

For two arrays of shape [4, 8192, 3] the reference forms, per batch b, the clamped squared distance
max(|a_n|^2 + |b_m|^2 - 2<a_n, b_m>, 0) of every pair of points and takes its minimum over m (the
first result) and over n (the second). Here both minima are read at an index as the nearest-neighbour
distance of the specification: an infimum of that distance over the 8192 points of the other array.
The reference's remaining operations (the two means and their mean) are named as one function of the
two arrays of minima. -/

noncomputable section

namespace Cert.Chamfer

open Idealize.ShloMosaic
open Cert.ReferenceIdeal

open ValueIdx

/-! ## Indices: the generated index maps at coordinates -/

theorem idx5_ix (b : Fin 4) (n : Fin 8192) (k : Fin 3) : Read.idx_main_v5 (ix2 b n) k = ix3 b n k := by
  funext a; match a with | ⟨0, _⟩ => rfl | ⟨1, _⟩ => rfl | ⟨2, _⟩ => rfl

theorem idx7_ix (b : Fin 4) (n : Fin 8192) (k : Fin 3) : Read.idx_main_v7 (ix2 b n) k = ix3 b n k := by
  funext a; match a with | ⟨0, _⟩ => rfl | ⟨1, _⟩ => rfl | ⟨2, _⟩ => rfl

theorem lidx8_ix (b : Fin 4) (n m : Fin 8192) (k : Fin 3) : Read.lidx_main_v8 (ix3 b n m) k = ix3 b n k := by
  funext a; match a with | ⟨0, _⟩ => rfl | ⟨1, _⟩ => rfl | ⟨2, _⟩ => rfl

theorem ridx8_ix (b : Fin 4) (n m : Fin 8192) (k : Fin 3) : Read.ridx_main_v8 (ix3 b n m) k = ix3 b m k := by
  funext a; match a with | ⟨0, _⟩ => rfl | ⟨1, _⟩ => rfl | ⟨2, _⟩ => rfl

theorem idx9_11_ix (b : Fin 4) (n m : Fin 8192) : Read.idx_main_v9 (Read.idx_main_v11 (ix3 b n m)) = ix2 b n := by
  funext a; match a with | ⟨0, _⟩ => rfl | ⟨1, _⟩ => rfl

theorem idx10_12_ix (b : Fin 4) (n m : Fin 8192) : Read.idx_main_v10 (Read.idx_main_v12 (ix3 b n m)) = ix2 b m := by
  funext a; match a with | ⟨0, _⟩ => rfl | ⟨1, _⟩ => rfl

/-! ## The pointwise part -/

/-- Multiplying by the literal 1.0 changes nothing: the scaled first array is the first array. -/
theorem v1_apply (x0 : (⟨S4x8192x3, .f32⟩ : BufTy).Contents (Elt Ideal)) (i : S4x8192x3.Idx) :
    Read.val_main_v1 (F := Ideal) x0 i = x0 i := by
  rw [Read.val_main_v1_apply, Read.val_main_v0_apply, Read.val_main_cst_apply]
  simp only [Ideal.mulf_def, Ideal.ofBits_def, Ideal.ofBits_one_f32, mul_one]

/-- The same for the second array. -/
theorem v3_apply (x1 : (⟨S4x8192x3, .f32⟩ : BufTy).Contents (Elt Ideal)) (i : S4x8192x3.Idx) :
    Read.val_main_v3 (F := Ideal) x1 i = x1 i := by
  rw [Read.val_main_v3_apply, Read.val_main_v2_apply, Read.val_main_cst_0_apply]
  simp only [Ideal.mulf_def, Ideal.ofBits_def, Ideal.ofBits_one_f32, mul_one]

/-- The first array's squared lengths. -/
theorem v5_ix (x0 : (⟨S4x8192x3, .f32⟩ : BufTy).Contents (Elt Ideal)) (b : Fin 4) (n : Fin 8192) :
    Read.val_main_v5 (F := Ideal) x0 (ix2 b n) = sq3 (pts x0 b n) := by
  rw [Read.val_main_v5_apply, Read.val_main_cst_1_apply, Fin.sum_univ_three]
  simp only [Read.val_main_v4_apply, v1_apply, idx5_ix, Ideal.mulf_def, Ideal.ofBits_def, Ideal.ofBits_zero_f32, zero_add]
  rfl

/-- The second array's squared lengths. -/
theorem v7_ix (x1 : (⟨S4x8192x3, .f32⟩ : BufTy).Contents (Elt Ideal)) (b : Fin 4) (m : Fin 8192) :
    Read.val_main_v7 (F := Ideal) x1 (ix2 b m) = sq3 (pts x1 b m) := by
  rw [Read.val_main_v7_apply, Read.val_main_cst_2_apply, Fin.sum_univ_three]
  simp only [Read.val_main_v6_apply, v3_apply, idx7_ix, Ideal.mulf_def, Ideal.ofBits_def, Ideal.ofBits_zero_f32, zero_add]
  rfl

/-- The inner products of the pairs of points. -/
theorem v8_ix (x0 x1 : (⟨S4x8192x3, .f32⟩ : BufTy).Contents (Elt Ideal)) (b : Fin 4) (n m : Fin 8192) :
    Read.val_main_v8 (F := Ideal) x0 x1 (ix3 b n m) = dot3 (pts x0 b n) (pts x1 b m) := by
  rw [Read.val_main_v8_apply, Fin.sum_univ_three]
  simp only [v1_apply, v3_apply, lidx8_ix, ridx8_ix]
  rfl

/-- The clamped squared distance of point n of the first array and point m of the second. -/
theorem v18_ix (x0 x1 : (⟨S4x8192x3, .f32⟩ : BufTy).Contents (Elt Ideal)) (b : Fin 4) (n m : Fin 8192) :
    Read.val_main_v18 (F := Ideal) x0 x1 (ix3 b n m) = dist (pts x0 b n) (pts x1 b m) := by
  rw [Read.val_main_v18_apply, Read.val_main_v16_apply, Read.val_main_v13_apply, Read.val_main_v15_apply,
    Read.val_main_v11_apply, Read.val_main_v9_apply, Read.val_main_v12_apply, Read.val_main_v10_apply,
    Read.val_main_v14_apply, Read.val_main_cst_3_apply, Read.val_main_v17_apply, Read.val_main_cst_4_apply,
    idx9_11_ix, idx10_12_ix, v5_ix, v7_ix, v8_ix]
  rfl

/-! ## The two minima -/

/-- A fold of min from the top element over a whole finite type is the infimum. -/
theorem fold_min_top_univ {ι : Type} [Fintype ι] (f : ι → EReal) :
    (Finset.univ : Finset ι).fold min ⊤ f = ⨅ k, f k :=
  eq_of_forall_le_iff fun c => by
    rw [Finset.le_fold_min, le_iInf_iff]
    exact ⟨fun h k => h.2 k (Finset.mem_univ k), fun h => ⟨le_top, fun k _ => h k⟩⟩

/-- The word 0x7F800000 is the top element. -/
theorem ofBits_inf_f32 : Ideal.ofBits .f32 0x7F800000#32 = (⊤ : EReal) := by simp [Ideal.ofBits, Ideal.ieee]

/-- Result index (b, n) with coordinate k put back on the last axis is (b, n, k). -/
theorem lift2_ix (h : S4x8192x8192.Reduces [2] S4x8192) (b : Fin 4) (n : Fin 8192) (k : Fin (S4x8192x8192.size 2)) :
    h.lift (ix2 b n) k = ix3 b n (⟨k.val, k.isLt⟩ : Fin 8192) := by
  funext c; apply Fin.ext
  match c with | ⟨0, _⟩ => rfl | ⟨1, _⟩ => rfl | ⟨2, _⟩ => rfl

/-- Result index (b, m) with coordinate k put back on the middle axis is (b, k, m). -/
theorem lift1_ix (h : S4x8192x8192.Reduces [1] S4x8192) (b : Fin 4) (m : Fin 8192) (k : Fin (S4x8192x8192.size 1)) :
    h.lift (ix2 b m) k = ix3 b (⟨k.val, k.isLt⟩ : Fin 8192) m := by
  funext c; apply Fin.ext
  match c with | ⟨0, _⟩ => rfl | ⟨1, _⟩ => rfl | ⟨2, _⟩ => rfl

theorem ref_dist1 (x0 x1 : (⟨S4x8192x3, .f32⟩ : BufTy).Contents (Elt Ideal)) (b : Fin 4) (n : Fin 8192) :
    Cert.ReferenceIdeal.Read.val_main_v19 (F := Ideal) x0 x1 (ValueIdx.ix2 b n) = nn (pts x0) (pts x1) b n := by
  have h : S4x8192x8192.Reduces [2] S4x8192 := by decide
  unfold Read.val_main_v19
  rw [Host.reduce_eq_fold_single FloatOps.minimumf _ _ Gen.reducesTo_S4x8192x8192_S4x8192_d2 h Gen.h_S_]
  have hf : (Read.val_main_v18 (F := Ideal) x0 x1 ∘ h.lift (ix2 b n))
      = fun k : Fin 8192 => dist (pts x0 b n) (pts x1 b k) :=
    funext fun k => (congrArg (Read.val_main_v18 (F := Ideal) x0 x1) (lift2_ix h b n k)).trans (v18_ix x0 x1 b n _)
  rw [hf, Read.val_main_cst_5_apply]
  exact (congrArg (fun t => Finset.fold min t _ Finset.univ) ofBits_inf_f32).trans (fold_min_top_univ _)

/-- The clamped squared distance is symmetric in its two points. -/
theorem dist_symm (x y : Fin 3 → EReal) : dist x y = dist y x := by
  have hd : dot3 x y = dot3 y x := by
    unfold dot3; rw [mul_comm (x 0), mul_comm (x 1), mul_comm (x 2)]
  unfold dist; rw [hd, add_comm (sq3 x)]

theorem ref_dist2 (x0 x1 : (⟨S4x8192x3, .f32⟩ : BufTy).Contents (Elt Ideal)) (b : Fin 4) (m : Fin 8192) :
    Cert.ReferenceIdeal.Read.val_main_v20 (F := Ideal) x0 x1 (ValueIdx.ix2 b m) = nn (pts x1) (pts x0) b m := by
  have h : S4x8192x8192.Reduces [1] S4x8192 := by decide
  unfold Read.val_main_v20
  rw [Host.reduce_eq_fold_single FloatOps.minimumf _ _ Gen.reducesTo_S4x8192x8192_S4x8192_d1 h Gen.h_S_]
  have hf : (Read.val_main_v18 (F := Ideal) x0 x1 ∘ h.lift (ix2 b m))
      = fun k : Fin 8192 => dist (pts x1 b m) (pts x0 b k) :=
    funext fun k => ((congrArg (Read.val_main_v18 (F := Ideal) x0 x1) (lift1_ix h b m k)).trans
      (v18_ix x0 x1 b _ m)).trans (dist_symm _ _)
  rw [hf, Read.val_main_cst_6_apply]
  exact (congrArg (fun t => Finset.fold min t _ Finset.univ) ofBits_inf_f32).trans (fold_min_top_univ _)

/-! ## The tail: the two means and their mean -/

section Tail

open Cert.ReferenceIdeal.Gen Idealize.ShloMosaic.TcCoe Idealize.SL.Sem Idealize.ShloMosaic.StableHlo

variable {F : FTy → Type} [FloatOps F]

/-- The reference's last sixteen operations as a function of the two arrays of nearest-neighbour distances:
    each array summed over its 8192 points and divided by 8192.0, the two quotients added, the four
    sums added and divided by 4.0, the scalar reshaped to one entry. -/
def tailR (d1 d2 : (⟨S4x8192, .f32⟩ : BufTy).Contents (Elt F)) : (⟨S1, .f32⟩ : BufTy).Contents (Elt F) :=
  shapeCast _
    (Host.divf
      (Host.reduceAdd
        (addf
          (Host.divf (Host.reduceAdd d1 (constant S_ .f32 0x00000000#32) reducesTo_S4x8192_S4_d1 h_S_)
            (broadcastInDim S4 ![] bcast_S_S4 (constant S_ .f32 0x46000000#32)))
          (Host.divf (Host.reduceAdd d2 (constant S_ .f32 0x00000000#32) reducesTo_S4x8192_S4_d1 h_S_)
            (broadcastInDim S4 ![] bcast_S_S4 (constant S_ .f32 0x46000000#32))))
        (constant S_ .f32 0x00000000#32) reducesTo_S4_S_d0 h_S_)
      (constant S_ .f32 0x40800000#32))
    shapeCasts_S_S1

/-- The reference's result is the tail of its two arrays of nearest-neighbour distances. -/
theorem ref_tail (x0 x1 : (⟨S4x8192x3, .f32⟩ : BufTy).Contents (Elt F)) :
    Cert.ReferenceIdeal.Read.val_main_v30 (F := F) x0 x1
      = tailR (Cert.ReferenceIdeal.Read.val_main_v19 x0 x1) (Cert.ReferenceIdeal.Read.val_main_v20 x0 x1) := rfl

end Tail

end Cert.Chamfer
end
-- ==== Proof.KernelIdeal.Result.lean ====
import proofs.«160032_j64836826300486_2_alg».proof.Proof.KernelIdeal.Assembly
import proofs.«160032_j64836826300486_2_alg».proof.Proof.RefSide
import proofs.«160032_j64836826300486_2_alg».proof.Proof.Spec
import proofs.«160032_j64836826300486_2_alg».proof.Proof.Gen.ReferenceIdeal.Read

/-! # The result equation

Over the extended reals the idealized kernel program's result buffer at the end of its run holds what the
reference computes from the two arguments. Both results are the same last stretch of host operations applied to two
arrays of nearest-neighbour distances; the reference's arrays are read index by index as those distances of the
specification, and so are the two regions' outputs, given what each region's pipeline leaves in its output array
(the two hypotheses). The programs scale each argument by the constant one first, which changes nothing; the second
region takes the two point clouds in the other order. -/

noncomputable section

namespace Cert.KernelIdeal.Hand

open Cert.KernelIdeal Cert.KernelIdeal.Gen Cert.Chamfer
open Idealize.ShloMosaic Idealize.ShloMosaic.TcCoe
open Idealize.SL Idealize.SL.Sem
open Idealize.ShloMosaic.Pipeline (Dat)

/-- Multiplying an array entrywise by the constant one changes nothing. -/
theorem scaled_eq (x : (⟨S4x8192x3, .f32⟩ : BufTy).Contents (Elt Ideal)) :
    mulf x (broadcastInDim S4x8192x3 ![] bcast_S_S4x8192x3 (constant (F := Ideal) S_ .f32 0x3F800000#32)) = x :=
  funext fun i => Cert.Chamfer.v1_apply x i

/-- The last stretch of host operations is the same function of the two arrays of distances in both programs. -/
theorem tailR_eq_tailK (d1 d2 : (⟨S4x8192, .f32⟩ : BufTy).Contents (Elt Ideal)) :
    Cert.Chamfer.tailR (F := Ideal) d1 d2 = tailK (F := Ideal) d1 d2 := rfl

/-- THE RESULT EQUATION: given that each region's pipeline leaves in its output array the nearest-neighbour
    distances from its first input array's points to its second's, the reference's result on the two arguments is
    what the result buffer holds at the end of the run. -/
theorem result_eq
    (hf0 : ∀ (V : (c : Dev nD) → (b : Ref sig .tc) → Buf (Elt Ideal) ((c : Thread nD τ).loc b)) (c : Dev nD) (b : Fin 4) (n : Fin 8192),
        (dat0 (F := Ideal) V c).arrAt 2 cfg0.N (ValueIdx.ix2 b n) = nn (pts (V c (Pipeline.arrRef spec0 0))) (pts (V c (Pipeline.arrRef spec0 1))) b n)
    (hf1 : ∀ (V : (c : Dev nD) → (b : Ref sig .tc) → Buf (Elt Ideal) ((c : Thread nD τ).loc b)) (c : Dev nD) (b : Fin 4) (n : Fin 8192),
        (dat1 (F := Ideal) V c).arrAt 2 cfg1.N (ValueIdx.ix2 b n) = nn (pts (V c (Pipeline.arrRef spec1 0))) (pts (V c (Pipeline.arrRef spec1 1))) b n)
    (m : (ℓ : Loc nD τ sig) → Buf (Elt Ideal) ℓ) (ρ : Dev nD → PrngReg) (c : Dev nD) :
    Cert.ReferenceIdeal.Read.val_main_v30 (F := Ideal) (m ((c.tc : Thread nD τ).loc main_arg0)) (m ((c.tc : Thread nD τ).loc main_arg1))
      = W4 m ρ c (Proc.devRef .tc main_v15) := by
  -- what each region finds in its two input arrays: the arguments themselves
  have e1 : V1 m ρ c main_v1 = m ((c : Thread nD τ).loc main_arg0) := (V1_main_v1 m ρ c).trans (scaled_eq _)
  have e3 : V1 m ρ c main_v3 = m ((c : Thread nD τ).loc main_arg1) := (V1_main_v3 m ρ c).trans (scaled_eq _)
  have f1 : V2 m ρ c main_v1 = m ((c : Thread nD τ).loc main_arg0) := (V2_main_v1 m ρ c).trans e1
  have f3 : V2 m ρ c main_v3 = m ((c : Thread nD τ).loc main_arg1) := (V2_main_v3 m ρ c).trans e3
  -- the two arrays of distances, index by index
  have h1 : Cert.ReferenceIdeal.Read.val_main_v19 (F := Ideal) (m ((c.tc : Thread nD τ).loc main_arg0)) (m ((c.tc : Thread nD τ).loc main_arg1))
      = (dat0 (F := Ideal) (V1 m ρ) c).arrAt 2 cfg0.N := by
    funext j
    have hj : j = ValueIdx.ix2 (n0 := 4) (n1 := 8192) (j 0) (j 1) := ValueIdx.eq_ix2 j
    rw [hj]
    calc _ = nn (pts (m ((c : Thread nD τ).loc main_arg0))) (pts (m ((c : Thread nD τ).loc main_arg1))) (j 0) (j 1) :=
          ref_dist1 _ _ (j 0) (j 1)
      _ = nn (pts (V1 m ρ c (Pipeline.arrRef spec0 0))) (pts (V1 m ρ c (Pipeline.arrRef spec0 1))) (j 0) (j 1) := by
          rw [show V1 m ρ c (Pipeline.arrRef spec0 0) = m ((c : Thread nD τ).loc main_arg0) from e1,
            show V1 m ρ c (Pipeline.arrRef spec0 1) = m ((c : Thread nD τ).loc main_arg1) from e3]
      _ = _ := (hf0 (V1 m ρ) c (j 0) (j 1)).symm
  have h2 : Cert.ReferenceIdeal.Read.val_main_v20 (F := Ideal) (m ((c.tc : Thread nD τ).loc main_arg0)) (m ((c.tc : Thread nD τ).loc main_arg1))
      = (dat1 (F := Ideal) (V2 m ρ) c).arrAt 2 cfg1.N := by
    funext j
    have hj : j = ValueIdx.ix2 (n0 := 4) (n1 := 8192) (j 0) (j 1) := ValueIdx.eq_ix2 j
    rw [hj]
    calc _ = nn (pts (m ((c : Thread nD τ).loc main_arg1))) (pts (m ((c : Thread nD τ).loc main_arg0))) (j 0) (j 1) :=
          ref_dist2 _ _ (j 0) (j 1)
      _ = nn (pts (V2 m ρ c (Pipeline.arrRef spec1 0))) (pts (V2 m ρ c (Pipeline.arrRef spec1 1))) (j 0) (j 1) := by
          rw [show V2 m ρ c (Pipeline.arrRef spec1 0) = m ((c : Thread nD τ).loc main_arg1) from f3,
            show V2 m ρ c (Pipeline.arrRef spec1 1) = m ((c : Thread nD τ).loc main_arg0) from f1]
      _ = _ := (hf1 (V2 m ρ) c (j 0) (j 1)).symm
  rw [W4_main_v15, W3_main_v4, W3_main_v5, Cert.Chamfer.ref_tail, h1, h2]
  rfl

end Cert.KernelIdeal.Hand

end
-- ==== Proof.lean ====
import proofs.«160032_j64836826300486_2_alg».proof.Defs
import proofs.«160032_j64836826300486_2_alg».proof.Proof.Gen.Kernel
import proofs.«160032_j64836826300486_2_alg».proof.Proof.Gen.KernelIdeal
import proofs.«160032_j64836826300486_2_alg».proof.Proof.Gen.ReferenceIdeal
import proofs.«160032_j64836826300486_2_alg».proof.Proof.Gen.Pre_finite_inputs
import proofs.«160032_j64836826300486_2_alg».proof.Proof.Gen.ReferenceIdeal.Run
import proofs.«160032_j64836826300486_2_alg».proof.Proof.Kernel.Assembly
import proofs.«160032_j64836826300486_2_alg».proof.Proof.KernelIdeal.Assembly
import proofs.«160032_j64836826300486_2_alg».proof.Proof.KernelIdeal.Glue0
import proofs.«160032_j64836826300486_2_alg».proof.Proof.KernelIdeal.Glue1
import proofs.«160032_j64836826300486_2_alg».proof.Proof.KernelIdeal.Final1
import proofs.«160032_j64836826300486_2_alg».proof.Proof.KernelIdeal.Result
import proofs.«160032_j64836826300486_2_alg».proof.Proof.Gen.ReferenceIdeal.Read
import proofs.«160032_j64836826300486_2_alg».proof.Proof.RefSide

/-! The chamfer distance: a nearest-neighbour kernel against its plain reference, over the extended reals.

Both programs take two clouds of 8192 points of R^3 in each of four batches. The reference forms, per batch, the whole
8192 x 8192 table of clamped squared distances max(|a|^2 + |b|^2 - 2<a,b>, 0) and takes its row minima and its column
minima; the kernel never forms the table: one launch walks 16 x 16 tiles of 512 queries by 512 keys keeping, per query,
the running minimum over the key tiles met so far, and a second launch does the same with the two clouds exchanged. A
query's running minimum after the last key tile is the infimum over all 8192 keys, which is the reference's row (or,
for the exchanged launch, column) minimum because the clamped squared distance is symmetric in its two points. Both
programs then end with the same sixteen host operations (the two means, their sum, the mean over the batch). Nothing
here needs the inputs finite: only associativity and commutativity of + and * on the extended reals and the lattice laws
of min are used. -/

noncomputable section

namespace Cert.Proof

open Idealize.ShloMosaic Idealize.SL.Sem

/-- The word-level kernel program runs to the end and leaves its two argument arrays as launched. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing in this kernel: there is nothing to preserve. -/
theorem preserves : Cert.preserves_Kernel_KernelIdeal := trivial

/-- From memories agreeing on the two clouds both programs end with the same one-element result. -/
theorem algebraic : Cert.algebraic_KernelIdeal_ReferenceIdeal := by
  intro m ρ m' ρ' _ hagree
  refine ⟨fun c => Cert.KernelIdeal.Hand.W4 m ρ c (Proc.devRef .tc Cert.KernelIdeal.main_v15), Cert.KernelIdeal.Hand.run_main (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2]
  exact (Cert.ReferenceIdeal.Read.val_main_v30_eq _ _).trans
    (Cert.KernelIdeal.Hand.result_eq
      (fun V c b n => Cert.KernelIdeal.Hand.final0 V Cert.KernelIdeal.Hand.k0_bodyFacts c b n)
      (fun V c b n => Cert.KernelIdeal.Hand.final1 V Cert.KernelIdeal.Hand.k1_bodyFacts c b n) m ρ c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
